-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S768x128x8x8 : Shape := ⟨4, ![768, 128, 8, 8]⟩
abbrev S9x128x32 : Shape := ⟨3, ![9, 128, 32]⟩
abbrev S9x32x64 : Shape := ⟨3, ![9, 32, 64]⟩
abbrev S9x64x128 : Shape := ⟨3, ![9, 64, 128]⟩
abbrev S1x32 : Shape := ⟨2, ![1, 32]⟩
abbrev S1x64 : Shape := ⟨2, ![1, 64]⟩
abbrev S1x128 : Shape := ⟨2, ![1, 128]⟩
abbrev S128x128 : Shape := ⟨2, ![128, 128]⟩
abbrev S256x64 : Shape := ⟨2, ![256, 64]⟩
abbrev S128x64 : Shape := ⟨2, ![128, 64]⟩
abbrev S64x1 : Shape := ⟨2, ![64, 1]⟩
abbrev S1x1 : Shape := ⟨2, ![1, 1]⟩
abbrev S_ : Shape := ⟨0, ![]⟩

class Facts : Prop where
  bcast_S_S768x128x8x8 : S_.BroadcastsInDim S768x128x8x8 (![] : Fin 0 → Fin S768x128x8x8.rank)
  reducesTo_S768x128x8x8_S_d0_1_2_3 : S768x128x8x8.ReducesTo [0, 1, 2, 3] S_
  h_S_ : 0 < S_.numel
  bcast_S_S9x128x32 : S_.BroadcastsInDim S9x128x32 (![] : Fin 0 → Fin S9x128x32.rank)
  reducesTo_S9x128x32_S_d0_1_2 : S9x128x32.ReducesTo [0, 1, 2] S_
  bcast_S_S9x32x64 : S_.BroadcastsInDim S9x32x64 (![] : Fin 0 → Fin S9x32x64.rank)
  reducesTo_S9x32x64_S_d0_1_2 : S9x32x64.ReducesTo [0, 1, 2] S_
  bcast_S_S9x64x128 : S_.BroadcastsInDim S9x64x128 (![] : Fin 0 → Fin S9x64x128.rank)
  reducesTo_S9x64x128_S_d0_1_2 : S9x64x128.ReducesTo [0, 1, 2] S_
  bcast_S_S1x32 : S_.BroadcastsInDim S1x32 (![] : Fin 0 → Fin S1x32.rank)
  reducesTo_S1x32_S_d0_1 : S1x32.ReducesTo [0, 1] S_
  bcast_S_S1x64 : S_.BroadcastsInDim S1x64 (![] : Fin 0 → Fin S1x64.rank)
  reducesTo_S1x64_S_d0_1 : S1x64.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S256x64 : S_.BroadcastsInDim S256x64 (![] : Fin 0 → Fin S256x64.rank)
  reducesTo_S256x64_S_d0_1 : S256x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1x1 : S_.BroadcastsInDim S1x1 (![] : Fin 0 → Fin S1x1.rank)
  reducesTo_S1x1_S_d0_1 : S1x1.ReducesTo [0, 1] S_

variable [Facts]

def fn_part4 {F : FTy → Type} [FloatOps F] (main_arg14 : FVec F S1x1 .f32) (main_v63 : IVec S_ 1) (main_v67 : IVec S_ 1) : IVec S_ 1 :=
  let main_v68 : IVec S_ 1 := andi main_v63 main_v67
  let main_v69 : FVec F S1x1 .f32 := Host.absf main_arg14
  let main_cst_26 : FVec F S_ .f32 := constant S_ .f32 0x7F800000#32
  let main_v70 : FVec F S1x1 .f32 := broadcastInDim S1x1 ![] bcast_S_S1x1 main_cst_26
  let main_v71 : IVec S1x1 1 := cmpf .olt main_v69 main_v70
  let main_c_27 : IVec S_ 1 := constantI S_ 1 1#1
  let main_v72 : IVec S_ 1 := (fun x v => Host.reduce IntOp.andi x v reducesTo_S1x1_S_d0_1 h_S_) main_v71 main_c_27
  let main_v73 : IVec S_ 1 := andi main_v68 main_v72
  main_v73

def fn_part3 {F : FTy → Type} [FloatOps F] (main_arg11 : FVec F S128x64 .f32) (main_arg12 : FVec F S1x64 .f32) (main_arg13 : FVec F S64x1 .f32) (main_arg14 : FVec F S1x1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S1x64 .f32 := Host.absf main_arg12
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  let main_v64 : FVec F S64x1 .f32 := Host.absf main_arg13
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg14 main_v63 main_v67

def fn_part2 {F : FTy → Type} [FloatOps F] (main_arg7 : FVec F S128x128 .f32) (main_arg8 : FVec F S1x128 .f32) (main_arg9 : FVec F S256x64 .f32) (main_arg10 : FVec F S1x64 .f32) (main_arg11 : FVec F S128x64 .f32) (main_arg12 : FVec F S1x64 .f32) (main_arg13 : FVec F S64x1 .f32) (main_arg14 : FVec F S1x1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S256x64 .f32 := Host.absf main_arg9
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_arg12 main_arg13 main_arg14 main_v48 main_v49 main_v50

def fn_part1 {F : FTy → Type} [FloatOps F] (main_arg4 : FVec F S1x32 .f32) (main_arg5 : FVec F S1x64 .f32) (main_arg6 : FVec F S1x128 .f32) (main_arg7 : FVec F S128x128 .f32) (main_arg8 : FVec F S1x128 .f32) (main_arg9 : FVec F S256x64 .f32) (main_arg10 : FVec F S1x64 .f32) (main_arg11 : FVec F S128x64 .f32) (main_arg12 : FVec F S1x64 .f32) (main_arg13 : FVec F S64x1 .f32) (main_arg14 : FVec F S1x1 .f32) (main_v13 : IVec S_ 1) (main_v16 : IVec S9x64x128 1) : IVec S_ 1 :=
  let main_c_5 : IVec S_ 1 := constantI S_ 1 1#1
  let main_v17 : IVec S_ 1 := (fun x v => Host.reduce IntOp.andi x v reducesTo_S9x64x128_S_d0_1_2 h_S_) main_v16 main_c_5
  let main_v18 : IVec S_ 1 := andi main_v13 main_v17
  let main_v19 : FVec F S1x32 .f32 := Host.absf main_arg4
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S768x128x8x8 .f32) (main_arg1 : FVec F S9x128x32 .f32) (main_arg2 : FVec F S9x32x64 .f32) (main_arg3 : FVec F S9x64x128 .f32) (main_arg4 : FVec F S1x32 .f32) (main_arg5 : FVec F S1x64 .f32) (main_arg6 : FVec F S1x128 .f32) (main_arg7 : FVec F S128x128 .f32) (main_arg8 : FVec F S1x128 .f32) (main_arg9 : FVec F S256x64 .f32) (main_arg10 : FVec F S1x64 .f32) (main_arg11 : FVec F S128x64 .f32) (main_arg12 : FVec F S1x64 .f32) (main_arg13 : FVec F S64x1 .f32) (main_arg14 : FVec F S1x1 .f32) : IVec S_ 1 :=
  let main_v0 : FVec F S768x128x8x8 .f32 := Host.absf main_arg0
  let main_cst : FVec F S_ .f32 := constant S_ .f32 0x7F800000#32
  let main_v1 : FVec F S768x128x8x8 .f32 := broadcastInDim S768x128x8x8 ![] bcast_S_S768x128x8x8 main_cst
  let main_v2 : IVec S768x128x8x8 1 := cmpf .olt main_v0 main_v1
  let main_c : IVec S_ 1 := constantI S_ 1 1#1
  let main_v3 : IVec S_ 1 := (fun x v => Host.reduce IntOp.andi x v reducesTo_S768x128x8x8_S_d0_1_2_3 h_S_) main_v2 main_c
  let main_v4 : FVec F S9x128x32 .f32 := Host.absf main_arg1
  let main_cst_0 : FVec F S_ .f32 := constant S_ .f32 0x7F800000#32
  let main_v5 : FVec F S9x128x32 .f32 := broadcastInDim S9x128x32 ![] bcast_S_S9x128x32 main_cst_0
  let main_v6 : IVec S9x128x32 1 := cmpf .olt main_v4 main_v5
  let main_c_1 : IVec S_ 1 := constantI S_ 1 1#1
  let main_v7 : IVec S_ 1 := (fun x v => Host.reduce IntOp.andi x v reducesTo_S9x128x32_S_d0_1_2 h_S_) main_v6 main_c_1
  let main_v8 : IVec S_ 1 := andi main_v3 main_v7
  let main_v9 : FVec F S9x32x64 .f32 := Host.absf main_arg2
  let main_cst_2 : FVec F S_ .f32 := constant S_ .f32 0x7F800000#32
  let main_v10 : FVec F S9x32x64 .f32 := broadcastInDim S9x32x64 ![] bcast_S_S9x32x64 main_cst_2
  let main_v11 : IVec S9x32x64 1 := cmpf .olt main_v9 main_v10
  let main_c_3 : IVec S_ 1 := constantI S_ 1 1#1
  let main_v12 : IVec S_ 1 := (fun x v => Host.reduce IntOp.andi x v reducesTo_S9x32x64_S_d0_1_2 h_S_) main_v11 main_c_3
  let main_v13 : IVec S_ 1 := andi main_v8 main_v12
  let main_v14 : FVec F S9x64x128 .f32 := Host.absf main_arg3
  let main_cst_4 : FVec F S_ .f32 := constant S_ .f32 0x7F800000#32
  let main_v15 : FVec F S9x64x128 .f32 := broadcastInDim S9x64x128 ![] bcast_S_S9x64x128 main_cst_4
  let main_v16 : IVec S9x64x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S768x128x8x8 : Shape := ⟨4, ![768, 128, 8, 8]⟩
abbrev S9x128x32 : Shape := ⟨3, ![9, 128, 32]⟩
abbrev S9x32x64 : Shape := ⟨3, ![9, 32, 64]⟩
abbrev S9x64x128 : Shape := ⟨3, ![9, 64, 128]⟩
abbrev S1x32 : Shape := ⟨2, ![1, 32]⟩
abbrev S1x64 : Shape := ⟨2, ![1, 64]⟩
abbrev S1x128 : Shape := ⟨2, ![1, 128]⟩
abbrev S128x128 : Shape := ⟨2, ![128, 128]⟩
abbrev S256x64 : Shape := ⟨2, ![256, 64]⟩
abbrev S128x64 : Shape := ⟨2, ![128, 64]⟩
abbrev S64x1 : Shape := ⟨2, ![64, 1]⟩
abbrev S1x1 : Shape := ⟨2, ![1, 1]⟩
abbrev S768x8x8x128 : Shape := ⟨4, ![768, 8, 8, 128]⟩
abbrev S_ : Shape := ⟨0, ![]⟩
abbrev S64x128x128 : Shape := ⟨3, ![64, 128, 128]⟩
abbrev S64x4x64 : Shape := ⟨3, ![64, 4, 64]⟩
abbrev S1 : Shape := ⟨1, ![1]⟩
abbrev S2 : Shape := ⟨1, ![2]⟩
abbrev S64x2x64 : Shape := ⟨3, ![64, 2, 64]⟩
abbrev S8192x128 : Shape := ⟨2, ![8192, 128]⟩
abbrev S768x64 : Shape := ⟨2, ![768, 64]⟩
abbrev S768x1 : Shape := ⟨2, ![768, 1]⟩
abbrev S32x8x8x128 : Shape := ⟨4, ![32, 8, 8, 128]⟩
abbrev S32x64 : Shape := ⟨2, ![32, 64]⟩
abbrev S32x1 : Shape := ⟨2, ![32, 1]⟩
abbrev S32x10x10x128 : Shape := ⟨4, ![32, 10, 10, 128]⟩
abbrev S32x10x10x32 : Shape := ⟨4, ![32, 10, 10, 32]⟩
abbrev S32x10x10x64 : Shape := ⟨4, ![32, 10, 10, 64]⟩
abbrev S32x8x10x128 : Shape := ⟨4, ![32, 8, 10, 128]⟩
abbrev S2048x32 : Shape := ⟨2, ![2048, 32]⟩
abbrev S2048x128 : Shape := ⟨2, ![2048, 128]⟩
abbrev S1x128x32 : Shape := ⟨3, ![1, 128, 32]⟩
abbrev S128x32 : Shape := ⟨2, ![128, 32]⟩
abbrev S32x8x8x32 : Shape := ⟨4, ![32, 8, 8, 32]⟩
abbrev S32x8x10x32 : Shape := ⟨4, ![32, 8, 10, 32]⟩
abbrev S2048x64 : Shape := ⟨2, ![2048, 64]⟩
abbrev S1x32x64 : Shape := ⟨3, ![1, 32, 64]⟩
abbrev S32x8x8x64 : Shape := ⟨4, ![32, 8, 8, 64]⟩
abbrev S32x8x10x64 : Shape := ⟨4, ![32, 8, 10, 64]⟩
abbrev S1x64x128 : Shape := ⟨3, ![1, 64, 128]⟩
abbrev S64x128 : Shape := ⟨2, ![64, 128]⟩
abbrev S32x8192 : Shape := ⟨2, ![32, 8192]⟩
abbrev S32x128 : Shape := ⟨2, ![32, 128]⟩
abbrev S32 : Shape := ⟨1, ![32]⟩

abbrev nBuf : Space → Nat
  | .hbm => 42
  | .vmem => 22
  | .smem => 0
  | _ => 0

abbrev bufTy : (tb : Table) → Fin (tcTables nBuf tb) → BufTy
  | .hbm, ⟨0, _⟩ => ⟨S768x128x8x8, .f32⟩
  | .hbm, ⟨1, _⟩ => ⟨S9x128x32, .f32⟩
  | .hbm, ⟨2, _⟩ => ⟨S9x32x64, .f32⟩
  | .hbm, ⟨3, _⟩ => ⟨S9x64x128, .f32⟩
  | .hbm, ⟨4, _⟩ => ⟨S1x32, .f32⟩
  | .hbm, ⟨5, _⟩ => ⟨S1x64, .f32⟩
  | .hbm, ⟨6, _⟩ => ⟨S1x128, .f32⟩
  | .hbm, ⟨7, _⟩ => ⟨S128x128, .f32⟩
  | .hbm, ⟨8, _⟩ => ⟨S1x128, .f32⟩
  | .hbm, ⟨9, _⟩ => ⟨S256x64, .f32⟩
  | .hbm, ⟨10, _⟩ => ⟨S1x64, .f32⟩
  | .hbm, ⟨11, _⟩ => ⟨S128x64, .f32⟩
  | .hbm, ⟨12, _⟩ => ⟨S1x64, .f32⟩
  | .hbm, ⟨13, _⟩ => ⟨S64x1, .f32⟩
  | .hbm, ⟨14, _⟩ => ⟨S1x1, .f32⟩
  | .hbm, ⟨15, _⟩ => ⟨S768x8x8x128, .f32⟩
  | .hbm, ⟨16, _⟩ => ⟨S768x8x8x128, .bf16⟩
  | .hbm, ⟨17, _⟩ => ⟨S9x128x32, .bf16⟩
  | .hbm, ⟨18, _⟩ => ⟨S9x32x64, .bf16⟩
  | .hbm, ⟨19, _⟩ => ⟨S9x64x128, .bf16⟩
  | .hbm, ⟨20, _⟩ => ⟨S128x128, .bf16⟩
  | .hbm, ⟨21, _⟩ => ⟨S_, .f32⟩
  | .hbm, ⟨22, _⟩ => ⟨S64x128x128, .f32⟩
  | .hbm, ⟨23, _⟩ => ⟨S64x4x64, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S64x128x128, .f32⟩
  | .hbm, ⟨30, _⟩ => ⟨S64x2x64, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S64x128x128, .f32⟩
  | .hbm, ⟨37, _⟩ => ⟨S8192x128, .f32⟩
  | .hbm, ⟨38, _⟩ => ⟨S8192x128, .bf16⟩
  | .hbm, ⟨39, _⟩ => ⟨S1x64, .f32⟩
  | .hbm, ⟨40, _⟩ => ⟨S768x64, .f32⟩
  | .hbm, ⟨41, _⟩ => ⟨S768x1, .f32⟩
  | .local _ .vmem, ⟨0, _⟩ => ⟨S32x8x8x128, .bf16⟩
  | .local _ .vmem, ⟨1, _⟩ => ⟨S32x8x8x128, .bf16⟩
  | .local _ .vmem, ⟨2, _⟩ => ⟨S9x128x32, .bf16⟩
  | .local _ .vmem, ⟨3, _⟩ => ⟨S1x32, .f32⟩
  | .local _ .vmem, ⟨4, _⟩ => ⟨S9x32x64, .bf16⟩
  | .local _ .vmem, ⟨5, _⟩ => ⟨S1x64, .f32⟩
  | .local _ .vmem, ⟨6, _⟩ => ⟨S9x64x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S8192x128, .bf16⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x1, .f32⟩
  | .local _ .vmem, ⟨15, _⟩ => ⟨S32x64, .f32⟩
  | .local _ .vmem, ⟨16, _⟩ => ⟨S32x64, .f32⟩
  | .local _ .vmem, ⟨17, _⟩ => ⟨S32x1, .f32⟩
  | .local _ .vmem, ⟨18, _⟩ => ⟨S32x1, .f32⟩
  | .local _ .vmem, ⟨19, _⟩ => ⟨S32x10x10x128, .bf16⟩
  | .local _ .vmem, ⟨20, _⟩ => ⟨S32x10x10x32, .bf16⟩
  | .local _ .vmem, ⟨21, _⟩ => ⟨S32x10x10x64, .bf16⟩
  | _, _ => ⟨S768x128x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![24], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8192x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S32x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S768x128x8x8_S768x8x8x128_0_2_3_1 : S768x128x8x8.Transposes [0, 2, 3, 1] S768x8x8x128
  bitsLt_bf16_f32 : FTy.bits .bf16 < FTy.bits .f32
  bcast_S_S64x128x128 : S_.BroadcastsInDim S64x128x128 (![] : Fin 0 → Fin S64x128x128.rank)
  shapeCasts_S256x64_S64x4x64 : S256x64.ShapeCasts S64x4x64
  bcast_S_S1 : S_.BroadcastsInDim S1 (![] : Fin 0 → Fin S1.rank)
  concatenates_S1_S1_S2_d0 : Shape.Concatenates [S1, S1] S2 0
  shapeCasts_S128x64_S64x2x64 : S128x64.ShapeCasts S64x2x64
  shapeCasts_S64x128x128_S8192x128 : S64x128x128.ShapeCasts S8192x128
  shapeCasts_S64x1_S1x64 : S64x1.ShapeCasts S1x64
  inb_S32x10x10x128_S32x10x10x128_0_0_0_0 : ∀ a, (![0, 0, 0, 0] : Fin 4 → Nat) a + S32x10x10x128.size a ≤ S32x10x10x128.size a
  h_S32x10x10x128 : 0 < S32x10x10x128.numel
  shapeCasts_S32x10x10x128_S32x10x10x128 : S32x10x10x128.ShapeCasts S32x10x10x128
  packedbf16_S32x10x10x128_S32x10x10x128_0_0_0_0 : (Rect.unit (s := S32x10x10x128) ![0, 0, 0, 0] S32x10x10x128.size inb_S32x10x10x128_S32x10x10x128_0_0_0_0).PackedRows (EltTy.packing .bf16)
  inb_S32x8x8x128_S32x8x8x128_0_0_0_0 : ∀ a, (![0, 0, 0, 0] : Fin 4 → Nat) a + S32x8x8x128.size a ≤ S32x8x8x128.size a
  h_S32x8x8x128 : 0 < S32x8x8x128.numel
  shapeCasts_S32x8x8x128_S32x8x8x128 : S32x8x8x128.ShapeCasts S32x8x8x128
  inb_S32x10x10x128_S32x8x8x128_0_1_1_0 : ∀ a, (![0, 1, 1, 0] : Fin 4 → Nat) a + S32x8x8x128.size a ≤ S32x10x10x128.size a
  inb_S32x10x10x128_S32x8x10x128_0_1_0_0 : ∀ a, (![0, 1, 0, 0] : Fin 4 → Nat) a + S32x8x10x128.size a ≤ S32x10x10x128.size a
  h_S32x8x10x128 : 0 < S32x8x10x128.numel
  slices_S32x8x10x128_S32x8x8x128_0_0_1_0 : S32x8x10x128.Slices ![0, 0, 1, 0] S32x8x8x128
  packedbf16_S32x10x10x128_S32x8x10x128_0_1_0_0 : (Rect.unit (s := S32x10x10x128) ![0, 1, 0, 0] S32x8x10x128.size inb_S32x10x10x128_S32x8x10x128_0_1_0_0).PackedRows (EltTy.packing .bf16)
  inb_S9x128x32_S9x128x32_0_0_0 : ∀ a, (![0, 0, 0] : Fin 3 → Nat) a + S9x128x32.size a ≤ S9x128x32.size a
  h_S9x128x32 : 0 < S9x128x32.numel
  shapeCasts_S9x128x32_S9x128x32 : S9x128x32.ShapeCasts S9x128x32
  inb_S32x10x10x128_S32x8x8x128_0_0_0_0 : ∀ a, (![0, 0, 0, 0] : Fin 4 → Nat) a + S32x8x8x128.size a ≤ S32x10x10x128.size a
  shapeCasts_S32x8x8x128_S2048x128 : S32x8x8x128.ShapeCasts S2048x128
  slices_S9x128x32_o0_0_0_S1x128x32 : S9x128x32.Slices ![0, 0, 0] S1x128x32
  shapeCasts_S1x128x32_S128x32 : S1x128x32.ShapeCasts S128x32
  inb_S32x10x10x128_S32x8x8x128_0_0_1_0 : ∀ a, (![0, 0, 1, 0] : Fin 4 → Nat) a + S32x8x8x128.size a ≤ S32x10x10x128.size a
  slices_S9x128x32_o1_0_0_S1x128x32 : S9x128x32.Slices ![1, 0, 0] S1x128x32
  inb_S32x10x10x128_S32x8x8x128_0_0_2_0 : ∀ a, (![0, 0, 2, 0] : Fin 4 → Nat) a + S32x8x8x128.size a ≤ S32x10x10x128.size a
  slices_S9x128x32_o2_0_0_S1x128x32 : S9x128x32.Slices ![2, 0, 0] S1x128x32
  inb_S32x10x10x128_S32x8x8x128_0_1_0_0 : ∀ a, (![0, 1, 0, 0] : Fin 4 → Nat) a + S32x8x8x128.size a ≤ S32x10x10x128.size a
  slices_S9x128x32_o3_0_0_S1x128x32 : S9x128x32.Slices ![3, 0, 0] S1x128x32
  slices_S9x128x32_o4_0_0_S1x128x32 : S9x128x32.Slices ![4, 0, 0] S1x128x32
  inb_S32x10x10x128_S32x8x8x128_0_1_2_0 : ∀ a, (![0, 1, 2, 0] : Fin 4 → Nat) a + S32x8x8x128.size a ≤ S32x10x10x128.size a
  slices_S9x128x32_o5_0_0_S1x128x32 : S9x128x32.Slices ![5, 0, 0] S1x128x32
  inb_S32x10x10x128_S32x8x8x128_0_2_0_0 : ∀ a, (![0, 2, 0, 0] : Fin 4 → Nat) a + S32x8x8x128.size a ≤ S32x10x10x128.size a
  slices_S9x128x32_o6_0_0_S1x128x32 : S9x128x32.Slices ![6, 0, 0] S1x128x32
  inb_S32x10x10x128_S32x8x8x128_0_2_1_0 : ∀ a, (![0, 2, 1, 0] : Fin 4 → Nat) a + S32x8x8x128.size a ≤ S32x10x10x128.size a
  slices_S9x128x32_o7_0_0_S1x128x32 : S9x128x32.Slices ![7, 0, 0] S1x128x32
  inb_S32x10x10x128_S32x8x8x128_0_2_2_0 : ∀ a, (![0, 2, 2, 0] : Fin 4 → Nat) a + S32x8x8x128.size a ≤ S32x10x10x128.size a
  slices_S9x128x32_o8_0_0_S1x128x32 : S9x128x32.Slices ![8, 0, 0] S1x128x32
  inb_S1x32_S1x32_0_0 : ∀ a, (![0, 0] : Fin 2 → Nat) a + S1x32.size a ≤ S1x32.size a
  h_S1x32 : 0 < S1x32.numel
  broadcasts_S1x32_S2048x32 : S1x32.Broadcasts S2048x32
  inb_S32x10x10x32_S32x10x10x32_0_0_0_0 : ∀ a, (![0, 0, 0, 0] : Fin 4 → Nat) a + S32x10x10x32.size a ≤ S32x10x10x32.size a
  h_S32x10x10x32 : 0 < S32x10x10x32.numel
  shapeCasts_S32x10x10x32_S32x10x10x32 : S32x10x10x32.ShapeCasts S32x10x10x32
  packedbf16_S32x10x10x32_S32x10x10x32_0_0_0_0 : (Rect.unit (s := S32x10x10x32) ![0, 0, 0, 0] S32x10x10x32.size inb_S32x10x10x32_S32x10x10x32_0_0_0_0).PackedRows (EltTy.packing .bf16)
  shapeCasts_S2048x32_S32x8x8x32 : S2048x32.ShapeCasts S32x8x8x32
  inb_S32x10x10x32_S32x8x8x32_0_1_1_0 : ∀ a, (![0, 1, 1, 0] : Fin 4 → Nat) a + S32x8x8x32.size a ≤ S32x10x10x32.size a
  h_S32x8x8x32 : 0 < S32x8x8x32.numel
  shapeCasts_S32x8x8x32_S32x8x8x32 : S32x8x8x32.ShapeCasts S32x8x8x32
  inb_S32x10x10x32_S32x8x10x32_0_1_0_0 : ∀ a, (![0, 1, 0, 0] : Fin 4 → Nat) a + S32x8x10x32.size a ≤ S32x10x10x32.size a
  h_S32x8x10x32 : 0 < S32x8x10x32.numel
  slices_S32x8x10x32_S32x8x8x32_0_0_1_0 : S32x8x10x32.Slices ![0, 0, 1, 0] S32x8x8x32
  packedbf16_S32x10x10x32_S32x8x10x32_0_1_0_0 : (Rect.unit (s := S32x10x10x32) ![0, 1, 0, 0] S32x8x10x32.size inb_S32x10x10x32_S32x8x10x32_0_1_0_0).PackedRows (EltTy.packing .bf16)
  inb_S9x32x64_S9x32x64_0_0_0 : ∀ a, (![0, 0, 0] : Fin 3 → Nat) a + S9x32x64.size a ≤ S9x32x64.size a
  h_S9x32x64 : 0 < S9x32x64.numel
  shapeCasts_S9x32x64_S9x32x64 : S9x32x64.ShapeCasts S9x32x64
  inb_S32x10x10x32_S32x8x8x32_0_0_0_0 : ∀ a, (![0, 0, 0, 0] : Fin 4 → Nat) a + S32x8x8x32.size a ≤ S32x10x10x32.size a
  shapeCasts_S32x8x8x32_S2048x32 : S32x8x8x32.ShapeCasts S2048x32
  slices_S9x32x64_o0_0_0_S1x32x64 : S9x32x64.Slices ![0, 0, 0] S1x32x64
  shapeCasts_S1x32x64_S32x64 : S1x32x64.ShapeCasts S32x64
  inb_S32x10x10x32_S32x8x8x32_0_0_1_0 : ∀ a, (![0, 0, 1, 0] : Fin 4 → Nat) a + S32x8x8x32.size a ≤ S32x10x10x32.size a
  slices_S9x32x64_o1_0_0_S1x32x64 : S9x32x64.Slices ![1, 0, 0] S1x32x64
  inb_S32x10x10x32_S32x8x8x32_0_0_2_0 : ∀ a, (![0, 0, 2, 0] : Fin 4 → Nat) a + S32x8x8x32.size a ≤ S32x10x10x32.size a
  slices_S9x32x64_o2_0_0_S1x32x64 : S9x32x64.Slices ![2, 0, 0] S1x32x64
  inb_S32x10x10x32_S32x8x8x32_0_1_0_0 : ∀ a, (![0, 1, 0, 0] : Fin 4 → Nat) a + S32x8x8x32.size a ≤ S32x10x10x32.size a
  slices_S9x32x64_o3_0_0_S1x32x64 : S9x32x64.Slices ![3, 0, 0] S1x32x64
  slices_S9x32x64_o4_0_0_S1x32x64 : S9x32x64.Slices ![4, 0, 0] S1x32x64
  inb_S32x10x10x32_S32x8x8x32_0_1_2_0 : ∀ a, (![0, 1, 2, 0] : Fin 4 → Nat) a + S32x8x8x32.size a ≤ S32x10x10x32.size a
  slices_S9x32x64_o5_0_0_S1x32x64 : S9x32x64.Slices ![5, 0, 0] S1x32x64
  inb_S32x10x10x32_S32x8x8x32_0_2_0_0 : ∀ a, (![0, 2, 0, 0] : Fin 4 → Nat) a + S32x8x8x32.size a ≤ S32x10x10x32.size a
  slices_S9x32x64_o6_0_0_S1x32x64 : S9x32x64.Slices ![6, 0, 0] S1x32x64
  inb_S32x10x10x32_S32x8x8x32_0_2_1_0 : ∀ a, (![0, 2, 1, 0] : Fin 4 → Nat) a + S32x8x8x32.size a ≤ S32x10x10x32.size a
  slices_S9x32x64_o7_0_0_S1x32x64 : S9x32x64.Slices ![7, 0, 0] S1x32x64
  inb_S32x10x10x32_S32x8x8x32_0_2_2_0 : ∀ a, (![0, 2, 2, 0] : Fin 4 → Nat) a + S32x8x8x32.size a ≤ S32x10x10x32.size a
  slices_S9x32x64_o8_0_0_S1x32x64 : S9x32x64.Slices ![8, 0, 0] S1x32x64
  inb_S1x64_S1x64_0_0 : ∀ a, (![0, 0] : Fin 2 → Nat) a + S1x64.size a ≤ S1x64.size a
  h_S1x64 : 0 < S1x64.numel
  broadcasts_S1x64_S2048x64 : S1x64.Broadcasts S2048x64
  inb_S32x10x10x64_S32x10x10x64_0_0_0_0 : ∀ a, (![0, 0, 0, 0] : Fin 4 → Nat) a + S32x10x10x64.size a ≤ S32x10x10x64.size a
  h_S32x10x10x64 : 0 < S32x10x10x64.numel
  shapeCasts_S32x10x10x64_S32x10x10x64 : S32x10x10x64.ShapeCasts S32x10x10x64
  packedbf16_S32x10x10x64_S32x10x10x64_0_0_0_0 : (Rect.unit (s := S32x10x10x64) ![0, 0, 0, 0] S32x10x10x64.size inb_S32x10x10x64_S32x10x10x64_0_0_0_0).PackedRows (EltTy.packing .bf16)
  shapeCasts_S2048x64_S32x8x8x64 : S2048x64.ShapeCasts S32x8x8x64
  inb_S32x10x10x64_S32x8x8x64_0_1_1_0 : ∀ a, (![0, 1, 1, 0] : Fin 4 → Nat) a + S32x8x8x64.size a ≤ S32x10x10x64.size a
  h_S32x8x8x64 : 0 < S32x8x8x64.numel
  shapeCasts_S32x8x8x64_S32x8x8x64 : S32x8x8x64.ShapeCasts S32x8x8x64
  inb_S32x10x10x64_S32x8x10x64_0_1_0_0 : ∀ a, (![0, 1, 0, 0] : Fin 4 → Nat) a + S32x8x10x64.size a ≤ S32x10x10x64.size a
  h_S32x8x10x64 : 0 < S32x8x10x64.numel
  slices_S32x8x10x64_S32x8x8x64_0_0_1_0 : S32x8x10x64.Slices ![0, 0, 1, 0] S32x8x8x64
  packedbf16_S32x10x10x64_S32x8x10x64_0_1_0_0 : (Rect.unit (s := S32x10x10x64) ![0, 1, 0, 0] S32x8x10x64.size inb_S32x10x10x64_S32x8x10x64_0_1_0_0).PackedRows (EltTy.packing .bf16)
  inb_S9x64x128_S9x64x128_0_0_0 : ∀ a, (![0, 0, 0] : Fin 3 → Nat) a + S9x64x128.size a ≤ S9x64x128.size a
  h_S9x64x128 : 0 < S9x64x128.numel
  shapeCasts_S9x64x128_S9x64x128 : S9x64x128.ShapeCasts S9x64x128
  inb_S32x10x10x64_S32x8x8x64_0_0_0_0 : ∀ a, (![0, 0, 0, 0] : Fin 4 → Nat) a + S32x8x8x64.size a ≤ S32x10x10x64.size a
  shapeCasts_S32x8x8x64_S2048x64 : S32x8x8x64.ShapeCasts S2048x64
  slices_S9x64x128_o0_0_0_S1x64x128 : S9x64x128.Slices ![0, 0, 0] S1x64x128
  shapeCasts_S1x64x128_S64x128 : S1x64x128.ShapeCasts S64x128
  inb_S32x10x10x64_S32x8x8x64_0_0_1_0 : ∀ a, (![0, 0, 1, 0] : Fin 4 → Nat) a + S32x8x8x64.size a ≤ S32x10x10x64.size a
  slices_S9x64x128_o1_0_0_S1x64x128 : S9x64x128.Slices ![1, 0, 0] S1x64x128
  inb_S32x10x10x64_S32x8x8x64_0_0_2_0 : ∀ a, (![0, 0, 2, 0] : Fin 4 → Nat) a + S32x8x8x64.size a ≤ S32x10x10x64.size a
  slices_S9x64x128_o2_0_0_S1x64x128 : S9x64x128.Slices ![2, 0, 0] S1x64x128
  inb_S32x10x10x64_S32x8x8x64_0_1_0_0 : ∀ a, (![0, 1, 0, 0] : Fin 4 → Nat) a + S32x8x8x64.size a ≤ S32x10x10x64.size a
  slices_S9x64x128_o3_0_0_S1x64x128 : S9x64x128.Slices ![3, 0, 0] S1x64x128
  slices_S9x64x128_o4_0_0_S1x64x128 : S9x64x128.Slices ![4, 0, 0] S1x64x128
  inb_S32x10x10x64_S32x8x8x64_0_1_2_0 : ∀ a, (![0, 1, 2, 0] : Fin 4 → Nat) a + S32x8x8x64.size a ≤ S32x10x10x64.size a
  slices_S9x64x128_o5_0_0_S1x64x128 : S9x64x128.Slices ![5, 0, 0] S1x64x128
  inb_S32x10x10x64_S32x8x8x64_0_2_0_0 : ∀ a, (![0, 2, 0, 0] : Fin 4 → Nat) a + S32x8x8x64.size a ≤ S32x10x10x64.size a
  slices_S9x64x128_o6_0_0_S1x64x128 : S9x64x128.Slices ![6, 0, 0] S1x64x128
  inb_S32x10x10x64_S32x8x8x64_0_2_1_0 : ∀ a, (![0, 2, 1, 0] : Fin 4 → Nat) a + S32x8x8x64.size a ≤ S32x10x10x64.size a
  slices_S9x64x128_o7_0_0_S1x64x128 : S9x64x128.Slices ![7, 0, 0] S1x64x128
  inb_S32x10x10x64_S32x8x8x64_0_2_2_0 : ∀ a, (![0, 2, 2, 0] : Fin 4 → Nat) a + S32x8x8x64.size a ≤ S32x10x10x64.size a
  slices_S9x64x128_o8_0_0_S1x64x128 : S9x64x128.Slices ![8, 0, 0] S1x64x128
  inb_S1x128_S1x128_0_0 : ∀ a, (![0, 0] : Fin 2 → Nat) a + S1x128.size a ≤ S1x128.size a
  h_S1x128 : 0 < S1x128.numel
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2048x128_S32x8192 : S2048x128.ShapeCasts S32x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S32x128_o0_0_S32x64 : S32x128.Slices ![0, 0] S32x64
  broadcasts_S1x64_S32x64 : S1x64.Broadcasts S32x64
  reduces_S32x64_S32 : S32x64.Reduces [1] S32
  shapeCasts_S32_S32x1 : S32.ShapeCasts S32x1
  broadcasts_S32x1_S32x64 : S32x1.Broadcasts S32x64
  inb_S32x64_S32x64_0_0 : ∀ a, (![0, 0] : Fin 2 → Nat) a + S32x64.size a ≤ S32x64.size a
  h_S32x64 : 0 < S32x64.numel
  slices_S32x128_o0_64_S32x64 : S32x128.Slices ![0, 64] S32x64
  shapeCasts_S1x64_S1x64 : S1x64.ShapeCasts S1x64
  inb_S1x1_S1x1_0_0 : ∀ a, (![0, 0] : Fin 2 → Nat) a + S1x1.size a ≤ S1x1.size a
  h_S1x1 : 0 < S1x1.numel
  broadcasts_S1x1_S32x1 : S1x1.Broadcasts S32x1
  inb_S32x1_S32x1_0_0 : ∀ a, (![0, 0] : Fin 2 → Nat) a + S32x1.size a ≤ S32x1.size a
  h_S32x1 : 0 < S32x1.numel
  scatter_S64x128x128_S2_S64x4x64_012_n_12_0_wf : ScatterDims.WF S64x128x128 S2 S64x4x64 [0, 1, 2] [] [1, 2] 0
  scatter_S64x128x128_S2_S64x2x64_012_n_12_0_wf : ScatterDims.WF S64x128x128 S2 S64x2x64 [0, 1, 2] [] [1, 2] 0
  dot_S2048x128_S128x32_S2048x32_1_0_0_1_n_n_wf : DotDims.WF S2048x128 S128x32 S2048x32 [1] [0] [0] [1] [] []
  dot_S2048x32_S32x64_S2048x64_1_0_0_1_n_n_wf : DotDims.WF S2048x32 S32x64 S2048x64 [1] [0] [0] [1] [] []
  dot_S2048x64_S64x128_S2048x128_1_0_0_1_n_n_wf : DotDims.WF S2048x64 S64x128 S2048x128 [1] [0] [0] [1] [] []
  dot_S2048x128_S128x128_S2048x128_1_0_0_1_n_n_wf : DotDims.WF S2048x128 S128x128 S2048x128 [1] [0] [0] [1] [] []
  dot_S32x8192_S8192x128_S32x128_1_0_0_1_n_n_wf : DotDims.WF S32x8192 S8192x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x8x128.size a ≤ S768x8x8x128.size a
  hwx0_0 : ∀ i : grid0.Coords, EltTy.bits .bf16 = 32 ∨ (Rect.block (s := S768x8x8x128) S32x8x8x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x32.size a ≤ S9x128x32.size a
  hwx0_1 : ∀ i : grid0.Coords, EltTy.bits .bf16 = 32 ∨ (Rect.block (s := S9x128x32) S9x128x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x32x64.size a ≤ S9x32x64.size a
  hwx0_3 : ∀ i : grid0.Coords, EltTy.bits .bf16 = 32 ∨ (Rect.block (s := S9x32x64) S9x32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x64x128.size a ≤ S9x64x128.size a
  hwx0_5 : ∀ i : grid0.Coords, EltTy.bits .bf16 = 32 ∨ (Rect.block (s := S9x64x128) S9x64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8192x128.size a ≤ S8192x128.size a
  hwx0_9 : ∀ i : grid0.Coords, EltTy.bits .bf16 = 32 ∨ (Rect.block (s := S8192x128) S8192x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S32x64.size a ≤ S768x64.size a
  hwx0_14 : ∀ i : grid0.Coords, EltTy.bits .f32 = 32 ∨ (Rect.block (s := S768x64) S32x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S32x1.size a ≤ S768x1.size a
  hwx0_15 : ∀ i : grid0.Coords, EltTy.bits .f32 = 32 ∨ (Rect.block (s := S768x1) S32x1.size (cc0_transform_15 i) (hinb0_15 i)).WholeWords (EltTy.packing .f32)

variable [Facts₀]

def scatter_S64x128x128_S2_S64x4x64_012_n_12_0 : ScatterDims S64x128x128 S2 S64x4x64 where
  updateWindowDims := [0, 1, 2]
  insertedWindowDims := []
  scatterDimsToOperandDims := [1, 2]
  indexVectorDim := 0
  wf := scatter_S64x128x128_S2_S64x4x64_012_n_12_0_wf
def scatter_S64x128x128_S2_S64x2x64_012_n_12_0 : ScatterDims S64x128x128 S2 S64x2x64 where
  updateWindowDims := [0, 1, 2]
  insertedWindowDims := []
  scatterDimsToOperandDims := [1, 2]
  indexVectorDim := 0
  wf := scatter_S64x128x128_S2_S64x2x64_012_n_12_0_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S32x8192_S8192x128_S32x128_1_0_0_1_n_n : DotDims S32x8192 S8192x128 S32x128 where
  lhsContracting := [1]
  rhsContracting := [0]
  lhsNonContracting := [0]
  rhsNonContracting := [1]
  lhsBatch := []
  rhsBatch := []
  wf := dot_S32x8192_S8192x128_S32x128_1_0_0_1_n_n_wf

abbrev win0_0 : Pipeline.Window sig grid0 :=
  Pipeline.Window.ofSpec (Memref.whole main_v1) S32x8x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S9x128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S9x32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S9x64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S8192x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v20_0) S32x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v20_1) S32x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S768x128x8x8 : Shape := ⟨4, ![768, 128, 8, 8]⟩
abbrev S9x128x32 : Shape := ⟨3, ![9, 128, 32]⟩
abbrev S9x32x64 : Shape := ⟨3, ![9, 32, 64]⟩
abbrev S9x64x128 : Shape := ⟨3, ![9, 64, 128]⟩
abbrev S1x32 : Shape := ⟨2, ![1, 32]⟩
abbrev S1x64 : Shape := ⟨2, ![1, 64]⟩
abbrev S1x128 : Shape := ⟨2, ![1, 128]⟩
abbrev S128x128 : Shape := ⟨2, ![128, 128]⟩
abbrev S256x64 : Shape := ⟨2, ![256, 64]⟩
abbrev S128x64 : Shape := ⟨2, ![128, 64]⟩
abbrev S64x1 : Shape := ⟨2, ![64, 1]⟩
abbrev S1x1 : Shape := ⟨2, ![1, 1]⟩
abbrev S768x8x8x128 : Shape := ⟨4, ![768, 8, 8, 128]⟩
abbrev S_ : Shape := ⟨0, ![]⟩
abbrev S768x10x10x128 : Shape := ⟨4, ![768, 10, 10, 128]⟩
abbrev S49152x128 : Shape := ⟨2, ![49152, 128]⟩
abbrev S8x10x10x128 : Shape := ⟨4, ![8, 10, 10, 128]⟩
abbrev S512x128 : Shape := ⟨2, ![512, 128]⟩
abbrev S8x10x10x32 : Shape := ⟨4, ![8, 10, 10, 32]⟩
abbrev S8x10x10x64 : Shape := ⟨4, ![8, 10, 10, 64]⟩
abbrev S512x32 : Shape := ⟨2, ![512, 32]⟩
abbrev S8x8x8x128 : Shape := ⟨4, ![8, 8, 8, 128]⟩
abbrev S1x128x32 : Shape := ⟨3, ![1, 128, 32]⟩
abbrev S128x32 : Shape := ⟨2, ![128, 32]⟩
abbrev S8x8x8x32 : Shape := ⟨4, ![8, 8, 8, 32]⟩
abbrev S512x64 : Shape := ⟨2, ![512, 64]⟩
abbrev S1x32x64 : Shape := ⟨3, ![1, 32, 64]⟩
abbrev S32x64 : Shape := ⟨2, ![32, 64]⟩
abbrev S8x8x8x64 : Shape := ⟨4, ![8, 8, 8, 64]⟩
abbrev S1x64x128 : Shape := ⟨3, ![1, 64, 128]⟩
abbrev S64x128 : Shape := ⟨2, ![64, 128]⟩
abbrev S49152x4 : Shape := ⟨2, ![49152, 4]⟩
abbrev S768x256 : Shape := ⟨2, ![768, 256]⟩
abbrev S49152x2 : Shape := ⟨2, ![49152, 2]⟩
abbrev S768x128 : Shape := ⟨2, ![768, 128]⟩
abbrev S768x64 : Shape := ⟨2, ![768, 64]⟩
abbrev S768x1 : Shape := ⟨2, ![768, 1]⟩
abbrev S768 : Shape := ⟨1, ![768]⟩

abbrev nBuf : Space → Nat
  | .hbm => 26
  | .vmem => 24
  | .smem => 0
  | _ => 0

abbrev bufTy : (tb : Table) → Fin (tcTables nBuf tb) → BufTy
  | .hbm, ⟨0, _⟩ => ⟨S768x128x8x8, .f32⟩
  | .hbm, ⟨1, _⟩ => ⟨S9x128x32, .f32⟩
  | .hbm, ⟨2, _⟩ => ⟨S9x32x64, .f32⟩
  | .hbm, ⟨3, _⟩ => ⟨S9x64x128, .f32⟩
  | .hbm, ⟨4, _⟩ => ⟨S1x32, .f32⟩
  | .hbm, ⟨5, _⟩ => ⟨S1x64, .f32⟩
  | .hbm, ⟨6, _⟩ => ⟨S1x128, .f32⟩
  | .hbm, ⟨7, _⟩ => ⟨S128x128, .f32⟩
  | .hbm, ⟨8, _⟩ => ⟨S1x128, .f32⟩
  | .hbm, ⟨9, _⟩ => ⟨S256x64, .f32⟩
  | .hbm, ⟨10, _⟩ => ⟨S1x64, .f32⟩
  | .hbm, ⟨11, _⟩ => ⟨S128x64, .f32⟩
  | .hbm, ⟨12, _⟩ => ⟨S1x64, .f32⟩
  | .hbm, ⟨13, _⟩ => ⟨S64x1, .f32⟩
  | .hbm, ⟨14, _⟩ => ⟨S1x1, .f32⟩
  | .hbm, ⟨15, _⟩ => ⟨S768x8x8x128, .f32⟩
  | .hbm, ⟨16, _⟩ => ⟨S_, .i32⟩
  | .hbm, ⟨17, _⟩ => ⟨S_, .f32⟩
  | .hbm, ⟨18, _⟩ => ⟨S768x10x10x128, .f32⟩
  | .hbm, ⟨19, _⟩ => ⟨S49152x128, .f32⟩
  | .hbm, ⟨20, _⟩ => ⟨S49152x4, .f32⟩
  | .hbm, ⟨21, _⟩ => ⟨S768x256, .f32⟩
  | .hbm, ⟨22, _⟩ => ⟨S49152x2, .f32⟩
  | .hbm, ⟨23, _⟩ => ⟨S768x128, .f32⟩
  | .hbm, ⟨24, _⟩ => ⟨S768x64, .f32⟩
  | .hbm, ⟨25, _⟩ => ⟨S768x1, .f32⟩
  | .local _ .vmem, ⟨0, _⟩ => ⟨S8x10x10x128, .f32⟩
  | .local _ .vmem, ⟨1, _⟩ => ⟨S8x10x10x128, .f32⟩
  | .local _ .vmem, ⟨2, _⟩ => ⟨S9x128x32, .f32⟩
  | .local _ .vmem, ⟨3, _⟩ => ⟨S1x32, .f32⟩
  | .local _ .vmem, ⟨4, _⟩ => ⟨S9x32x64, .f32⟩
  | .local _ .vmem, ⟨5, _⟩ => ⟨S1x64, .f32⟩
  | .local _ .vmem, ⟨6, _⟩ => ⟨S9x64x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S8x10x10x32, .f32⟩
  | .local _ .vmem, ⟨13, _⟩ => ⟨S8x10x10x64, .f32⟩
  | .local _ .vmem, ⟨14, _⟩ => ⟨S768x256, .f32⟩
  | .local _ .vmem, ⟨15, _⟩ => ⟨S768x128, .f32⟩
  | .local _ .vmem, ⟨16, _⟩ => ⟨S256x64, .f32⟩
  | .local _ .vmem, ⟨17, _⟩ => ⟨S1x64, .f32⟩
  | .local _ .vmem, ⟨18, _⟩ => ⟨S128x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S768x64, .f32⟩
  | .local _ .vmem, ⟨23, _⟩ => ⟨S768x1, .f32⟩
  | _, _ => ⟨S768x128x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21

abbrev nD : Nat := 1
abbrev τ : Topo := Topo.v7x

variable {F : FTy → Type} [FloatOps F]

abbrev grid0 : Pipeline.Grid := ⟨1, ![96], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x10x10x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S768x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S768x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S768x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S768x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  transposes_S768x128x8x8_S768x8x8x128_0_2_3_1 : S768x128x8x8.Transposes [0, 2, 3, 1] S768x8x8x128
  pads_S768x8x8x128_S768x10x10x128_000_110_110_000 : S768x8x8x128.Pads (![0, 1, 1, 0] : Fin 4 → Nat) ![0, 1, 1, 0] ![0, 0, 0, 0] S768x10x10x128
  h_S_ : 0 < S_.numel
  inb_S9x128x32_S9x128x32_0_0_0 : ∀ a, (![0, 0, 0] : Fin 3 → Nat) a + S9x128x32.size a ≤ S9x128x32.size a
  h_S9x128x32 : 0 < S9x128x32.numel
  inb_S8x10x10x128_S8x8x8x128_0_0_0_0 : ∀ a, (![0, 0, 0, 0] : Fin 4 → Nat) a + S8x8x8x128.size a ≤ S8x10x10x128.size a
  h_S8x8x8x128 : 0 < S8x8x8x128.numel
  shapeCasts_S8x8x8x128_S8x8x8x128 : S8x8x8x128.ShapeCasts S8x8x8x128
  shapeCasts_S8x8x8x128_S512x128 : S8x8x8x128.ShapeCasts S512x128
  slices_S9x128x32_o0_0_0_S1x128x32 : S9x128x32.Slices ![0, 0, 0] S1x128x32
  shapeCasts_S1x128x32_S128x32 : S1x128x32.ShapeCasts S128x32
  inb_S8x10x10x128_S8x8x8x128_0_0_1_0 : ∀ a, (![0, 0, 1, 0] : Fin 4 → Nat) a + S8x8x8x128.size a ≤ S8x10x10x128.size a
  slices_S9x128x32_o1_0_0_S1x128x32 : S9x128x32.Slices ![1, 0, 0] S1x128x32
  inb_S8x10x10x128_S8x8x8x128_0_0_2_0 : ∀ a, (![0, 0, 2, 0] : Fin 4 → Nat) a + S8x8x8x128.size a ≤ S8x10x10x128.size a
  slices_S9x128x32_o2_0_0_S1x128x32 : S9x128x32.Slices ![2, 0, 0] S1x128x32
  inb_S8x10x10x128_S8x8x8x128_0_1_0_0 : ∀ a, (![0, 1, 0, 0] : Fin 4 → Nat) a + S8x8x8x128.size a ≤ S8x10x10x128.size a
  slices_S9x128x32_o3_0_0_S1x128x32 : S9x128x32.Slices ![3, 0, 0] S1x128x32
  inb_S8x10x10x128_S8x8x8x128_0_1_1_0 : ∀ a, (![0, 1, 1, 0] : Fin 4 → Nat) a + S8x8x8x128.size a ≤ S8x10x10x128.size a
  slices_S9x128x32_o4_0_0_S1x128x32 : S9x128x32.Slices ![4, 0, 0] S1x128x32
  inb_S8x10x10x128_S8x8x8x128_0_1_2_0 : ∀ a, (![0, 1, 2, 0] : Fin 4 → Nat) a + S8x8x8x128.size a ≤ S8x10x10x128.size a
  slices_S9x128x32_o5_0_0_S1x128x32 : S9x128x32.Slices ![5, 0, 0] S1x128x32
  inb_S8x10x10x128_S8x8x8x128_0_2_0_0 : ∀ a, (![0, 2, 0, 0] : Fin 4 → Nat) a + S8x8x8x128.size a ≤ S8x10x10x128.size a
  slices_S9x128x32_o6_0_0_S1x128x32 : S9x128x32.Slices ![6, 0, 0] S1x128x32
  inb_S8x10x10x128_S8x8x8x128_0_2_1_0 : ∀ a, (![0, 2, 1, 0] : Fin 4 → Nat) a + S8x8x8x128.size a ≤ S8x10x10x128.size a
  slices_S9x128x32_o7_0_0_S1x128x32 : S9x128x32.Slices ![7, 0, 0] S1x128x32
  inb_S8x10x10x128_S8x8x8x128_0_2_2_0 : ∀ a, (![0, 2, 2, 0] : Fin 4 → Nat) a + S8x8x8x128.size a ≤ S8x10x10x128.size a
  slices_S9x128x32_o8_0_0_S1x128x32 : S9x128x32.Slices ![8, 0, 0] S1x128x32
  inb_S1x32_S1x32_0_0 : ∀ a, (![0, 0] : Fin 2 → Nat) a + S1x32.size a ≤ S1x32.size a
  h_S1x32 : 0 < S1x32.numel
  broadcasts_S1x32_S512x32 : S1x32.Broadcasts S512x32
  inb_S8x10x10x32_S8x10x10x32_0_0_0_0 : ∀ a, (![0, 0, 0, 0] : Fin 4 → Nat) a + S8x10x10x32.size a ≤ S8x10x10x32.size a
  h_S8x10x10x32 : 0 < S8x10x10x32.numel
  shapeCasts_S8x10x10x32_S8x10x10x32 : S8x10x10x32.ShapeCasts S8x10x10x32
  shapeCasts_S512x32_S8x8x8x32 : S512x32.ShapeCasts S8x8x8x32
  inb_S8x10x10x32_S8x8x8x32_0_1_1_0 : ∀ a, (![0, 1, 1, 0] : Fin 4 → Nat) a + S8x8x8x32.size a ≤ S8x10x10x32.size a
  h_S8x8x8x32 : 0 < S8x8x8x32.numel
  shapeCasts_S8x8x8x32_S8x8x8x32 : S8x8x8x32.ShapeCasts S8x8x8x32
  inb_S9x32x64_S9x32x64_0_0_0 : ∀ a, (![0, 0, 0] : Fin 3 → Nat) a + S9x32x64.size a ≤ S9x32x64.size a
  h_S9x32x64 : 0 < S9x32x64.numel
  inb_S8x10x10x32_S8x8x8x32_0_0_0_0 : ∀ a, (![0, 0, 0, 0] : Fin 4 → Nat) a + S8x8x8x32.size a ≤ S8x10x10x32.size a
  shapeCasts_S8x8x8x32_S512x32 : S8x8x8x32.ShapeCasts S512x32
  slices_S9x32x64_o0_0_0_S1x32x64 : S9x32x64.Slices ![0, 0, 0] S1x32x64
  shapeCasts_S1x32x64_S32x64 : S1x32x64.ShapeCasts S32x64
  inb_S8x10x10x32_S8x8x8x32_0_0_1_0 : ∀ a, (![0, 0, 1, 0] : Fin 4 → Nat) a + S8x8x8x32.size a ≤ S8x10x10x32.size a
  slices_S9x32x64_o1_0_0_S1x32x64 : S9x32x64.Slices ![1, 0, 0] S1x32x64
  inb_S8x10x10x32_S8x8x8x32_0_0_2_0 : ∀ a, (![0, 0, 2, 0] : Fin 4 → Nat) a + S8x8x8x32.size a ≤ S8x10x10x32.size a
  slices_S9x32x64_o2_0_0_S1x32x64 : S9x32x64.Slices ![2, 0, 0] S1x32x64
  inb_S8x10x10x32_S8x8x8x32_0_1_0_0 : ∀ a, (![0, 1, 0, 0] : Fin 4 → Nat) a + S8x8x8x32.size a ≤ S8x10x10x32.size a
  slices_S9x32x64_o3_0_0_S1x32x64 : S9x32x64.Slices ![3, 0, 0] S1x32x64
  slices_S9x32x64_o4_0_0_S1x32x64 : S9x32x64.Slices ![4, 0, 0] S1x32x64
  inb_S8x10x10x32_S8x8x8x32_0_1_2_0 : ∀ a, (![0, 1, 2, 0] : Fin 4 → Nat) a + S8x8x8x32.size a ≤ S8x10x10x32.size a
  slices_S9x32x64_o5_0_0_S1x32x64 : S9x32x64.Slices ![5, 0, 0] S1x32x64
  inb_S8x10x10x32_S8x8x8x32_0_2_0_0 : ∀ a, (![0, 2, 0, 0] : Fin 4 → Nat) a + S8x8x8x32.size a ≤ S8x10x10x32.size a
  slices_S9x32x64_o6_0_0_S1x32x64 : S9x32x64.Slices ![6, 0, 0] S1x32x64
  inb_S8x10x10x32_S8x8x8x32_0_2_1_0 : ∀ a, (![0, 2, 1, 0] : Fin 4 → Nat) a + S8x8x8x32.size a ≤ S8x10x10x32.size a
  slices_S9x32x64_o7_0_0_S1x32x64 : S9x32x64.Slices ![7, 0, 0] S1x32x64
  inb_S8x10x10x32_S8x8x8x32_0_2_2_0 : ∀ a, (![0, 2, 2, 0] : Fin 4 → Nat) a + S8x8x8x32.size a ≤ S8x10x10x32.size a
  slices_S9x32x64_o8_0_0_S1x32x64 : S9x32x64.Slices ![8, 0, 0] S1x32x64
  inb_S1x64_S1x64_0_0 : ∀ a, (![0, 0] : Fin 2 → Nat) a + S1x64.size a ≤ S1x64.size a
  h_S1x64 : 0 < S1x64.numel
  broadcasts_S1x64_S512x64 : S1x64.Broadcasts S512x64
  inb_S8x10x10x64_S8x10x10x64_0_0_0_0 : ∀ a, (![0, 0, 0, 0] : Fin 4 → Nat) a + S8x10x10x64.size a ≤ S8x10x10x64.size a
  h_S8x10x10x64 : 0 < S8x10x10x64.numel
  shapeCasts_S8x10x10x64_S8x10x10x64 : S8x10x10x64.ShapeCasts S8x10x10x64
  shapeCasts_S512x64_S8x8x8x64 : S512x64.ShapeCasts S8x8x8x64
  inb_S8x10x10x64_S8x8x8x64_0_1_1_0 : ∀ a, (![0, 1, 1, 0] : Fin 4 → Nat) a + S8x8x8x64.size a ≤ S8x10x10x64.size a
  h_S8x8x8x64 : 0 < S8x8x8x64.numel
  shapeCasts_S8x8x8x64_S8x8x8x64 : S8x8x8x64.ShapeCasts S8x8x8x64
  inb_S9x64x128_S9x64x128_0_0_0 : ∀ a, (![0, 0, 0] : Fin 3 → Nat) a + S9x64x128.size a ≤ S9x64x128.size a
  h_S9x64x128 : 0 < S9x64x128.numel
  inb_S8x10x10x64_S8x8x8x64_0_0_0_0 : ∀ a, (![0, 0, 0, 0] : Fin 4 → Nat) a + S8x8x8x64.size a ≤ S8x10x10x64.size a
  shapeCasts_S8x8x8x64_S512x64 : S8x8x8x64.ShapeCasts S512x64
  slices_S9x64x128_o0_0_0_S1x64x128 : S9x64x128.Slices ![0, 0, 0] S1x64x128
  shapeCasts_S1x64x128_S64x128 : S1x64x128.ShapeCasts S64x128
  inb_S8x10x10x64_S8x8x8x64_0_0_1_0 : ∀ a, (![0, 0, 1, 0] : Fin 4 → Nat) a + S8x8x8x64.size a ≤ S8x10x10x64.size a
  slices_S9x64x128_o1_0_0_S1x64x128 : S9x64x128.Slices ![1, 0, 0] S1x64x128
  inb_S8x10x10x64_S8x8x8x64_0_0_2_0 : ∀ a, (![0, 0, 2, 0] : Fin 4 → Nat) a + S8x8x8x64.size a ≤ S8x10x10x64.size a
  slices_S9x64x128_o2_0_0_S1x64x128 : S9x64x128.Slices ![2, 0, 0] S1x64x128
  inb_S8x10x10x64_S8x8x8x64_0_1_0_0 : ∀ a, (![0, 1, 0, 0] : Fin 4 → Nat) a + S8x8x8x64.size a ≤ S8x10x10x64.size a
  slices_S9x64x128_o3_0_0_S1x64x128 : S9x64x128.Slices ![3, 0, 0] S1x64x128
  slices_S9x64x128_o4_0_0_S1x64x128 : S9x64x128.Slices ![4, 0, 0] S1x64x128
  inb_S8x10x10x64_S8x8x8x64_0_1_2_0 : ∀ a, (![0, 1, 2, 0] : Fin 4 → Nat) a + S8x8x8x64.size a ≤ S8x10x10x64.size a
  slices_S9x64x128_o5_0_0_S1x64x128 : S9x64x128.Slices ![5, 0, 0] S1x64x128
  inb_S8x10x10x64_S8x8x8x64_0_2_0_0 : ∀ a, (![0, 2, 0, 0] : Fin 4 → Nat) a + S8x8x8x64.size a ≤ S8x10x10x64.size a
  slices_S9x64x128_o6_0_0_S1x64x128 : S9x64x128.Slices ![6, 0, 0] S1x64x128
  inb_S8x10x10x64_S8x8x8x64_0_2_1_0 : ∀ a, (![0, 2, 1, 0] : Fin 4 → Nat) a + S8x8x8x64.size a ≤ S8x10x10x64.size a
  slices_S9x64x128_o7_0_0_S1x64x128 : S9x64x128.Slices ![7, 0, 0] S1x64x128
  inb_S8x10x10x64_S8x8x8x64_0_2_2_0 : ∀ a, (![0, 2, 2, 0] : Fin 4 → Nat) a + S8x8x8x64.size a ≤ S8x10x10x64.size a
  slices_S9x64x128_o8_0_0_S1x64x128 : S9x64x128.Slices ![8, 0, 0] S1x64x128
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  slices_S49152x128_S49152x4_0_0 : S49152x128.Slices ![0, 0] S49152x4
  shapeCasts_S49152x4_S768x256 : S49152x4.ShapeCasts S768x256
  slices_S49152x128_S49152x2_0_4 : S49152x128.Slices ![0, 4] S49152x2
  shapeCasts_S49152x2_S768x128 : S49152x2.ShapeCasts S768x128
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S256x64_S256x64_0_0 : ∀ a, (![0, 0] : Fin 2 → Nat) a + S256x64.size a ≤ S256x64.size a
  h_S256x64 : 0 < S256x64.numel
  broadcasts_S1x64_S768x64 : S1x64.Broadcasts S768x64
  reduces_S768x64_S768 : S768x64.Reduces [1] S768
  shapeCasts_S768_S768x1 : S768.ShapeCasts S768x1
  broadcasts_S768x1_S768x64 : S768x1.Broadcasts S768x64
  inb_S768x64_S768x64_0_0 : ∀ a, (![0, 0] : Fin 2 → Nat) a + S768x64.size a ≤ S768x64.size a
  h_S768x64 : 0 < S768x64.numel
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  broadcasts_S1x1_S768x1 : S1x1.Broadcasts S768x1
  inb_S768x1_S768x1_0_0 : ∀ a, (![0, 0] : Fin 2 → Nat) a + S768x1.size a ≤ S768x1.size a
  h_S768x1 : 0 < S768x1.numel
  dot_S512x128_S128x32_S512x32_1_0_0_1_n_n_wf : DotDims.WF S512x128 S128x32 S512x32 [1] [0] [0] [1] [] []
  dot_S512x32_S32x64_S512x64_1_0_0_1_n_n_wf : DotDims.WF S512x32 S32x64 S512x64 [1] [0] [0] [1] [] []
  dot_S512x64_S64x128_S512x128_1_0_0_1_n_n_wf : DotDims.WF S512x64 S64x128 S512x128 [1] [0] [0] [1] [] []
  dot_S512x128_S128x128_S512x128_1_0_0_1_n_n_wf : DotDims.WF S512x128 S128x128 S512x128 [1] [0] [0] [1] [] []
  dot_S768x256_S256x64_S768x64_1_0_0_1_n_n_wf : DotDims.WF S768x256 S256x64 S768x64 [1] [0] [0] [1] [] []
  dot_S768x128_S128x64_S768x64_1_0_0_1_n_n_wf : DotDims.WF S768x128 S128x64 S768x64 [1] [0] [0] [1] [] []
  dot_S768x64_S64x1_S768x1_1_0_0_1_n_n_wf : DotDims.WF S768x64 S64x1 S768x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x10x10x128.size a ≤ S768x10x10x128.size a
  hwx0_0 : ∀ i : grid0.Coords, EltTy.bits .f32 = 32 ∨ (Rect.block (s := S768x10x10x128) S8x10x10x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x32.size a ≤ S9x128x32.size a
  hwx0_1 : ∀ i : grid0.Coords, EltTy.bits .f32 = 32 ∨ (Rect.block (s := S9x128x32) S9x128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x32x64.size a ≤ S9x32x64.size a
  hwx0_3 : ∀ i : grid0.Coords, EltTy.bits .f32 = 32 ∨ (Rect.block (s := S9x32x64) S9x32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x64x128.size a ≤ S9x64x128.size a
  hwx0_5 : ∀ i : grid0.Coords, EltTy.bits .f32 = 32 ∨ (Rect.block (s := S9x64x128) S9x64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S49152x128.size a
  hwx0_9 : ∀ i : grid0.Coords, EltTy.bits .f32 = 32 ∨ (Rect.block (s := S49152x128) S512x128.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S768x256.size a ≤ S768x256.size a
  hwx1_0 : ∀ i : grid1.Coords, EltTy.bits .f32 = 32 ∨ (Rect.block (s := S768x256) S768x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x128.size a ≤ S768x128.size a
  hwx1_1 : ∀ i : grid1.Coords, EltTy.bits .f32 = 32 ∨ (Rect.block (s := S768x128) S768x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S768x64.size a ≤ S768x64.size a
  hwx1_8 : ∀ i : grid1.Coords, EltTy.bits .f32 = 32 ∨ (Rect.block (s := S768x64) S768x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S768x1.size a ≤ S768x1.size a
  hwx1_9 : ∀ i : grid1.Coords, EltTy.bits .f32 = 32 ∨ (Rect.block (s := S768x1) S768x1.size (cc1_transform_9 i) (hinb1_9 i)).WholeWords (EltTy.packing .f32)

variable [Facts₀]

def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x32_S32x64_S512x64_1_0_0_1_n_n : DotDims S512x32 S32x64 S512x64 where
  lhsContracting := [1]
  rhsContracting := [0]
  lhsNonContracting := [0]
  rhsNonContracting := [1]
  lhsBatch := []
  rhsBatch := []
  wf := dot_S512x32_S32x64_S512x64_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S768x256_S256x64_S768x64_1_0_0_1_n_n : DotDims S768x256 S256x64 S768x64 where
  lhsContracting := [1]
  rhsContracting := [0]
  lhsNonContracting := [0]
  rhsNonContracting := [1]
  lhsBatch := []
  rhsBatch := []
  wf := dot_S768x256_S256x64_S768x64_1_0_0_1_n_n_wf
def dot_S768x128_S128x64_S768x64_1_0_0_1_n_n : DotDims S768x128 S128x64 S768x64 where
  lhsContracting := [1]
  rhsContracting := [0]
  lhsNonContracting := [0]
  rhsNonContracting := [1]
  lhsBatch := []
  rhsBatch := []
  wf := dot_S768x128_S128x64_S768x64_1_0_0_1_n_n_wf
def dot_S768x64_S64x1_S768x1_1_0_0_1_n_n : DotDims S768x64 S64x1 S768x1 where
  lhsContracting := [1]
  rhsContracting := [0]
  lhsNonContracting := [0]
  rhsNonContracting := [1]
  lhsBatch := []
  rhsBatch := []
  wf := dot_S768x64_S64x1_S768x1_1_0_0_1_n_n_wf

abbrev win0_0 : Pipeline.Window sig grid0 :=
  Pipeline.Window.ofSpec (Memref.whole main_v1) S8x10x10x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S9x32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S9x64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S512x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4) S768x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S768x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7_0) S768x64.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7_1) S768x1.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== Proof.BodyBits.lean ====
/-
  The kernel body of the fused network, run once on symbolic staging memrefs, and the launch around it.

  One grid point handles a chunk of 32 boards.  The body clears a padded copy of the chunk (a border of zeros one
  cell wide around each 8 x 8 board), writes the chunk into its interior, and computes a 3 x 3 convolution as nine
  matrix products of shifted windows of the padded copy, adds the bias and clamps below at zero; it does this three
  times (128 -> 32 -> 64 -> 128 channels), each layer's result written into the interior of the next padded copy.
  The interior rows start at an odd row of 16-bit cells, so each such store reads the enclosing rows of words,
  blends the new rows in and writes the words back.  Then come the pointwise heads (a 128 x 128 product, bias,
  clamp), one product of the flattened heads with the expanded second-stage weights, and the two results: the
  log-softmax of the 64 logits of each board, and the hyperbolic tangent of the value head's 64 -> 1 product.

  What is proved here, for any float values `F`: from the sixteen staging memrefs held whole (the fourteen inputs at
  their contents, the two results' at anything) and the three padded copies at anything, the body runs to its end
  without a fault, gives back the inputs unchanged and the padded copies at some contents, and leaves in each result's
  memref the list of stores the run found (`kernelRun`).  Those stores cover each result's block, so the block after
  the body is a function of the input blocks alone (`outP`, `outV`).  With that as the pipeline's data the launch
  theorem gives the run of the whole program, and the argument arrays end as they began.
-/
import proofs.«124053_g2000309348811089_pallasbulk_1112_2_alg».proof.Proof.Gen.Kernel.Frame
import proofs.«124053_g2000309348811089_pallasbulk_1112_2_alg».proof.Proof.Gen.Kernel.Skeleton
import Idealize.ShloMosaic.Lib.Pipeline.Frame
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0_0 (t : Fin cfg0.N) : Memref sig .tc .vmem S32x8x8x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x128x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x32x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9x64x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8192x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x64 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x1 .f32 := win0_15.stage (cfg0.slots t 15)
abbrev hs0_15 (t : Fin cfg0.N) : (ms0_15 t).IsWhole := hstage0_15 ((cfg0.slots t 15).cast nbuf0_15)

/-- The three padded copies, whole. -/
abbrev scM0_0 : Memref sig .tc .vmem S32x10x10x128 .bf16 := Memref.whole cc0_scratch0
abbrev scM0_1 : Memref sig .tc .vmem S32x10x10x32 .bf16 := Memref.whole cc0_scratch1
abbrev scM0_2 : Memref sig .tc .vmem S32x10x10x64 .bf16 := Memref.whole cc0_scratch2

/-- The launch's invariant is the three padded copies, each owned whole at some contents, and the generator
    register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ ∃ r, prngReg c r) := by
  unfold Pipeline.ΦA; rw [scopedRest0_eq]; simp only [scM0_0, scM0_1, scM0_2, owns_whole]; try rfl

/-! ## The body's run -/

set_option maxHeartbeats 4000000 in
/-- The stores the body leaves in the two results' memrefs (latest first), with the proof that the body runs to
    its end from the inputs held at `x0 … x13`, the results' memrefs and the padded copies at anything. -/
noncomputable def kernelRun (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) :
    { L : List (View.Piece (Elt F) S32x64 .f32) × List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L.1) ∗ (∃ f, arg16.view.loc (c : Thread nD τ) ↦[arg16.view.set]{fullShare} arg16.view.writes (Elt F) f L.2) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_⟩, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Body

end
-- ==== Proof.FrameBits.lean ====
/-
  The launch around the kernel body: the pipeline's data, the body at every grid point, the run of the whole
  program, and the frame.

  Point `t` of the 24 stages boards 32 t … 32 t + 31 of the input and the thirteen parameter arrays whole; after the
  body each input's memref holds its block still, and the two results' memrefs hold `outP` and `outV` of the input
  blocks — the stores the body's run found, read as one array each (they cover the block).  Nothing is carried from
  one point to the next: the padded copies are cleared before they are read.
-/
import proofs.«124053_g2000309348811089_pallasbulk_1112_2_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two results' memrefs hold after the body -/

/-- The stores into the log-probabilities' memref tile its 32 x 64 block, so they cover it. -/
theorem coverP (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) (y : S32x64.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.1 S32x64.size (by sl_kernel_rfl) y

/-- The stores into the values' memref tile its 32 x 1 block, so they cover it. -/
theorem coverV (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) (y : S32x1.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.2, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.2 S32x1.size (by sl_kernel_rfl) y

/-- The log-probabilities' block after the body: its stores read as one array. -/
def outP (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) : Vec F S32x64 .f32 :=
  View.canon (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.1

/-- The values' block after the body. -/
def outV (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) : Vec F S32x1 .f32 :=
  View.canon (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.2

/-- The two blocks after the body at point `t`: at the point's memrefs and input blocks. -/
def outPAt (c : Dev nD) (t : Fin cfg0.N) : Vec F S32x64 .f32 :=
  outP c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
def outVAt (c : Dev nD) (t : Fin cfg0.N) : Vec F S32x1 .f32 :=
  outV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-! ## The pipeline's data -/

/-- On core `c`: the arrays as the region finds them; after the body at point `t` each input's memref at its block
    and the results' at `outPAt`, `outVAt`; the invariant the padded copies and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outPAt m c t
    | ⟨15, _⟩ => outVAt m c t
    | ⟨_ + 16, h⟩ => absurd h (Nat.not_lt.2 (Nat.le_add_left 16 _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outPAt m c t := by dsimp only [dats]
theorem after0_15 (c : Dev nD) (t : Fin cfg0.N) : (dats m 0 c).after 15 t = outVAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 1600000 in
/-- The body at any point: the inputs' memrefs hold their blocks, so the run applies; the invariant hands the body
    the padded copies at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  unfold outPAt outVAt
  unfold outP outV
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  isplitl [HS2]; · iexact HS2
  iintro ⟨H0, H1, H2, H3, H4, H5, H6, H7, H8, H9, H10, H11, H12, H13, ⟨%e14, H14⟩, ⟨%e15, H15⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_eq_canon _ _ _ (coverP c _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; exact View.read_writes_eq_canon _ _ _ (coverV c _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any float values, from any memory with zero counters: every weakly fair execution of
    the program terminates, and every final state has each array of the pipeline at what the data give and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.Kernel.Body

end
-- ==== Proof.BodyIdeal.lean ====
/-
  The kernel body of the fused network, run once on symbolic staging memrefs, and the launch around it.

  One grid point handles a chunk of 32 boards.  The body clears a padded copy of the chunk (a border of zeros one
  cell wide around each 8 x 8 board), writes the chunk into its interior, and computes a 3 x 3 convolution as nine
  matrix products of shifted windows of the padded copy, adds the bias and clamps below at zero; it does this three
  times (128 -> 32 -> 64 -> 128 channels), each layer's result written into the interior of the next padded copy.
  The interior rows start at an odd row of 16-bit cells, so each such store reads the enclosing rows of words,
  blends the new rows in and writes the words back.  Then come the pointwise heads (a 128 x 128 product, bias,
  clamp), one product of the flattened heads with the expanded second-stage weights, and the two results: the
  log-softmax of the 64 logits of each board, and the hyperbolic tangent of the value head's 64 -> 1 product.

  What is proved here, for any float values `F`: from the sixteen staging memrefs held whole (the fourteen inputs at
  their contents, the two results' at anything) and the three padded copies at anything, the body runs to its end
  without a fault, gives back the inputs unchanged and the padded copies at some contents, and leaves in each result's
  memref the list of stores the run found (`kernelRun`).  Those stores cover each result's block, so the block after
  the body is a function of the input blocks alone (`outP`, `outV`).  With that as the pipeline's data the launch
  theorem gives the run of the whole program, and the argument arrays end as they began.
-/
import proofs.«124053_g2000309348811089_pallasbulk_1112_2_alg».proof.Proof.Gen.KernelIdeal.Frame
import proofs.«124053_g2000309348811089_pallasbulk_1112_2_alg».proof.Proof.Gen.KernelIdeal.Skeleton
import Idealize.ShloMosaic.Lib.Pipeline.Frame
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0_0 (t : Fin cfg0.N) : Memref sig .tc .vmem S32x8x8x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x128x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x32x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9x64x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8192x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x64 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x1 .f32 := win0_15.stage (cfg0.slots t 15)
abbrev hs0_15 (t : Fin cfg0.N) : (ms0_15 t).IsWhole := hstage0_15 ((cfg0.slots t 15).cast nbuf0_15)

/-- The three padded copies, whole. -/
abbrev scM0_0 : Memref sig .tc .vmem S32x10x10x128 .bf16 := Memref.whole cc0_scratch0
abbrev scM0_1 : Memref sig .tc .vmem S32x10x10x32 .bf16 := Memref.whole cc0_scratch1
abbrev scM0_2 : Memref sig .tc .vmem S32x10x10x64 .bf16 := Memref.whole cc0_scratch2

/-- The launch's invariant is the three padded copies, each owned whole at some contents, and the generator
    register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ ∃ r, prngReg c r) := by
  unfold Pipeline.ΦA; rw [scopedRest0_eq]; simp only [scM0_0, scM0_1, scM0_2, owns_whole]; try rfl

/-! ## The body's run -/

set_option maxHeartbeats 4000000 in
/-- The stores the body leaves in the two results' memrefs (latest first), with the proof that the body runs to
    its end from the inputs held at `x0 … x13`, the results' memrefs and the padded copies at anything. -/
noncomputable def kernelRun (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) :
    { L : List (View.Piece (Elt F) S32x64 .f32) × List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L.1) ∗ (∃ f, arg16.view.loc (c : Thread nD τ) ↦[arg16.view.set]{fullShare} arg16.view.writes (Elt F) f L.2) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_⟩, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Body

end
-- ==== Proof.FrameIdeal.lean ====
/-
  The launch around the kernel body: the pipeline's data, the body at every grid point, the run of the whole
  program, and the frame.

  Point `t` of the 24 stages boards 32 t … 32 t + 31 of the input and the thirteen parameter arrays whole; after the
  body each input's memref holds its block still, and the two results' memrefs hold `outP` and `outV` of the input
  blocks — the stores the body's run found, read as one array each (they cover the block).  Nothing is carried from
  one point to the next: the padded copies are cleared before they are read.
-/
import proofs.«124053_g2000309348811089_pallasbulk_1112_2_alg».proof.Proof.BodyIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two results' memrefs hold after the body -/

/-- The stores into the log-probabilities' memref tile its 32 x 64 block, so they cover it. -/
theorem coverP (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) (y : S32x64.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.1 S32x64.size (by sl_kernel_rfl) y

/-- The stores into the values' memref tile its 32 x 1 block, so they cover it. -/
theorem coverV (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) (y : S32x1.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.2, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.2 S32x1.size (by sl_kernel_rfl) y

/-- The log-probabilities' block after the body: its stores read as one array. -/
def outP (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) : Vec F S32x64 .f32 :=
  View.canon (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.1

/-- The values' block after the body. -/
def outV (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) : Vec F S32x1 .f32 :=
  View.canon (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1.2

/-- The two blocks after the body at point `t`: at the point's memrefs and input blocks. -/
def outPAt (c : Dev nD) (t : Fin cfg0.N) : Vec F S32x64 .f32 :=
  outP c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
def outVAt (c : Dev nD) (t : Fin cfg0.N) : Vec F S32x1 .f32 :=
  outV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-! ## The pipeline's data -/

/-- On core `c`: the arrays as the region finds them; after the body at point `t` each input's memref at its block
    and the results' at `outPAt`, `outVAt`; the invariant the padded copies and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outPAt m c t
    | ⟨15, _⟩ => outVAt m c t
    | ⟨_ + 16, h⟩ => absurd h (Nat.not_lt.2 (Nat.le_add_left 16 _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outPAt m c t := by dsimp only [dats]
theorem after0_15 (c : Dev nD) (t : Fin cfg0.N) : (dats m 0 c).after 15 t = outVAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 1600000 in
/-- The body at any point: the inputs' memrefs hold their blocks, so the run applies; the invariant hands the body
    the padded copies at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  unfold outPAt outVAt
  unfold outP outV
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  isplitl [HS2]; · iexact HS2
  iintro ⟨H0, H1, H2, H3, H4, H5, H6, H7, H8, H9, H10, H11, H12, H13, ⟨%e14, H14⟩, ⟨%e15, H15⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_eq_canon _ _ _ (coverP c _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; exact View.read_writes_eq_canon _ _ _ (coverV c _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any float values, from any memory with zero counters: every weakly fair execution of
    the program terminates, and every final state has each array of the pipeline at what the data give and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.KernelIdeal.Body

end
-- ==== Proof.KTerm.lean ====
/-
  What the kernel body leaves in its two results' memrefs, written as one term over the input blocks.

  The three padded copies are lists of two stores each (the clearing store, then the rows 1 … 8 written back with the
  layer's boards blended in); a window is a covered load of such a list; a layer's boards are the printed arithmetic
  of nine windows, the weights and the bias.  The two results are the printed arithmetic of the third layer's boards,
  the head weights, the expanded second-stage weights and the biases.  `outP_eq` and `outV_eq` say that the stores the
  body's run found are exactly these terms.
-/
import proofs.«124053_g2000309348811089_pallasbulk_1112_2_alg».proof.Proof.FrameIdeal

set_option maxRecDepth 16384

noncomputable section

namespace Cert.KernelIdeal.KTerm

open Cert.KernelIdeal Cert.KernelIdeal.Gen Cert.KernelIdeal.Body
open Idealize.ShloMosaic Idealize.ShloMosaic.TcCoe Idealize.ShloMosaic.Tactic
open Idealize.SL Idealize.SL.Sem

variable {F : FTy → Type} [FloatOps F]

variable (V17 : View sig .tc .vmem S32x10x10x128 .bf16) (V18 : View sig .tc .vmem S32x10x10x32 .bf16)
  (V19 : View sig .tc .vmem S32x10x10x64 .bf16)

/-- The whole padded copy with 128 channels, and its rows 1 … 8. -/
abbrev whole17 : Rect S32x10x10x128 := Rect.unit (s := S32x10x10x128) ![0, 0, 0, 0] S32x10x10x128.size inb_S32x10x10x128_S32x10x10x128_0_0_0_0
abbrev rows17 : Rect S32x10x10x128 := Rect.unit (s := S32x10x10x128) ![0, 1, 0, 0] S32x8x10x128.size inb_S32x10x10x128_S32x8x10x128_0_1_0_0
/-- The whole padded copy with 32 channels, and its rows 1 … 8. -/
abbrev whole18 : Rect S32x10x10x32 := Rect.unit (s := S32x10x10x32) ![0, 0, 0, 0] S32x10x10x32.size inb_S32x10x10x32_S32x10x10x32_0_0_0_0
abbrev rows18 : Rect S32x10x10x32 := Rect.unit (s := S32x10x10x32) ![0, 1, 0, 0] S32x8x10x32.size inb_S32x10x10x32_S32x8x10x32_0_1_0_0
/-- The whole padded copy with 64 channels, and its rows 1 … 8. -/
abbrev whole19 : Rect S32x10x10x64 := Rect.unit (s := S32x10x10x64) ![0, 0, 0, 0] S32x10x10x64.size inb_S32x10x10x64_S32x10x10x64_0_0_0_0
abbrev rows19 : Rect S32x10x10x64 := Rect.unit (s := S32x10x10x64) ![0, 1, 0, 0] S32x8x10x64.size inb_S32x10x10x64_S32x8x10x64_0_1_0_0

/-- The first padded copy after its two stores (latest first): rows 1 … 8 with the input boards blended into columns
    1 … 8 of what the clearing store left, over the clearing store. -/
def buf17 (x0 : Vec F S32x8x8x128 .bf16) : List (View.Piece (Elt F) S32x10x10x128 .bf16) :=
  [⟨rows17, updateSlice (V17.readCov [⟨whole17, k0_pay1⟩] rows17.toLoadRect) (k0_pay2 x0) ![0, 0, 1, 0] slices_S32x8x10x128_S32x8x8x128_0_0_1_0⟩,
   ⟨whole17, k0_pay1⟩]
def w17_00 (x0 : Vec F S32x8x8x128 .bf16) : Vec F S32x8x8x128 .bf16 :=
  V17.readCov (buf17 V17 x0) (Rect.unit (s := S32x10x10x128) ![0, 0, 0, 0] S32x8x8x128.size inb_S32x10x10x128_S32x8x8x128_0_0_0_0).toLoadRect
def w17_01 (x0 : Vec F S32x8x8x128 .bf16) : Vec F S32x8x8x128 .bf16 :=
  V17.readCov (buf17 V17 x0) (Rect.unit (s := S32x10x10x128) ![0, 0, 1, 0] S32x8x8x128.size inb_S32x10x10x128_S32x8x8x128_0_0_1_0).toLoadRect
def w17_02 (x0 : Vec F S32x8x8x128 .bf16) : Vec F S32x8x8x128 .bf16 :=
  V17.readCov (buf17 V17 x0) (Rect.unit (s := S32x10x10x128) ![0, 0, 2, 0] S32x8x8x128.size inb_S32x10x10x128_S32x8x8x128_0_0_2_0).toLoadRect
def w17_10 (x0 : Vec F S32x8x8x128 .bf16) : Vec F S32x8x8x128 .bf16 :=
  V17.readCov (buf17 V17 x0) (Rect.unit (s := S32x10x10x128) ![0, 1, 0, 0] S32x8x8x128.size inb_S32x10x10x128_S32x8x8x128_0_1_0_0).toLoadRect
def w17_11 (x0 : Vec F S32x8x8x128 .bf16) : Vec F S32x8x8x128 .bf16 :=
  V17.readCov (buf17 V17 x0) (Rect.unit (s := S32x10x10x128) ![0, 1, 1, 0] S32x8x8x128.size inb_S32x10x10x128_S32x8x8x128_0_1_1_0).toLoadRect
def w17_12 (x0 : Vec F S32x8x8x128 .bf16) : Vec F S32x8x8x128 .bf16 :=
  V17.readCov (buf17 V17 x0) (Rect.unit (s := S32x10x10x128) ![0, 1, 2, 0] S32x8x8x128.size inb_S32x10x10x128_S32x8x8x128_0_1_2_0).toLoadRect
def w17_20 (x0 : Vec F S32x8x8x128 .bf16) : Vec F S32x8x8x128 .bf16 :=
  V17.readCov (buf17 V17 x0) (Rect.unit (s := S32x10x10x128) ![0, 2, 0, 0] S32x8x8x128.size inb_S32x10x10x128_S32x8x8x128_0_2_0_0).toLoadRect
def w17_21 (x0 : Vec F S32x8x8x128 .bf16) : Vec F S32x8x8x128 .bf16 :=
  V17.readCov (buf17 V17 x0) (Rect.unit (s := S32x10x10x128) ![0, 2, 1, 0] S32x8x8x128.size inb_S32x10x10x128_S32x8x8x128_0_2_1_0).toLoadRect
def w17_22 (x0 : Vec F S32x8x8x128 .bf16) : Vec F S32x8x8x128 .bf16 :=
  V17.readCov (buf17 V17 x0) (Rect.unit (s := S32x10x10x128) ![0, 2, 2, 0] S32x8x8x128.size inb_S32x10x10x128_S32x8x8x128_0_2_2_0).toLoadRect

/-- The first layer's boards: the printed arithmetic of the nine windows, the weights and the bias. -/
def act1 (x0 : Vec F S32x8x8x128 .bf16) (x1 : Vec F S9x128x32 .bf16) (x2 : Vec F S1x32 .f32) : FVec F S32x8x8x32 .bf16 :=
  k0_pay8 (k0_pay3 x1)
    (k0_pay6 (k0_pay3 x1) (k0_pay4 x1 (w17_00 V17 x0) (w17_01 V17 x0)) (k0_pay5 (w17_02 V17 x0))
      (w17_10 V17 x0) (w17_11 V17 x0) (w17_12 V17 x0) (w17_20 V17 x0) (w17_21 V17 x0))
    (w17_22 V17 x0) x2

/-- The second padded copy after its two stores. -/
def buf18 (x0 : Vec F S32x8x8x128 .bf16) (x1 : Vec F S9x128x32 .bf16) (x2 : Vec F S1x32 .f32) : List (View.Piece (Elt F) S32x10x10x32 .bf16) :=
  [⟨rows18, updateSlice (V18.readCov [⟨whole18, k0_pay7⟩] rows18.toLoadRect) (act1 V17 x0 x1 x2) ![0, 0, 1, 0] slices_S32x8x10x32_S32x8x8x32_0_0_1_0⟩,
   ⟨whole18, k0_pay7⟩]
def w18_00 (x0 : Vec F S32x8x8x128 .bf16) (x1 : Vec F S9x128x32 .bf16) (x2 : Vec F S1x32 .f32) : Vec F S32x8x8x32 .bf16 :=
  V18.readCov (buf18 V17 V18 x0 x1 x2) (Rect.unit (s := S32x10x10x32) ![0, 0, 0, 0] S32x8x8x32.size inb_S32x10x10x32_S32x8x8x32_0_0_0_0).toLoadRect
def w18_01 (x0 : Vec F S32x8x8x128 .bf16) (x1 : Vec F S9x128x32 .bf16) (x2 : Vec F S1x32 .f32) : Vec F S32x8x8x32 .bf16 :=
  V18.readCov (buf18 V17 V18 x0 x1 x2) (Rect.unit (s := S32x10x10x32) ![0, 0, 1, 0] S32x8x8x32.size inb_S32x10x10x32_S32x8x8x32_0_0_1_0).toLoadRect
def w18_02 (x0 : Vec F S32x8x8x128 .bf16) (x1 : Vec F S9x128x32 .bf16) (x2 : Vec F S1x32 .f32) : Vec F S32x8x8x32 .bf16 :=
  V18.readCov (buf18 V17 V18 x0 x1 x2) (Rect.unit (s := S32x10x10x32) ![0, 0, 2, 0] S32x8x8x32.size inb_S32x10x10x32_S32x8x8x32_0_0_2_0).toLoadRect
def w18_10 (x0 : Vec F S32x8x8x128 .bf16) (x1 : Vec F S9x128x32 .bf16) (x2 : Vec F S1x32 .f32) : Vec F S32x8x8x32 .bf16 :=
  V18.readCov (buf18 V17 V18 x0 x1 x2) (Rect.unit (s := S32x10x10x32) ![0, 1, 0, 0] S32x8x8x32.size inb_S32x10x10x32_S32x8x8x32_0_1_0_0).toLoadRect
def w18_11 (x0 : Vec F S32x8x8x128 .bf16) (x1 : Vec F S9x128x32 .bf16) (x2 : Vec F S1x32 .f32) : Vec F S32x8x8x32 .bf16 :=
  V18.readCov (buf18 V17 V18 x0 x1 x2) (Rect.unit (s := S32x10x10x32) ![0, 1, 1, 0] S32x8x8x32.size inb_S32x10x10x32_S32x8x8x32_0_1_1_0).toLoadRect
def w18_12 (x0 : Vec F S32x8x8x128 .bf16) (x1 : Vec F S9x128x32 .bf16) (x2 : Vec F S1x32 .f32) : Vec F S32x8x8x32 .bf16 :=
  V18.readCov (buf18 V17 V18 x0 x1 x2) (Rect.unit (s := S32x10x10x32) ![0, 1, 2, 0] S32x8x8x32.size inb_S32x10x10x32_S32x8x8x32_0_1_2_0).toLoadRect
def w18_20 (x0 : Vec F S32x8x8x128 .bf16) (x1 : Vec F S9x128x32 .bf16) (x2 : Vec F S1x32 .f32) : Vec F S32x8x8x32 .bf16 :=
  V18.readCov (buf18 V17 V18 x0 x1 x2) (Rect.unit (s := S32x10x10x32) ![0, 2, 0, 0] S32x8x8x32.size inb_S32x10x10x32_S32x8x8x32_0_2_0_0).toLoadRect
def w18_21 (x0 : Vec F S32x8x8x128 .bf16) (x1 : Vec F S9x128x32 .bf16) (x2 : Vec F S1x32 .f32) : Vec F S32x8x8x32 .bf16 :=
  V18.readCov (buf18 V17 V18 x0 x1 x2) (Rect.unit (s := S32x10x10x32) ![0, 2, 1, 0] S32x8x8x32.size inb_S32x10x10x32_S32x8x8x32_0_2_1_0).toLoadRect
def w18_22 (x0 : Vec F S32x8x8x128 .bf16) (x1 : Vec F S9x128x32 .bf16) (x2 : Vec F S1x32 .f32) : Vec F S32x8x8x32 .bf16 :=
  V18.readCov (buf18 V17 V18 x0 x1 x2) (Rect.unit (s := S32x10x10x32) ![0, 2, 2, 0] S32x8x8x32.size inb_S32x10x10x32_S32x8x8x32_0_2_2_0).toLoadRect

/-- The second layer's boards. -/
def act2 (x0 : Vec F S32x8x8x128 .bf16) (x1 : Vec F S9x128x32 .bf16) (x2 : Vec F S1x32 .f32) (x3 : Vec F S9x32x64 .bf16) (x4 : Vec F S1x64 .f32) : FVec F S32x8x8x64 .bf16 :=
  k0_pay15 (k0_pay9 x3)
    (k0_pay11 (k0_pay9 x3) (k0_pay10 x3 (w18_00 V17 V18 x0 x1 x2)) (w18_01 V17 V18 x0 x1 x2) (w18_02 V17 V18 x0 x1 x2) (w18_10 V17 V18 x0 x1 x2) (w18_11 V17 V18 x0 x1 x2) (w18_12 V17 V18 x0 x1 x2))
    (k0_pay12 (w18_20 V17 V18 x0 x1 x2)) (k0_pay13 (k0_pay9 x3)) (w18_21 V17 V18 x0 x1 x2) (w18_22 V17 V18 x0 x1 x2) x4

/-- The third padded copy after its two stores. -/
def buf19 (x0 : Vec F S32x8x8x128 .bf16) (x1 : Vec F S9x128x32 .bf16) (x2 : Vec F S1x32 .f32) (x3 : Vec F S9x32x64 .bf16) (x4 : Vec F S1x64 .f32) : List (View.Piece (Elt F) S32x10x10x64 .bf16) :=
  [⟨rows19, updateSlice (V19.readCov [⟨whole19, k0_pay14⟩] rows19.toLoadRect) (act2 V17 V18 x0 x1 x2 x3 x4) ![0, 0, 1, 0] slices_S32x8x10x64_S32x8x8x64_0_0_1_0⟩,
   ⟨whole19, k0_pay14⟩]
def w19_00 (x0 : Vec F S32x8x8x128 .bf16) (x1 : Vec F S9x128x32 .bf16) (x2 : Vec F S1x32 .f32) (x3 : Vec F S9x32x64 .bf16) (x4 : Vec F S1x64 .f32) : Vec F S32x8x8x64 .bf16 :=
  V19.readCov (buf19 V17 V18 V19 x0 x1 x2 x3 x4) (Rect.unit (s := S32x10x10x64) ![0, 0, 0, 0] S32x8x8x64.size inb_S32x10x10x64_S32x8x8x64_0_0_0_0).toLoadRect
def w19_01 (x0 : Vec F S32x8x8x128 .bf16) (x1 : Vec F S9x128x32 .bf16) (x2 : Vec F S1x32 .f32) (x3 : Vec F S9x32x64 .bf16) (x4 : Vec F S1x64 .f32) : Vec F S32x8x8x64 .bf16 :=
  V19.readCov (buf19 V17 V18 V19 x0 x1 x2 x3 x4) (Rect.unit (s := S32x10x10x64) ![0, 0, 1, 0] S32x8x8x64.size inb_S32x10x10x64_S32x8x8x64_0_0_1_0).toLoadRect
def w19_02 (x0 : Vec F S32x8x8x128 .bf16) (x1 : Vec F S9x128x32 .bf16) (x2 : Vec F S1x32 .f32) (x3 : Vec F S9x32x64 .bf16) (x4 : Vec F S1x64 .f32) : Vec F S32x8x8x64 .bf16 :=
  V19.readCov (buf19 V17 V18 V19 x0 x1 x2 x3 x4) (Rect.unit (s := S32x10x10x64) ![0, 0, 2, 0] S32x8x8x64.size inb_S32x10x10x64_S32x8x8x64_0_0_2_0).toLoadRect
def w19_10 (x0 : Vec F S32x8x8x128 .bf16) (x1 : Vec F S9x128x32 .bf16) (x2 : Vec F S1x32 .f32) (x3 : Vec F S9x32x64 .bf16) (x4 : Vec F S1x64 .f32) : Vec F S32x8x8x64 .bf16 :=
  V19.readCov (buf19 V17 V18 V19 x0 x1 x2 x3 x4) (Rect.unit (s := S32x10x10x64) ![0, 1, 0, 0] S32x8x8x64.size inb_S32x10x10x64_S32x8x8x64_0_1_0_0).toLoadRect
def w19_11 (x0 : Vec F S32x8x8x128 .bf16) (x1 : Vec F S9x128x32 .bf16) (x2 : Vec F S1x32 .f32) (x3 : Vec F S9x32x64 .bf16) (x4 : Vec F S1x64 .f32) : Vec F S32x8x8x64 .bf16 :=
  V19.readCov (buf19 V17 V18 V19 x0 x1 x2 x3 x4) (Rect.unit (s := S32x10x10x64) ![0, 1, 1, 0] S32x8x8x64.size inb_S32x10x10x64_S32x8x8x64_0_1_1_0).toLoadRect
def w19_12 (x0 : Vec F S32x8x8x128 .bf16) (x1 : Vec F S9x128x32 .bf16) (x2 : Vec F S1x32 .f32) (x3 : Vec F S9x32x64 .bf16) (x4 : Vec F S1x64 .f32) : Vec F S32x8x8x64 .bf16 :=
  V19.readCov (buf19 V17 V18 V19 x0 x1 x2 x3 x4) (Rect.unit (s := S32x10x10x64) ![0, 1, 2, 0] S32x8x8x64.size inb_S32x10x10x64_S32x8x8x64_0_1_2_0).toLoadRect
def w19_20 (x0 : Vec F S32x8x8x128 .bf16) (x1 : Vec F S9x128x32 .bf16) (x2 : Vec F S1x32 .f32) (x3 : Vec F S9x32x64 .bf16) (x4 : Vec F S1x64 .f32) : Vec F S32x8x8x64 .bf16 :=
  V19.readCov (buf19 V17 V18 V19 x0 x1 x2 x3 x4) (Rect.unit (s := S32x10x10x64) ![0, 2, 0, 0] S32x8x8x64.size inb_S32x10x10x64_S32x8x8x64_0_2_0_0).toLoadRect
def w19_21 (x0 : Vec F S32x8x8x128 .bf16) (x1 : Vec F S9x128x32 .bf16) (x2 : Vec F S1x32 .f32) (x3 : Vec F S9x32x64 .bf16) (x4 : Vec F S1x64 .f32) : Vec F S32x8x8x64 .bf16 :=
  V19.readCov (buf19 V17 V18 V19 x0 x1 x2 x3 x4) (Rect.unit (s := S32x10x10x64) ![0, 2, 1, 0] S32x8x8x64.size inb_S32x10x10x64_S32x8x8x64_0_2_1_0).toLoadRect
def w19_22 (x0 : Vec F S32x8x8x128 .bf16) (x1 : Vec F S9x128x32 .bf16) (x2 : Vec F S1x32 .f32) (x3 : Vec F S9x32x64 .bf16) (x4 : Vec F S1x64 .f32) : Vec F S32x8x8x64 .bf16 :=
  V19.readCov (buf19 V17 V18 V19 x0 x1 x2 x3 x4) (Rect.unit (s := S32x10x10x64) ![0, 2, 2, 0] S32x8x8x64.size inb_S32x10x10x64_S32x8x8x64_0_2_2_0).toLoadRect

/-- The head channels before the last clamp: the third layer (clamped) times the head weights, plus the head bias, as
    `32 * 64` rows of 128 numbers. -/
def pre (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) : FVec F S2048x128 .f32 :=
  k0_pay19 (k0_pay16 x5)
    (k0_pay18 (k0_pay16 x5) k0_pay17 (w19_00 V17 V18 V19 x0 x1 x2 x3 x4) (w19_01 V17 V18 V19 x0 x1 x2 x3 x4) (w19_02 V17 V18 V19 x0 x1 x2 x3 x4) (w19_10 V17 V18 V19 x0 x1 x2 x3 x4) (w19_11 V17 V18 V19 x0 x1 x2 x3 x4))
    (w19_12 V17 V18 V19 x0 x1 x2 x3 x4) (w19_20 V17 V18 V19 x0 x1 x2 x3 x4) (w19_21 V17 V18 V19 x0 x1 x2 x3 x4) (w19_22 V17 V18 V19 x0 x1 x2 x3 x4) x6 x7 x8

/-- The two results' blocks as terms over the input blocks. -/
def termP (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) : FVec F S32x64 .f32 :=
  k0_pay21 (pre V17 V18 V19 x0 x1 x2 x3 x4 x5 x6 x7 x8) (Scalar.ofBits .f32 0x00000000#32) x9 x10
def termV (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) : FVec F S32x1 .f32 :=
  k0_pay22 (pre V17 V18 V19 x0 x1 x2 x3 x4 x5 x6 x7 x8) (Scalar.ofBits .f32 0x00000000#32) x9 x11 x12 x13

end Cert.KernelIdeal.KTerm

end
-- ==== Proof.KEq.lean ====
/-
  The stores the body's run found ARE the terms of the previous file: each input's memref read whole gives the input
  block, and the one store into each result's memref, through the whole block, leaves its payload.
-/
import proofs.«124053_g2000309348811089_pallasbulk_1112_2_alg».proof.Proof.KTerm
import Idealize.ShloMosaic.Lib.Pipeline.Value

set_option maxRecDepth 16384

noncomputable section

namespace Cert.KernelIdeal.KTerm

open Cert.KernelIdeal Cert.KernelIdeal.Gen Cert.KernelIdeal.Body
open Idealize.ShloMosaic Idealize.ShloMosaic.TcCoe Idealize.ShloMosaic.Tactic
open Idealize.SL Idealize.SL.Sem

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

set_option maxHeartbeats 4000000 in
/-- The log-probabilities' block after the body is `termP` of the input blocks. -/
theorem outP_eq (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) :
    outP c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 = termP arg17.view arg18.view arg19.view x0 x1 x2 x3 x4 x5 x6 x7 x8 x9 x10 x11 x12 x13 := by
  unfold outP kernelRun
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread,
    View.ld_unit_zero (S := S32x8x8x128) hz4, View.ld_unit_zero (S := S9x128x32) hz3, View.ld_unit_zero (S := S1x32) hz2,
    View.ld_unit_zero (S := S9x32x64) hz3, View.ld_unit_zero (S := S1x64) hz2, View.ld_unit_zero (S := S9x64x128) hz3,
    View.ld_unit_zero (S := S1x128) hz2, View.ld_unit_zero (S := S128x128) hz2, View.ld_unit_zero (S := S8192x128) hz2,
    View.ld_unit_zero (S := S1x1) hz2]
  rw [View.canon_unit_zero hz2]
  rfl

set_option maxHeartbeats 4000000 in
/-- The values' block after the body is `termV` of the input blocks. -/
theorem outV_eq (c : Dev nD) (i : grid0.Coords) (arg1 : Memref sig .tc .vmem S32x8x8x128 .bf16) (harg1 : arg1.IsWhole) (arg2 : Memref sig .tc .vmem S9x128x32 .bf16) (harg2 : arg2.IsWhole) (arg3 : Memref sig .tc .vmem S1x32 .f32) (harg3 : arg3.IsWhole) (arg4 : Memref sig .tc .vmem S9x32x64 .bf16) (harg4 : arg4.IsWhole) (arg5 : Memref sig .tc .vmem S1x64 .f32) (harg5 : arg5.IsWhole) (arg6 : Memref sig .tc .vmem S9x64x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S8192x128 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S32x64 .f32) (harg15 : arg15.IsWhole) (arg16 : Memref sig .tc .vmem S32x1 .f32) (harg16 : arg16.IsWhole) (arg17 : Memref sig .tc .vmem S32x10x10x128 .bf16) (harg17 : arg17.IsWhole) (arg18 : Memref sig .tc .vmem S32x10x10x32 .bf16) (harg18 : arg18.IsWhole) (arg19 : Memref sig .tc .vmem S32x10x10x64 .bf16) (harg19 : arg19.IsWhole)
    (x0 : Vec F S32x8x8x128 .bf16) (x1 : Vec F S9x128x32 .bf16) (x2 : Vec F S1x32 .f32) (x3 : Vec F S9x32x64 .bf16) (x4 : Vec F S1x64 .f32) (x5 : Vec F S9x64x128 .bf16) (x6 : Vec F S1x128 .f32) (x7 : Vec F S128x128 .bf16) (x8 : Vec F S1x128 .f32) (x9 : Vec F S8192x128 .bf16) (x10 : Vec F S1x64 .f32) (x11 : Vec F S1x64 .f32) (x12 : Vec F S1x64 .f32) (x13 : Vec F S1x1 .f32) :
    outV c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 = termV arg17.view arg18.view arg19.view x0 x1 x2 x3 x4 x5 x6 x7 x8 x9 x10 x11 x12 x13 := by
  unfold outV kernelRun
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread,
    View.ld_unit_zero (S := S32x8x8x128) hz4, View.ld_unit_zero (S := S9x128x32) hz3, View.ld_unit_zero (S := S1x32) hz2,
    View.ld_unit_zero (S := S9x32x64) hz3, View.ld_unit_zero (S := S1x64) hz2, View.ld_unit_zero (S := S9x64x128) hz3,
    View.ld_unit_zero (S := S1x128) hz2, View.ld_unit_zero (S := S128x128) hz2, View.ld_unit_zero (S := S8192x128) hz2,
    View.ld_unit_zero (S := S1x1) hz2]
  rw [View.canon_unit_zero hz2]
  rfl

end Cert.KernelIdeal.KTerm

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«124053_g2000309348811089_pallasbulk_1112_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibCanonUnit.lean ====
/-
  Reading, at one index, the contents a list of stores leaves when the NEWEST store went through a unit-stride
  rectangle `[off, off + size)`: an index inside the rectangle reads that store's payload at the index minus the
  offsets; an index that misses the rectangle on some axis reads what the earlier stores left. Two general lemmas over
  `View.canon` (the contents as a function of the pieces alone), for any shape, element type and value family.
-/
import Idealize.ShloMosaic.Lib.Pipeline.Value

noncomputable section

namespace Idealize.ShloMosaic.View

variable {Val : EltTy → Type} {S : Shape} {e : EltTy}

/-- An index `y` at position `x` of the newest piece's unit-stride rectangle (`y a = off a + x a` on every axis)
    reads that piece's payload at `x`, whatever the earlier pieces are. -/
theorem canon_cons_unit_of_mem [∀ e, Nonempty (Val e)] {off size : Fin S.rank → Nat}
    (inb : ∀ a, off a + size a ≤ S.size a) (w : (Rect.unit off size inb).shape.Idx → Val e)
    (L : List (Piece Val S e)) (y : S.Idx) (x : (Rect.unit off size inb).shape.Idx)
    (hx : ∀ a, (y a).val = off a + (x a).val) :
    View.canon ((⟨Rect.unit off size inb, w⟩ : Piece Val S e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` reads what the earlier pieces left. -/
theorem canon_cons_unit_of_not_mem [∀ e, Nonempty (Val e)] {off size : Fin S.rank → Nat}
    (inb : ∀ a, off a + size a ≤ S.size a) (w : (Rect.unit off size inb).shape.Idx → Val e)
    (L : List (Piece Val S e)) (y : S.Idx) (a : Fin S.rank)
    (ha : (y a).val < off a ∨ off a + size a ≤ (y a).val) :
    View.canon ((⟨Rect.unit off size inb, w⟩ : Piece Val S e) :: L) y = View.canon L y :=
  View.canon_cons_of_not_mem _ L (fun h => by
    have h' : y ∈ (Rect.unit off size inb).set := h
    have := (Rect.mem_set_unit.mp h') a
    omega)

end Idealize.ShloMosaic.View

end
-- ==== Proof.Spec.lean ====
/-
  The network both programs compute, stated once over the extended reals, board by board.

  A board is an 8 x 8 grid of cells with `C` channels.  A layer pads the board with a border of zeros one cell wide and
  takes, at each cell and each output channel, the sum over the nine positions of a 3 x 3 window and over the input
  channels of the padded board's entry times the weight of that position; the nine partial sums are added in order to
  zero, the bias is added, and the result is kept at least zero.  Three such layers (128 -> 32 -> 64 -> 128 channels)
  are followed by a pointwise layer to 128 head channels (product, bias, kept at least zero).

  From the head channels of a board come its two results.  The 64 logits are the product of the first four head
  channels of the 64 cells (cell-major, 256 numbers) with a 256 x 64 matrix, plus a bias; the result is the logits
  minus their greatest entry, minus the logarithm of the sum of the exponentials of those differences.  The value is
  the hyperbolic tangent of a 64 -> 1 product (plus bias) of a hidden layer: head channels 4 and 5 of the 64 cells
  (128 numbers) times a 128 x 64 matrix, plus a bias, kept at least zero.
-/
import Idealize.ShloMosaic.Lib.ValueIdx
import Idealize.ShloMosaic.PureOps.Ideal

noncomputable section

namespace Cert.Spec

open Idealize.ShloMosaic Idealize.ShloMosaic.ValueIdx

/-- An 8 x 8 board with `C` channels, and a board with its border. -/
abbrev Board (C : ℕ) := Fin 8 → Fin 8 → Fin C → EReal
abbrev Padded (C : ℕ) := Fin 10 → Fin 10 → Fin C → EReal

/-- The board with a border of zeros: cell `(i, j)` of the padded board is cell `(i - 1, j - 1)` of the board when
    both coordinates are in `1 … 8`, and zero on the border. -/
def pad {C : ℕ} (y : Board C) : Padded C := fun i j c =>
  if h : (1 ≤ i.val ∧ i.val ≤ 8) ∧ (1 ≤ j.val ∧ j.val ≤ 8) then y ⟨i.val - 1, by omega⟩ ⟨j.val - 1, by omega⟩ c else 0

/-- Position `k` of the 3 x 3 window (row `k / 3`, column `k % 3`): the sum over the input channels. -/
def tap {Cin Cout : ℕ} (P : Padded Cin) (W : Fin 9 → Fin Cin → Fin Cout → EReal) (k : Fin 9) (i j : Fin 8) (o : Fin Cout) : EReal :=
  ∑ c : Fin Cin, P ⟨i.val + k.val / 3, by omega⟩ ⟨j.val + k.val % 3, by omega⟩ c * W k c o

/-- One layer on a padded board: the nine positions added in order to zero, the bias, kept at least zero. -/
def conv {Cin Cout : ℕ} (P : Padded Cin) (W : Fin 9 → Fin Cin → Fin Cout → EReal) (b : Fin Cout → EReal) : Board Cout :=
  fun i j o =>
    max ((((((((((0 + tap P W 0 i j o) + tap P W 1 i j o) + tap P W 2 i j o) + tap P W 3 i j o) + tap P W 4 i j o)
      + tap P W 5 i j o) + tap P W 6 i j o) + tap P W 7 i j o) + tap P W 8 i j o) + b o) 0

/-- The pointwise layer to the head channels, cell `p = 8 i + j`. -/
def heads (Y : Board 128) (HW : Fin 128 → Fin 128 → EReal) (hb : Fin 128 → EReal) : Fin 64 → Fin 128 → EReal :=
  fun p ch => max ((∑ c : Fin 128, Y ⟨p.val / 8, by omega⟩ ⟨p.val % 8, by omega⟩ c * HW c ch) + hb ch) 0

/-- The logits: the first four head channels of the 64 cells, cell-major, times the 256 x 64 matrix, plus the bias. -/
def logits (H : Fin 64 → Fin 128 → EReal) (pw : Fin 256 → Fin 64 → EReal) (pb : Fin 64 → EReal) : Fin 64 → EReal :=
  fun j => (∑ k : Fin 256, H ⟨k.val / 4, by omega⟩ ⟨k.val % 4, by omega⟩ * pw k j) + pb j

/-- The greatest entry of a row of 64 (starting from the float's least value). -/
def rowMax (l : Fin 64 → EReal) : EReal :=
  (Finset.univ : Finset (Fin 64)).fold max (Ideal.ofBits .f32 0xFF800000#32) l

/-- A row minus its greatest entry, minus the logarithm of the sum of the exponentials of those differences. -/
def logSoftmax (l : Fin 64 → EReal) : Fin 64 → EReal :=
  fun j => (l j - rowMax l) - Ideal.log (∑ k : Fin 64, Ideal.exp (l k - rowMax l))

/-- The value head's hidden layer: head channels 4 and 5 of the 64 cells, cell-major, times the 128 x 64 matrix, plus
    the bias, kept at least zero. -/
def hidden (H : Fin 64 → Fin 128 → EReal) (vw : Fin 128 → Fin 64 → EReal) (vb : Fin 64 → EReal) : Fin 64 → EReal :=
  fun j => max ((∑ k : Fin 128, H ⟨k.val / 2, by omega⟩ ⟨4 + k.val % 2, by omega⟩ * vw k j) + vb j) 0

/-- The value: the hidden layer times the 64 weights, plus the bias, through the hyperbolic tangent. -/
def value (v : Fin 64 → EReal) (w3 : Fin 64 → EReal) (b3 : EReal) : EReal :=
  Ideal.tanh ((∑ j : Fin 64, v j * w3 j) + b3)

/-! ## The parameters as the argument arrays give them, and the two result arrays -/

section arrays

variable (X : (⟨4, ![768, 128, 8, 8]⟩ : Shape).Idx → EReal)
  (A1 : (⟨3, ![9, 128, 32]⟩ : Shape).Idx → EReal) (A2 : (⟨3, ![9, 32, 64]⟩ : Shape).Idx → EReal)
  (A3 : (⟨3, ![9, 64, 128]⟩ : Shape).Idx → EReal)
  (B1 : (⟨2, ![1, 32]⟩ : Shape).Idx → EReal) (B2 : (⟨2, ![1, 64]⟩ : Shape).Idx → EReal) (B3 : (⟨2, ![1, 128]⟩ : Shape).Idx → EReal)
  (HW : (⟨2, ![128, 128]⟩ : Shape).Idx → EReal) (HB : (⟨2, ![1, 128]⟩ : Shape).Idx → EReal)
  (PW : (⟨2, ![256, 64]⟩ : Shape).Idx → EReal) (PB : (⟨2, ![1, 64]⟩ : Shape).Idx → EReal)
  (VW : (⟨2, ![128, 64]⟩ : Shape).Idx → EReal) (VB : (⟨2, ![1, 64]⟩ : Shape).Idx → EReal)
  (W3 : (⟨2, ![64, 1]⟩ : Shape).Idx → EReal) (B4 : (⟨2, ![1, 1]⟩ : Shape).Idx → EReal)

/-- Board `n` of the input (stored channel-major: sample, channel, row, column). -/
def board (n : Fin 768) : Board 128 := fun i j c => X (ix4 n c i j)

/-- The three layers on board `n`. -/
def layer1 (n : Fin 768) : Board 32 := conv (pad (board X n)) (fun k c o => A1 (ix3 k c o)) (fun o => B1 (ix2 0 o))
def layer2 (n : Fin 768) : Board 64 := conv (pad (layer1 X A1 B1 n)) (fun k c o => A2 (ix3 k c o)) (fun o => B2 (ix2 0 o))
def layer3 (n : Fin 768) : Board 128 := conv (pad (layer2 X A1 A2 B1 B2 n)) (fun k c o => A3 (ix3 k c o)) (fun o => B3 (ix2 0 o))

/-- The head channels of board `n`. -/
def headsOf (n : Fin 768) : Fin 64 → Fin 128 → EReal :=
  heads (layer3 X A1 A2 A3 B1 B2 B3 n) (fun c ch => HW (ix2 c ch)) (fun ch => HB (ix2 0 ch))

/-- The first result: row `n` is the log-softmax of board `n`'s logits. -/
def probs : (⟨2, ![768, 64]⟩ : Shape).Idx → EReal := fun idx =>
  logSoftmax (logits (headsOf X A1 A2 A3 B1 B2 B3 HW HB (idx 0)) (fun k j => PW (ix2 k j)) (fun j => PB (ix2 0 j))) (idx 1)

/-- The second result: entry `n` is board `n`'s value. -/
def values : (⟨2, ![768, 1]⟩ : Shape).Idx → EReal := fun idx =>
  value (hidden (headsOf X A1 A2 A3 B1 B2 B3 HW HB (idx 0)) (fun k j => VW (ix2 k j)) (fun j => VB (ix2 0 j)))
    (fun j => W3 (ix2 j 0)) (B4 (ix2 0 0))

end arrays

end Cert.Spec

end
-- ==== Proof.ConvStage.lean ====
/-
  One 3 x 3 layer on a block of boards, read entry by entry.

  A block of `nb` boards with `c` channels is kept either as an `nb x 8 x 8 x c` array or, for the matrix products, as
  its `nb * 64` rows of `c` numbers: row `64 n + 8 i + j` is cell `(i, j)` of board `n`.  The padded copy is an
  `nb x 10 x 10 x c` buffer that is first cleared and then written in its interior; a window of the layer is the
  `nb x 8 x 8 x c` box of the padded copy at an offset `(dh, dw)` of at most two cells.  This file reads each of these
  steps at one index, for any block size and channel counts:

  * the two casts between the array of boards and its rows;
  * slice `k` of the `9 x cin x cout` weights as a `cin x cout` matrix;
  * a window of a covered buffer: entry `(n, i, j, c)` of the window is entry `(n, i + dh, j + dw, c)` of the contents;
  * the contents after "clear, then blend the boards into rows 1 … 8 and write those rows back" and after "clear, then
    write the boards at offset (1, 1)": the board's cell inside the border, the cleared value on it;
  * one position of the window as a matrix product of the window's rows with the weight slice: the sum over the input
    channels that the specification calls `tap`.
-/
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws
import proofs.«124053_g2000309348811089_pallasbulk_1112_2_alg».proof.Proof.LibMatmulRows
import proofs.«124053_g2000309348811089_pallasbulk_1112_2_alg».proof.Proof.LibCanonUnit
import proofs.«124053_g2000309348811089_pallasbulk_1112_2_alg».proof.Proof.Spec

noncomputable section

namespace Cert.ConvStage

open Idealize.ShloMosaic Idealize.ShloMosaic.ValueIdx

section layout
variable {α : Type}

/-- Row `64 n + 8 i + j` of the rows of a block of boards is cell `(i, j)` of board `n`. -/
theorem rows_of_boards {nb c M : ℕ} (X : (⟨4, ![nb, 8, 8, c]⟩ : Shape).Idx → α)
    (h : (⟨4, ![nb, 8, 8, c]⟩ : Shape).ShapeCasts ⟨2, ![M, c]⟩) (r : Fin M) (n : Fin nb) (i j : Fin 8) (k : Fin c)
    (hr : r.val = n.val * 64 + i.val * 8 + j.val) :
    shapeCast ⟨2, ![M, c]⟩ X h (ix2 r k) = X (ix4 n i j k) :=
  shapeCast_apply X h _ _ (by
    rw [Shape.rowMajor_val_four, Shape.rowMajor_val_two]
    show ((n.val * 8 + i.val) * 8 + j.val) * c + k.val = r.val * c + k.val
    rw [hr]; ring)

/-- Cell `(i, j)` of board `n` of the boards made of `nb * 64` rows is row `64 n + 8 i + j`. -/
theorem boards_of_rows {nb c M : ℕ} (Y : (⟨2, ![M, c]⟩ : Shape).Idx → α)
    (h : (⟨2, ![M, c]⟩ : Shape).ShapeCasts ⟨4, ![nb, 8, 8, c]⟩) (r : Fin M) (n : Fin nb) (i j : Fin 8) (k : Fin c)
    (hr : r.val = n.val * 64 + i.val * 8 + j.val) :
    shapeCast ⟨4, ![nb, 8, 8, c]⟩ Y h (ix4 n i j k) = Y (ix2 r k) :=
  shapeCast_apply Y h _ _ (by
    rw [Shape.rowMajor_val_four, Shape.rowMajor_val_two]
    show r.val * c + k.val = ((n.val * 8 + i.val) * 8 + j.val) * c + k.val
    rw [hr]; ring)

/-- Slice `k` of the weights, as a matrix, at `(a, b)`: the weights at `(k, a, b)`. -/
theorem weight_slice_apply {K cin cout : ℕ} (W : (⟨3, ![K, cin, cout]⟩ : Shape).Idx → α) (k : ℕ)
    (hs : (⟨3, ![K, cin, cout]⟩ : Shape).Slices ![k, 0, 0] ⟨3, ![1, cin, cout]⟩)
    (hc : (⟨3, ![1, cin, cout]⟩ : Shape).ShapeCasts ⟨2, ![cin, cout]⟩) (kk : Fin K) (hk : kk.val = k)
    (a : Fin cin) (b : Fin cout) :
    shapeCast ⟨2, ![cin, cout]⟩ (extractStridedSlice ⟨3, ![1, cin, cout]⟩ ![k, 0, 0] W hs) hc (ix2 a b) = W (ix3 kk a b) := by
  rw [shapeCast_1ab_ab_apply]
  exact extractStridedSlice_apply _ _ _ _ _ (fun ax => by
    match ax with
    | ⟨0, _⟩ => show kk.val = k + 0; omega
    | ⟨1, _⟩ => exact (Nat.zero_add _).symm
    | ⟨2, _⟩ => exact (Nat.zero_add _).symm)

end layout

section buffers
variable {Val : EltTy → Type} [∀ e, Nonempty (Val e)] {nb C : ℕ} {e : EltTy}

/-- The shape of a padded copy of `nb` boards with `C` channels. -/
abbrev SP (nb C : ℕ) : Shape := ⟨4, ![nb, 10, 10, C]⟩

theorem hz4 : (![0, 0, 0, 0] : Fin 4 → ℕ) = fun _ => 0 := by funext a; fin_cases a <;> rfl

/-- A window of a buffer whose stores cover it: entry `(n, i, j, c)` of the window at offset `(dh, dw)` is entry
    `(n, i + dh, j + dw, c)` of what the stores left. -/
theorem window_apply {sig : RefSig} {κ : Kind} {sp : Space} (v : View sig κ sp (SP nb C) e)
    (L : List (View.Piece Val (SP nb C) e)) (hcov : ∀ y, ∃ p ∈ L, y ∈ p.1.set) (dh dw : ℕ)
    (inb : ∀ a : Fin (SP nb C).rank, (![0, dh, dw, 0] : Fin 4 → ℕ) a + (![nb, 8, 8, C] : Fin 4 → ℕ) a ≤ (SP nb C).size a)
    (n : Fin nb) (i j : Fin 8) (c : Fin C) (i' j' : Fin 10) (hi : i'.val = i.val + dh) (hj : j'.val = j.val + dw) :
    v.readCov L (Rect.unit (s := SP nb C) ![0, dh, dw, 0] ![nb, 8, 8, C] inb).toLoadRect
        (show (Rect.unit (s := SP nb C) ![0, dh, dw, 0] ![nb, 8, 8, C] inb).toLoadRect.shape.Idx from (ix4 n i j c : (⟨4, ![nb, 8, 8, C]⟩ : Shape).Idx))
      = View.canon L (ix4 n i' j' c) := by
  rw [View.readCov_eq_canon_ld v L _ hcov]
  show View.canon L ((Rect.unit (s := SP nb C) ![0, dh, dw, 0] ![nb, 8, 8, C] inb).emb (ix4 n i j c : (⟨4, ![nb, 8, 8, C]⟩ : Shape).Idx)) = _
  refine congrArg (View.canon L) (funext fun a => Fin.ext ?_)
  match a with
  | ⟨0, _⟩ => show 0 + 1 * n.val = n.val; omega
  | ⟨1, _⟩ => show dh + 1 * i.val = i'.val; omega
  | ⟨2, _⟩ => show dw + 1 * j.val = j'.val; omega
  | ⟨3, _⟩ => show 0 + 1 * c.val = c.val; omega

/-- The clearing store alone leaves the cleared value everywhere. -/
theorem cleared_apply
    (inbW : ∀ a : Fin (SP nb C).rank, (![0, 0, 0, 0] : Fin 4 → ℕ) a + (SP nb C).size a ≤ (SP nb C).size a)
    (z : (SP nb C).Idx → Val e) (z0 : Val e) (hz : ∀ x, z x = z0) (y : (SP nb C).Idx) :
    View.canon [(⟨Rect.unit (s := SP nb C) ![0, 0, 0, 0] (SP nb C).size inbW, z⟩ : View.Piece Val (SP nb C) e)] y = z0 := by
  rw [View.canon_unit_zero (S := SP nb C) (off := ![0, 0, 0, 0]) hz4 inbW z]; exact hz _

/-- The contents after clearing the buffer to `z` and then writing back rows `1 … 8` (all ten columns) as what was read
    there (`old`) with the boards `y` blended into columns `1 … 8`: inside the border the board's cell; on the border
    the cleared value, when what was read back and what the clearing stored are one value `z0`. -/
theorem blended_apply
    (inbR : ∀ a : Fin (SP nb C).rank, (![0, 1, 0, 0] : Fin 4 → ℕ) a + (![nb, 8, 10, C] : Fin 4 → ℕ) a ≤ (SP nb C).size a)
    (inbW : ∀ a : Fin (SP nb C).rank, (![0, 0, 0, 0] : Fin 4 → ℕ) a + (SP nb C).size a ≤ (SP nb C).size a)
    (hsl : (⟨4, ![nb, 8, 10, C]⟩ : Shape).Slices ![0, 0, 1, 0] ⟨4, ![nb, 8, 8, C]⟩)
    (old : (⟨4, ![nb, 8, 10, C]⟩ : Shape).Idx → Val e) (y : (⟨4, ![nb, 8, 8, C]⟩ : Shape).Idx → Val e)
    (z : (SP nb C).Idx → Val e) (z0 : Val e) (hold : ∀ x, old x = z0) (hz : ∀ x, z x = z0)
    (n : Fin nb) (i j : Fin 10) (c : Fin C) :
    View.canon [(⟨Rect.unit (s := SP nb C) ![0, 1, 0, 0] ![nb, 8, 10, C] inbR, updateSlice old y ![0, 0, 1, 0] hsl⟩ : View.Piece Val (SP nb C) e),
        ⟨Rect.unit (s := SP nb C) ![0, 0, 0, 0] (SP nb C).size inbW, z⟩] (ix4 n i j c)
      = if h : (1 ≤ i.val ∧ i.val ≤ 8) ∧ (1 ≤ j.val ∧ j.val ≤ 8) then y (ix4 n ⟨i.val - 1, by omega⟩ ⟨j.val - 1, by omega⟩ c) else z0 := by
  by_cases hi : 1 ≤ i.val ∧ i.val ≤ 8
  · refine (View.canon_cons_unit_of_mem (S := SP nb C) (off := ![0, 1, 0, 0]) (size := ![nb, 8, 10, C]) inbR
      (updateSlice old y ![0, 0, 1, 0] hsl) _ (ix4 n i j c)
      (ix4 n (⟨i.val - 1, by omega⟩ : Fin 8) j c : (⟨4, ![nb, 8, 10, C]⟩ : Shape).Idx) (fun a => by
        match a with
        | ⟨0, _⟩ => show n.val = 0 + n.val; omega
        | ⟨1, _⟩ => show i.val = 1 + (i.val - 1); omega
        | ⟨2, _⟩ => show j.val = 0 + j.val; omega
        | ⟨3, _⟩ => show c.val = 0 + c.val; omega)).trans ?_
    by_cases hj : 1 ≤ j.val ∧ j.val ≤ 8
    · rw [dif_pos ⟨hi, hj⟩]
      unfold updateSlice
      rw [dif_pos (fun a => by
        match a with
        | ⟨0, _⟩ => exact ⟨Nat.zero_le _, by show n.val < 0 + nb; have := n.isLt; omega⟩
        | ⟨1, _⟩ => exact ⟨Nat.zero_le _, by show i.val - 1 < 0 + 8; omega⟩
        | ⟨2, _⟩ => exact ⟨by show 1 ≤ j.val; omega, by show j.val < 1 + 8; omega⟩
        | ⟨3, _⟩ => exact ⟨Nat.zero_le _, by show c.val < 0 + C; have := c.isLt; omega⟩)]
      refine congrArg y (funext fun b => Fin.ext ?_)
      match b with
      | ⟨0, _⟩ => show n.val - 0 = n.val; omega
      | ⟨1, _⟩ => show (i.val - 1) - 0 = i.val - 1; omega
      | ⟨2, _⟩ => show j.val - 1 = j.val - 1; rfl
      | ⟨3, _⟩ => show c.val - 0 = c.val; omega
    · rw [dif_neg (fun h => hj h.2)]
      unfold updateSlice
      rw [dif_neg (fun h => hj (by
        have h2 := h (⟨2, by decide⟩ : Fin 4)
        have h2a : 1 ≤ j.val := h2.1
        have h2b : j.val < 1 + 8 := h2.2
        omega))]
      exact hold _
  · rw [dif_neg (fun h => hi h.1)]
    refine (View.canon_cons_unit_of_not_mem (S := SP nb C) (off := ![0, 1, 0, 0]) (size := ![nb, 8, 10, C]) inbR
      (updateSlice old y ![0, 0, 1, 0] hsl) _ (ix4 n i j c) (⟨1, by decide⟩ : Fin 4) (by
        show i.val < 1 ∨ 1 + 8 ≤ i.val; omega)).trans ?_
    exact cleared_apply inbW z z0 hz _

/-- The contents after clearing the buffer to `z` and then writing the boards `y` at offset `(1, 1)`: inside the
    border the board's cell, on the border the cleared value. -/
theorem interior_apply
    (inbI : ∀ a : Fin (SP nb C).rank, (![0, 1, 1, 0] : Fin 4 → ℕ) a + (![nb, 8, 8, C] : Fin 4 → ℕ) a ≤ (SP nb C).size a)
    (inbW : ∀ a : Fin (SP nb C).rank, (![0, 0, 0, 0] : Fin 4 → ℕ) a + (SP nb C).size a ≤ (SP nb C).size a)
    (y : (⟨4, ![nb, 8, 8, C]⟩ : Shape).Idx → Val e)
    (z : (SP nb C).Idx → Val e) (z0 : Val e) (hz : ∀ x, z x = z0)
    (n : Fin nb) (i j : Fin 10) (c : Fin C) :
    View.canon [(⟨Rect.unit (s := SP nb C) ![0, 1, 1, 0] ![nb, 8, 8, C] inbI, y⟩ : View.Piece Val (SP nb C) e),
        ⟨Rect.unit (s := SP nb C) ![0, 0, 0, 0] (SP nb C).size inbW, z⟩] (ix4 n i j c)
      = if h : (1 ≤ i.val ∧ i.val ≤ 8) ∧ (1 ≤ j.val ∧ j.val ≤ 8) then y (ix4 n ⟨i.val - 1, by omega⟩ ⟨j.val - 1, by omega⟩ c) else z0 := by
  by_cases h : (1 ≤ i.val ∧ i.val ≤ 8) ∧ (1 ≤ j.val ∧ j.val ≤ 8)
  · rw [dif_pos h]
    exact View.canon_cons_unit_of_mem (S := SP nb C) (off := ![0, 1, 1, 0]) (size := ![nb, 8, 8, C]) inbI y _ (ix4 n i j c)
      (ix4 n (⟨i.val - 1, by omega⟩ : Fin 8) (⟨j.val - 1, by omega⟩ : Fin 8) c : (⟨4, ![nb, 8, 8, C]⟩ : Shape).Idx) (fun a => by
        match a with
        | ⟨0, _⟩ => show n.val = 0 + n.val; omega
        | ⟨1, _⟩ => show i.val = 1 + (i.val - 1); omega
        | ⟨2, _⟩ => show j.val = 1 + (j.val - 1); omega
        | ⟨3, _⟩ => show c.val = 0 + c.val; omega)
  · rw [dif_neg h]
    by_cases hi : 1 ≤ i.val ∧ i.val ≤ 8
    · refine (View.canon_cons_unit_of_not_mem (S := SP nb C) (off := ![0, 1, 1, 0]) (size := ![nb, 8, 8, C]) inbI y _
        (ix4 n i j c) (⟨2, by decide⟩ : Fin 4) (by
          show j.val < 1 ∨ 1 + 8 ≤ j.val
          by_contra hc; exact h ⟨hi, by omega⟩)).trans ?_
      exact cleared_apply inbW z z0 hz _
    · refine (View.canon_cons_unit_of_not_mem (S := SP nb C) (off := ![0, 1, 1, 0]) (size := ![nb, 8, 8, C]) inbI y _
        (ix4 n i j c) (⟨1, by decide⟩ : Fin 4) (by
          show i.val < 1 ∨ 1 + 8 ≤ i.val; omega)).trans ?_
      exact cleared_apply inbW z z0 hz _

end buffers

section copies
variable {Val : EltTy → Type} [∀ e, Nonempty (Val e)] {nb C : ℕ} {e : EltTy}
variable {sig : RefSig} {κ : Kind} {sp : Space}

/-- The two stores of a padded copy cover it (the clearing store alone does). -/
theorem copy_cover
    (inbW : ∀ a : Fin (SP nb C).rank, (![0, 0, 0, 0] : Fin 4 → ℕ) a + (SP nb C).size a ≤ (SP nb C).size a)
    (p : View.Piece Val (SP nb C) e) (z : (SP nb C).Idx → Val e) (y : (SP nb C).Idx) :
    ∃ q ∈ [p, (⟨Rect.unit (s := SP nb C) ![0, 0, 0, 0] (SP nb C).size inbW, z⟩ : View.Piece Val (SP nb C) e)], y ∈ q.1.set :=
  ⟨_, List.mem_cons_of_mem _ (List.mem_singleton_self _), View.mem_set_unit_zero (S := SP nb C) hz4 inbW y⟩

/-- What is read back of rows `1 … 8` right after the clearing store is the cleared value. -/
theorem cleared_rows_apply (v : View sig κ sp (SP nb C) e)
    (inbR : ∀ a : Fin (SP nb C).rank, (![0, 1, 0, 0] : Fin 4 → ℕ) a + (![nb, 8, 10, C] : Fin 4 → ℕ) a ≤ (SP nb C).size a)
    (inbW : ∀ a : Fin (SP nb C).rank, (![0, 0, 0, 0] : Fin 4 → ℕ) a + (SP nb C).size a ≤ (SP nb C).size a)
    (z : (SP nb C).Idx → Val e) (z0 : Val e) (hz : ∀ x, z x = z0) (x) :
    v.readCov [(⟨Rect.unit (s := SP nb C) ![0, 0, 0, 0] (SP nb C).size inbW, z⟩ : View.Piece Val (SP nb C) e)]
      (Rect.unit (s := SP nb C) ![0, 1, 0, 0] ![nb, 8, 10, C] inbR).toLoadRect x = z0 := by
  have hcov : ∀ y, ∃ p ∈ [(⟨Rect.unit (s := SP nb C) ![0, 0, 0, 0] (SP nb C).size inbW, z⟩ : View.Piece Val (SP nb C) e)], y ∈ p.1.set :=
    fun y => ⟨_, List.mem_singleton_self _, View.mem_set_unit_zero (S := SP nb C) hz4 inbW y⟩
  have h := View.readCov_eq_canon_ld v _ (Rect.unit (s := SP nb C) ![0, 1, 0, 0] ![nb, 8, 10, C] inbR) hcov
  exact (congrFun h x).trans (cleared_apply inbW z z0 hz _)

/-- A padded copy made by "clear, then write rows 1 … 8 back with the boards blended in", read at an index. -/
theorem copy_apply (v : View sig κ sp (SP nb C) e)
    (inbR : ∀ a : Fin (SP nb C).rank, (![0, 1, 0, 0] : Fin 4 → ℕ) a + (![nb, 8, 10, C] : Fin 4 → ℕ) a ≤ (SP nb C).size a)
    (inbW : ∀ a : Fin (SP nb C).rank, (![0, 0, 0, 0] : Fin 4 → ℕ) a + (SP nb C).size a ≤ (SP nb C).size a)
    (hsl : (⟨4, ![nb, 8, 10, C]⟩ : Shape).Slices ![0, 0, 1, 0] ⟨4, ![nb, 8, 8, C]⟩)
    (y : (⟨4, ![nb, 8, 8, C]⟩ : Shape).Idx → Val e) (z : (SP nb C).Idx → Val e) (z0 : Val e) (hz : ∀ x, z x = z0)
    (n : Fin nb) (i j : Fin 10) (c : Fin C) :
    View.canon [(⟨Rect.unit (s := SP nb C) ![0, 1, 0, 0] ![nb, 8, 10, C] inbR,
          updateSlice (v.readCov [(⟨Rect.unit (s := SP nb C) ![0, 0, 0, 0] (SP nb C).size inbW, z⟩ : View.Piece Val (SP nb C) e)]
            (Rect.unit (s := SP nb C) ![0, 1, 0, 0] ![nb, 8, 10, C] inbR).toLoadRect) y ![0, 0, 1, 0] hsl⟩ : View.Piece Val (SP nb C) e),
        ⟨Rect.unit (s := SP nb C) ![0, 0, 0, 0] (SP nb C).size inbW, z⟩] (ix4 n i j c)
      = if h : (1 ≤ i.val ∧ i.val ≤ 8) ∧ (1 ≤ j.val ∧ j.val ≤ 8) then y (ix4 n ⟨i.val - 1, by omega⟩ ⟨j.val - 1, by omega⟩ c) else z0 :=
  blended_apply inbR inbW hsl _ y z z0 (cleared_rows_apply v inbR inbW z z0 hz) hz n i j c

end copies

/-! ## One position of the window -/

/-- The product of a window's rows with slice `k` of the weights, into a zero accumulator, at row `64 n + 8 i + j` and
    output channel `o`: position `k` of the 3 x 3 window at cell `(i, j)` of the padded board `P`, when the window's entries
    at board `n`, cell `(i, j)` are `P`'s at `(i + k / 3, j + k % 3)`. -/
theorem tap_apply {nb cin cout M : ℕ} {φ₁ φ₂ : FTy} (d : DotDims ⟨2, ![M, cin]⟩ ⟨2, ![cin, cout]⟩ ⟨2, ![M, cout]⟩)
    (hlc : d.lhsContracting = [1]) (hrc : d.rhsContracting = [0]) (hln : d.lhsNonContracting = [0])
    (hrn : d.rhsNonContracting = [1]) (hlb : d.lhsBatch = []) (hrb : d.rhsBatch = [])
    (L : FVec Ideal ⟨4, ![nb, 8, 8, cin]⟩ φ₁) (W : FVec Ideal ⟨3, ![9, cin, cout]⟩ φ₂)
    (h1 : (⟨4, ![nb, 8, 8, cin]⟩ : Shape).ShapeCasts ⟨2, ![M, cin]⟩) (k : ℕ)
    (hs : (⟨3, ![9, cin, cout]⟩ : Shape).Slices ![k, 0, 0] ⟨3, ![1, cin, cout]⟩)
    (hc : (⟨3, ![1, cin, cout]⟩ : Shape).ShapeCasts ⟨2, ![cin, cout]⟩)
    (P : Cert.Spec.Padded cin) (kk : Fin 9) (hk : kk.val = k)
    (r : Fin M) (n : Fin nb) (i j : Fin 8) (o : Fin cout) (hr : r.val = n.val * 64 + i.val * 8 + j.val)
    (hL : ∀ c, L (ix4 n i j c) = P ⟨i.val + kk.val / 3, by omega⟩ ⟨j.val + kk.val % 3, by omega⟩ c) :
    FloatOps.matmul d none (shapeCast ⟨2, ![M, cin]⟩ L h1)
        (shapeCast ⟨2, ![cin, cout]⟩ (extractStridedSlice ⟨3, ![1, cin, cout]⟩ ![k, 0, 0] W hs) hc)
        (constant ⟨2, ![M, cout]⟩ .f32 0x00000000#32) (ix2 r o)
      = Cert.Spec.tap P (fun k c o => W (ix3 k c o)) kk i j o := by
  rw [Cert.LibMatmulRows.matmul_rows_apply d hlc hrc hln hrn hlb hrb]
  unfold Cert.Spec.tap
  refine Finset.sum_congr rfl fun c _ => ?_
  rw [rows_of_boards L h1 r n i j c hr, weight_slice_apply W k hs hc kk hk c o, hL c]

end Cert.ConvStage

end
-- ==== Proof.KPad.lean ====
/-
  The three padded copies of the kernel, read at an index: after "clear, then write rows 1 … 8 back with the boards
  blended in" a copy holds each board inside a border of zeros, and a window at offset `(dh, dw)` holds the padded
  boards shifted by that offset.
-/
import proofs.«124053_g2000309348811089_pallasbulk_1112_2_alg».proof.Proof.KTerm
import proofs.«124053_g2000309348811089_pallasbulk_1112_2_alg».proof.Proof.ConvStage
import Idealize.ShloMosaic.Lib.ValueIdx

set_option maxRecDepth 16384

noncomputable section

namespace Cert.KernelIdeal.KPad

open Cert.KernelIdeal Cert.KernelIdeal.Gen Cert.KernelIdeal.KTerm
open Idealize.ShloMosaic Idealize.ShloMosaic.ValueIdx Cert.ConvStage

/-- The 16-bit zero word is zero. -/
theorem zero_bf16 : (Scalar.ofBits (F := Ideal) .bf16 0x0000#16 : EReal) = 0 := by
  show Ideal.ofBits .bf16 0x0000#16 = 0
  simp [Ideal.ofBits, Ideal.ieee]

/-- Board `n` of a block of 32 boards. -/
abbrev brd {C : ℕ} (y : (⟨4, ![32, 8, 8, C]⟩ : Shape).Idx → EReal) (n : Fin 32) : Cert.Spec.Board C := fun i j c => y (ix4 n i j c)

/-! ## The copy with 128 channels -/

theorem zero17 (x : S32x10x10x128.Idx) : k0_pay1 (F := Ideal) x = 0 := zero_bf16

set_option maxHeartbeats 1000000 in
/-- The copy holds the boards inside a border of zeros. -/
theorem copy17_apply (V : View sig .tc .vmem S32x10x10x128 .bf16) (y : FVec Ideal S32x8x8x128 .bf16) (n : Fin 32) (i j : Fin 10) (c : Fin 128) :
    View.canon [(⟨rows17, updateSlice (V.readCov [⟨whole17, k0_pay1 (F := Ideal)⟩] rows17.toLoadRect) y ![0, 0, 1, 0] slices_S32x8x10x128_S32x8x8x128_0_0_1_0⟩ : View.Piece (Elt Ideal) S32x10x10x128 .bf16),
        ⟨whole17, k0_pay1 (F := Ideal)⟩] (ix4 n i j c)
      = Cert.Spec.pad (brd y n) i j c := by
  unfold Cert.Spec.pad
  exact copy_apply (nb := 32) (C := 128) (e := .bf16) (Val := Elt Ideal) V inb_S32x10x10x128_S32x8x10x128_0_1_0_0
    inb_S32x10x10x128_S32x10x10x128_0_0_0_0 slices_S32x8x10x128_S32x8x8x128_0_0_1_0 y (k0_pay1 (F := Ideal)) 0 zero17 n i j c

set_option maxHeartbeats 1000000 in
/-- A window of the copy at offset `(dh, dw)`. -/
theorem window17_apply (V : View sig .tc .vmem S32x10x10x128 .bf16) (y : FVec Ideal S32x8x8x128 .bf16) (dh dw : ℕ) (hdh : dh ≤ 2) (hdw : dw ≤ 2)
    (inb : ∀ a : Fin (SP 32 128).rank, (![0, dh, dw, 0] : Fin 4 → ℕ) a + (![32, 8, 8, 128] : Fin 4 → ℕ) a ≤ (SP 32 128).size a)
    (n : Fin 32) (i j : Fin 8) (c : Fin 128) :
    V.readCov [(⟨rows17, updateSlice (V.readCov [⟨whole17, k0_pay1 (F := Ideal)⟩] rows17.toLoadRect) y ![0, 0, 1, 0] slices_S32x8x10x128_S32x8x8x128_0_0_1_0⟩ : View.Piece (Elt Ideal) S32x10x10x128 .bf16),
        ⟨whole17, k0_pay1 (F := Ideal)⟩] (Rect.unit (s := S32x10x10x128) ![0, dh, dw, 0] S32x8x8x128.size inb).toLoadRect (ix4 n i j c)
      = Cert.Spec.pad (brd y n) ⟨i.val + dh, by omega⟩ ⟨j.val + dw, by omega⟩ c :=
  (window_apply (nb := 32) (C := 128) (e := .bf16) (Val := Elt Ideal) V _
    (fun y' => copy_cover (nb := 32) (C := 128) inb_S32x10x10x128_S32x10x10x128_0_0_0_0 _ _ y') dh dw inb n i j c
    ⟨i.val + dh, by omega⟩ ⟨j.val + dw, by omega⟩ rfl rfl).trans (copy17_apply V y n _ _ c)

/-! ## The copy with 32 channels -/

theorem zero18 (x : S32x10x10x32.Idx) : k0_pay7 (F := Ideal) x = 0 := zero_bf16

set_option maxHeartbeats 1000000 in
/-- The copy holds the boards inside a border of zeros. -/
theorem copy18_apply (V : View sig .tc .vmem S32x10x10x32 .bf16) (y : FVec Ideal S32x8x8x32 .bf16) (n : Fin 32) (i j : Fin 10) (c : Fin 32) :
    View.canon [(⟨rows18, updateSlice (V.readCov [⟨whole18, k0_pay7 (F := Ideal)⟩] rows18.toLoadRect) y ![0, 0, 1, 0] slices_S32x8x10x32_S32x8x8x32_0_0_1_0⟩ : View.Piece (Elt Ideal) S32x10x10x32 .bf16),
        ⟨whole18, k0_pay7 (F := Ideal)⟩] (ix4 n i j c)
      = Cert.Spec.pad (brd y n) i j c := by
  unfold Cert.Spec.pad
  exact copy_apply (nb := 32) (C := 32) (e := .bf16) (Val := Elt Ideal) V inb_S32x10x10x32_S32x8x10x32_0_1_0_0
    inb_S32x10x10x32_S32x10x10x32_0_0_0_0 slices_S32x8x10x32_S32x8x8x32_0_0_1_0 y (k0_pay7 (F := Ideal)) 0 zero18 n i j c

set_option maxHeartbeats 1000000 in
/-- A window of the copy at offset `(dh, dw)`. -/
theorem window18_apply (V : View sig .tc .vmem S32x10x10x32 .bf16) (y : FVec Ideal S32x8x8x32 .bf16) (dh dw : ℕ) (hdh : dh ≤ 2) (hdw : dw ≤ 2)
    (inb : ∀ a : Fin (SP 32 32).rank, (![0, dh, dw, 0] : Fin 4 → ℕ) a + (![32, 8, 8, 32] : Fin 4 → ℕ) a ≤ (SP 32 32).size a)
    (n : Fin 32) (i j : Fin 8) (c : Fin 32) :
    V.readCov [(⟨rows18, updateSlice (V.readCov [⟨whole18, k0_pay7 (F := Ideal)⟩] rows18.toLoadRect) y ![0, 0, 1, 0] slices_S32x8x10x32_S32x8x8x32_0_0_1_0⟩ : View.Piece (Elt Ideal) S32x10x10x32 .bf16),
        ⟨whole18, k0_pay7 (F := Ideal)⟩] (Rect.unit (s := S32x10x10x32) ![0, dh, dw, 0] S32x8x8x32.size inb).toLoadRect (ix4 n i j c)
      = Cert.Spec.pad (brd y n) ⟨i.val + dh, by omega⟩ ⟨j.val + dw, by omega⟩ c :=
  (window_apply (nb := 32) (C := 32) (e := .bf16) (Val := Elt Ideal) V _
    (fun y' => copy_cover (nb := 32) (C := 32) inb_S32x10x10x32_S32x10x10x32_0_0_0_0 _ _ y') dh dw inb n i j c
    ⟨i.val + dh, by omega⟩ ⟨j.val + dw, by omega⟩ rfl rfl).trans (copy18_apply V y n _ _ c)

/-! ## The copy with 64 channels -/

theorem zero19 (x : S32x10x10x64.Idx) : k0_pay14 (F := Ideal) x = 0 := zero_bf16

set_option maxHeartbeats 1000000 in
/-- The copy holds the boards inside a border of zeros. -/
theorem copy19_apply (V : View sig .tc .vmem S32x10x10x64 .bf16) (y : FVec Ideal S32x8x8x64 .bf16) (n : Fin 32) (i j : Fin 10) (c : Fin 64) :
    View.canon [(⟨rows19, updateSlice (V.readCov [⟨whole19, k0_pay14 (F := Ideal)⟩] rows19.toLoadRect) y ![0, 0, 1, 0] slices_S32x8x10x64_S32x8x8x64_0_0_1_0⟩ : View.Piece (Elt Ideal) S32x10x10x64 .bf16),
        ⟨whole19, k0_pay14 (F := Ideal)⟩] (ix4 n i j c)
      = Cert.Spec.pad (brd y n) i j c := by
  unfold Cert.Spec.pad
  exact copy_apply (nb := 32) (C := 64) (e := .bf16) (Val := Elt Ideal) V inb_S32x10x10x64_S32x8x10x64_0_1_0_0
    inb_S32x10x10x64_S32x10x10x64_0_0_0_0 slices_S32x8x10x64_S32x8x8x64_0_0_1_0 y (k0_pay14 (F := Ideal)) 0 zero19 n i j c

set_option maxHeartbeats 1000000 in
/-- A window of the copy at offset `(dh, dw)`. -/
theorem window19_apply (V : View sig .tc .vmem S32x10x10x64 .bf16) (y : FVec Ideal S32x8x8x64 .bf16) (dh dw : ℕ) (hdh : dh ≤ 2) (hdw : dw ≤ 2)
    (inb : ∀ a : Fin (SP 32 64).rank, (![0, dh, dw, 0] : Fin 4 → ℕ) a + (![32, 8, 8, 64] : Fin 4 → ℕ) a ≤ (SP 32 64).size a)
    (n : Fin 32) (i j : Fin 8) (c : Fin 64) :
    V.readCov [(⟨rows19, updateSlice (V.readCov [⟨whole19, k0_pay14 (F := Ideal)⟩] rows19.toLoadRect) y ![0, 0, 1, 0] slices_S32x8x10x64_S32x8x8x64_0_0_1_0⟩ : View.Piece (Elt Ideal) S32x10x10x64 .bf16),
        ⟨whole19, k0_pay14 (F := Ideal)⟩] (Rect.unit (s := S32x10x10x64) ![0, dh, dw, 0] S32x8x8x64.size inb).toLoadRect (ix4 n i j c)
      = Cert.Spec.pad (brd y n) ⟨i.val + dh, by omega⟩ ⟨j.val + dw, by omega⟩ c :=
  (window_apply (nb := 32) (C := 64) (e := .bf16) (Val := Elt Ideal) V _
    (fun y' => copy_cover (nb := 32) (C := 64) inb_S32x10x10x64_S32x10x10x64_0_0_0_0 _ _ y') dh dw inb n i j c
    ⟨i.val + dh, by omega⟩ ⟨j.val + dw, by omega⟩ rfl rfl).trans (copy19_apply V y n _ _ c)

end Cert.KernelIdeal.KPad

end
-- ==== Proof.KLayer1.lean ====
/-
  The first layer, from its nine windows: when each window holds the padded boards at its offset, the printed
  arithmetic of the windows, the weights and the bias is the specification's layer, cell by cell.
-/
import proofs.«124053_g2000309348811089_pallasbulk_1112_2_alg».proof.Proof.Gen.KernelIdeal.Skeleton
import proofs.«124053_g2000309348811089_pallasbulk_1112_2_alg».proof.Proof.ConvStage
import Idealize.ShloMosaic.Lib.ValueIdx
import Idealize.ShloMosaic.Lib.ValueLayout

set_option maxRecDepth 16384

noncomputable section

namespace Cert.KernelIdeal.KLayer

open Cert.KernelIdeal Cert.KernelIdeal.Gen
open Idealize.ShloMosaic Idealize.ShloMosaic.ValueIdx Cert.ConvStage

set_option maxHeartbeats 2000000 in
theorem layer1_of_windows (P : Cert.Spec.Padded 128) (n : Fin 32) (w00 : Vec Ideal S32x8x8x128 .bf16) (w01 : Vec Ideal S32x8x8x128 .bf16) (w02 : Vec Ideal S32x8x8x128 .bf16) (w10 : Vec Ideal S32x8x8x128 .bf16) (w11 : Vec Ideal S32x8x8x128 .bf16) (w12 : Vec Ideal S32x8x8x128 .bf16) (w20 : Vec Ideal S32x8x8x128 .bf16) (w21 : Vec Ideal S32x8x8x128 .bf16) (w22 : Vec Ideal S32x8x8x128 .bf16)
    (h00 : ∀ (i j : Fin 8) (c : Fin 128), w00 (ix4 n i j c) = P ⟨i.val + 0, by omega⟩ ⟨j.val + 0, by omega⟩ c)
    (h01 : ∀ (i j : Fin 8) (c : Fin 128), w01 (ix4 n i j c) = P ⟨i.val + 0, by omega⟩ ⟨j.val + 1, by omega⟩ c)
    (h02 : ∀ (i j : Fin 8) (c : Fin 128), w02 (ix4 n i j c) = P ⟨i.val + 0, by omega⟩ ⟨j.val + 2, by omega⟩ c)
    (h10 : ∀ (i j : Fin 8) (c : Fin 128), w10 (ix4 n i j c) = P ⟨i.val + 1, by omega⟩ ⟨j.val + 0, by omega⟩ c)
    (h11 : ∀ (i j : Fin 8) (c : Fin 128), w11 (ix4 n i j c) = P ⟨i.val + 1, by omega⟩ ⟨j.val + 1, by omega⟩ c)
    (h12 : ∀ (i j : Fin 8) (c : Fin 128), w12 (ix4 n i j c) = P ⟨i.val + 1, by omega⟩ ⟨j.val + 2, by omega⟩ c)
    (h20 : ∀ (i j : Fin 8) (c : Fin 128), w20 (ix4 n i j c) = P ⟨i.val + 2, by omega⟩ ⟨j.val + 0, by omega⟩ c)
    (h21 : ∀ (i j : Fin 8) (c : Fin 128), w21 (ix4 n i j c) = P ⟨i.val + 2, by omega⟩ ⟨j.val + 1, by omega⟩ c)
    (h22 : ∀ (i j : Fin 8) (c : Fin 128), w22 (ix4 n i j c) = P ⟨i.val + 2, by omega⟩ ⟨j.val + 2, by omega⟩ c)
    (xw : Vec Ideal S9x128x32 .bf16) (xb : Vec Ideal S1x32 .f32) (i j : Fin 8) (o : Fin 32) :
    k0_pay8 (k0_pay3 xw) (k0_pay6 (k0_pay3 xw) (k0_pay4 xw w00 w01) (k0_pay5 w02) w10 w11 w12 w20 w21) w22 xb (ix4 n i j o)
      = Cert.Spec.conv P (fun k c o => xw (ix3 k c o)) (fun o => xb (ix2 0 o)) i j o := by
  unfold k0_pay8 k0_pay6 k0_pay5 k0_pay4 k0_pay3 Cert.Spec.conv
  simp only [shapeCast_self]
  rw [boards_of_rows (nb := 32) (c := 32) (M := 2048) _ _ (⟨n.val * 64 + i.val * 8 + j.val, by omega⟩ : Fin 2048) n i j o rfl]
  simp only [truncf_apply, maximumf_apply, addf_apply, broadcast_apply]
  exact congrArg₂ max (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32 (tap_apply (nb := 32) (cin := 128) (cout := 32) (M := 2048) dot_S2048x128_S128x32_S2048x32_1_0_0_1_n_n rfl rfl rfl rfl rfl rfl w00 xw shapeCasts_S32x8x8x128_S2048x128 0 slices_S9x128x32_o0_0_0_S1x128x32 shapeCasts_S1x128x32_S128x32 P (0 : Fin 9) rfl (⟨n.val * 64 + i.val * 8 + j.val, by omega⟩ : Fin 2048) n i j o rfl (fun c => h00 i j c))) (tap_apply (nb := 32) (cin := 128) (cout := 32) (M := 2048) dot_S2048x128_S128x32_S2048x32_1_0_0_1_n_n rfl rfl rfl rfl rfl rfl w01 xw shapeCasts_S32x8x8x128_S2048x128 1 slices_S9x128x32_o1_0_0_S1x128x32 shapeCasts_S1x128x32_S128x32 P (1 : Fin 9) rfl (⟨n.val * 64 + i.val * 8 + j.val, by omega⟩ : Fin 2048) n i j o rfl (fun c => h01 i j c))) (tap_apply (nb := 32) (cin := 128) (cout := 32) (M := 2048) dot_S2048x128_S128x32_S2048x32_1_0_0_1_n_n rfl rfl rfl rfl rfl rfl w02 xw shapeCasts_S32x8x8x128_S2048x128 2 slices_S9x128x32_o2_0_0_S1x128x32 shapeCasts_S1x128x32_S128x32 P (2 : Fin 9) rfl (⟨n.val * 64 + i.val * 8 + j.val, by omega⟩ : Fin 2048) n i j o rfl (fun c => h02 i j c))) (tap_apply (nb := 32) (cin := 128) (cout := 32) (M := 2048) dot_S2048x128_S128x32_S2048x32_1_0_0_1_n_n rfl rfl rfl rfl rfl rfl w10 xw shapeCasts_S32x8x8x128_S2048x128 3 slices_S9x128x32_o3_0_0_S1x128x32 shapeCasts_S1x128x32_S128x32 P (3 : Fin 9) rfl (⟨n.val * 64 + i.val * 8 + j.val, by omega⟩ : Fin 2048) n i j o rfl (fun c => h10 i j c))) (tap_apply (nb := 32) (cin := 128) (cout := 32) (M := 2048) dot_S2048x128_S128x32_S2048x32_1_0_0_1_n_n rfl rfl rfl rfl rfl rfl w11 xw shapeCasts_S32x8x8x128_S2048x128 4 slices_S9x128x32_o4_0_0_S1x128x32 shapeCasts_S1x128x32_S128x32 P (4 : Fin 9) rfl (⟨n.val * 64 + i.val * 8 + j.val, by omega⟩ : Fin 2048) n i j o rfl (fun c => h11 i j c))) (tap_apply (nb := 32) (cin := 128) (cout := 32) (M := 2048) dot_S2048x128_S128x32_S2048x32_1_0_0_1_n_n rfl rfl rfl rfl rfl rfl w12 xw shapeCasts_S32x8x8x128_S2048x128 5 slices_S9x128x32_o5_0_0_S1x128x32 shapeCasts_S1x128x32_S128x32 P (5 : Fin 9) rfl (⟨n.val * 64 + i.val * 8 + j.val, by omega⟩ : Fin 2048) n i j o rfl (fun c => h12 i j c))) (tap_apply (nb := 32) (cin := 128) (cout := 32) (M := 2048) dot_S2048x128_S128x32_S2048x32_1_0_0_1_n_n rfl rfl rfl rfl rfl rfl w20 xw shapeCasts_S32x8x8x128_S2048x128 6 slices_S9x128x32_o6_0_0_S1x128x32 shapeCasts_S1x128x32_S128x32 P (6 : Fin 9) rfl (⟨n.val * 64 + i.val * 8 + j.val, by omega⟩ : Fin 2048) n i j o rfl (fun c => h20 i j c))) (tap_apply (nb := 32) (cin := 128) (cout := 32) (M := 2048) dot_S2048x128_S128x32_S2048x32_1_0_0_1_n_n rfl rfl rfl rfl rfl rfl w21 xw shapeCasts_S32x8x8x128_S2048x128 7 slices_S9x128x32_o7_0_0_S1x128x32 shapeCasts_S1x128x32_S128x32 P (7 : Fin 9) rfl (⟨n.val * 64 + i.val * 8 + j.val, by omega⟩ : Fin 2048) n i j o rfl (fun c => h21 i j c))) (tap_apply (nb := 32) (cin := 128) (cout := 32) (M := 2048) dot_S2048x128_S128x32_S2048x32_1_0_0_1_n_n rfl rfl rfl rfl rfl rfl w22 xw shapeCasts_S32x8x8x128_S2048x128 8 slices_S9x128x32_o8_0_0_S1x128x32 shapeCasts_S1x128x32_S128x32 P (8 : Fin 9) rfl (⟨n.val * 64 + i.val * 8 + j.val, by omega⟩ : Fin 2048) n i j o rfl (fun c => h22 i j c))) (broadcastTo_1b_ab_apply xb _ _ o)) Ideal.ofBits_zero_f32

end Cert.KernelIdeal.KLayer

end
-- ==== Proof.KLayer2.lean ====
/-
  The second layer, from its nine windows: when each window holds the padded boards at its offset, the printed
  arithmetic of the windows, the weights and the bias is the specification's layer, cell by cell.
-/
import proofs.«124053_g2000309348811089_pallasbulk_1112_2_alg».proof.Proof.Gen.KernelIdeal.Skeleton
import proofs.«124053_g2000309348811089_pallasbulk_1112_2_alg».proof.Proof.ConvStage
import Idealize.ShloMosaic.Lib.ValueIdx
import Idealize.ShloMosaic.Lib.ValueLayout

set_option maxRecDepth 16384

noncomputable section

namespace Cert.KernelIdeal.KLayer

open Cert.KernelIdeal Cert.KernelIdeal.Gen
open Idealize.ShloMosaic Idealize.ShloMosaic.ValueIdx Cert.ConvStage

set_option maxHeartbeats 2000000 in
theorem layer2_of_windows (P : Cert.Spec.Padded 32) (n : Fin 32) (w00 : Vec Ideal S32x8x8x32 .bf16) (w01 : Vec Ideal S32x8x8x32 .bf16) (w02 : Vec Ideal S32x8x8x32 .bf16) (w10 : Vec Ideal S32x8x8x32 .bf16) (w11 : Vec Ideal S32x8x8x32 .bf16) (w12 : Vec Ideal S32x8x8x32 .bf16) (w20 : Vec Ideal S32x8x8x32 .bf16) (w21 : Vec Ideal S32x8x8x32 .bf16) (w22 : Vec Ideal S32x8x8x32 .bf16)
    (h00 : ∀ (i j : Fin 8) (c : Fin 32), w00 (ix4 n i j c) = P ⟨i.val + 0, by omega⟩ ⟨j.val + 0, by omega⟩ c)
    (h01 : ∀ (i j : Fin 8) (c : Fin 32), w01 (ix4 n i j c) = P ⟨i.val + 0, by omega⟩ ⟨j.val + 1, by omega⟩ c)
    (h02 : ∀ (i j : Fin 8) (c : Fin 32), w02 (ix4 n i j c) = P ⟨i.val + 0, by omega⟩ ⟨j.val + 2, by omega⟩ c)
    (h10 : ∀ (i j : Fin 8) (c : Fin 32), w10 (ix4 n i j c) = P ⟨i.val + 1, by omega⟩ ⟨j.val + 0, by omega⟩ c)
    (h11 : ∀ (i j : Fin 8) (c : Fin 32), w11 (ix4 n i j c) = P ⟨i.val + 1, by omega⟩ ⟨j.val + 1, by omega⟩ c)
    (h12 : ∀ (i j : Fin 8) (c : Fin 32), w12 (ix4 n i j c) = P ⟨i.val + 1, by omega⟩ ⟨j.val + 2, by omega⟩ c)
    (h20 : ∀ (i j : Fin 8) (c : Fin 32), w20 (ix4 n i j c) = P ⟨i.val + 2, by omega⟩ ⟨j.val + 0, by omega⟩ c)
    (h21 : ∀ (i j : Fin 8) (c : Fin 32), w21 (ix4 n i j c) = P ⟨i.val + 2, by omega⟩ ⟨j.val + 1, by omega⟩ c)
    (h22 : ∀ (i j : Fin 8) (c : Fin 32), w22 (ix4 n i j c) = P ⟨i.val + 2, by omega⟩ ⟨j.val + 2, by omega⟩ c)
    (xw : Vec Ideal S9x32x64 .bf16) (xb : Vec Ideal S1x64 .f32) (i j : Fin 8) (o : Fin 64) :
    k0_pay15 (k0_pay9 xw) (k0_pay11 (k0_pay9 xw) (k0_pay10 xw w00) w01 w02 w10 w11 w12) (k0_pay12 w20) (k0_pay13 (k0_pay9 xw)) w21 w22 xb (ix4 n i j o)
      = Cert.Spec.conv P (fun k c o => xw (ix3 k c o)) (fun o => xb (ix2 0 o)) i j o := by
  unfold k0_pay15 k0_pay13 k0_pay12 k0_pay11 k0_pay10 k0_pay9 Cert.Spec.conv
  simp only [shapeCast_self]
  rw [boards_of_rows (nb := 32) (c := 64) (M := 2048) _ _ (⟨n.val * 64 + i.val * 8 + j.val, by omega⟩ : Fin 2048) n i j o rfl]
  simp only [truncf_apply, maximumf_apply, addf_apply, broadcast_apply]
  exact congrArg₂ max (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32 (tap_apply (nb := 32) (cin := 32) (cout := 64) (M := 2048) dot_S2048x32_S32x64_S2048x64_1_0_0_1_n_n rfl rfl rfl rfl rfl rfl w00 xw shapeCasts_S32x8x8x32_S2048x32 0 slices_S9x32x64_o0_0_0_S1x32x64 shapeCasts_S1x32x64_S32x64 P (0 : Fin 9) rfl (⟨n.val * 64 + i.val * 8 + j.val, by omega⟩ : Fin 2048) n i j o rfl (fun c => h00 i j c))) (tap_apply (nb := 32) (cin := 32) (cout := 64) (M := 2048) dot_S2048x32_S32x64_S2048x64_1_0_0_1_n_n rfl rfl rfl rfl rfl rfl w01 xw shapeCasts_S32x8x8x32_S2048x32 1 slices_S9x32x64_o1_0_0_S1x32x64 shapeCasts_S1x32x64_S32x64 P (1 : Fin 9) rfl (⟨n.val * 64 + i.val * 8 + j.val, by omega⟩ : Fin 2048) n i j o rfl (fun c => h01 i j c))) (tap_apply (nb := 32) (cin := 32) (cout := 64) (M := 2048) dot_S2048x32_S32x64_S2048x64_1_0_0_1_n_n rfl rfl rfl rfl rfl rfl w02 xw shapeCasts_S32x8x8x32_S2048x32 2 slices_S9x32x64_o2_0_0_S1x32x64 shapeCasts_S1x32x64_S32x64 P (2 : Fin 9) rfl (⟨n.val * 64 + i.val * 8 + j.val, by omega⟩ : Fin 2048) n i j o rfl (fun c => h02 i j c))) (tap_apply (nb := 32) (cin := 32) (cout := 64) (M := 2048) dot_S2048x32_S32x64_S2048x64_1_0_0_1_n_n rfl rfl rfl rfl rfl rfl w10 xw shapeCasts_S32x8x8x32_S2048x32 3 slices_S9x32x64_o3_0_0_S1x32x64 shapeCasts_S1x32x64_S32x64 P (3 : Fin 9) rfl (⟨n.val * 64 + i.val * 8 + j.val, by omega⟩ : Fin 2048) n i j o rfl (fun c => h10 i j c))) (tap_apply (nb := 32) (cin := 32) (cout := 64) (M := 2048) dot_S2048x32_S32x64_S2048x64_1_0_0_1_n_n rfl rfl rfl rfl rfl rfl w11 xw shapeCasts_S32x8x8x32_S2048x32 4 slices_S9x32x64_o4_0_0_S1x32x64 shapeCasts_S1x32x64_S32x64 P (4 : Fin 9) rfl (⟨n.val * 64 + i.val * 8 + j.val, by omega⟩ : Fin 2048) n i j o rfl (fun c => h11 i j c))) (tap_apply (nb := 32) (cin := 32) (cout := 64) (M := 2048) dot_S2048x32_S32x64_S2048x64_1_0_0_1_n_n rfl rfl rfl rfl rfl rfl w12 xw shapeCasts_S32x8x8x32_S2048x32 5 slices_S9x32x64_o5_0_0_S1x32x64 shapeCasts_S1x32x64_S32x64 P (5 : Fin 9) rfl (⟨n.val * 64 + i.val * 8 + j.val, by omega⟩ : Fin 2048) n i j o rfl (fun c => h12 i j c))) (tap_apply (nb := 32) (cin := 32) (cout := 64) (M := 2048) dot_S2048x32_S32x64_S2048x64_1_0_0_1_n_n rfl rfl rfl rfl rfl rfl w20 xw shapeCasts_S32x8x8x32_S2048x32 6 slices_S9x32x64_o6_0_0_S1x32x64 shapeCasts_S1x32x64_S32x64 P (6 : Fin 9) rfl (⟨n.val * 64 + i.val * 8 + j.val, by omega⟩ : Fin 2048) n i j o rfl (fun c => h20 i j c))) (tap_apply (nb := 32) (cin := 32) (cout := 64) (M := 2048) dot_S2048x32_S32x64_S2048x64_1_0_0_1_n_n rfl rfl rfl rfl rfl rfl w21 xw shapeCasts_S32x8x8x32_S2048x32 7 slices_S9x32x64_o7_0_0_S1x32x64 shapeCasts_S1x32x64_S32x64 P (7 : Fin 9) rfl (⟨n.val * 64 + i.val * 8 + j.val, by omega⟩ : Fin 2048) n i j o rfl (fun c => h21 i j c))) (tap_apply (nb := 32) (cin := 32) (cout := 64) (M := 2048) dot_S2048x32_S32x64_S2048x64_1_0_0_1_n_n rfl rfl rfl rfl rfl rfl w22 xw shapeCasts_S32x8x8x32_S2048x32 8 slices_S9x32x64_o8_0_0_S1x32x64 shapeCasts_S1x32x64_S32x64 P (8 : Fin 9) rfl (⟨n.val * 64 + i.val * 8 + j.val, by omega⟩ : Fin 2048) n i j o rfl (fun c => h22 i j c))) (broadcastTo_1b_ab_apply xb _ _ o)) Ideal.ofBits_zero_f32

end Cert.KernelIdeal.KLayer

end
-- ==== Proof.KLayer3.lean ====
/-
  The third layer and the head channels, from the layer's nine windows: when each window holds the padded boards at its
  offset, row `64 n + 8 i + j` of the head channels before their clamp is, at channel `ch`, the sum over the 128 channels
  of the specification's layer at cell `(i, j)` times the head weight, plus the head bias.
-/
import proofs.«124053_g2000309348811089_pallasbulk_1112_2_alg».proof.Proof.Gen.KernelIdeal.Skeleton
import proofs.«124053_g2000309348811089_pallasbulk_1112_2_alg».proof.Proof.ConvStage
import Idealize.ShloMosaic.Lib.ValueIdx
import Idealize.ShloMosaic.Lib.ValueLayout

set_option maxRecDepth 16384

noncomputable section

namespace Cert.KernelIdeal.KLayer

open Cert.KernelIdeal Cert.KernelIdeal.Gen
open Idealize.ShloMosaic Idealize.ShloMosaic.ValueIdx Cert.ConvStage

set_option maxHeartbeats 2000000 in
theorem layer3_of_windows (P : Cert.Spec.Padded 64) (n : Fin 32) (w00 : Vec Ideal S32x8x8x64 .bf16) (w01 : Vec Ideal S32x8x8x64 .bf16) (w02 : Vec Ideal S32x8x8x64 .bf16) (w10 : Vec Ideal S32x8x8x64 .bf16) (w11 : Vec Ideal S32x8x8x64 .bf16) (w12 : Vec Ideal S32x8x8x64 .bf16) (w20 : Vec Ideal S32x8x8x64 .bf16) (w21 : Vec Ideal S32x8x8x64 .bf16) (w22 : Vec Ideal S32x8x8x64 .bf16)
    (h00 : ∀ (i j : Fin 8) (c : Fin 64), w00 (ix4 n i j c) = P ⟨i.val + 0, by omega⟩ ⟨j.val + 0, by omega⟩ c)
    (h01 : ∀ (i j : Fin 8) (c : Fin 64), w01 (ix4 n i j c) = P ⟨i.val + 0, by omega⟩ ⟨j.val + 1, by omega⟩ c)
    (h02 : ∀ (i j : Fin 8) (c : Fin 64), w02 (ix4 n i j c) = P ⟨i.val + 0, by omega⟩ ⟨j.val + 2, by omega⟩ c)
    (h10 : ∀ (i j : Fin 8) (c : Fin 64), w10 (ix4 n i j c) = P ⟨i.val + 1, by omega⟩ ⟨j.val + 0, by omega⟩ c)
    (h11 : ∀ (i j : Fin 8) (c : Fin 64), w11 (ix4 n i j c) = P ⟨i.val + 1, by omega⟩ ⟨j.val + 1, by omega⟩ c)
    (h12 : ∀ (i j : Fin 8) (c : Fin 64), w12 (ix4 n i j c) = P ⟨i.val + 1, by omega⟩ ⟨j.val + 2, by omega⟩ c)
    (h20 : ∀ (i j : Fin 8) (c : Fin 64), w20 (ix4 n i j c) = P ⟨i.val + 2, by omega⟩ ⟨j.val + 0, by omega⟩ c)
    (h21 : ∀ (i j : Fin 8) (c : Fin 64), w21 (ix4 n i j c) = P ⟨i.val + 2, by omega⟩ ⟨j.val + 1, by omega⟩ c)
    (h22 : ∀ (i j : Fin 8) (c : Fin 64), w22 (ix4 n i j c) = P ⟨i.val + 2, by omega⟩ ⟨j.val + 2, by omega⟩ c)
    (xw : Vec Ideal S9x64x128 .bf16) (xb : Vec Ideal S1x128 .f32) (x7 : Vec Ideal S128x128 .bf16) (x8 : Vec Ideal S1x128 .f32)
    (i j : Fin 8) (ch : Fin 128) :
    k0_pay19 (k0_pay16 xw) (k0_pay18 (k0_pay16 xw) k0_pay17 w00 w01 w02 w10 w11) w12 w20 w21 w22 xb x7 x8
        (ix2 (⟨n.val * 64 + i.val * 8 + j.val, by omega⟩ : Fin 2048) ch)
      = (∑ o : Fin 128, Cert.Spec.conv P (fun k c o => xw (ix3 k c o)) (fun o => xb (ix2 0 o)) i j o * x7 (ix2 o ch)) + x8 (ix2 0 ch) := by
  unfold k0_pay19 k0_pay18 k0_pay17 k0_pay16
  simp only [shapeCast_self, addf_apply]
  refine congrArg₂ (· + ·) ?_ (broadcastTo_1b_ab_apply x8 _ _ ch)
  refine Eq.trans (Cert.LibMatmulRows.matmul_rows_apply (a := 2048) (b := 128) (c := 128)
    dot_S2048x128_S128x128_S2048x128_1_0_0_1_n_n rfl rfl rfl rfl rfl rfl _ _ (⟨n.val * 64 + i.val * 8 + j.val, by omega⟩ : Fin 2048) ch) ?_
  refine Finset.sum_congr rfl fun o _ => ?_
  refine congrArg (· * x7 (ix2 o ch)) ?_
  simp only [truncf_apply, maximumf_apply, addf_apply, broadcast_apply]
  unfold Cert.Spec.conv
  exact congrArg₂ max (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32 (tap_apply (nb := 32) (cin := 64) (cout := 128) (M := 2048) dot_S2048x64_S64x128_S2048x128_1_0_0_1_n_n rfl rfl rfl rfl rfl rfl w00 xw shapeCasts_S32x8x8x64_S2048x64 0 slices_S9x64x128_o0_0_0_S1x64x128 shapeCasts_S1x64x128_S64x128 P (0 : Fin 9) rfl (⟨n.val * 64 + i.val * 8 + j.val, by omega⟩ : Fin 2048) n i j o rfl (fun c => h00 i j c))) (tap_apply (nb := 32) (cin := 64) (cout := 128) (M := 2048) dot_S2048x64_S64x128_S2048x128_1_0_0_1_n_n rfl rfl rfl rfl rfl rfl w01 xw shapeCasts_S32x8x8x64_S2048x64 1 slices_S9x64x128_o1_0_0_S1x64x128 shapeCasts_S1x64x128_S64x128 P (1 : Fin 9) rfl (⟨n.val * 64 + i.val * 8 + j.val, by omega⟩ : Fin 2048) n i j o rfl (fun c => h01 i j c))) (tap_apply (nb := 32) (cin := 64) (cout := 128) (M := 2048) dot_S2048x64_S64x128_S2048x128_1_0_0_1_n_n rfl rfl rfl rfl rfl rfl w02 xw shapeCasts_S32x8x8x64_S2048x64 2 slices_S9x64x128_o2_0_0_S1x64x128 shapeCasts_S1x64x128_S64x128 P (2 : Fin 9) rfl (⟨n.val * 64 + i.val * 8 + j.val, by omega⟩ : Fin 2048) n i j o rfl (fun c => h02 i j c))) (tap_apply (nb := 32) (cin := 64) (cout := 128) (M := 2048) dot_S2048x64_S64x128_S2048x128_1_0_0_1_n_n rfl rfl rfl rfl rfl rfl w10 xw shapeCasts_S32x8x8x64_S2048x64 3 slices_S9x64x128_o3_0_0_S1x64x128 shapeCasts_S1x64x128_S64x128 P (3 : Fin 9) rfl (⟨n.val * 64 + i.val * 8 + j.val, by omega⟩ : Fin 2048) n i j o rfl (fun c => h10 i j c))) (tap_apply (nb := 32) (cin := 64) (cout := 128) (M := 2048) dot_S2048x64_S64x128_S2048x128_1_0_0_1_n_n rfl rfl rfl rfl rfl rfl w11 xw shapeCasts_S32x8x8x64_S2048x64 4 slices_S9x64x128_o4_0_0_S1x64x128 shapeCasts_S1x64x128_S64x128 P (4 : Fin 9) rfl (⟨n.val * 64 + i.val * 8 + j.val, by omega⟩ : Fin 2048) n i j o rfl (fun c => h11 i j c))) (tap_apply (nb := 32) (cin := 64) (cout := 128) (M := 2048) dot_S2048x64_S64x128_S2048x128_1_0_0_1_n_n rfl rfl rfl rfl rfl rfl w12 xw shapeCasts_S32x8x8x64_S2048x64 5 slices_S9x64x128_o5_0_0_S1x64x128 shapeCasts_S1x64x128_S64x128 P (5 : Fin 9) rfl (⟨n.val * 64 + i.val * 8 + j.val, by omega⟩ : Fin 2048) n i j o rfl (fun c => h12 i j c))) (tap_apply (nb := 32) (cin := 64) (cout := 128) (M := 2048) dot_S2048x64_S64x128_S2048x128_1_0_0_1_n_n rfl rfl rfl rfl rfl rfl w20 xw shapeCasts_S32x8x8x64_S2048x64 6 slices_S9x64x128_o6_0_0_S1x64x128 shapeCasts_S1x64x128_S64x128 P (6 : Fin 9) rfl (⟨n.val * 64 + i.val * 8 + j.val, by omega⟩ : Fin 2048) n i j o rfl (fun c => h20 i j c))) (tap_apply (nb := 32) (cin := 64) (cout := 128) (M := 2048) dot_S2048x64_S64x128_S2048x128_1_0_0_1_n_n rfl rfl rfl rfl rfl rfl w21 xw shapeCasts_S32x8x8x64_S2048x64 7 slices_S9x64x128_o7_0_0_S1x64x128 shapeCasts_S1x64x128_S64x128 P (7 : Fin 9) rfl (⟨n.val * 64 + i.val * 8 + j.val, by omega⟩ : Fin 2048) n i j o rfl (fun c => h21 i j c))) (tap_apply (nb := 32) (cin := 64) (cout := 128) (M := 2048) dot_S2048x64_S64x128_S2048x128_1_0_0_1_n_n rfl rfl rfl rfl rfl rfl w22 xw shapeCasts_S32x8x8x64_S2048x64 8 slices_S9x64x128_o8_0_0_S1x64x128 shapeCasts_S1x64x128_S64x128 P (8 : Fin 9) rfl (⟨n.val * 64 + i.val * 8 + j.val, by omega⟩ : Fin 2048) n i j o rfl (fun c => h22 i j c))) (broadcastTo_1b_ab_apply xb _ _ o)) Ideal.ofBits_zero_f32

end Cert.KernelIdeal.KLayer

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RowTail.lean ====
/-
  The log-softmax of the rows of a block, read entry by entry at the extended reals.

  For a block of `a` rows of 64 numbers: the greatest entry of each row (a fold of `max` from the least float value),
  the row minus it, the logarithm of the sum of the exponentials of those differences, and the difference of the two —
  at `(p, q)` this is the specification's `logSoftmax` of row `p` at `q`.
-/
import Idealize.ShloMosaic.Lib.ValueIdx
import Idealize.ShloMosaic.Lib.ValueLayout
import Idealize.ShloMosaic.PureOps.Ideal.Laws
import proofs.«124053_g2000309348811089_pallasbulk_1112_2_alg».proof.Proof.LibRowOps
import proofs.«124053_g2000309348811089_pallasbulk_1112_2_alg».proof.Proof.LibColumn
import proofs.«124053_g2000309348811089_pallasbulk_1112_2_alg».proof.Proof.Spec

noncomputable section

namespace Cert.RowTail

open Idealize.ShloMosaic Idealize.ShloMosaic.ValueIdx

variable {a : ℕ} (X : FVec Ideal ⟨2, ![a, 64]⟩ .f32)
  (hred : (⟨2, ![a, 64]⟩ : Shape).Reduces [1] ⟨1, ![a]⟩) (hφ : FKind.Formats .f32)
  (hmax : (0xFF800000#32 : BitVec (FTy.bits .f32)) = FKind.maximumf.neutral .f32 hφ)
  (hφ' : FKind.Formats .f32) (hadd : (0x00000000#32 : BitVec (FTy.bits .f32)) = FKind.add.neutral .f32 hφ')
  (hc : (⟨1, ![a]⟩ : Shape).ShapeCasts ⟨2, ![a, 1]⟩) (hb : (⟨2, ![a, 1]⟩ : Shape).Broadcasts ⟨2, ![a, 64]⟩)

theorem log_at {s : Shape} (v : FVec Ideal s .f32) (i : s.Idx) : log v i = Ideal.log (v i) := rfl
theorem exp_at {s : Shape} (v : FVec Ideal s .f32) (i : s.Idx) : exp v i = Ideal.exp (v i) := rfl

/-- The greatest entry of row `p`. -/
theorem rowmax_apply (p : Fin a) :
    multiReduction .maximumf [1] ⟨1, ![a]⟩ X 0xFF800000#32 hred hφ hmax (ix1 p) = Cert.Spec.rowMax (fun k => X (ix2 p k)) := by
  rw [Ideal.multiReduction_maximumf_single]
  unfold Cert.Spec.rowMax
  refine congrArg (fun f => (Finset.univ : Finset (Fin 64)).fold max (Ideal.ofBits .f32 0xFF800000#32) f) (funext fun k => ?_)
  exact congrArg X (Cert.LibRowOps.lift_row hred p k)

/-- Row `p` minus its greatest entry, at `k`. -/
theorem shifted_apply (p : Fin a) (k : Fin 64) :
    subf X (broadcastTo ⟨2, ![a, 64]⟩ (shapeCast ⟨2, ![a, 1]⟩ (multiReduction .maximumf [1] ⟨1, ![a]⟩ X 0xFF800000#32 hred hφ hmax) hc) hb) (ix2 p k)
      = X (ix2 p k) - Cert.Spec.rowMax (fun k => X (ix2 p k)) := by
  rw [subf_apply, Cert.LibColumn.broadcastTo_a1_ab_apply, Cert.LibColumn.shapeCast_a_a1_apply, rowmax_apply]

/-- The log-softmax of the block at `(p, q)`. -/
theorem logSoftmax_apply (p : Fin a) (q : Fin 64) :
    subf (subf X (broadcastTo ⟨2, ![a, 64]⟩ (shapeCast ⟨2, ![a, 1]⟩ (multiReduction .maximumf [1] ⟨1, ![a]⟩ X 0xFF800000#32 hred hφ hmax) hc) hb))
        (broadcastTo ⟨2, ![a, 64]⟩
          (log (shapeCast ⟨2, ![a, 1]⟩
            (multiReduction .add [1] ⟨1, ![a]⟩
              (exp (subf X (broadcastTo ⟨2, ![a, 64]⟩ (shapeCast ⟨2, ![a, 1]⟩ (multiReduction .maximumf [1] ⟨1, ![a]⟩ X 0xFF800000#32 hred hφ hmax) hc) hb)))
              0x00000000#32 hred hφ' hadd) hc)) hb) (ix2 p q)
      = Cert.Spec.logSoftmax (fun k => X (ix2 p k)) q := by
  unfold Cert.Spec.logSoftmax
  rw [subf_apply, shifted_apply, Cert.LibColumn.broadcastTo_a1_ab_apply]
  rw [log_at, Cert.LibColumn.shapeCast_a_a1_apply, Cert.LibRowOps.multiReduction_row_apply]
  refine congrArg (fun s => (X (ix2 p q) - Cert.Spec.rowMax (fun k => X (ix2 p k))) - Ideal.log s) (Finset.sum_congr rfl fun k _ => ?_)
  rw [exp_at, shifted_apply]

end Cert.RowTail

end
-- ==== Proof.KTail.lean ====
/-
  The last stage of the kernel body, read entry by entry: the head channels clamped and flattened to 8192 numbers per
  board, times the expanded 8192 x 128 matrix; then, from the first 64 columns, the log-softmax of the logits, and from
  the last 64 columns, the value.
-/
import proofs.«124053_g2000309348811089_pallasbulk_1112_2_alg».proof.Proof.Gen.KernelIdeal.Skeleton
import proofs.«124053_g2000309348811089_pallasbulk_1112_2_alg».proof.Proof.RowTail
import proofs.«124053_g2000309348811089_pallasbulk_1112_2_alg».proof.Proof.LibMatmulRows
import Idealize.ShloMosaic.Lib.ValueIdx
import Idealize.ShloMosaic.Lib.ValueLayout
import Idealize.ShloMosaic.Lib.Pipeline.Value

set_option maxRecDepth 16384

noncomputable section

namespace Cert.KernelIdeal.KTail

open Cert.KernelIdeal Cert.KernelIdeal.Gen
open Idealize.ShloMosaic Idealize.ShloMosaic.ValueIdx

theorem tanh_at {s : Shape} (v : FVec Ideal s .f32) (i : s.Idx) : tanh v i = Ideal.tanh (v i) := rfl

/-- The zero the clamps compare with. -/
abbrev z32 : Ideal .f32 := Scalar.ofBits (F := Ideal) .f32 0x00000000#32

set_option maxHeartbeats 1000000 in
/-- Board `n`'s product with column `col` of the expanded matrix: the sum over the 8192 (cell, channel) pairs of the
    clamped head channel times the matrix entry. -/
theorem hv_apply (v219 : FVec Ideal S2048x128 .f32) (x9 : Vec Ideal S8192x128 .bf16) (n : Fin 32) (col : Fin 128) :
    k0_pay20 v219 z32 x9 (ix2 n col)
      = ∑ k : Fin 8192, max (v219 (ix2 (⟨n.val * 64 + k.val / 128, by omega⟩ : Fin 2048) (⟨k.val % 128, by omega⟩ : Fin 128))) 0 * x9 (ix2 k col) := by
  unfold k0_pay20
  simp only [shapeCast_self]
  refine Eq.trans (Cert.LibMatmulRows.matmul_rows_apply (a := 32) (b := 8192) (c := 128)
    dot_S32x8192_S8192x128_S32x128_1_0_0_1_n_n rfl rfl rfl rfl rfl rfl _ _ n col) ?_
  refine Finset.sum_congr rfl fun k _ => ?_
  refine congrArg (· * x9 (ix2 k col)) ?_
  refine (shapeCast_apply _ _ (ix2 n k) (ix2 (⟨n.val * 64 + k.val / 128, by omega⟩ : Fin 2048) (⟨k.val % 128, by omega⟩ : Fin 128)) (by
    rw [Shape.rowMajor_val_two, Shape.rowMajor_val_two]
    show (n.val * 64 + k.val / 128) * 128 + k.val % 128 = n.val * 8192 + k.val
    omega)).trans ?_
  exact congrArg₂ max rfl Ideal.ofBits_zero_f32

set_option maxHeartbeats 1000000 in
/-- The first result's block at `(n, q)`: the log-softmax of board `n`'s logits. -/
theorem probs_apply (v219 : FVec Ideal S2048x128 .f32) (x9 : Vec Ideal S8192x128 .bf16) (x10 : Vec Ideal S1x64 .f32) (n : Fin 32) (q : Fin 64) :
    k0_pay21 v219 z32 x9 x10 (ix2 n q)
      = Cert.Spec.logSoftmax (fun j => k0_pay20 v219 z32 x9 (ix2 n (⟨j.val, by omega⟩ : Fin 128)) + x10 (ix2 0 j)) q := by
  unfold k0_pay21
  refine Eq.trans (Cert.RowTail.logSoftmax_apply (a := 32) _ _ _ _ _ _ _ _ n q) ?_
  refine congrArg (fun f => Cert.Spec.logSoftmax f q) (funext fun j => ?_)
  rw [addf_apply, slice2_axis1_apply 0 _ _ n j (⟨j.val, by omega⟩ : Fin 128) (by show j.val = 0 + j.val; omega), broadcastTo_1b_ab_apply]

set_option maxHeartbeats 1000000 in
/-- The second result's block at `(n, 0)`: board `n`'s value. -/
theorem values_apply (v219 : FVec Ideal S2048x128 .f32) (x9 : Vec Ideal S8192x128 .bf16) (x11 x12 : Vec Ideal S1x64 .f32) (x13 : Vec Ideal S1x1 .f32) (n : Fin 32) :
    k0_pay22 v219 z32 x9 x11 x12 x13 (ix2 n (0 : Fin 1))
      = Cert.Spec.value (fun j => max (k0_pay20 v219 z32 x9 (ix2 n (⟨64 + j.val, by omega⟩ : Fin 128)) + x11 (ix2 0 j)) 0)
          (fun j => x12 (ix2 0 j)) (x13 (ix2 0 0)) := by
  unfold k0_pay22 Cert.Spec.value
  simp only [shapeCast_self]
  rw [tanh_at, addf_apply, Cert.LibColumn.shapeCast_a_a1_apply]
  refine congrArg Ideal.tanh (congrArg₂ (· + ·) ?_ (broadcastTo_1b_ab_apply x13 _ n (0 : Fin 1)))
  refine Eq.trans (Cert.LibRowOps.multiReduction_row_apply (a := 32) (b := 64) _ _ _ _ _ n) ?_
  refine Finset.sum_congr rfl fun j _ => ?_
  rw [mulf_apply, maximumf_apply, addf_apply, slice2_axis1_apply 64 _ _ n j (⟨64 + j.val, by omega⟩ : Fin 128) (by show 64 + j.val = 64 + j.val; rfl),
    broadcastTo_1b_ab_apply, broadcastTo_1b_ab_apply, broadcast_apply]
  exact congrArg (fun z => max (k0_pay20 v219 z32 x9 (ix2 n (⟨64 + j.val, by omega⟩ : Fin 128)) + x11 (ix2 0 j)) z * x12 (ix2 0 j)) Ideal.ofBits_zero_f32

end Cert.KernelIdeal.KTail

end
-- ==== Proof.KValue.lean ====
/-
  The kernel's two result blocks, entry by entry, as the specification's network on the boards of the block.

  Board `n` of the block goes through the three layers (each reading the padded copy the layer before filled) and the
  head channels; the first result's row `n` is the log-softmax of the product of ALL 8192 clamped head channels of the
  board with the first 64 columns of the expanded matrix, plus the bias; the second result's entry `n` is the value
  computed from the product with the last 64 columns.
-/
import proofs.«124053_g2000309348811089_pallasbulk_1112_2_alg».proof.Proof.KPad
import proofs.«124053_g2000309348811089_pallasbulk_1112_2_alg».proof.Proof.KLayer1
import proofs.«124053_g2000309348811089_pallasbulk_1112_2_alg».proof.Proof.KLayer2
import proofs.«124053_g2000309348811089_pallasbulk_1112_2_alg».proof.Proof.KLayer3
import proofs.«124053_g2000309348811089_pallasbulk_1112_2_alg».proof.Proof.KTail

set_option maxRecDepth 16384

noncomputable section

namespace Cert.KernelIdeal.KValue

open Cert.KernelIdeal Cert.KernelIdeal.Gen Cert.KernelIdeal.KTerm Cert.KernelIdeal.KPad Cert.KernelIdeal.KLayer Cert.KernelIdeal.KTail
open Idealize.ShloMosaic Idealize.ShloMosaic.ValueIdx

variable (V17 : View sig .tc .vmem S32x10x10x128 .bf16) (V18 : View sig .tc .vmem S32x10x10x32 .bf16)
  (V19 : View sig .tc .vmem S32x10x10x64 .bf16)

theorem pay2_eq (x0 : Vec Ideal S32x8x8x128 .bf16) : k0_pay2 (F := Ideal) x0 = x0 := by
  unfold k0_pay2; simp only [shapeCast_self]

/-- The three layers and the head channels on board `n` of the block. -/
def kL1 (x0 : Vec Ideal S32x8x8x128 .bf16) (x1 : Vec Ideal S9x128x32 .bf16) (x2 : Vec Ideal S1x32 .f32) (n : Fin 32) : Cert.Spec.Board 32 :=
  Cert.Spec.conv (Cert.Spec.pad (brd x0 n)) (fun k c o => x1 (ix3 k c o)) (fun o => x2 (ix2 0 o))
def kL2 (x0 : Vec Ideal S32x8x8x128 .bf16) (x1 : Vec Ideal S9x128x32 .bf16) (x2 : Vec Ideal S1x32 .f32) (x3 : Vec Ideal S9x32x64 .bf16) (x4 : Vec Ideal S1x64 .f32) (n : Fin 32) : Cert.Spec.Board 64 :=
  Cert.Spec.conv (Cert.Spec.pad (kL1 x0 x1 x2 n)) (fun k c o => x3 (ix3 k c o)) (fun o => x4 (ix2 0 o))
def kL3 (x0 : Vec Ideal S32x8x8x128 .bf16) (x1 : Vec Ideal S9x128x32 .bf16) (x2 : Vec Ideal S1x32 .f32) (x3 : Vec Ideal S9x32x64 .bf16) (x4 : Vec Ideal S1x64 .f32) (x5 : Vec Ideal S9x64x128 .bf16) (x6 : Vec Ideal S1x128 .f32) (n : Fin 32) : Cert.Spec.Board 128 :=
  Cert.Spec.conv (Cert.Spec.pad (kL2 x0 x1 x2 x3 x4 n)) (fun k c o => x5 (ix3 k c o)) (fun o => x6 (ix2 0 o))
def kH (x0 : Vec Ideal S32x8x8x128 .bf16) (x1 : Vec Ideal S9x128x32 .bf16) (x2 : Vec Ideal S1x32 .f32) (x3 : Vec Ideal S9x32x64 .bf16) (x4 : Vec Ideal S1x64 .f32) (x5 : Vec Ideal S9x64x128 .bf16) (x6 : Vec Ideal S1x128 .f32) (x7 : Vec Ideal S128x128 .bf16) (x8 : Vec Ideal S1x128 .f32) (n : Fin 32) : Fin 64 → Fin 128 → EReal :=
  Cert.Spec.heads (kL3 x0 x1 x2 x3 x4 x5 x6 n) (fun c ch => x7 (ix2 c ch)) (fun ch => x8 (ix2 0 ch))

set_option maxHeartbeats 2000000 in
theorem act1_apply (x0 : Vec Ideal S32x8x8x128 .bf16) (x1 : Vec Ideal S9x128x32 .bf16) (x2 : Vec Ideal S1x32 .f32)
    (n : Fin 32) (i j : Fin 8) (o : Fin 32) : act1 V17 x0 x1 x2 (ix4 n i j o) = kL1 x0 x1 x2 n i j o := by
  unfold act1 kL1
  exact layer1_of_windows (Cert.Spec.pad (brd x0 n)) n _ _ _ _ _ _ _ _ _
    (fun i j c => by
      unfold w17_00 buf17
      rw [pay2_eq]
      exact window17_apply V17 x0 0 0 (by omega) (by omega) _ n i j c)
    (fun i j c => by
      unfold w17_01 buf17
      rw [pay2_eq]
      exact window17_apply V17 x0 0 1 (by omega) (by omega) _ n i j c)
    (fun i j c => by
      unfold w17_02 buf17
      rw [pay2_eq]
      exact window17_apply V17 x0 0 2 (by omega) (by omega) _ n i j c)
    (fun i j c => by
      unfold w17_10 buf17
      rw [pay2_eq]
      exact window17_apply V17 x0 1 0 (by omega) (by omega) _ n i j c)
    (fun i j c => by
      unfold w17_11 buf17
      rw [pay2_eq]
      exact window17_apply V17 x0 1 1 (by omega) (by omega) _ n i j c)
    (fun i j c => by
      unfold w17_12 buf17
      rw [pay2_eq]
      exact window17_apply V17 x0 1 2 (by omega) (by omega) _ n i j c)
    (fun i j c => by
      unfold w17_20 buf17
      rw [pay2_eq]
      exact window17_apply V17 x0 2 0 (by omega) (by omega) _ n i j c)
    (fun i j c => by
      unfold w17_21 buf17
      rw [pay2_eq]
      exact window17_apply V17 x0 2 1 (by omega) (by omega) _ n i j c)
    (fun i j c => by
      unfold w17_22 buf17
      rw [pay2_eq]
      exact window17_apply V17 x0 2 2 (by omega) (by omega) _ n i j c)
    x1 x2 i j o

theorem brd_act1 (x0 : Vec Ideal S32x8x8x128 .bf16) (x1 : Vec Ideal S9x128x32 .bf16) (x2 : Vec Ideal S1x32 .f32) (n : Fin 32) :
    brd (act1 V17 x0 x1 x2) n = kL1 x0 x1 x2 n :=
  funext fun i => funext fun j => funext fun o => act1_apply V17 x0 x1 x2 n i j o

set_option maxHeartbeats 2000000 in
theorem act2_apply (x0 : Vec Ideal S32x8x8x128 .bf16) (x1 : Vec Ideal S9x128x32 .bf16) (x2 : Vec Ideal S1x32 .f32) (x3 : Vec Ideal S9x32x64 .bf16) (x4 : Vec Ideal S1x64 .f32)
    (n : Fin 32) (i j : Fin 8) (o : Fin 64) : act2 V17 V18 x0 x1 x2 x3 x4 (ix4 n i j o) = kL2 x0 x1 x2 x3 x4 n i j o := by
  unfold act2 kL2
  exact layer2_of_windows (Cert.Spec.pad (kL1 x0 x1 x2 n)) n _ _ _ _ _ _ _ _ _
    (fun i j c => by
      unfold w18_00 buf18
      exact (window18_apply V18 (act1 V17 x0 x1 x2) 0 0 (by omega) (by omega) _ n i j c).trans (congrArg (fun B : Cert.Spec.Board 32 => Cert.Spec.pad B ⟨i.val + 0, by omega⟩ ⟨j.val + 0, by omega⟩ c) (brd_act1 V17 x0 x1 x2 n)))
    (fun i j c => by
      unfold w18_01 buf18
      exact (window18_apply V18 (act1 V17 x0 x1 x2) 0 1 (by omega) (by omega) _ n i j c).trans (congrArg (fun B : Cert.Spec.Board 32 => Cert.Spec.pad B ⟨i.val + 0, by omega⟩ ⟨j.val + 1, by omega⟩ c) (brd_act1 V17 x0 x1 x2 n)))
    (fun i j c => by
      unfold w18_02 buf18
      exact (window18_apply V18 (act1 V17 x0 x1 x2) 0 2 (by omega) (by omega) _ n i j c).trans (congrArg (fun B : Cert.Spec.Board 32 => Cert.Spec.pad B ⟨i.val + 0, by omega⟩ ⟨j.val + 2, by omega⟩ c) (brd_act1 V17 x0 x1 x2 n)))
    (fun i j c => by
      unfold w18_10 buf18
      exact (window18_apply V18 (act1 V17 x0 x1 x2) 1 0 (by omega) (by omega) _ n i j c).trans (congrArg (fun B : Cert.Spec.Board 32 => Cert.Spec.pad B ⟨i.val + 1, by omega⟩ ⟨j.val + 0, by omega⟩ c) (brd_act1 V17 x0 x1 x2 n)))
    (fun i j c => by
      unfold w18_11 buf18
      exact (window18_apply V18 (act1 V17 x0 x1 x2) 1 1 (by omega) (by omega) _ n i j c).trans (congrArg (fun B : Cert.Spec.Board 32 => Cert.Spec.pad B ⟨i.val + 1, by omega⟩ ⟨j.val + 1, by omega⟩ c) (brd_act1 V17 x0 x1 x2 n)))
    (fun i j c => by
      unfold w18_12 buf18
      exact (window18_apply V18 (act1 V17 x0 x1 x2) 1 2 (by omega) (by omega) _ n i j c).trans (congrArg (fun B : Cert.Spec.Board 32 => Cert.Spec.pad B ⟨i.val + 1, by omega⟩ ⟨j.val + 2, by omega⟩ c) (brd_act1 V17 x0 x1 x2 n)))
    (fun i j c => by
      unfold w18_20 buf18
      exact (window18_apply V18 (act1 V17 x0 x1 x2) 2 0 (by omega) (by omega) _ n i j c).trans (congrArg (fun B : Cert.Spec.Board 32 => Cert.Spec.pad B ⟨i.val + 2, by omega⟩ ⟨j.val + 0, by omega⟩ c) (brd_act1 V17 x0 x1 x2 n)))
    (fun i j c => by
      unfold w18_21 buf18
      exact (window18_apply V18 (act1 V17 x0 x1 x2) 2 1 (by omega) (by omega) _ n i j c).trans (congrArg (fun B : Cert.Spec.Board 32 => Cert.Spec.pad B ⟨i.val + 2, by omega⟩ ⟨j.val + 1, by omega⟩ c) (brd_act1 V17 x0 x1 x2 n)))
    (fun i j c => by
      unfold w18_22 buf18
      exact (window18_apply V18 (act1 V17 x0 x1 x2) 2 2 (by omega) (by omega) _ n i j c).trans (congrArg (fun B : Cert.Spec.Board 32 => Cert.Spec.pad B ⟨i.val + 2, by omega⟩ ⟨j.val + 2, by omega⟩ c) (brd_act1 V17 x0 x1 x2 n)))
    x3 x4 i j o

theorem brd_act2 (x0 : Vec Ideal S32x8x8x128 .bf16) (x1 : Vec Ideal S9x128x32 .bf16) (x2 : Vec Ideal S1x32 .f32) (x3 : Vec Ideal S9x32x64 .bf16) (x4 : Vec Ideal S1x64 .f32) (n : Fin 32) :
    brd (act2 V17 V18 x0 x1 x2 x3 x4) n = kL2 x0 x1 x2 x3 x4 n :=
  funext fun i => funext fun j => funext fun o => act2_apply V17 V18 x0 x1 x2 x3 x4 n i j o

set_option maxHeartbeats 2000000 in
/-- Row `64 n + 8 i + j` of the head channels before their clamp. -/
theorem pre_apply (x0 : Vec Ideal S32x8x8x128 .bf16) (x1 : Vec Ideal S9x128x32 .bf16) (x2 : Vec Ideal S1x32 .f32) (x3 : Vec Ideal S9x32x64 .bf16) (x4 : Vec Ideal S1x64 .f32) (x5 : Vec Ideal S9x64x128 .bf16) (x6 : Vec Ideal S1x128 .f32) (x7 : Vec Ideal S128x128 .bf16) (x8 : Vec Ideal S1x128 .f32) (n : Fin 32) (i j : Fin 8) (ch : Fin 128) :
    pre V17 V18 V19 x0 x1 x2 x3 x4 x5 x6 x7 x8 (ix2 (⟨n.val * 64 + i.val * 8 + j.val, by omega⟩ : Fin 2048) ch)
      = (∑ o : Fin 128, kL3 x0 x1 x2 x3 x4 x5 x6 n i j o * x7 (ix2 o ch)) + x8 (ix2 0 ch) := by
  unfold pre kL3
  exact layer3_of_windows (Cert.Spec.pad (kL2 x0 x1 x2 x3 x4 n)) n _ _ _ _ _ _ _ _ _
    (fun i j c => by
      unfold w19_00 buf19
      exact (window19_apply V19 (act2 V17 V18 x0 x1 x2 x3 x4) 0 0 (by omega) (by omega) _ n i j c).trans (congrArg (fun B : Cert.Spec.Board 64 => Cert.Spec.pad B ⟨i.val + 0, by omega⟩ ⟨j.val + 0, by omega⟩ c) (brd_act2 V17 V18 x0 x1 x2 x3 x4 n)))
    (fun i j c => by
      unfold w19_01 buf19
      exact (window19_apply V19 (act2 V17 V18 x0 x1 x2 x3 x4) 0 1 (by omega) (by omega) _ n i j c).trans (congrArg (fun B : Cert.Spec.Board 64 => Cert.Spec.pad B ⟨i.val + 0, by omega⟩ ⟨j.val + 1, by omega⟩ c) (brd_act2 V17 V18 x0 x1 x2 x3 x4 n)))
    (fun i j c => by
      unfold w19_02 buf19
      exact (window19_apply V19 (act2 V17 V18 x0 x1 x2 x3 x4) 0 2 (by omega) (by omega) _ n i j c).trans (congrArg (fun B : Cert.Spec.Board 64 => Cert.Spec.pad B ⟨i.val + 0, by omega⟩ ⟨j.val + 2, by omega⟩ c) (brd_act2 V17 V18 x0 x1 x2 x3 x4 n)))
    (fun i j c => by
      unfold w19_10 buf19
      exact (window19_apply V19 (act2 V17 V18 x0 x1 x2 x3 x4) 1 0 (by omega) (by omega) _ n i j c).trans (congrArg (fun B : Cert.Spec.Board 64 => Cert.Spec.pad B ⟨i.val + 1, by omega⟩ ⟨j.val + 0, by omega⟩ c) (brd_act2 V17 V18 x0 x1 x2 x3 x4 n)))
    (fun i j c => by
      unfold w19_11 buf19
      exact (window19_apply V19 (act2 V17 V18 x0 x1 x2 x3 x4) 1 1 (by omega) (by omega) _ n i j c).trans (congrArg (fun B : Cert.Spec.Board 64 => Cert.Spec.pad B ⟨i.val + 1, by omega⟩ ⟨j.val + 1, by omega⟩ c) (brd_act2 V17 V18 x0 x1 x2 x3 x4 n)))
    (fun i j c => by
      unfold w19_12 buf19
      exact (window19_apply V19 (act2 V17 V18 x0 x1 x2 x3 x4) 1 2 (by omega) (by omega) _ n i j c).trans (congrArg (fun B : Cert.Spec.Board 64 => Cert.Spec.pad B ⟨i.val + 1, by omega⟩ ⟨j.val + 2, by omega⟩ c) (brd_act2 V17 V18 x0 x1 x2 x3 x4 n)))
    (fun i j c => by
      unfold w19_20 buf19
      exact (window19_apply V19 (act2 V17 V18 x0 x1 x2 x3 x4) 2 0 (by omega) (by omega) _ n i j c).trans (congrArg (fun B : Cert.Spec.Board 64 => Cert.Spec.pad B ⟨i.val + 2, by omega⟩ ⟨j.val + 0, by omega⟩ c) (brd_act2 V17 V18 x0 x1 x2 x3 x4 n)))
    (fun i j c => by
      unfold w19_21 buf19
      exact (window19_apply V19 (act2 V17 V18 x0 x1 x2 x3 x4) 2 1 (by omega) (by omega) _ n i j c).trans (congrArg (fun B : Cert.Spec.Board 64 => Cert.Spec.pad B ⟨i.val + 2, by omega⟩ ⟨j.val + 1, by omega⟩ c) (brd_act2 V17 V18 x0 x1 x2 x3 x4 n)))
    (fun i j c => by
      unfold w19_22 buf19
      exact (window19_apply V19 (act2 V17 V18 x0 x1 x2 x3 x4) 2 2 (by omega) (by omega) _ n i j c).trans (congrArg (fun B : Cert.Spec.Board 64 => Cert.Spec.pad B ⟨i.val + 2, by omega⟩ ⟨j.val + 2, by omega⟩ c) (brd_act2 V17 V18 x0 x1 x2 x3 x4 n)))
    x5 x6 x7 x8 i j ch

/-- The clamped head channel of cell `k / 128`, channel `k % 128` of board `n`. -/
theorem heads_apply (x0 : Vec Ideal S32x8x8x128 .bf16) (x1 : Vec Ideal S9x128x32 .bf16) (x2 : Vec Ideal S1x32 .f32) (x3 : Vec Ideal S9x32x64 .bf16) (x4 : Vec Ideal S1x64 .f32) (x5 : Vec Ideal S9x64x128 .bf16) (x6 : Vec Ideal S1x128 .f32) (x7 : Vec Ideal S128x128 .bf16) (x8 : Vec Ideal S1x128 .f32) (n : Fin 32) (k : Fin 8192) :
    max (pre V17 V18 V19 x0 x1 x2 x3 x4 x5 x6 x7 x8 (ix2 (⟨n.val * 64 + k.val / 128, by omega⟩ : Fin 2048) (⟨k.val % 128, by omega⟩ : Fin 128))) 0
      = kH x0 x1 x2 x3 x4 x5 x6 x7 x8 n ⟨k.val / 128, by omega⟩ ⟨k.val % 128, by omega⟩ := by
  have hr : (⟨n.val * 64 + k.val / 128, by omega⟩ : Fin 2048)
      = ⟨n.val * 64 + (⟨k.val / 128 / 8, by omega⟩ : Fin 8).val * 8 + (⟨k.val / 128 % 8, by omega⟩ : Fin 8).val, by
          show n.val * 64 + k.val / 128 / 8 * 8 + k.val / 128 % 8 < 2048; omega⟩ :=
    Fin.ext (by show n.val * 64 + k.val / 128 = n.val * 64 + k.val / 128 / 8 * 8 + k.val / 128 % 8; omega)
  rw [hr, pre_apply]
  rfl

/-- The first result's block at `(n, q)`. -/
theorem termP_apply (x0 : Vec Ideal S32x8x8x128 .bf16) (x1 : Vec Ideal S9x128x32 .bf16) (x2 : Vec Ideal S1x32 .f32) (x3 : Vec Ideal S9x32x64 .bf16) (x4 : Vec Ideal S1x64 .f32) (x5 : Vec Ideal S9x64x128 .bf16) (x6 : Vec Ideal S1x128 .f32) (x7 : Vec Ideal S128x128 .bf16) (x8 : Vec Ideal S1x128 .f32) (x9 : Vec Ideal S8192x128 .bf16) (x10 : Vec Ideal S1x64 .f32) (x11 : Vec Ideal S1x64 .f32) (x12 : Vec Ideal S1x64 .f32) (x13 : Vec Ideal S1x1 .f32) (n : Fin 32) (q : Fin 64) :
    termP V17 V18 V19 x0 x1 x2 x3 x4 x5 x6 x7 x8 x9 x10 x11 x12 x13 (ix2 n q)
      = Cert.Spec.logSoftmax (fun j => (∑ k : Fin 8192, kH x0 x1 x2 x3 x4 x5 x6 x7 x8 n ⟨k.val / 128, by omega⟩ ⟨k.val % 128, by omega⟩
          * x9 (ix2 k (⟨j.val, by omega⟩ : Fin 128))) + x10 (ix2 0 j)) q := by
  unfold termP
  rw [probs_apply]
  refine congrArg (fun f => Cert.Spec.logSoftmax f q) (funext fun j => ?_)
  rw [hv_apply]
  refine congrArg (· + x10 (ix2 0 j)) (Finset.sum_congr rfl fun k _ => ?_)
  rw [heads_apply]

/-- The second result's block at `(n, 0)`. -/
theorem termV_apply (x0 : Vec Ideal S32x8x8x128 .bf16) (x1 : Vec Ideal S9x128x32 .bf16) (x2 : Vec Ideal S1x32 .f32) (x3 : Vec Ideal S9x32x64 .bf16) (x4 : Vec Ideal S1x64 .f32) (x5 : Vec Ideal S9x64x128 .bf16) (x6 : Vec Ideal S1x128 .f32) (x7 : Vec Ideal S128x128 .bf16) (x8 : Vec Ideal S1x128 .f32) (x9 : Vec Ideal S8192x128 .bf16) (x10 : Vec Ideal S1x64 .f32) (x11 : Vec Ideal S1x64 .f32) (x12 : Vec Ideal S1x64 .f32) (x13 : Vec Ideal S1x1 .f32) (n : Fin 32) :
    termV V17 V18 V19 x0 x1 x2 x3 x4 x5 x6 x7 x8 x9 x10 x11 x12 x13 (ix2 n (0 : Fin 1))
      = Cert.Spec.value (fun j => max ((∑ k : Fin 8192, kH x0 x1 x2 x3 x4 x5 x6 x7 x8 n ⟨k.val / 128, by omega⟩ ⟨k.val % 128, by omega⟩
          * x9 (ix2 k (⟨64 + j.val, by omega⟩ : Fin 128))) + x11 (ix2 0 j)) 0) (fun j => x12 (ix2 0 j)) (x13 (ix2 0 0)) := by
  unfold termV
  rw [values_apply]
  refine congrArg (fun f => Cert.Spec.value f (fun j => x12 (ix2 0 j)) (x13 (ix2 0 0))) (funext fun j => ?_)
  rw [hv_apply]
  refine congrArg (fun s => max (s + x11 (ix2 0 j)) 0) (Finset.sum_congr rfl fun k _ => ?_)
  rw [heads_apply]

end Cert.KernelIdeal.KValue

end
-- ==== Proof.LibScatterSet.lean ====
/-
  A scatter whose combining function keeps the update, read at one index of its result.

  Such a scatter is a sequence of writes, one per update index in row-major order: each replaces the result's
  element at the index its update lands at, or does nothing when that index is outside the operand.  When the
  landing map sends at most one update index to a given result index, the result there is that update's element;
  where no update lands, it is the operand's.  The second half specialises this to a scatter that writes ONE
  window of the updates' full rank at a fixed offset: inside the window the result is the update at the
  coordinate less the offset, outside it is the operand.
-/
import Idealize.ShloMosaic.PureOps.ShapeOps
import Idealize.ShloMosaic.PureOps.Dims

namespace Cert.KernelIdeal.LibScatterSet

open Idealize.ShloMosaic

/-! ## A fold of writes -/

section Fold
variable {N I α : Type} [DecidableEq I]

/-- One write: update `n` replaces the element at `g n`, when there is one. -/
def setStep (g : N → Option I) (v : N → α) (r : I → α) (n : N) : I → α :=
  match g n with
  | some i => fun i' => if i' = i then v n else r i'
  | none => r

/-- A write that lands elsewhere leaves the element. -/
theorem setStep_miss {g : N → Option I} {v : N → α} (r : I → α) (n : N) (i' : I) (h : g n ≠ some i') :
    setStep g v r n i' = r i' := by
  unfold setStep
  cases hg : g n with
  | none => rfl
  | some i =>
    have hne : i' ≠ i := fun e => h (by rw [hg, e])
    show (if i' = i then v n else r i') = r i'
    exact if_neg hne

/-- A write that lands at `i'` puts its update there. -/
theorem setStep_hit {g : N → Option I} {v : N → α} (r : I → α) (n : N) (i' : I) (h : g n = some i') :
    setStep g v r n i' = v n := by
  unfold setStep
  cases hg : g n with
  | none => rw [h] at hg; cases hg
  | some i =>
    have he : i' = i := Option.some.inj (h.symm.trans hg)
    show (if i' = i then v n else r i') = v n
    exact if_pos he

/-- Where no write of the list lands, the fold keeps the starting element. -/
theorem foldl_setStep_miss (g : N → Option I) (v : N → α) (i' : I) :
    ∀ (l : List N) (x : I → α), (∀ n ∈ l, g n ≠ some i') → l.foldl (setStep g v) x i' = x i'
  | [], _, _ => rfl
  | a :: l, x, h => by
    rw [List.foldl_cons, foldl_setStep_miss g v i' l _ (fun n hn => h n (List.mem_cons_of_mem _ hn))]
    exact setStep_miss x a i' (h a (List.mem_cons_self ..))

/-- Where exactly one update of the list lands, the fold holds that update. -/
theorem foldl_setStep_hit (g : N → Option I) (v : N → α) (i' : I) (n : N) (hn : g n = some i') :
    ∀ (l : List N) (x : I → α), n ∈ l → (∀ n' ∈ l, g n' = some i' → n' = n) → l.foldl (setStep g v) x i' = v n
  | [], _, hm, _ => absurd hm (List.not_mem_nil)
  | a :: l, x, hm, hu => by
    rw [List.foldl_cons]
    by_cases hl : n ∈ l
    · exact foldl_setStep_hit g v i' n hn l _ hl (fun n' h' => hu n' (List.mem_cons_of_mem _ h'))
    · have ha : a = n := by
        rcases List.mem_cons.1 hm with h | h
        · exact h.symm
        · exact absurd h hl
      rw [foldl_setStep_miss g v i' l _ (fun n' h' hg => hl (by
        rw [← hu n' (List.mem_cons_of_mem _ h') hg]; exact h'))]
      rw [ha]
      exact setStep_hit x n i' hn

end Fold

/-! ## The scatter as such a fold -/

section Scatter
variable {α : Type} {s si u : Shape} {w : Nat}

/-- A scatter that keeps the update is the fold of writes over the update positions in row-major order. -/
theorem scatter_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  congr 1
  funext r n
  unfold setStep
  dsimp only
  cases d.resultIdx? (u.rowMajor.symm n) idx with
  | none => rfl
  | some i => funext i'; first | rfl | dsimp only

/-- Where exactly one update index lands, the scatter's result is that update's element. -/
theorem scatter_hit (d : ScatterDims s si u) (x : s.Idx → α) (idx : IVec si w) (upd : u.Idx → α) (j : u.Idx) (i' : s.Idx)
    (hj : d.resultIdx? j idx = some i') (hu : ∀ j', d.resultIdx? j' idx = some i' → j' = j) :
    Host.scatter d (fun _ b => b) x idx upd i' = upd j := by
  rw [scatter_eq_foldl]
  have h := foldl_setStep_hit (fun n => d.resultIdx? (u.rowMajor.symm n) idx) (fun n => upd (u.rowMajor.symm n)) i'
    (u.rowMajor j) (by rw [Equiv.symm_apply_apply]; exact hj) (List.finRange u.numel) x (List.mem_finRange _)
    (fun n' _ hg => (Equiv.symm_apply_eq _).1 (hu _ hg))
  rw [h, Equiv.symm_apply_apply]

/-- Where no update index lands, the scatter's result is the operand's element. -/
theorem scatter_miss (d : ScatterDims s si u) (x : s.Idx → α) (idx : IVec si w) (upd : u.Idx → α) (i' : s.Idx)
    (h : ∀ j, d.resultIdx? j idx ≠ some i') :
    Host.scatter d (fun _ b => b) x idx upd i' = x i' := by
  rw [scatter_eq_foldl]
  exact foldl_setStep_miss _ _ i' _ x (fun n _ => h _)

/-- An update index lands at `i'` exactly when start plus window coordinate is `i'`'s coordinate on every axis. -/
theorem resultIdx?_eq_some_iff (d : ScatterDims s si u) (j : u.Idx) (idx : IVec si w) (i' : s.Idx) :
    d.resultIdx? j idx = some i' ↔ ∀ a, d.start j idx a + (d.window j a : Int) = ((i' a).val : Int) := by
  unfold ScatterDims.resultIdx?
  constructor
  · intro h
    split at h
    · next hb =>
      have e := Option.some.inj h
      intro a
      have ea : (d.start j idx a + (d.window j a : Int)).toNat = (i' a).val := by rw [← e]
      have := (hb a).1
      omega
    · cases h
  · intro h
    have hb : ∀ a, 0 ≤ d.start j idx a + (d.window j a : Int) ∧ d.start j idx a + (d.window j a : Int) < s.size a := fun a => by
      rw [h a]; exact ⟨Int.natCast_nonneg _, by exact_mod_cast (i' a).isLt⟩
    rw [dif_pos hb]
    congr 1
    funext a
    apply Fin.ext
    show (d.start j idx a + (d.window j a : Int)).toNat = (i' a).val
    rw [h a]; exact Int.toNat_natCast _

/-! ## One window of the updates' full rank at a fixed offset -/

variable (d : ScatterDims s si u) (hr : u.rank = s.rank) (off : Fin s.rank → Nat)
  (x : s.Idx → α) (idx : IVec si w) (upd : u.Idx → α)

/-- Inside the window the result is the update at the coordinate less the offset. -/
theorem scatter_window_in
    (hs : ∀ (j : u.Idx) a, d.start j idx a = (off a : Int))
    (hw : ∀ (j : u.Idx) a, d.window j a = (j (a.cast hr.symm)).val)
    (i' : s.Idx) (j : u.Idx) (hij : ∀ a, (i' a).val = off a + (j (a.cast hr.symm)).val) :
    Host.scatter d (fun _ b => b) x idx upd i' = upd j := by
  refine scatter_hit d x idx upd j i' ((resultIdx?_eq_some_iff d j idx i').2 fun a => ?_) fun j' hj' => ?_
  · rw [hs, hw, hij a]; push_cast; rfl
  · have h' := (resultIdx?_eq_some_iff d j' idx i').1 hj'
    funext b
    apply Fin.ext
    have hb := h' (b.cast hr)
    rw [hs, hw, hij (b.cast hr)] at hb
    have e : (b.cast hr).cast hr.symm = b := Fin.ext rfl
    rw [e] at hb
    omega

/-- Off the window, on some axis, the result is the operand's element. -/
theorem scatter_window_out
    (hs : ∀ (j : u.Idx) a, d.start j idx a = (off a : Int))
    (hw : ∀ (j : u.Idx) a, d.window j a = (j (a.cast hr.symm)).val)
    (i' : s.Idx) (a : Fin s.rank) (ha : (i' a).val < off a ∨ off a + u.size (a.cast hr.symm) ≤ (i' a).val) :
    Host.scatter d (fun _ b => b) x idx upd i' = x i' := by
  refine scatter_miss d x idx upd i' fun j hj => ?_
  have h' := (resultIdx?_eq_some_iff d j idx i').1 hj a
  rw [hs, hw] at h'
  have := (j (a.cast hr.symm)).isLt
  omega

end Scatter

end Cert.KernelIdeal.LibScatterSet
-- ==== Proof.KHost.lean ====
/-
  What the host operations in front of the kernel's region leave in the region's input arrays: the transposed
  input, the converted weight arrays, the reshaped value column, and the block-structured head matrix that two
  window writes assemble over a zero array.
-/
import proofs.«124053_g2000309348811089_pallasbulk_1112_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«124053_g2000309348811089_pallasbulk_1112_2_alg».proof.Proof.LibScatterSet

set_option maxRecDepth 16384

noncomputable section

namespace Cert.KernelIdeal.KHost

open Cert.KernelIdeal Cert.KernelIdeal.Gen
open Idealize.ShloMosaic Idealize.ShloMosaic.TcCoe Idealize.ShloMosaic.Tactic
open Idealize.ShloMosaic.ValueIdx
open Cert.KernelIdeal.LibScatterSet

variable (m : (ℓ : Loc nD τ sig) → Buf (Elt Ideal) ℓ) (c : Dev nD)

/-! ## Transposed, converted and reshaped arguments -/

/-- The converted first convolution weights are the argument's. -/
theorem V_w1 : @Eq (S9x128x32.Idx → EReal) (Gen.V m c main_v2) (m ((c : Thread nD τ).loc main_arg1)) := by
  dsimp only [Gen.V, Gen.hostOps0]; after_results; rfl
/-- The converted second convolution weights are the argument's. -/
theorem V_w2 : @Eq (S9x32x64.Idx → EReal) (Gen.V m c main_v3) (m ((c : Thread nD τ).loc main_arg2)) := by
  dsimp only [Gen.V, Gen.hostOps0]; after_results; rfl
/-- The converted third convolution weights are the argument's. -/
theorem V_w3 : @Eq (S9x64x128.Idx → EReal) (Gen.V m c main_v4) (m ((c : Thread nD τ).loc main_arg3)) := by
  dsimp only [Gen.V, Gen.hostOps0]; after_results; rfl
/-- The converted hidden-layer weights are the argument's. -/
theorem V_hw : @Eq (S128x128.Idx → EReal) (Gen.V m c main_v5) (m ((c : Thread nD τ).loc main_arg7)) := by
  dsimp only [Gen.V, Gen.hostOps0]; after_results; rfl

/-- The input as the region finds it: the argument with its channel axis moved last. -/
theorem V_x (n : Fin 768) (i j : Fin 8) (ch : Fin 128) :
    (Gen.V m c main_v1 : S768x8x8x128.Idx → EReal) (ix4 n i j ch)
      = (m ((c : Thread nD τ).loc main_arg0) : S768x128x8x8.Idx → EReal) (ix4 n ch i j) := by
  have e : @Eq (S768x8x8x128.Idx → EReal) (Gen.V m c main_v1)
      (transpose S768x8x8x128 [0, 2, 3, 1] (m ((c : Thread nD τ).loc main_arg0) : S768x128x8x8.Idx → EReal)
        transposes_S768x128x8x8_S768x8x8x128_0_2_3_1) := by
    dsimp only [Gen.V, Gen.hostOps0]; after_results; rfl
  rw [e]
  refine transpose_apply _ _ _ (ix4 n i j ch) (ix4 n ch i j) fun b => ?_
  match b with
  | ⟨0, _⟩ => rfl
  | ⟨1, _⟩ => rfl
  | ⟨2, _⟩ => rfl
  | ⟨3, _⟩ => rfl

/-- The value head's weight column as the region finds it: the argument's column laid out as a row. -/
theorem V_vw3 (j : Fin 64) :
    (Gen.V m c main_v19 : S1x64.Idx → EReal) (ix2 0 j)
      = (m ((c : Thread nD τ).loc main_arg13) : S64x1.Idx → EReal) (ix2 j 0) := by
  have e : @Eq (S1x64.Idx → EReal) (Gen.V m c main_v19)
      (shapeCast S1x64 (m ((c : Thread nD τ).loc main_arg13) : S64x1.Idx → EReal) shapeCasts_S64x1_S1x64) := by
    dsimp only [Gen.V, Gen.hostOps0]; after_results; rfl
  rw [e]
  refine shapeCast_apply _ _ (ix2 0 j) (ix2 j 0) ?_
  rw [Shape.rowMajor_val_two, Shape.rowMajor_val_two]
  show j.val * 1 + 0 = 0 * 64 + j.val
  omega

/-! ## The two window writes' dimension records -/

/-- The policy window's offsets. -/
abbrev offP : Fin S64x128x128.rank → Nat := fun a => match a with | ⟨0, _⟩ => 0 | ⟨1, _⟩ => 0 | ⟨2, _⟩ => 0
/-- The value window's offsets. -/
abbrev offV : Fin S64x128x128.rank → Nat := fun a => match a with | ⟨0, _⟩ => 0 | ⟨1, _⟩ => 4 | ⟨2, _⟩ => 64

/-- The policy window's start indices. -/
abbrev idxP : IVec S2 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0
/-- The value window's start indices. -/
abbrev idxV : IVec S2 32 :=
  concatenate S2 0 [⟨S1, broadcastInDim S1 ![] bcast_S_S1 (constantI S_ 32 4#32)⟩,
    ⟨S1, broadcastInDim S1 ![] bcast_S_S1 (constantI S_ 32 64#32)⟩] concatenates_S1_S1_S2_d0

theorem window_P (j : S64x4x64.Idx) (a : Fin S64x128x128.rank) :
    scatter_S64x128x128_S2_S64x4x64_012_n_12_0.window j a = (j (a.cast rfl)).val := by
  match a with
  | ⟨0, _⟩ => rfl
  | ⟨1, _⟩ => rfl
  | ⟨2, _⟩ => rfl

theorem window_V (j : S64x2x64.Idx) (a : Fin S64x128x128.rank) :
    scatter_S64x128x128_S2_S64x2x64_012_n_12_0.window j a = (j (a.cast rfl)).val := by
  match a with
  | ⟨0, _⟩ => rfl
  | ⟨1, _⟩ => rfl
  | ⟨2, _⟩ => rfl

theorem start_P (j : S64x4x64.Idx) (a : Fin S64x128x128.rank) :
    scatter_S64x128x128_S2_S64x4x64_012_n_12_0.start j idxP a = (offP a : Int) := by
  match a with
  | ⟨0, _⟩ => rfl
  | ⟨1, _⟩ => rfl
  | ⟨2, _⟩ => rfl

theorem start_V (j : S64x2x64.Idx) (a : Fin S64x128x128.rank) :
    scatter_S64x128x128_S2_S64x2x64_012_n_12_0.start j idxV a = (offV a : Int) := by
  match a with
  | ⟨0, _⟩ => rfl
  | ⟨1, _⟩ => rfl
  | ⟨2, _⟩ => rfl

/-! ## The head matrix -/

/-- The zero array the head matrix is assembled over. -/
abbrev Z : S64x128x128.Idx → EReal :=
  broadcastInDim S64x128x128 ![] bcast_S_S64x128x128 (constant (F := Ideal) S_ .f32 0x00000000#32)

theorem Z_apply (i : S64x128x128.Idx) : Z i = 0 := by
  show Ideal.ofBits .f32 0x00000000#32 = 0
  exact Idealize.ShloMosaic.Ideal.ofBits_zero_f32

/-- The head matrix with both windows written, as a function of the two heads' weight arrays. -/
abbrev W (x9 : S256x64.Idx → EReal) (x11 : S128x64.Idx → EReal) : S64x128x128.Idx → EReal :=
  Host.scatter scatter_S64x128x128_S2_S64x2x64_012_n_12_0 (fun _ b => b)
    (Host.scatter scatter_S64x128x128_S2_S64x4x64_012_n_12_0 (fun _ b => b) Z idxP
      (shapeCast S64x4x64 x9 shapeCasts_S256x64_S64x4x64))
    idxV (shapeCast S64x2x64 x11 shapeCasts_S128x64_S64x2x64)

/-- Block `p` of the head matrix: rows 0 … 3, columns 0 … 63 hold rows 4 p … 4 p + 3 of the policy head's weights;
    rows 4, 5, columns 64 … 127 hold rows 2 p, 2 p + 1 of the value head's; everything else is zero. -/
theorem W_apply (x9 : S256x64.Idx → EReal) (x11 : S128x64.Idx → EReal) (p : Fin 64) (ch col : Fin 128) :
    W x9 x11 (ix3 p ch col) =
      if h : ch.val < 4 ∧ col.val < 64 then
        x9 (ix2 ⟨p.val * 4 + ch.val, by have := p.isLt; omega⟩ ⟨col.val, h.2⟩)
      else if h' : (4 ≤ ch.val ∧ ch.val < 6) ∧ 64 ≤ col.val then
        x11 (ix2 ⟨p.val * 2 + (ch.val - 4), by have := p.isLt; omega⟩ ⟨col.val - 64, by have := col.isLt; omega⟩)
      else 0 := by
  by_cases h : ch.val < 4 ∧ col.val < 64
  · rw [dif_pos h]
    show Host.scatter scatter_S64x128x128_S2_S64x2x64_012_n_12_0 (fun _ b => b) _ idxV _ (ix3 p ch col) = _
    rw [scatter_window_out scatter_S64x128x128_S2_S64x2x64_012_n_12_0 rfl offV _ idxV _ start_V window_V
      (ix3 p ch col) ⟨1, by decide⟩ (Or.inl (by show ch.val < 4; exact h.1))]
    rw [scatter_window_in scatter_S64x128x128_S2_S64x4x64_012_n_12_0 rfl offP _ idxP _ start_P window_P
      (ix3 p ch col) (ix3 p ⟨ch.val, h.1⟩ ⟨col.val, h.2⟩) (fun a => by
        match a with
        | ⟨0, _⟩ => show p.val = 0 + p.val; omega
        | ⟨1, _⟩ => show ch.val = 0 + ch.val; omega
        | ⟨2, _⟩ => show col.val = 0 + col.val; omega)]
    refine shapeCast_apply x9 _ _ _ ?_
    rw [Shape.rowMajor_val_two, Shape.rowMajor_val_three]
    rfl
  · rw [dif_neg h]
    by_cases h' : (4 ≤ ch.val ∧ ch.val < 6) ∧ 64 ≤ col.val
    · rw [dif_pos h']
      show Host.scatter scatter_S64x128x128_S2_S64x2x64_012_n_12_0 (fun _ b => b) _ idxV _ (ix3 p ch col) = _
      rw [scatter_window_in scatter_S64x128x128_S2_S64x2x64_012_n_12_0 rfl offV _ idxV _ start_V window_V
        (ix3 p ch col) (ix3 p ⟨ch.val - 4, by omega⟩ ⟨col.val - 64, by have := col.isLt; omega⟩) (fun a => by
          match a with
          | ⟨0, _⟩ => show p.val = 0 + p.val; omega
          | ⟨1, _⟩ => show ch.val = 4 + (ch.val - 4); omega
          | ⟨2, _⟩ => show col.val = 64 + (col.val - 64); omega)]
      refine shapeCast_apply x11 _ _ _ ?_
      rw [Shape.rowMajor_val_two, Shape.rowMajor_val_three]
      rfl
    · rw [dif_neg h']
      show Host.scatter scatter_S64x128x128_S2_S64x2x64_012_n_12_0 (fun _ b => b) _ idxV _ (ix3 p ch col) = _
      have hV : ∀ x : S64x128x128.Idx → EReal,
          Host.scatter scatter_S64x128x128_S2_S64x2x64_012_n_12_0 (fun _ b => b) x idxV
            (shapeCast S64x2x64 x11 shapeCasts_S128x64_S64x2x64) (ix3 p ch col) = x (ix3 p ch col) := fun x => by
        by_cases h1 : ch.val < 4
        · exact scatter_window_out scatter_S64x128x128_S2_S64x2x64_012_n_12_0 rfl offV _ idxV _ start_V window_V
            (ix3 p ch col) ⟨1, by decide⟩ (Or.inl (by show ch.val < 4; exact h1))
        · by_cases h2 : 6 ≤ ch.val
          · exact scatter_window_out scatter_S64x128x128_S2_S64x2x64_012_n_12_0 rfl offV _ idxV _ start_V window_V
              (ix3 p ch col) ⟨1, by decide⟩ (Or.inr (by show 4 + 2 ≤ ch.val; omega))
          · exact scatter_window_out scatter_S64x128x128_S2_S64x2x64_012_n_12_0 rfl offV _ idxV _ start_V window_V
              (ix3 p ch col) ⟨2, by decide⟩ (Or.inl (by show col.val < 64; omega))
      rw [hV]
      have hP : Host.scatter scatter_S64x128x128_S2_S64x4x64_012_n_12_0 (fun _ b => b) Z idxP
          (shapeCast S64x4x64 x9 shapeCasts_S256x64_S64x4x64) (ix3 p ch col) = Z (ix3 p ch col) := by
        by_cases h1 : 4 ≤ ch.val
        · exact scatter_window_out scatter_S64x128x128_S2_S64x4x64_012_n_12_0 rfl offP _ idxP _ start_P window_P
            (ix3 p ch col) ⟨1, by decide⟩ (Or.inr (by show 0 + 4 ≤ ch.val; omega))
        · exact scatter_window_out scatter_S64x128x128_S2_S64x4x64_012_n_12_0 rfl offP _ idxP _ start_P window_P
            (ix3 p ch col) ⟨2, by decide⟩ (Or.inr (by show 0 + 64 ≤ col.val; omega))
      rw [hP]
      exact Z_apply _

/-- The policy head's weights as launched. -/
abbrev A9 : S256x64.Idx → EReal := m ((c : Thread nD τ).loc main_arg9)
/-- The value head's second-layer weights as launched. -/
abbrev A11 : S128x64.Idx → EReal := m ((c : Thread nD τ).loc main_arg11)

set_option maxHeartbeats 8000000 in
/-- The head matrix as the region finds it is the reshaped assembled matrix. -/
theorem V_wbig_term : @Eq (S8192x128.Idx → EReal) (Gen.V m c main_v18)
    (truncf .bf16 (shapeCast S8192x128 (W (A9 m c) (A11 m c)) shapeCasts_S64x128x128_S8192x128
      : FVec Ideal S8192x128 .f32) bitsLt_bf16_f32) := by
  dsimp only [Gen.V, Gen.hostOps0]; after_results; rfl

/-- The head matrix as the region finds it: row `128 p + ch`, column `col` is entry `(ch, col)` of block `p`. -/
theorem V_wbig (p : Fin 64) (ch col : Fin 128) (r : Fin 8192) (hr : r.val = p.val * 128 + ch.val) :
    (Gen.V m c main_v18 : S8192x128.Idx → EReal) (ix2 r col) =
      if h : ch.val < 4 ∧ col.val < 64 then
        A9 m c (ix2 ⟨p.val * 4 + ch.val, by have := p.isLt; omega⟩ ⟨col.val, h.2⟩)
      else if h' : (4 ≤ ch.val ∧ ch.val < 6) ∧ 64 ≤ col.val then
        A11 m c (ix2 ⟨p.val * 2 + (ch.val - 4), by have := p.isLt; omega⟩ ⟨col.val - 64, by have := col.isLt; omega⟩)
      else 0 := by
  rw [V_wbig_term]
  rw [truncf_apply]
  rw [shapeCast_apply _ _ (ix2 r col) (ix3 p ch col) (by
    rw [Shape.rowMajor_val_three, Shape.rowMajor_val_two]
    show (p.val * 128 + ch.val) * 128 + col.val = r.val * 128 + col.val
    rw [hr])]
  exact W_apply _ _ p ch col

end Cert.KernelIdeal.KHost

end
-- ==== Proof.Algebra.lean ====
/-
  Sums over the flattened head channels.

  The kernel multiplies ALL 128 head channels of the 64 cells (8192 numbers, cell-major) by an 8192-row matrix whose
  rows are zero except, in the first 64 columns, at the first four channels of each cell, and, in the last 64 columns,
  at channels 4 and 5.  A product with zero is zero on the extended reals, infinite factors included, and sums may be
  regrouped freely; so such a sum over 8192 indices is the sum over the 256 (cell, channel < 4) pairs, respectively
  over the 128 (cell, channel 4 or 5) pairs.
-/
import Idealize.ShloMosaic.PureOps.Ideal

noncomputable section

namespace Cert.Algebra

open Finset

/-- A sum over `a * b` indices, read through quotient and remainder by `b`, is the double sum. -/
theorem sum_div_mod {M : Type} [AddCommMonoid M] {a b : ℕ} (g : Fin a → Fin b → M) (hlt1 : ∀ k : Fin (a * b), k.val / b < a)
    (hlt2 : ∀ k : Fin (a * b), k.val % b < b) :
    ∑ k : Fin (a * b), g ⟨k.val / b, hlt1 k⟩ ⟨k.val % b, hlt2 k⟩ = ∑ p : Fin a, ∑ q : Fin b, g p q := by
  rw [← finProdFinEquiv.sum_comp, Fintype.sum_prod_type]
  refine Finset.sum_congr rfl fun p _ => Finset.sum_congr rfl fun q _ => ?_
  have hb : 0 < b := Nat.pos_of_ne_zero (fun h => by subst h; exact absurd q.isLt (Nat.not_lt_zero _))
  have hv : (finProdFinEquiv (p, q)).val = q.val + b * p.val := rfl
  congr 1
  · apply Fin.ext; show (finProdFinEquiv (p, q)).val / b = p.val
    rw [hv, Nat.add_mul_div_left _ _ hb, Nat.div_eq_of_lt q.isLt, Nat.zero_add]
  · apply Fin.ext; show (finProdFinEquiv (p, q)).val % b = q.val
    rw [hv, Nat.add_mul_mod_self_left, Nat.mod_eq_of_lt q.isLt]

/-- A sum over 128 channels of terms that vanish from channel 4 on is the sum over the first four. -/
theorem sum_first4 (G : Fin 128 → EReal) (hG : ∀ q : Fin 128, 4 ≤ q.val → G q = 0) :
    ∑ q : Fin 128, G q = ∑ q : Fin 4, G ⟨q.val, by omega⟩ := by
  have h := Fin.sum_univ_add (a := 4) (b := 124) (fun q : Fin (4 + 124) => G ⟨q.val, by omega⟩)
  have h0 : ∑ q : Fin 124, G ⟨(Fin.natAdd 4 q).val, by omega⟩ = 0 :=
    Finset.sum_eq_zero fun q _ => hG _ (by show 4 ≤ 4 + q.val; omega)
  have e : ∑ q : Fin 128, G q = ∑ q : Fin (4 + 124), G ⟨q.val, by omega⟩ := rfl
  rw [e, h, h0, add_zero]
  rfl

/-- A sum over 128 channels of terms that vanish except at channels 4 and 5 is the sum over those two. -/
theorem sum_mid2 (G : Fin 128 → EReal) (hG : ∀ q : Fin 128, (q.val < 4 ∨ 6 ≤ q.val) → G q = 0) :
    ∑ q : Fin 128, G q = ∑ q : Fin 2, G ⟨4 + q.val, by omega⟩ := by
  have h := Fin.sum_univ_add (a := 4) (b := 124) (fun q : Fin (4 + 124) => G ⟨q.val, by omega⟩)
  have h0 : ∑ q : Fin 4, G ⟨(Fin.castAdd 124 q).val, by omega⟩ = 0 :=
    Finset.sum_eq_zero fun q _ => hG _ (Or.inl (by show q.val < 4; exact q.isLt))
  have h' := Fin.sum_univ_add (a := 2) (b := 122) (fun q : Fin (2 + 122) => G ⟨4 + q.val, by omega⟩)
  have h1 : ∑ q : Fin 122, G ⟨4 + (Fin.natAdd 2 q).val, by omega⟩ = 0 :=
    Finset.sum_eq_zero fun q _ => hG _ (Or.inr (by show 6 ≤ 4 + (2 + q.val); omega))
  have e : ∑ q : Fin 128, G q = ∑ q : Fin (4 + 124), G ⟨q.val, by omega⟩ := rfl
  have e' : ∑ q : Fin 124, G ⟨(Fin.natAdd 4 q).val, by omega⟩ = ∑ q : Fin (2 + 122), G ⟨4 + q.val, by omega⟩ := rfl
  rw [e, h, h0, zero_add, e', h', h1, add_zero]
  rfl

/-- The first 64 columns: the 8192-term sum against the expanded rows is the 256-term sum against the matrix they
    were expanded from. -/
theorem expand_first (H : Fin 64 → Fin 128 → EReal) (wb : Fin 8192 → EReal) (pw : Fin 256 → EReal)
    (h : ∀ (p : Fin 64) (q : Fin 128), wb ⟨p.val * 128 + q.val, by omega⟩
      = if hq : q.val < 4 then pw ⟨p.val * 4 + q.val, by omega⟩ else 0) :
    ∑ k : Fin 8192, H ⟨k.val / 128, by omega⟩ ⟨k.val % 128, by omega⟩ * wb k
      = ∑ k : Fin 256, H ⟨k.val / 4, by omega⟩ ⟨k.val % 4, by omega⟩ * pw k := by
  have hL := sum_div_mod (a := 64) (b := 128) (fun p q => H p q * wb ⟨p.val * 128 + q.val, by omega⟩)
    (fun k => by have := k.isLt; omega) (fun k => by omega)
  have hR := sum_div_mod (a := 64) (b := 4) (fun p q => H p ⟨q.val, by omega⟩ * pw ⟨p.val * 4 + q.val, by omega⟩)
    (fun k => by have := k.isLt; omega) (fun k => by omega)
  have eL : ∑ k : Fin 8192, H ⟨k.val / 128, by omega⟩ ⟨k.val % 128, by omega⟩ * wb k
      = ∑ k : Fin (64 * 128), H ⟨k.val / 128, by have := k.isLt; omega⟩ ⟨k.val % 128, by omega⟩
          * wb ⟨(k.val / 128) * 128 + k.val % 128, by have := k.isLt; omega⟩ :=
    Finset.sum_congr rfl fun k _ => by
      congr 2; apply Fin.ext; show k.val = (k.val / 128) * 128 + k.val % 128; omega
  have eR : ∑ k : Fin 256, H ⟨k.val / 4, by omega⟩ ⟨k.val % 4, by omega⟩ * pw k
      = ∑ k : Fin (64 * 4), H ⟨k.val / 4, by have := k.isLt; omega⟩ ⟨(⟨k.val % 4, by omega⟩ : Fin 4).val, by omega⟩
          * pw ⟨(k.val / 4) * 4 + k.val % 4, by have := k.isLt; omega⟩ :=
    Finset.sum_congr rfl fun k _ => by
      congr 2; apply Fin.ext; show k.val = (k.val / 4) * 4 + k.val % 4; omega
  rw [eL, hL, eR, hR]
  refine Finset.sum_congr rfl fun p _ => ?_
  rw [sum_first4 _ (fun q hq => by rw [h p q, dif_neg (by omega), mul_zero])]
  refine Finset.sum_congr rfl fun q _ => ?_
  rw [h p ⟨q.val, by omega⟩, dif_pos (by show q.val < 4; exact q.isLt)]

/-- The last 64 columns: the 8192-term sum against the expanded rows is the 128-term sum against the matrix they
    were expanded from. -/
theorem expand_second (H : Fin 64 → Fin 128 → EReal) (wb : Fin 8192 → EReal) (vw : Fin 128 → EReal)
    (h : ∀ (p : Fin 64) (q : Fin 128), wb ⟨p.val * 128 + q.val, by omega⟩
      = if hq : 4 ≤ q.val ∧ q.val < 6 then vw ⟨p.val * 2 + (q.val - 4), by omega⟩ else 0) :
    ∑ k : Fin 8192, H ⟨k.val / 128, by omega⟩ ⟨k.val % 128, by omega⟩ * wb k
      = ∑ k : Fin 128, H ⟨k.val / 2, by omega⟩ ⟨4 + k.val % 2, by omega⟩ * vw k := by
  have hL := sum_div_mod (a := 64) (b := 128) (fun p q => H p q * wb ⟨p.val * 128 + q.val, by omega⟩)
    (fun k => by have := k.isLt; omega) (fun k => by omega)
  have hR := sum_div_mod (a := 64) (b := 2) (fun p q => H p ⟨4 + q.val, by omega⟩ * vw ⟨p.val * 2 + q.val, by omega⟩)
    (fun k => by have := k.isLt; omega) (fun k => by omega)
  have eL : ∑ k : Fin 8192, H ⟨k.val / 128, by omega⟩ ⟨k.val % 128, by omega⟩ * wb k
      = ∑ k : Fin (64 * 128), H ⟨k.val / 128, by have := k.isLt; omega⟩ ⟨k.val % 128, by omega⟩
          * wb ⟨(k.val / 128) * 128 + k.val % 128, by have := k.isLt; omega⟩ :=
    Finset.sum_congr rfl fun k _ => by
      congr 2; apply Fin.ext; show k.val = (k.val / 128) * 128 + k.val % 128; omega
  have eR : ∑ k : Fin 128, H ⟨k.val / 2, by omega⟩ ⟨4 + k.val % 2, by omega⟩ * vw k
      = ∑ k : Fin (64 * 2), H ⟨k.val / 2, by have := k.isLt; omega⟩ ⟨4 + (⟨k.val % 2, by omega⟩ : Fin 2).val, by omega⟩
          * vw ⟨(k.val / 2) * 2 + k.val % 2, by have := k.isLt; omega⟩ :=
    Finset.sum_congr rfl fun k _ => by
      congr 2; apply Fin.ext; show k.val = (k.val / 2) * 2 + k.val % 2; omega
  rw [eL, hL, eR, hR]
  refine Finset.sum_congr rfl fun p _ => ?_
  rw [sum_mid2 _ (fun q hq => by rw [h p q, dif_neg (by omega), mul_zero])]
  refine Finset.sum_congr rfl fun q _ => ?_
  rw [h p ⟨4 + q.val, by omega⟩, dif_pos (by show 4 ≤ 4 + q.val ∧ 4 + q.val < 6; omega)]
  refine congrArg (fun t => H p ⟨4 + q.val, by omega⟩ * vw t) (Fin.ext ?_)
  show p.val * 2 + (4 + q.val - 4) = p.val * 2 + q.val
  omega

end Cert.Algebra

end
-- ==== Proof.KFinal.lean ====
/-
  From the blocks to the arrays: the kernel's two results after the run, as the specification's functions of the
  argument arrays.

  Point `t` of the grid handles boards `32 t … 32 t + 31`: its input block is those boards of the transposed input, its
  other inputs are the parameter arrays whole, and it writes rows `32 t … 32 t + 31` of each result.  Board `n` of the
  block is board `32 t + n` of the input, so by the entry-by-entry reading of the block the rows written are the
  specification's rows — once the 8192-term sums against the expanded matrix are regrouped into the 256- and 128-term
  sums against the matrices it was expanded from (the expanded rows are zero elsewhere, and a product with zero is
  zero).  The 24 blocks cover each result, so the arrays after the run are the specification's.
-/
import proofs.«124053_g2000309348811089_pallasbulk_1112_2_alg».proof.Proof.KEq
import proofs.«124053_g2000309348811089_pallasbulk_1112_2_alg».proof.Proof.KValue
import proofs.«124053_g2000309348811089_pallasbulk_1112_2_alg».proof.Proof.KHost
import proofs.«124053_g2000309348811089_pallasbulk_1112_2_alg».proof.Proof.Algebra
import Idealize.ShloMosaic.Lib.Pipeline.Value

set_option maxRecDepth 16384

noncomputable section

namespace Cert.KernelIdeal.KFinal

open Cert.KernelIdeal Cert.KernelIdeal.Gen Cert.KernelIdeal.Body Cert.KernelIdeal.KTerm Cert.KernelIdeal.KPad Cert.KernelIdeal.KValue Cert.KernelIdeal.KHost
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The printed index maps over the grid: the input's and the results' blocks move with the point along the first
    axis, every other window stays at the origin. -/
theorem idx_facts : ∀ t : Fin cfg0.N, win0_0.index t (0 : Fin 4) = t.val
    ∧ win0_0.index t (1 : Fin 4) = 0
    ∧ win0_0.index t (2 : Fin 4) = 0
    ∧ win0_0.index t (3 : Fin 4) = 0
    ∧ win0_1.index t (0 : Fin 3) = 0
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 3) = 0
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 3) = 0
    ∧ win0_5.index t (1 : Fin 3) = 0
    ∧ win0_5.index t (2 : Fin 3) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = t.val
    ∧ win0_14.index t (1 : Fin 2) = 0
    ∧ win0_15.index t (0 : Fin 2) = t.val
    ∧ win0_15.index t (1 : Fin 2) = 0 :=
  (by decide +kernel : ∀ t : Fin grid0.N, _)

/-- The two results as functions of the argument arrays. -/
def GP (c : Dev nD) : S768x64.Idx → EReal := Cert.Spec.probs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
def GV (c : Dev nD) : S768x1.Idx → EReal := Cert.Spec.values (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))

/-- Board `p` of point `t`'s input block is board `32 t + p` of the transposed input. -/
theorem iblk0_apply (c : Dev nD) (t : Fin cfg0.N) (p : Fin 32) (i j : Fin 8) (ch : Fin 128) :
    (iblk m c 0 t : S32x8x8x128.Idx → EReal) (ix4 p i j ch)
      = (V m c main_v1 : S768x8x8x128.Idx → EReal) (ix4 (⟨t.val * 32 + p.val, by have := t.isLt; have h : cfg0.N = 24 := N_0; omega⟩ : Fin 768) i j ch) := by
  show (V m c main_v1 : S768x8x8x128.Idx → EReal) (((cfg0.win 0).blk t).view.emb (ix4 p i j ch)) = _
  refine congrArg (V m c main_v1 : S768x8x8x128.Idx → EReal) (funext fun a => Fin.ext ?_)
  have e0 := (idx_facts t).1
  have e1 := (idx_facts t).2.1
  have e2 := (idx_facts t).2.2.1
  have e3 := (idx_facts t).2.2.2.1
  match a with
  | ⟨0, _⟩ => show win0_0.index t (0 : Fin 4) * 32 + 1 * p.val = t.val * 32 + p.val; omega
  | ⟨1, _⟩ => show win0_0.index t (1 : Fin 4) * 8 + 1 * i.val = i.val; omega
  | ⟨2, _⟩ => show win0_0.index t (2 : Fin 4) * 8 + 1 * j.val = j.val; omega
  | ⟨3, _⟩ => show win0_0.index t (3 : Fin 4) * 128 + 1 * ch.val = ch.val; omega

/-- Window 1's block is its whole array. -/
theorem iblk1_eq (c : Dev nD) (t : Fin cfg0.N) : (iblk m c 1 t : S9x128x32.Idx → EReal) = (V m c main_v2 : S9x128x32.Idx → EReal) := by
  funext y
  show (V m c main_v2 : S9x128x32.Idx → EReal) (((cfg0.win 1).blk t).view.emb y) = _
  refine congrArg (V m c main_v2 : S9x128x32.Idx → EReal) (funext fun a => Fin.ext ?_)
  have e0 := (idx_facts t).2.2.2.2.1
  have e1 := (idx_facts t).2.2.2.2.2.1
  have e2 := (idx_facts t).2.2.2.2.2.2.1
  match a with
  | ⟨0, _⟩ => show win0_1.index t (0 : Fin 3) * 9 + 1 * (y 0).val = (y 0).val; omega
  | ⟨1, _⟩ => show win0_1.index t (1 : Fin 3) * 128 + 1 * (y 1).val = (y 1).val; omega
  | ⟨2, _⟩ => show win0_1.index t (2 : Fin 3) * 32 + 1 * (y 2).val = (y 2).val; omega

/-- Window 2's block is its whole array. -/
theorem iblk2_eq (c : Dev nD) (t : Fin cfg0.N) : (iblk m c 2 t : S1x32.Idx → EReal) = (V m c main_arg4 : S1x32.Idx → EReal) := by
  funext y
  show (V m c main_arg4 : S1x32.Idx → EReal) (((cfg0.win 2).blk t).view.emb y) = _
  refine congrArg (V m c main_arg4 : S1x32.Idx → EReal) (funext fun a => Fin.ext ?_)
  have e0 := (idx_facts t).2.2.2.2.2.2.2.1
  have e1 := (idx_facts t).2.2.2.2.2.2.2.2.1
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- Window 3's block is its whole array. -/
theorem iblk3_eq (c : Dev nD) (t : Fin cfg0.N) : (iblk m c 3 t : S9x32x64.Idx → EReal) = (V m c main_v3 : S9x32x64.Idx → EReal) := by
  funext y
  show (V m c main_v3 : S9x32x64.Idx → EReal) (((cfg0.win 3).blk t).view.emb y) = _
  refine congrArg (V m c main_v3 : S9x32x64.Idx → EReal) (funext fun a => Fin.ext ?_)
  have e0 := (idx_facts t).2.2.2.2.2.2.2.2.2.1
  have e1 := (idx_facts t).2.2.2.2.2.2.2.2.2.2.1
  have e2 := (idx_facts t).2.2.2.2.2.2.2.2.2.2.2.1
  match a with
  | ⟨0, _⟩ => show win0_3.index t (0 : Fin 3) * 9 + 1 * (y 0).val = (y 0).val; omega
  | ⟨1, _⟩ => show win0_3.index t (1 : Fin 3) * 32 + 1 * (y 1).val = (y 1).val; omega
  | ⟨2, _⟩ => show win0_3.index t (2 : Fin 3) * 64 + 1 * (y 2).val = (y 2).val; omega

/-- Window 4's block is its whole array. -/
theorem iblk4_eq (c : Dev nD) (t : Fin cfg0.N) : (iblk m c 4 t : S1x64.Idx → EReal) = (V m c main_arg5 : S1x64.Idx → EReal) := by
  funext y
  show (V m c main_arg5 : S1x64.Idx → EReal) (((cfg0.win 4).blk t).view.emb y) = _
  refine congrArg (V m c main_arg5 : S1x64.Idx → EReal) (funext fun a => Fin.ext ?_)
  have e0 := (idx_facts t).2.2.2.2.2.2.2.2.2.2.2.2.1
  have e1 := (idx_facts t).2.2.2.2.2.2.2.2.2.2.2.2.2.1
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block is its whole array. -/
theorem iblk5_eq (c : Dev nD) (t : Fin cfg0.N) : (iblk m c 5 t : S9x64x128.Idx → EReal) = (V m c main_v4 : S9x64x128.Idx → EReal) := by
  funext y
  show (V m c main_v4 : S9x64x128.Idx → EReal) (((cfg0.win 5).blk t).view.emb y) = _
  refine congrArg (V m c main_v4 : S9x64x128.Idx → EReal) (funext fun a => Fin.ext ?_)
  have e0 := (idx_facts t).2.2.2.2.2.2.2.2.2.2.2.2.2.2.1
  have e1 := (idx_facts t).2.2.2.2.2.2.2.2.2.2.2.2.2.2.2.1
  have e2 := (idx_facts t).2.2.2.2.2.2.2.2.2.2.2.2.2.2.2.2.1
  match a with
  | ⟨0, _⟩ => show win0_5.index t (0 : Fin 3) * 9 + 1 * (y 0).val = (y 0).val; omega
  | ⟨1, _⟩ => show win0_5.index t (1 : Fin 3) * 64 + 1 * (y 1).val = (y 1).val; omega
  | ⟨2, _⟩ => show win0_5.index t (2 : Fin 3) * 128 + 1 * (y 2).val = (y 2).val; omega

/-- Window 6's block is its whole array. -/
theorem iblk6_eq (c : Dev nD) (t : Fin cfg0.N) : (iblk m c 6 t : S1x128.Idx → EReal) = (V m c main_arg6 : S1x128.Idx → EReal) := by
  funext y
  show (V m c main_arg6 : S1x128.Idx → EReal) (((cfg0.win 6).blk t).view.emb y) = _
  refine congrArg (V m c main_arg6 : S1x128.Idx → EReal) (funext fun a => Fin.ext ?_)
  have e0 := (idx_facts t).2.2.2.2.2.2.2.2.2.2.2.2.2.2.2.2.2.1
  have e1 := (idx_facts t).2.2.2.2.2.2.2.2.2.2.2.2.2.2.2.2.2.2.1
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array. -/
theorem iblk7_eq (c : Dev nD) (t : Fin cfg0.N) : (iblk m c 7 t : S128x128.Idx → EReal) = (V m c main_v5 : S128x128.Idx → EReal) := by
  funext y
  show (V m c main_v5 : S128x128.Idx → EReal) (((cfg0.win 7).blk t).view.emb y) = _
  refine congrArg (V m c main_v5 : S128x128.Idx → EReal) (funext fun a => Fin.ext ?_)
  have e0 := (idx_facts t).2.2.2.2.2.2.2.2.2.2.2.2.2.2.2.2.2.2.2.1
  have e1 := (idx_facts t).2.2.2.2.2.2.2.2.2.2.2.2.2.2.2.2.2.2.2.2.1
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block is its whole array. -/
theorem iblk8_eq (c : Dev nD) (t : Fin cfg0.N) : (iblk m c 8 t : S1x128.Idx → EReal) = (V m c main_arg8 : S1x128.Idx → EReal) := by
  funext y
  show (V m c main_arg8 : S1x128.Idx → EReal) (((cfg0.win 8).blk t).view.emb y) = _
  refine congrArg (V m c main_arg8 : S1x128.Idx → EReal) (funext fun a => Fin.ext ?_)
  have e0 := (idx_facts t).2.2.2.2.2.2.2.2.2.2.2.2.2.2.2.2.2.2.2.2.2.1
  have e1 := (idx_facts t).2.2.2.2.2.2.2.2.2.2.2.2.2.2.2.2.2.2.2.2.2.2.1
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's block is its whole array. -/
theorem iblk9_eq (c : Dev nD) (t : Fin cfg0.N) : (iblk m c 9 t : S8192x128.Idx → EReal) = (V m c main_v18 : S8192x128.Idx → EReal) := by
  funext y
  show (V m c main_v18 : S8192x128.Idx → EReal) (((cfg0.win 9).blk t).view.emb y) = _
  refine congrArg (V m c main_v18 : S8192x128.Idx → EReal) (funext fun a => Fin.ext ?_)
  have e0 := (idx_facts t).2.2.2.2.2.2.2.2.2.2.2.2.2.2.2.2.2.2.2.2.2.2.2.1
  have e1 := (idx_facts t).2.2.2.2.2.2.2.2.2.2.2.2.2.2.2.2.2.2.2.2.2.2.2.2.1
  match a with
  | ⟨0, _⟩ => show win0_9.index t (0 : Fin 2) * 8192 + 1 * (y 0).val = (y 0).val; omega
  | ⟨1, _⟩ => show win0_9.index t (1 : Fin 2) * 128 + 1 * (y 1).val = (y 1).val; omega

/-- Window 10's block is its whole array. -/
theorem iblk10_eq (c : Dev nD) (t : Fin cfg0.N) : (iblk m c 10 t : S1x64.Idx → EReal) = (V m c main_arg10 : S1x64.Idx → EReal) := by
  funext y
  show (V m c main_arg10 : S1x64.Idx → EReal) (((cfg0.win 10).blk t).view.emb y) = _
  refine congrArg (V m c main_arg10 : S1x64.Idx → EReal) (funext fun a => Fin.ext ?_)
  have e0 := (idx_facts t).2.2.2.2.2.2.2.2.2.2.2.2.2.2.2.2.2.2.2.2.2.2.2.2.2.1
  have e1 := (idx_facts t).2.2.2.2.2.2.2.2.2.2.2.2.2.2.2.2.2.2.2.2.2.2.2.2.2.2.1
  match a with
  | ⟨0, _⟩ => show win0_10.index t (0 : Fin 2) * 1 + 1 * (y 0).val = (y 0).val; omega
  | ⟨1, _⟩ => show win0_10.index t (1 : Fin 2) * 64 + 1 * (y 1).val = (y 1).val; omega

/-- Window 11's block is its whole array. -/
theorem iblk11_eq (c : Dev nD) (t : Fin cfg0.N) : (iblk m c 11 t : S1x64.Idx → EReal) = (V m c main_arg12 : S1x64.Idx → EReal) := by
  funext y
  show (V m c main_arg12 : S1x64.Idx → EReal) (((cfg0.win 11).blk t).view.emb y) = _
  refine congrArg (V m c main_arg12 : S1x64.Idx → EReal) (funext fun a => Fin.ext ?_)
  have e0 := (idx_facts t).2.2.2.2.2.2.2.2.2.2.2.2.2.2.2.2.2.2.2.2.2.2.2.2.2.2.2.1
  have e1 := (idx_facts t).2.2.2.2.2.2.2.2.2.2.2.2.2.2.2.2.2.2.2.2.2.2.2.2.2.2.2.2.1
  match a with
  | ⟨0, _⟩ => show win0_11.index t (0 : Fin 2) * 1 + 1 * (y 0).val = (y 0).val; omega
  | ⟨1, _⟩ => show win0_11.index t (1 : Fin 2) * 64 + 1 * (y 1).val = (y 1).val; omega

/-- Window 12's block is its whole array. -/
theorem iblk12_eq (c : Dev nD) (t : Fin cfg0.N) : (iblk m c 12 t : S1x64.Idx → EReal) = (V m c main_v19 : S1x64.Idx → EReal) := by
  funext y
  show (V m c main_v19 : S1x64.Idx → EReal) (((cfg0.win 12).blk t).view.emb y) = _
  refine congrArg (V m c main_v19 : S1x64.Idx → EReal) (funext fun a => Fin.ext ?_)
  have e0 := (idx_facts t).2.2.2.2.2.2.2.2.2.2.2.2.2.2.2.2.2.2.2.2.2.2.2.2.2.2.2.2.2.1
  have e1 := (idx_facts t).2.2.2.2.2.2.2.2.2.2.2.2.2.2.2.2.2.2.2.2.2.2.2.2.2.2.2.2.2.2.1
  match a with
  | ⟨0, _⟩ => show win0_12.index t (0 : Fin 2) * 1 + 1 * (y 0).val = (y 0).val; omega
  | ⟨1, _⟩ => show win0_12.index t (1 : Fin 2) * 64 + 1 * (y 1).val = (y 1).val; omega

/-- Window 13's block is its whole array. -/
theorem iblk13_eq (c : Dev nD) (t : Fin cfg0.N) : (iblk m c 13 t : S1x1.Idx → EReal) = (V m c main_arg14 : S1x1.Idx → EReal) := by
  funext y
  show (V m c main_arg14 : S1x1.Idx → EReal) (((cfg0.win 13).blk t).view.emb y) = _
  refine congrArg (V m c main_arg14 : S1x1.Idx → EReal) (funext fun a => Fin.ext ?_)
  have e0 := (idx_facts t).2.2.2.2.2.2.2.2.2.2.2.2.2.2.2.2.2.2.2.2.2.2.2.2.2.2.2.2.2.2.2.1
  have e1 := (idx_facts t).2.2.2.2.2.2.2.2.2.2.2.2.2.2.2.2.2.2.2.2.2.2.2.2.2.2.2.2.2.2.2.2.1
  match a with
  | ⟨0, _⟩ => show win0_13.index t (0 : Fin 2) * 1 + 1 * (y 0).val = (y 0).val; omega
  | ⟨1, _⟩ => show win0_13.index t (1 : Fin 2) * 1 + 1 * (y 1).val = (y 1).val; omega

/-- Board `n` of point `t`'s block, through the layers and the head channels, is board `32 t + n` of the input's. -/
theorem kH_eq (c : Dev nD) (t : Fin cfg0.N) (n : Fin 32) :
    kH (iblk m c 0 t) (iblk m c 1 t) (iblk m c 2 t) (iblk m c 3 t) (iblk m c 4 t) (iblk m c 5 t) (iblk m c 6 t) (iblk m c 7 t) (iblk m c 8 t) n
      = Cert.Spec.headsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (⟨t.val * 32 + n.val, by have := t.isLt; have h : cfg0.N = 24 := N_0; omega⟩ : Fin 768) := by
  have hb : brd (iblk m c 0 t : S32x8x8x128.Idx → EReal) n
      = Cert.Spec.board (m ((c : Thread nD τ).loc main_arg0)) (⟨t.val * 32 + n.val, by have := t.isLt; have h : cfg0.N = 24 := N_0; omega⟩ : Fin 768) :=
    funext fun i => funext fun j => funext fun ch => (iblk0_apply m c t n i j ch).trans (V_x m c _ i j ch)
  unfold kH kL3 kL2 kL1 Cert.Spec.headsOf Cert.Spec.layer3 Cert.Spec.layer2 Cert.Spec.layer1
  rw [hb, iblk1_eq, iblk2_eq, iblk3_eq, iblk4_eq, iblk5_eq, iblk6_eq, iblk7_eq, iblk8_eq, V_w1, V_w2, V_w3, V_hw,
    V_main_arg4, V_main_arg5, V_main_arg6, V_main_arg8]

/-! ## The rows a point writes -/

theorem row14 (t : Fin cfg0.N) (p : Fin 32) (q : Fin 64) :
    ((cfg0.win 14).blk t).view.emb (ix2 p q : S32x64.Idx) = (ix2 (⟨t.val * 32 + p.val, by have := t.isLt; have h : cfg0.N = 24 := N_0; omega⟩ : Fin 768) q : S768x64.Idx) := by
  funext a; apply Fin.ext
  have e0 := (idx_facts t).2.2.2.2.2.2.2.2.2.2.2.2.2.2.2.2.2.2.2.2.2.2.2.2.2.2.2.2.2.2.2.2.2.1
  have e1 := (idx_facts t).2.2.2.2.2.2.2.2.2.2.2.2.2.2.2.2.2.2.2.2.2.2.2.2.2.2.2.2.2.2.2.2.2.2.1
  match a with
  | ⟨0, _⟩ => show win0_14.index t (0 : Fin 2) * 32 + 1 * p.val = t.val * 32 + p.val; omega
  | ⟨1, _⟩ => show win0_14.index t (1 : Fin 2) * 64 + 1 * q.val = q.val; omega

theorem row15 (t : Fin cfg0.N) (p : Fin 32) (q : Fin 1) :
    ((cfg0.win 15).blk t).view.emb (ix2 p q : S32x1.Idx) = (ix2 (⟨t.val * 32 + p.val, by have := t.isLt; have h : cfg0.N = 24 := N_0; omega⟩ : Fin 768) q : S768x1.Idx) := by
  funext a; apply Fin.ext
  have e0 := (idx_facts t).2.2.2.2.2.2.2.2.2.2.2.2.2.2.2.2.2.2.2.2.2.2.2.2.2.2.2.2.2.2.2.2.2.2.2.1
  have e1 := (idx_facts t).2.2.2.2.2.2.2.2.2.2.2.2.2.2.2.2.2.2.2.2.2.2.2.2.2.2.2.2.2.2.2.2.2.2.2.2
  match a with
  | ⟨0, _⟩ => show win0_15.index t (0 : Fin 2) * 32 + 1 * p.val = t.val * 32 + p.val; omega
  | ⟨1, _⟩ => show win0_15.index t (1 : Fin 2) * 1 + 1 * q.val = q.val; omega

set_option maxHeartbeats 2000000 in
/-- What point `t` writes back into the first result is its block of the specification's array. -/
theorem flushed14_eq (c : Dev nD) (t : Fin cfg0.N) :
    (dats m 0 c).flushed 14 t = ((cfg0.win 14).blk t).view.read (Elt Ideal) (GP m c) := by
  show (cfg0.win 14).cut (grid0.coords t) ((dats m 0 c).after 14 t) = _
  rw [after0_14]
  unfold outPAt
  rw [outP_eq]
  funext y
  obtain ⟨p, q, rfl⟩ : ∃ (p : Fin 32) (q : Fin 64), y = ix2 p q := ⟨y 0, y 1, eq_ix2 y⟩
  show termP _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p q) = GP m c (((cfg0.win 14).blk t).view.emb (ix2 p q : S32x64.Idx))
  rw [termP_apply, row14, kH_eq]
  unfold GP Cert.Spec.probs
  show Cert.Spec.logSoftmax _ q = Cert.Spec.logSoftmax (Cert.Spec.logits (Cert.Spec.headsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (⟨t.val * 32 + p.val, by have := t.isLt; have h : cfg0.N = 24 := N_0; omega⟩ : Fin 768)) (fun k j => (m ((c : Thread nD τ).loc main_arg9)) (ix2 k j)) (fun j => (m ((c : Thread nD τ).loc main_arg10)) (ix2 0 j))) q
  refine congrArg (fun f => Cert.Spec.logSoftmax f q) (funext fun j => ?_)
  unfold Cert.Spec.logits
  rw [iblk10_eq, V_main_arg10, iblk9_eq]
  refine congrArg (· + (m ((c : Thread nD τ).loc main_arg10)) (ix2 0 j)) ?_
  refine Cert.Algebra.expand_first _ (fun k => (V m c main_v18 : S8192x128.Idx → EReal) (ix2 k (⟨j.val, by omega⟩ : Fin 128))) (fun k => (m ((c : Thread nD τ).loc main_arg9)) (ix2 k j)) (fun p' q' => ?_)
  show (V m c main_v18 : S8192x128.Idx → EReal) (ix2 (⟨p'.val * 128 + q'.val, by omega⟩ : Fin 8192) (⟨j.val, by omega⟩ : Fin 128)) = _
  rw [V_wbig m c p' q' (⟨j.val, by omega⟩ : Fin 128) (⟨p'.val * 128 + q'.val, by omega⟩ : Fin 8192) rfl]
  by_cases hq : q'.val < 4
  · rw [dif_pos ⟨hq, j.isLt⟩, dif_pos hq]
  · rw [dif_neg (fun h => hq h.1), dif_neg (fun h => by have h2 : 64 ≤ j.val := h.2; have := j.isLt; omega), dif_neg hq]

set_option maxHeartbeats 2000000 in
/-- What point `t` writes back into the second result is its block of the specification's array. -/
theorem flushed15_eq (c : Dev nD) (t : Fin cfg0.N) :
    (dats m 0 c).flushed 15 t = ((cfg0.win 15).blk t).view.read (Elt Ideal) (GV m c) := by
  show (cfg0.win 15).cut (grid0.coords t) ((dats m 0 c).after 15 t) = _
  rw [after0_15]
  unfold outVAt
  rw [outV_eq]
  funext y
  obtain ⟨p, q, rfl⟩ : ∃ (p : Fin 32) (q : Fin 1), y = ix2 p q := ⟨y 0, y 1, eq_ix2 y⟩
  obtain rfl : q = 0 := Fin.ext (by omega)
  show termV _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p (0 : Fin 1)) = GV m c (((cfg0.win 15).blk t).view.emb (ix2 p (0 : Fin 1) : S32x1.Idx))
  rw [termV_apply, row15, kH_eq]
  unfold GV Cert.Spec.values
  show Cert.Spec.value _ _ _ = Cert.Spec.value (Cert.Spec.hidden (Cert.Spec.headsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (⟨t.val * 32 + p.val, by have := t.isLt; have h : cfg0.N = 24 := N_0; omega⟩ : Fin 768)) (fun k j => (m ((c : Thread nD τ).loc main_arg11)) (ix2 k j)) (fun j => (m ((c : Thread nD τ).loc main_arg12)) (ix2 0 j))) (fun j => (m ((c : Thread nD τ).loc main_arg13)) (ix2 j 0)) ((m ((c : Thread nD τ).loc main_arg14)) (ix2 0 0))
  rw [iblk13_eq, V_main_arg14]
  refine congrArg₂ (fun f g => Cert.Spec.value f g ((m ((c : Thread nD τ).loc main_arg14)) (ix2 0 0))) (funext fun j => ?_) (funext fun j => ?_)
  · unfold Cert.Spec.hidden
    rw [iblk11_eq, V_main_arg12, iblk9_eq]
    refine congrArg (fun s => max (s + (m ((c : Thread nD τ).loc main_arg12)) (ix2 0 j)) 0) ?_
    refine Cert.Algebra.expand_second _ (fun k => (V m c main_v18 : S8192x128.Idx → EReal) (ix2 k (⟨64 + j.val, by omega⟩ : Fin 128))) (fun k => (m ((c : Thread nD τ).loc main_arg11)) (ix2 k j)) (fun p' q' => ?_)
    show (V m c main_v18 : S8192x128.Idx → EReal) (ix2 (⟨p'.val * 128 + q'.val, by omega⟩ : Fin 8192) (⟨64 + j.val, by omega⟩ : Fin 128)) = _
    rw [V_wbig m c p' q' (⟨64 + j.val, by omega⟩ : Fin 128) (⟨p'.val * 128 + q'.val, by omega⟩ : Fin 8192) rfl]
    by_cases hq : 4 ≤ q'.val ∧ q'.val < 6
    · rw [dif_neg (fun h => by have := h.2; show False; have h2 : 64 + j.val < 64 := this; omega), dif_pos ⟨hq, by show 64 ≤ 64 + j.val; omega⟩, dif_pos hq]
      refine congrArg (fun idx => (m ((c : Thread nD τ).loc main_arg11)) idx) (funext fun a => Fin.ext ?_)
      match a with
      | ⟨0, _⟩ => rfl
      | ⟨1, _⟩ => show 64 + j.val - 64 = j.val; omega
    · rw [dif_neg (fun h => by have := h.2; show False; have h2 : 64 + j.val < 64 := this; omega), dif_neg (fun h => hq h.1), dif_neg hq]
  · rw [iblk12_eq, V_vw3]

/-! ## The blocks cover the results -/

theorem mem_blk14 (t : Fin cfg0.N) (i : S768x64.Idx) :
    i ∈ ((cfg0.win 14).blk t).view.set ↔ ∀ a : Fin 2, win0_14.index t a * S32x64.size a ≤ (i a).val ∧ (i a).val < win0_14.index t a * S32x64.size a + S32x64.size a := by
  show i ∈ ((View.whole main_v20_0).slice (win0_14.rect t)).set ↔ _
  rw [View.set_slice_whole, Rect.mem_set_unit]
  exact Iff.rfl

theorem mem_blk15 (t : Fin cfg0.N) (i : S768x1.Idx) :
    i ∈ ((cfg0.win 15).blk t).view.set ↔ ∀ a : Fin 2, win0_15.index t a * S32x1.size a ≤ (i a).val ∧ (i a).val < win0_15.index t a * S32x1.size a + S32x1.size a := by
  show i ∈ ((View.whole main_v20_1).slice (win0_15.rect t)).set ↔ _
  rw [View.set_slice_whole, Rect.mem_set_unit]
  exact Iff.rfl

theorem cover14 (i : S768x64.Idx) : ∃ t : Fin cfg0.N, (cfg0.win 14).flush t = true ∧ i ∈ ((cfg0.win 14).blk t).view.set := by
  have hi0 : (i 0).val < 768 := (i 0).isLt
  have hi1 : (i 1).val < 64 := (i 1).isLt
  have hN : cfg0.N = 24 := N_0
  let t : Fin cfg0.N := ⟨(i 0).val / 32, by omega⟩
  refine ⟨t, flush0_14 t, ?_⟩
  rw [mem_blk14]
  have e0 := (idx_facts t).2.2.2.2.2.2.2.2.2.2.2.2.2.2.2.2.2.2.2.2.2.2.2.2.2.2.2.2.2.2.2.2.2.1
  have e1 := (idx_facts t).2.2.2.2.2.2.2.2.2.2.2.2.2.2.2.2.2.2.2.2.2.2.2.2.2.2.2.2.2.2.2.2.2.2.1
  have ht : t.val = (i 0).val / 32 := rfl
  intro a
  match a with
  | ⟨0, _⟩ => show win0_14.index t (0 : Fin 2) * 32 ≤ (i 0).val ∧ (i 0).val < win0_14.index t (0 : Fin 2) * 32 + 32; omega
  | ⟨1, _⟩ => show win0_14.index t (1 : Fin 2) * 64 ≤ (i 1).val ∧ (i 1).val < win0_14.index t (1 : Fin 2) * 64 + 64; omega

theorem cover15 (i : S768x1.Idx) : ∃ t : Fin cfg0.N, (cfg0.win 15).flush t = true ∧ i ∈ ((cfg0.win 15).blk t).view.set := by
  have hi0 : (i 0).val < 768 := (i 0).isLt
  have hi1 : (i 1).val < 1 := (i 1).isLt
  have hN : cfg0.N = 24 := N_0
  let t : Fin cfg0.N := ⟨(i 0).val / 32, by omega⟩
  refine ⟨t, flush0_15 t, ?_⟩
  rw [mem_blk15]
  have e0 := (idx_facts t).2.2.2.2.2.2.2.2.2.2.2.2.2.2.2.2.2.2.2.2.2.2.2.2.2.2.2.2.2.2.2.2.2.2.2.1
  have e1 := (idx_facts t).2.2.2.2.2.2.2.2.2.2.2.2.2.2.2.2.2.2.2.2.2.2.2.2.2.2.2.2.2.2.2.2.2.2.2.2
  have ht : t.val = (i 0).val / 32 := rfl
  intro a
  match a with
  | ⟨0, _⟩ => show win0_15.index t (0 : Fin 2) * 32 ≤ (i 0).val ∧ (i 0).val < win0_15.index t (0 : Fin 2) * 32 + 32; omega
  | ⟨1, _⟩ => show win0_15.index t (1 : Fin 2) * 1 ≤ (i 1).val ∧ (i 1).val < win0_15.index t (1 : Fin 2) * 1 + 1; omega

/-- The two results after the run. -/
theorem final14 (c : Dev nD) : (dats m 0 c).arrAt 14 cfg0.N = GP m c :=
  (dats m 0 c).arrAt_eq_of_cover 14 (GP m c) (fun t _ => flushed14_eq m c t) (cover14)
theorem final15 (c : Dev nD) : (dats m 0 c).arrAt 15 cfg0.N = GV m c :=
  (dats m 0 c).arrAt_eq_of_cover 15 (GV m c) (fun t _ => flushed15_eq m c t) (cover15)

/-! ## The run, read -/

/-- Every weakly fair execution of the kernel's program at the ideal values terminates with the two results at the
    specification's arrays of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v20_0) = GP m c
      ∧ r.2.mem ((c.tc : Thread nD τ).loc main_v20_1) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 14).trans (final14 m c), ((h c).1 15).trans (final15 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans ((((dats m 0 c).arrAt_in 2 rfl _).trans ((A_eq m c 2).trans (V_main_arg4 m c)))),
      ((h c).1 4).trans ((((dats m 0 c).arrAt_in 4 rfl _).trans ((A_eq m c 4).trans (V_main_arg5 m c)))),
      ((h c).1 6).trans ((((dats m 0 c).arrAt_in 6 rfl _).trans ((A_eq m c 6).trans (V_main_arg6 m c)))),
      ((h c).2 main_arg7 (Pipeline.mem_restRefs_of main_arg7 (by decide) (by decide))).trans (V_main_arg7 m c),
      ((h c).1 8).trans ((((dats m 0 c).arrAt_in 8 rfl _).trans ((A_eq m c 8).trans (V_main_arg8 m c)))),
      ((h c).2 main_arg9 (Pipeline.mem_restRefs_of main_arg9 (by decide) (by decide))).trans (V_main_arg9 m c),
      ((h c).1 10).trans ((((dats m 0 c).arrAt_in 10 rfl _).trans ((A_eq m c 10).trans (V_main_arg10 m c)))),
      ((h c).2 main_arg11 (Pipeline.mem_restRefs_of main_arg11 (by decide) (by decide))).trans (V_main_arg11 m c),
      ((h c).1 11).trans ((((dats m 0 c).arrAt_in 11 rfl _).trans ((A_eq m c 11).trans (V_main_arg12 m c)))),
      ((h c).2 main_arg13 (Pipeline.mem_restRefs_of main_arg13 (by decide) (by decide))).trans (V_main_arg13 m c),
      ((h c).1 13).trans ((((dats m 0 c).arrAt_in 13 rfl _).trans ((A_eq m c 13).trans (V_main_arg14 m c))))⟩)
    (Body.run_main (F := Ideal) m ρ)

end Cert.KernelIdeal.KFinal

end
-- ==== Proof.RefRun.lean ====
/-
  The reference program's run, named: from any memory with zero counters every weakly fair execution of the program
  terminates without fault, and in every final state the two results hold what the fold of buffer contents through
  the program leaves in them (the contents after the second region's write-backs), the fifteen arguments what they
  held at launch.  This is the generated frame's run with two more buffers read off the last thread state.
-/
import proofs.«124053_g2000309348811089_pallasbulk_1112_2_alg».proof.Proof.Gen.ReferenceIdeal.Frame

set_option maxRecDepth 16384

noncomputable section

namespace Cert.ReferenceIdeal.RefValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the two results kept: every final state has each result buffer at the last boundary's contents and
    each argument as launched. -/
theorem run_W5 : θ_run defs (onTc (τ := τ) (main (F := F))) ⟨m, fun _ => 0, ρ⟩ (fun r => ∀ c : Dev nD,
      r.2.mem ((c.tc : Thread nD τ).loc main_v7_0) = W5 m ρ c (Proc.devRef .tc main_v7_0)
      ∧ r.2.mem ((c.tc : Thread nD τ).loc main_v7_1) = W5 m ρ c (Proc.devRef .tc main_v7_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7_0 (by decide)),
       h c _ (mem_uc main_v7_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Cert.ReferenceIdeal.RefValue

end
-- ==== Proof.RefTailPay.lean ====
/-
  The second region's two stored values, read at an index, at the extended reals.

  The first is a 768 x 256 by 256 x 64 product plus a bias row, then row by row: minus the row's greatest entry, minus
  the logarithm of the sum of the exponentials of those differences.  The second is a 768 x 128 by 128 x 64 product
  plus a bias row kept at least zero, times a 64 x 1 column, plus a bias, through the hyperbolic tangent.
-/
import proofs.«124053_g2000309348811089_pallasbulk_1112_2_alg».proof.Proof.Gen.ReferenceIdeal.Skeleton
import proofs.«124053_g2000309348811089_pallasbulk_1112_2_alg».proof.Proof.Spec
import proofs.«124053_g2000309348811089_pallasbulk_1112_2_alg».proof.Proof.LibMatmulRows
import proofs.«124053_g2000309348811089_pallasbulk_1112_2_alg».proof.Proof.LibRowOps
import proofs.«124053_g2000309348811089_pallasbulk_1112_2_alg».proof.Proof.LibColumn
import Idealize.ShloMosaic.Lib.Pipeline.Value
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.ValueIdx

/-- A product into a zero accumulator plus a broadcast bias row, at `(p, n)`: the sum of the products plus the bias
    at `n`. -/
theorem affine_apply {a b c : ℕ} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ .f32) (B : FVec Ideal ⟨2, ![b, c]⟩ .f32) (bias : FVec Ideal ⟨2, ![1, c]⟩ .f32)
    (hb : (⟨2, ![1, c]⟩ : Shape).Broadcasts ⟨2, ![a, c]⟩) (p : Fin a) (n : Fin c) :
    addf (matmul d none A B (constant (F := Ideal) ⟨2, ![a, c]⟩ .f32 0x00000000#32)) (broadcastTo ⟨2, ![a, c]⟩ bias hb) (ix2 p n)
      = (∑ k : Fin b, A (ix2 p k) * B (ix2 k n)) + bias (ix2 (0 : Fin 1) n) := by
  show FloatOps.matmul d none A B (constant (F := Ideal) ⟨2, ![a, c]⟩ .f32 0x00000000#32) (ix2 p n)
      + broadcastTo ⟨2, ![a, c]⟩ bias hb (ix2 p n) = _
  rw [Cert.LibMatmulRows.matmul_rows_apply d hlc hrc hln hrn hlb hrb A B p n, broadcastTo_1b_ab_apply bias hb p n]

/-- The greatest entry of each row, kept as a column and repeated along the row, at `(p, q)`: the fold of `max`
    over row `p` from the least value. -/
theorem rowMax_bcast_apply (L : FVec Ideal S768x64 .f32) (hr : S768x64.Reduces [1] S768) (hφ : FKind.Formats .f32)
    (hmax : (0xFF800000#32 : BitVec 32) = FKind.maximumf.neutral .f32 hφ)
    (hc : S768.ShapeCasts S768x1) (hb : S768x1.Broadcasts S768x64) (p : Fin 768) (q : Fin 64) :
    broadcastTo S768x64 (shapeCast S768x1 (multiReduction .maximumf [1] S768 L 0xFF800000#32 hr hφ hmax) hc) hb (ix2 p q)
      = Cert.Spec.rowMax (fun k => L (ix2 p k)) := by
  rw [Cert.LibColumn.broadcastTo_a1_ab_apply, Cert.LibColumn.shapeCast_a_a1_apply]
  refine (Ideal.multiReduction_maximumf_single L _ hr hφ hmax (ix1 p)).trans ?_
  unfold Cert.Spec.rowMax
  exact congrArg (fun f : Fin 64 → EReal => Finset.fold max (Ideal.ofBits .f32 0xFF800000#32) f Finset.univ)
    (funext fun k => congrArg L (Cert.LibRowOps.lift_row hr p k))

/-- The row-wise log-softmax as the vector operations compute it, at `(n, j)`. -/
theorem logSoftmax_rows_apply (L : FVec Ideal S768x64 .f32) (hr : S768x64.Reduces [1] S768) (hφ : FKind.Formats .f32)
    (hmax : (0xFF800000#32 : BitVec 32) = FKind.maximumf.neutral .f32 hφ)
    (hadd : (0x00000000#32 : BitVec 32) = FKind.add.neutral .f32 hφ)
    (hc : S768.ShapeCasts S768x1) (hb : S768x1.Broadcasts S768x64) (n : Fin 768) (j : Fin 64) :
    subf (subf L (broadcastTo S768x64 (shapeCast S768x1 (multiReduction .maximumf [1] S768 L 0xFF800000#32 hr hφ hmax) hc) hb))
        (broadcastTo S768x64 (log (shapeCast S768x1 (multiReduction .add [1] S768
          (exp (subf L (broadcastTo S768x64 (shapeCast S768x1 (multiReduction .maximumf [1] S768 L 0xFF800000#32 hr hφ hmax) hc) hb)))
          0x00000000#32 hr hφ hadd) hc)) hb) (ix2 n j)
      = Cert.Spec.logSoftmax (fun k => L (ix2 n k)) j := by
  rw [subf_apply, subf_apply, rowMax_bcast_apply L hr hφ hmax hc hb n j, Cert.LibColumn.broadcastTo_a1_ab_apply]
  show _ - Ideal.log (shapeCast S768x1 (multiReduction .add [1] S768
          (exp (subf L (broadcastTo S768x64 (shapeCast S768x1 (multiReduction .maximumf [1] S768 L 0xFF800000#32 hr hφ hmax) hc) hb)))
          0x00000000#32 hr hφ hadd) hc (ix2 n (0 : Fin 1))) = _
  rw [Cert.LibColumn.shapeCast_a_a1_apply, Cert.LibRowOps.multiReduction_row_apply]
  unfold Cert.Spec.logSoftmax
  refine congrArg (fun s : EReal => (L (ix2 n j) - Cert.Spec.rowMax (fun k => L (ix2 n k))) - Ideal.log s)
    (Finset.sum_congr rfl fun k _ => ?_)
  show Ideal.exp (L (ix2 n k) - broadcastTo S768x64 (shapeCast S768x1 (multiReduction .maximumf [1] S768 L 0xFF800000#32 hr hφ hmax) hc) hb (ix2 n k)) = _
  rw [rowMax_bcast_apply L hr hφ hmax hc hb n k]

/-- THE FIRST STORED VALUE at `(n, j)`: the log-softmax of row `n` of the product plus bias. -/
theorem pay1_apply (x0 : Vec Ideal S768x256 .f32) (x2 : Vec Ideal S256x64 .f32) (x3 : Vec Ideal S1x64 .f32)
    (n : Fin 768) (j : Fin 64) :
    k1_pay1 (F := Ideal) x0 x2 x3 (ix2 n j)
      = Cert.Spec.logSoftmax (fun k => (∑ q : Fin 256, x0 (ix2 n q) * x2 (ix2 q k)) + x3 (ix2 (0 : Fin 1) k)) j := by
  unfold k1_pay1
  rw [shapeCast_self]
  refine (logSoftmax_rows_apply _ reduces_S768x64_S768 (.inl rfl) rfl rfl shapeCasts_S768_S768x1 broadcasts_S768x1_S768x64 n j).trans ?_
  exact congrArg (fun l : Fin 64 → EReal => Cert.Spec.logSoftmax l j) (funext fun k =>
    affine_apply dot_S768x256_S256x64_S768x64_1_0_0_1_n_n rfl rfl rfl rfl rfl rfl x0 x2 x3 broadcasts_S1x64_S768x64 n k)

/-- THE SECOND STORED VALUE at `(n, 0)`: the hyperbolic tangent of the hidden row times the column, plus the bias. -/
theorem pay2_apply (x1 : Vec Ideal S768x128 .f32) (x4 : Vec Ideal S128x64 .f32) (x5 : Vec Ideal S1x64 .f32)
    (x6 : Vec Ideal S64x1 .f32) (x7 : Vec Ideal S1x1 .f32) (n : Fin 768) :
    k1_pay2 (F := Ideal) x1 x4 x5 x6 x7 (ix2 n (0 : Fin 1))
      = Cert.Spec.value (fun j => max ((∑ k : Fin 128, x1 (ix2 n k) * x4 (ix2 k j)) + x5 (ix2 (0 : Fin 1) j)) 0)
          (fun j => x6 (ix2 j (0 : Fin 1))) (x7 (ix2 (0 : Fin 1) (0 : Fin 1))) := by
  unfold k1_pay2
  rw [shapeCast_self]
  show Ideal.tanh (addf (matmul dot_S768x64_S64x1_S768x1_1_0_0_1_n_n none _ x6 (constant (F := Ideal) S768x1 .f32 0x00000000#32))
      (broadcastTo S768x1 x7 broadcasts_S1x1_S768x1) (ix2 n (0 : Fin 1))) = _
  rw [affine_apply dot_S768x64_S64x1_S768x1_1_0_0_1_n_n rfl rfl rfl rfl rfl rfl _ x6 x7 broadcasts_S1x1_S768x1 n (0 : Fin 1)]
  unfold Cert.Spec.value
  refine congrArg (fun s : EReal => Ideal.tanh (s + x7 (ix2 (0 : Fin 1) (0 : Fin 1)))) (Finset.sum_congr rfl fun j _ => ?_)
  refine congrArg (· * x6 (ix2 j (0 : Fin 1))) ?_
  show max (addf (matmul dot_S768x128_S128x64_S768x64_1_0_0_1_n_n none x1 x4 (constant (F := Ideal) S768x64 .f32 0x00000000#32))
      (broadcastTo S768x64 x5 broadcasts_S1x64_S768x64) (ix2 n j)) (Ideal.ofBits .f32 0x00000000#32) = _
  rw [affine_apply dot_S768x128_S128x64_S768x64_1_0_0_1_n_n rfl rfl rfl rfl rfl rfl x1 x4 x5 broadcasts_S1x64_S768x64 n j,
    Ideal.ofBits_zero_f32]

end Cert.ReferenceIdeal.RefValue

end
-- ==== Proof.RefTailBlocks.lean ====
/-
  The second region's windows: its grid has one point and every window's block is its whole array, so each input
  block is the input array itself, and the one store into each result block leaves the stored value of the whole
  loads.
-/
import proofs.«124053_g2000309348811089_pallasbulk_1112_2_alg».proof.Proof.Gen.ReferenceIdeal.Frame
import proofs.«124053_g2000309348811089_pallasbulk_1112_2_alg».proof.Proof.RefTailPay
import Idealize.ShloMosaic.Lib.Pipeline.Value

set_option maxRecDepth 16384

noncomputable section

namespace Cert.ReferenceIdeal.RefValue

open Cert.ReferenceIdeal Cert.ReferenceIdeal.Gen
open Idealize.ShloMosaic Idealize.ShloMosaic.ValueIdx
open Idealize.ShloMosaic.TcCoe
open Idealize.ShloMosaic.Pipeline (Dat Cfg Window)

section Region1

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- Every window's block index is zero on both axes at the one point. -/
theorem idx1 : ∀ t : Fin cfg1.N, win1_0.index t (0 : Fin 2) = 0
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0 :=
  (by decide +kernel : ∀ t : Fin grid1.N, _)

/-- Input window 0's one block is its whole array. -/
theorem iblk1_0_eq (c : Dev nD) (t : Fin cfg1.N) : iblk1 V c 0 t = V c main_v4 := by
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show V c main_v4 (((cfg1.win 0).blk t).view.emb j) = V c main_v4 j
  refine congrArg (V c main_v4) (funext fun a => Fin.ext ?_)
  match a with
  | ⟨0, _⟩ => show win1_0.index t (0 : Fin 2) * 768 + 1 * (j 0).val = (j 0).val; omega
  | ⟨1, _⟩ => show win1_0.index t (1 : Fin 2) * 256 + 1 * (j 1).val = (j 1).val; omega

/-- Input window 1's one block is its whole array. -/
theorem iblk1_1_eq (c : Dev nD) (t : Fin cfg1.N) : iblk1 V c 1 t = V c main_v6 := by
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show V c main_v6 (((cfg1.win 1).blk t).view.emb j) = V c main_v6 j
  refine congrArg (V c main_v6) (funext fun a => Fin.ext ?_)
  match a with
  | ⟨0, _⟩ => show win1_1.index t (0 : Fin 2) * 768 + 1 * (j 0).val = (j 0).val; omega
  | ⟨1, _⟩ => show win1_1.index t (1 : Fin 2) * 128 + 1 * (j 1).val = (j 1).val; omega

/-- Input window 2's one block is its whole array. -/
theorem iblk1_2_eq (c : Dev nD) (t : Fin cfg1.N) : iblk1 V c 2 t = V c main_arg9 := by
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show V c main_arg9 (((cfg1.win 2).blk t).view.emb j) = V c main_arg9 j
  refine congrArg (V c main_arg9) (funext fun a => Fin.ext ?_)
  match a with
  | ⟨0, _⟩ => show win1_2.index t (0 : Fin 2) * 256 + 1 * (j 0).val = (j 0).val; omega
  | ⟨1, _⟩ => show win1_2.index t (1 : Fin 2) * 64 + 1 * (j 1).val = (j 1).val; omega

/-- Input window 3's one block is its whole array. -/
theorem iblk1_3_eq (c : Dev nD) (t : Fin cfg1.N) : iblk1 V c 3 t = V c main_arg10 := by
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show V c main_arg10 (((cfg1.win 3).blk t).view.emb j) = V c main_arg10 j
  refine congrArg (V c main_arg10) (funext fun a => Fin.ext ?_)
  match a with
  | ⟨0, _⟩ => show win1_3.index t (0 : Fin 2) * 1 + 1 * (j 0).val = (j 0).val; omega
  | ⟨1, _⟩ => show win1_3.index t (1 : Fin 2) * 64 + 1 * (j 1).val = (j 1).val; omega

/-- Input window 4's one block is its whole array. -/
theorem iblk1_4_eq (c : Dev nD) (t : Fin cfg1.N) : iblk1 V c 4 t = V c main_arg11 := by
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show V c main_arg11 (((cfg1.win 4).blk t).view.emb j) = V c main_arg11 j
  refine congrArg (V c main_arg11) (funext fun a => Fin.ext ?_)
  match a with
  | ⟨0, _⟩ => show win1_4.index t (0 : Fin 2) * 128 + 1 * (j 0).val = (j 0).val; omega
  | ⟨1, _⟩ => show win1_4.index t (1 : Fin 2) * 64 + 1 * (j 1).val = (j 1).val; omega

/-- Input window 5's one block is its whole array. -/
theorem iblk1_5_eq (c : Dev nD) (t : Fin cfg1.N) : iblk1 V c 5 t = V c main_arg12 := by
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show V c main_arg12 (((cfg1.win 5).blk t).view.emb j) = V c main_arg12 j
  refine congrArg (V c main_arg12) (funext fun a => Fin.ext ?_)
  match a with
  | ⟨0, _⟩ => show win1_5.index t (0 : Fin 2) * 1 + 1 * (j 0).val = (j 0).val; omega
  | ⟨1, _⟩ => show win1_5.index t (1 : Fin 2) * 64 + 1 * (j 1).val = (j 1).val; omega

/-- Input window 6's one block is its whole array. -/
theorem iblk1_6_eq (c : Dev nD) (t : Fin cfg1.N) : iblk1 V c 6 t = V c main_arg13 := by
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show V c main_arg13 (((cfg1.win 6).blk t).view.emb j) = V c main_arg13 j
  refine congrArg (V c main_arg13) (funext fun a => Fin.ext ?_)
  match a with
  | ⟨0, _⟩ => show win1_6.index t (0 : Fin 2) * 64 + 1 * (j 0).val = (j 0).val; omega
  | ⟨1, _⟩ => show win1_6.index t (1 : Fin 2) * 1 + 1 * (j 1).val = (j 1).val; omega

/-- Input window 7's one block is its whole array. -/
theorem iblk1_7_eq (c : Dev nD) (t : Fin cfg1.N) : iblk1 V c 7 t = V c main_arg14 := by
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show V c main_arg14 (((cfg1.win 7).blk t).view.emb j) = V c main_arg14 j
  refine congrArg (V c main_arg14) (funext fun a => Fin.ext ?_)
  match a with
  | ⟨0, _⟩ => show win1_7.index t (0 : Fin 2) * 1 + 1 * (j 0).val = (j 0).val; omega
  | ⟨1, _⟩ => show win1_7.index t (1 : Fin 2) * 1 + 1 * (j 1).val = (j 1).val; omega

/-- The one store through the whole first result block leaves the stored value of the whole loads. -/
theorem out1_8_whole (x0 : Vec F S768x256 .f32) (x1 : Vec F S768x128 .f32) (x2 : Vec F S256x64 .f32) (x3 : Vec F S1x64 .f32) (x4 : Vec F S128x64 .f32) (x5 : Vec F S1x64 .f32) (x6 : Vec F S64x1 .f32) (x7 : Vec F S1x1 .f32) :
    out1_8 x0 x1 x2 x3 x4 x5 x6 x7 = k1_pay1 x0 x2 x3 := by
  unfold out1_8
  rw [View.canon_unit_zero hz2]
  simp only [View.ld_unit_zero (S := S768x256) hz2, View.ld_unit_zero (S := S256x64) hz2, View.ld_unit_zero (S := S1x64) hz2]

/-- The one store through the whole second result block leaves the stored value of the whole loads. -/
theorem out1_9_whole (x0 : Vec F S768x256 .f32) (x1 : Vec F S768x128 .f32) (x2 : Vec F S256x64 .f32) (x3 : Vec F S1x64 .f32) (x4 : Vec F S128x64 .f32) (x5 : Vec F S1x64 .f32) (x6 : Vec F S64x1 .f32) (x7 : Vec F S1x1 .f32) :
    out1_9 x0 x1 x2 x3 x4 x5 x6 x7 = k1_pay2 x1 x4 x5 x6 x7 := by
  unfold out1_9
  rw [View.canon_unit_zero hz2]
  simp only [View.ld_unit_zero (S := S768x128) hz2, View.ld_unit_zero (S := S128x64) hz2, View.ld_unit_zero (S := S1x64) hz2, View.ld_unit_zero (S := S64x1) hz2, View.ld_unit_zero (S := S1x1) hz2]

/-- An index of result window 8's array is in the point's block iff each coordinate is in the block's range. -/
theorem mem_blk1_8 (t : Fin cfg1.N) (i : S768x64.Idx) :
    i ∈ ((cfg1.win 8).blk t).view.set ↔ ∀ a : Fin 2, win1_8.index t a * S768x64.size a ≤ (i a).val ∧ (i a).val < win1_8.index t a * S768x64.size a + S768x64.size a := by
  show i ∈ ((View.whole main_v7_0).slice (win1_8.rect t)).set ↔ _
  rw [View.set_slice_whole, Rect.mem_set_unit]
  exact Iff.rfl

/-- An index of result window 9's array is in the point's block iff each coordinate is in the block's range. -/
theorem mem_blk1_9 (t : Fin cfg1.N) (i : S768x1.Idx) :
    i ∈ ((cfg1.win 9).blk t).view.set ↔ ∀ a : Fin 2, win1_9.index t a * S768x1.size a ≤ (i a).val ∧ (i a).val < win1_9.index t a * S768x1.size a + S768x1.size a := by
  show i ∈ ((View.whole main_v7_1).slice (win1_9.rect t)).set ↔ _
  rw [View.set_slice_whole, Rect.mem_set_unit]
  exact Iff.rfl

end Region1

end Cert.ReferenceIdeal.RefValue

end
-- ==== Proof.RefTail.lean ====
/-
  The second region's two result arrays after the region, as values of the arrays the region is entered with.

  What the one point writes back into a result array is the stored value of the whole input arrays, and the one
  block covers the result array: after the region the first result holds the log-softmax rows of the first product
  plus bias, the second the hyperbolic tangents of the value head.
-/
import proofs.«124053_g2000309348811089_pallasbulk_1112_2_alg».proof.Proof.RefTailBlocks

set_option maxRecDepth 16384

noncomputable section

namespace Cert.ReferenceIdeal.RefValue

open Cert.ReferenceIdeal Cert.ReferenceIdeal.Gen
open Idealize.ShloMosaic Idealize.ShloMosaic.ValueIdx
open Idealize.ShloMosaic.TcCoe
open Idealize.ShloMosaic.Pipeline (Dat Cfg Window)

section Region1

variable {F : FTy → Type} [FloatOps F]
variable (V : (c : Dev nD) → (b : Ref sig .tc) → Buf (Elt F) ((c : Thread nD τ).loc b))

theorem pay1_congr {x0 x0' : Vec F S768x256 .f32} {x2 x2' : Vec F S256x64 .f32} {x3 x3' : Vec F S1x64 .f32}
    (h0 : x0 = x0') (h2 : x2 = x2') (h3 : x3 = x3') : k1_pay1 x0 x2 x3 = k1_pay1 x0' x2' x3' := by
  subst h0 h2 h3; rfl

theorem pay2_congr {x1 x1' : Vec F S768x128 .f32} {x4 x4' : Vec F S128x64 .f32} {x5 x5' : Vec F S1x64 .f32}
    {x6 x6' : Vec F S64x1 .f32} {x7 x7' : Vec F S1x1 .f32}
    (h1 : x1 = x1') (h4 : x4 = x4') (h5 : x5 = x5') (h6 : x6 = x6') (h7 : x7 = x7') :
    k1_pay2 x1 x4 x5 x6 x7 = k1_pay2 x1' x4' x5' x6' x7' := by
  subst h1 h4 h5 h6 h7; rfl

/-- What the body leaves in result window 8's buffer at the point is the stored value of the whole input arrays. -/
theorem after1_8_whole (c : Dev nD) (t : Fin cfg1.N) : (dat1 V c).after 8 t = k1_pay1 (V c main_v4) (V c main_arg9) (V c main_arg10) :=
  (after1_8 V c t).trans ((out1_8_whole _ _ _ _ _ _ _ _).trans (pay1_congr (iblk1_0_eq V c t) (iblk1_2_eq V c t) (iblk1_3_eq V c t)))

/-- What the one point writes back into result window 8 is the block's read of that value. -/
theorem flushed1_8_eq (c : Dev nD) (t : Fin cfg1.N) :
    (dat1 V c).flushed 8 t = ((cfg1.win 8).blk t).view.read (Elt F) (k1_pay1 (V c main_v4) (V c main_arg9) (V c main_arg10)) := by
  show (cfg1.win 8).cut (grid1.coords t) ((dat1 V c).after 8 t) = _
  rw [after1_8_whole]
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show k1_pay1 (V c main_v4) (V c main_arg9) (V c main_arg10) j = k1_pay1 (V c main_v4) (V c main_arg9) (V c main_arg10) (((cfg1.win 8).blk t).view.emb j)
  refine congrArg (k1_pay1 (V c main_v4) (V c main_arg9) (V c main_arg10)) (funext fun a => Fin.ext ?_)
  match a with
  | ⟨0, _⟩ => show (j 0).val = win1_8.index t (0 : Fin 2) * 768 + 1 * (j 0).val; omega
  | ⟨1, _⟩ => show (j 1).val = win1_8.index t (1 : Fin 2) * 64 + 1 * (j 1).val; omega

/-- The one block covers result window 8's array, so after the region the array holds the stored value. -/
theorem final1_8 (c : Dev nD) : (dat1 V c).arrAt 8 cfg1.N = k1_pay1 (V c main_v4) (V c main_arg9) (V c main_arg10) := by
  refine (dat1 V c).arrAt_eq_of_cover 8 (k1_pay1 (V c main_v4) (V c main_arg9) (V c main_arg10)) (fun t _ => flushed1_8_eq V c t) (fun i => ⟨t1_0, flush1_8 t1_0, ?_⟩)
  obtain ⟨e0_0, e0_1, e1_0, e1_1, e2_0, e2_1, e3_0, e3_1, e4_0, e4_1, e5_0, e5_1, e6_0, e6_1, e7_0, e7_1, e8_0, e8_1, e9_0, e9_1⟩ := idx1 t1_0
  rw [mem_blk1_8]
  intro a
  have h0 : (i 0).val < 768 := (i 0).isLt
  have h1 : (i 1).val < 64 := (i 1).isLt
  match a with
  | ⟨0, _⟩ => show win1_8.index t1_0 (0 : Fin 2) * 768 ≤ (i 0).val ∧ (i 0).val < win1_8.index t1_0 (0 : Fin 2) * 768 + 768; omega
  | ⟨1, _⟩ => show win1_8.index t1_0 (1 : Fin 2) * 64 ≤ (i 1).val ∧ (i 1).val < win1_8.index t1_0 (1 : Fin 2) * 64 + 64; omega

/-- What the body leaves in result window 9's buffer at the point is the stored value of the whole input arrays. -/
theorem after1_9_whole (c : Dev nD) (t : Fin cfg1.N) : (dat1 V c).after 9 t = k1_pay2 (V c main_v6) (V c main_arg11) (V c main_arg12) (V c main_arg13) (V c main_arg14) :=
  (after1_9 V c t).trans ((out1_9_whole _ _ _ _ _ _ _ _).trans (pay2_congr (iblk1_1_eq V c t) (iblk1_4_eq V c t) (iblk1_5_eq V c t) (iblk1_6_eq V c t) (iblk1_7_eq V c t)))

/-- What the one point writes back into result window 9 is the block's read of that value. -/
theorem flushed1_9_eq (c : Dev nD) (t : Fin cfg1.N) :
    (dat1 V c).flushed 9 t = ((cfg1.win 9).blk t).view.read (Elt F) (k1_pay2 (V c main_v6) (V c main_arg11) (V c main_arg12) (V c main_arg13) (V c main_arg14)) := by
  show (cfg1.win 9).cut (grid1.coords t) ((dat1 V c).after 9 t) = _
  rw [after1_9_whole]
  obtain ⟨e0_0, e0_1, e1_0, e1_1, e2_0, e2_1, e3_0, e3_1, e4_0, e4_1, e5_0, e5_1, e6_0, e6_1, e7_0, e7_1, e8_0, e8_1, e9_0, e9_1⟩ := idx1 t
  funext j
  show k1_pay2 (V c main_v6) (V c main_arg11) (V c main_arg12) (V c main_arg13) (V c main_arg14) j = k1_pay2 (V c main_v6) (V c main_arg11) (V c main_arg12) (V c main_arg13) (V c main_arg14) (((cfg1.win 9).blk t).view.emb j)
  refine congrArg (k1_pay2 (V c main_v6) (V c main_arg11) (V c main_arg12) (V c main_arg13) (V c main_arg14)) (funext fun a => Fin.ext ?_)
  match a with
  | ⟨0, _⟩ => show (j 0).val = win1_9.index t (0 : Fin 2) * 768 + 1 * (j 0).val; omega
  | ⟨1, _⟩ => show (j 1).val = win1_9.index t (1 : Fin 2) * 1 + 1 * (j 1).val; omega

/-- The one block covers result window 9's array, so after the region the array holds the stored value. -/
theorem final1_9 (c : Dev nD) : (dat1 V c).arrAt 9 cfg1.N = k1_pay2 (V c main_v6) (V c main_arg11) (V c main_arg12) (V c main_arg13) (V c main_arg14) := by
  refine (dat1 V c).arrAt_eq_of_cover 9 (k1_pay2 (V c main_v6) (V c main_arg11) (V c main_arg12) (V c main_arg13) (V c main_arg14)) (fun t _ => flushed1_9_eq V c t) (fun i => ⟨t1_0, flush1_9 t1_0, ?_⟩)
  obtain ⟨e0_0, e0_1, e1_0, e1_1, e2_0, e2_1, e3_0, e3_1, e4_0, e4_1, e5_0, e5_1, e6_0, e6_1, e7_0, e7_1, e8_0, e8_1, e9_0, e9_1⟩ := idx1 t1_0
  rw [mem_blk1_9]
  intro a
  have h0 : (i 0).val < 768 := (i 0).isLt
  have h1 : (i 1).val < 1 := (i 1).isLt
  match a with
  | ⟨0, _⟩ => show win1_9.index t1_0 (0 : Fin 2) * 768 ≤ (i 0).val ∧ (i 0).val < win1_9.index t1_0 (0 : Fin 2) * 768 + 768; omega
  | ⟨1, _⟩ => show win1_9.index t1_0 (1 : Fin 2) * 1 ≤ (i 1).val ∧ (i 1).val < win1_9.index t1_0 (1 : Fin 2) * 1 + 1; omega

end Region1

end Cert.ReferenceIdeal.RefValue

end
-- ==== Proof.RefGlue.lean ====
/-
  The host operations between the launch, the two regions and the return, read at an index.

  Before the first region the input is transposed to sample, row, column, channel order and given a border of zeros
  one cell wide.  Between the regions the first region's 49152 x 128 array is cut to its first four columns, and to
  columns 4 and 5, and each cut is regrouped by rows of 64 cells: entry `(n, q)` of the 768 x 256 array is column
  `q % 4` of row `64 n + q / 4`, entry `(n, q)` of the 768 x 128 array is column `4 + q % 2` of row `64 n + q / 2`.
  No host operation writes an argument, so each region is entered with its parameter arrays as launched.
-/
import proofs.«124053_g2000309348811089_pallasbulk_1112_2_alg».proof.Proof.Gen.ReferenceIdeal.Frame
import proofs.«124053_g2000309348811089_pallasbulk_1112_2_alg».proof.Proof.Spec
import Idealize.ShloMosaic.Lib.Pipeline.Value
import Idealize.ShloMosaic.Lib.ValueLayout
import Idealize.ShloMosaic.Lib.KernelVsHost

set_option maxRecDepth 16384

noncomputable section

namespace Cert.ReferenceIdeal.RefValue

open Cert.ReferenceIdeal Cert.ReferenceIdeal.Gen
open Idealize.ShloMosaic Idealize.ShloMosaic.ValueIdx
open Idealize.ShloMosaic.TcCoe

section layout
variable {α : Type}

/-- Columns `0 … 3` of the rows, regrouped 64 rows at a time, at `(n, q)`. -/
theorem pflat_apply (H : S49152x128.Idx → α) (hs : S49152x128.Slices ![0, 0] S49152x4) (hc : S49152x4.ShapeCasts S768x256)
    (n : Fin 768) (q : Fin 256) :
    shapeCast S768x256 (extractStridedSlice S49152x4 ![0, 0] H hs) hc (ix2 n q)
      = H (ix2 (⟨n.val * 64 + q.val / 4, by omega⟩ : Fin 49152) (⟨q.val % 4, by omega⟩ : Fin 128)) := by
  rw [shapeCast_apply _ hc (ix2 n q) (ix2 (⟨n.val * 64 + q.val / 4, by omega⟩ : Fin 49152) (⟨q.val % 4, by omega⟩ : Fin 4)) (by
    rw [Shape.rowMajor_val_two, Shape.rowMajor_val_two]
    show (n.val * 64 + q.val / 4) * 4 + q.val % 4 = n.val * 256 + q.val
    omega)]
  exact slice2_axis1_apply 0 H hs _ _ _ (by show q.val % 4 = 0 + q.val % 4; omega)

/-- Columns `4, 5` of the rows, regrouped 64 rows at a time, at `(n, q)`. -/
theorem vflat_apply (H : S49152x128.Idx → α) (hs : S49152x128.Slices ![0, 4] S49152x2) (hc : S49152x2.ShapeCasts S768x128)
    (n : Fin 768) (q : Fin 128) :
    shapeCast S768x128 (extractStridedSlice S49152x2 ![0, 4] H hs) hc (ix2 n q)
      = H (ix2 (⟨n.val * 64 + q.val / 2, by omega⟩ : Fin 49152) (⟨4 + q.val % 2, by omega⟩ : Fin 128)) := by
  rw [shapeCast_apply _ hc (ix2 n q) (ix2 (⟨n.val * 64 + q.val / 2, by omega⟩ : Fin 49152) (⟨q.val % 2, by omega⟩ : Fin 2)) (by
    rw [Shape.rowMajor_val_two, Shape.rowMajor_val_two]
    show (n.val * 64 + q.val / 2) * 2 + q.val % 2 = n.val * 128 + q.val
    omega)]
  exact slice2_axis1_apply 4 H hs _ _ _ (by show 4 + q.val % 2 = 4 + q.val % 2; rfl)

end layout

section folds

variable {F : FTy → Type} [FloatOps F]
variable (m : (ℓ : Loc nD τ sig) → Buf (Elt F) ℓ) (ρ : Dev nD → PrngReg)

/-- Region 1's first input is the first region's array cut to columns `0 … 3` and regrouped. -/
theorem W4_main_v4 (c : Dev nD) :
    W4 m ρ c (Proc.devRef .tc main_v4)
      = shapeCast S768x256 (extractStridedSlice S49152x4 ![0, 0] (W3 m ρ c (Proc.devRef .tc main_v2)) slices_S49152x128_S49152x4_0_0) shapeCasts_S49152x4_S768x256 := by
  show StableHlo.after hostOps1 (W3 m ρ c) (Proc.devRef .tc main_v4) = _
  after_results
  rfl

/-- Region 1's second input is the first region's array cut to columns `4, 5` and regrouped. -/
theorem W4_main_v6 (c : Dev nD) :
    W4 m ρ c (Proc.devRef .tc main_v6)
      = shapeCast S768x128 (extractStridedSlice S49152x2 ![0, 4] (W3 m ρ c (Proc.devRef .tc main_v2)) slices_S49152x128_S49152x2_0_4) shapeCasts_S49152x2_S768x128 := by
  show StableHlo.after hostOps1 (W3 m ρ c) (Proc.devRef .tc main_v6) = _
  after_results
  rfl

/-- Region 0's first input is the launched input transposed and given its border. -/
theorem W2_main_v1 (c : Dev nD) :
    W2 m ρ c (Proc.devRef .tc main_v1)
      = pad S768x10x10x128 ![0, 1, 1, 0] ![0, 1, 1, 0] ![0, 0, 0, 0]
          (transpose S768x8x8x128 [0, 2, 3, 1] (m ((c : Thread nD τ).loc main_arg0)) transposes_S768x128x8x8_S768x8x8x128_0_2_3_1)
          (sitofp (F := F) .f32 (constantI S_ 32 0#32)) pads_S768x8x8x128_S768x10x10x128_000_110_110_000 h_S_ := by
  show StableHlo.after hostOps0_1 (StableHlo.after hostOps0 (W0 m ρ c)) (Proc.devRef .tc main_v1) = _
  after_results
  rfl

/-- Region 1 is entered with argument 9 as launched. -/
theorem W4_main_arg9 (c : Dev nD) : W4 m ρ c (Proc.devRef .tc main_arg9) = m ((c : Thread nD τ).loc main_arg9) :=
  ((W5_arr m ρ c 2).trans (((dat1 (V4 m ρ) c).arrAt_in 2 rfl _).trans (A_eq1 (V4 m ρ) c 2))).symm.trans (W5_main_arg9 m ρ c)

/-- Region 1 is entered with argument 10 as launched. -/
theorem W4_main_arg10 (c : Dev nD) : W4 m ρ c (Proc.devRef .tc main_arg10) = m ((c : Thread nD τ).loc main_arg10) :=
  ((W5_arr m ρ c 3).trans (((dat1 (V4 m ρ) c).arrAt_in 3 rfl _).trans (A_eq1 (V4 m ρ) c 3))).symm.trans (W5_main_arg10 m ρ c)

/-- Region 1 is entered with argument 11 as launched. -/
theorem W4_main_arg11 (c : Dev nD) : W4 m ρ c (Proc.devRef .tc main_arg11) = m ((c : Thread nD τ).loc main_arg11) :=
  ((W5_arr m ρ c 4).trans (((dat1 (V4 m ρ) c).arrAt_in 4 rfl _).trans (A_eq1 (V4 m ρ) c 4))).symm.trans (W5_main_arg11 m ρ c)

/-- Region 1 is entered with argument 12 as launched. -/
theorem W4_main_arg12 (c : Dev nD) : W4 m ρ c (Proc.devRef .tc main_arg12) = m ((c : Thread nD τ).loc main_arg12) :=
  ((W5_arr m ρ c 5).trans (((dat1 (V4 m ρ) c).arrAt_in 5 rfl _).trans (A_eq1 (V4 m ρ) c 5))).symm.trans (W5_main_arg12 m ρ c)

/-- Region 1 is entered with argument 13 as launched. -/
theorem W4_main_arg13 (c : Dev nD) : W4 m ρ c (Proc.devRef .tc main_arg13) = m ((c : Thread nD τ).loc main_arg13) :=
  ((W5_arr m ρ c 6).trans (((dat1 (V4 m ρ) c).arrAt_in 6 rfl _).trans (A_eq1 (V4 m ρ) c 6))).symm.trans (W5_main_arg13 m ρ c)

/-- Region 1 is entered with argument 14 as launched. -/
theorem W4_main_arg14 (c : Dev nD) : W4 m ρ c (Proc.devRef .tc main_arg14) = m ((c : Thread nD τ).loc main_arg14) :=
  ((W5_arr m ρ c 7).trans (((dat1 (V4 m ρ) c).arrAt_in 7 rfl _).trans (A_eq1 (V4 m ρ) c 7))).symm.trans (W5_main_arg14 m ρ c)

/-- Region 0 is entered with argument 1 as launched. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Region 0 is entered with argument 2 as launched. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Region 0 is entered with argument 3 as launched. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Region 0 is entered with argument 4 as launched. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Region 0 is entered with argument 5 as launched. -/
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Region 0 is entered with argument 6 as launched. -/
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Region 0 is entered with argument 7 as launched. -/
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Region 0 is entered with argument 8 as launched. -/
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

end folds

end Cert.ReferenceIdeal.RefValue

end
-- ==== Proof.RefHeadSpec.lean ====
/-
  The first region's result as one function of the arrays the region is entered with.

  From a padded board of 128 channels, the three layers and the pointwise heads layer give the 64 x 128 head channels
  of the board (`layersHeads`).  A block of eight padded boards gives them board by board (`blockHeads`), and the padded
  input array of 768 boards gives the whole 49152 x 128 array: row `R` holds cell `R % 64` of board `R / 64`
  (`headsArr`).
-/
import Idealize.ShloMosaic.Lib.ValueIdx
import Idealize.ShloMosaic.PureOps.Ideal
import proofs.«124053_g2000309348811089_pallasbulk_1112_2_alg».proof.Proof.Spec

noncomputable section

namespace Cert.ReferenceIdeal.RefValue

open Idealize.ShloMosaic Idealize.ShloMosaic.ValueIdx

/-- The head channels of one padded board: three layers, each result given its border again, and the pointwise layer. -/
def layersHeads (P0 : Cert.Spec.Padded 128) (x1 : (⟨3, ![9, 128, 32]⟩ : Shape).Idx → EReal) (x2 : (⟨2, ![1, 32]⟩ : Shape).Idx → EReal) (x3 : (⟨3, ![9, 32, 64]⟩ : Shape).Idx → EReal) (x4 : (⟨2, ![1, 64]⟩ : Shape).Idx → EReal) (x5 : (⟨3, ![9, 64, 128]⟩ : Shape).Idx → EReal) (x6 : (⟨2, ![1, 128]⟩ : Shape).Idx → EReal) (x7 : (⟨2, ![128, 128]⟩ : Shape).Idx → EReal) (x8 : (⟨2, ![1, 128]⟩ : Shape).Idx → EReal) :
    Fin 64 → Fin 128 → EReal :=
  Cert.Spec.heads
    (Cert.Spec.conv (Cert.Spec.pad
      (Cert.Spec.conv (Cert.Spec.pad
        (Cert.Spec.conv P0 (fun k c o => x1 (ix3 k c o)) (fun o => x2 (ix2 0 o))))
        (fun k c o => x3 (ix3 k c o)) (fun o => x4 (ix2 0 o))))
      (fun k c o => x5 (ix3 k c o)) (fun o => x6 (ix2 0 o)))
    (fun c ch => x7 (ix2 c ch)) (fun ch => x8 (ix2 0 ch))

end Cert.ReferenceIdeal.RefValue

end
-- ==== Proof.RefHead.lean ====
/-
  The first region's result array after the region, as a value of the arrays the region is entered with.

  Point `t` of the 96 stages boards `8 t … 8 t + 7` of the padded input and the eight parameter arrays whole, and
  writes back rows `512 t … 512 t + 511` of the 49152 x 128 result.  Given that the body leaves, in row `64 n + p` of
  its block, the head channels of cell `p` of the block's board `n` (`BodyValue`), what each point writes back is its
  block of one array — row `R` holds cell `R % 64` of board `R / 64` of the padded input — and the blocks cover the
  result, so that array is what the region leaves.
-/
import proofs.«124053_g2000309348811089_pallasbulk_1112_2_alg».proof.Proof.Gen.ReferenceIdeal.Frame
import proofs.«124053_g2000309348811089_pallasbulk_1112_2_alg».proof.Proof.RefHeadSpec
import Idealize.ShloMosaic.Lib.Pipeline.Value

set_option maxRecDepth 16384

noncomputable section

namespace Cert.ReferenceIdeal.RefValue

open Cert.ReferenceIdeal Cert.ReferenceIdeal.Gen
open Idealize.ShloMosaic Idealize.ShloMosaic.ValueIdx
open Idealize.ShloMosaic.TcCoe
open Idealize.ShloMosaic.Pipeline (Dat Cfg Window)

/-- The head channels of board `n` of a block of eight padded boards. -/
def blockHeads (x0 : S8x10x10x128.Idx → EReal) (x1 : S9x128x32.Idx → EReal) (x2 : S1x32.Idx → EReal) (x3 : S9x32x64.Idx → EReal) (x4 : S1x64.Idx → EReal) (x5 : S9x64x128.Idx → EReal) (x6 : S1x128.Idx → EReal) (x7 : S128x128.Idx → EReal) (x8 : S1x128.Idx → EReal) (n : Fin 8) : Fin 64 → Fin 128 → EReal :=
  layersHeads (fun i j c => x0 (ix4 n i j c)) x1 x2 x3 x4 x5 x6 x7 x8

/-- The whole result: row `R` holds cell `R % 64` of board `R / 64` of the padded input. -/
def headsArr (XP : S768x10x10x128.Idx → EReal) (x1 : S9x128x32.Idx → EReal) (x2 : S1x32.Idx → EReal) (x3 : S9x32x64.Idx → EReal) (x4 : S1x64.Idx → EReal) (x5 : S9x64x128.Idx → EReal) (x6 : S1x128.Idx → EReal) (x7 : S128x128.Idx → EReal) (x8 : S1x128.Idx → EReal) : S49152x128.Idx → EReal := fun idx =>
  layersHeads (fun i j c => XP (ix4 (⟨(idx 0).val / 64, by have := idx2_lt0 idx; omega⟩ : Fin 768) i j c)) x1 x2 x3 x4 x5 x6 x7 x8
    ⟨(idx 0).val % 64, by omega⟩ (idx 1)

/-- What the body leaves in its result block, row by row: the head channels of the block's boards. -/
def BodyValue : Prop :=
  ∀ (c : Dev nD) (i : grid0.Coords) (arg1 : Memref sig .tc .vmem S8x10x10x128 .f32) (harg1 : arg1.IsWhole) (arg2 : Memref sig .tc .vmem S9x128x32 .f32) (harg2 : arg2.IsWhole) (arg3 : Memref sig .tc .vmem S1x32 .f32) (harg3 : arg3.IsWhole) (arg4 : Memref sig .tc .vmem S9x32x64 .f32) (harg4 : arg4.IsWhole) (arg5 : Memref sig .tc .vmem S1x64 .f32) (harg5 : arg5.IsWhole) (arg6 : Memref sig .tc .vmem S9x64x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S8x10x10x32 .f32) (harg11 : arg11.IsWhole) (arg12 : Memref sig .tc .vmem S8x10x10x64 .f32) (harg12 : arg12.IsWhole)
    (x0 : Vec Ideal S8x10x10x128 .f32) (x1 : Vec Ideal S9x128x32 .f32) (x2 : Vec Ideal S1x32 .f32) (x3 : Vec Ideal S9x32x64 .f32) (x4 : Vec Ideal S1x64 .f32) (x5 : Vec Ideal S9x64x128 .f32) (x6 : Vec Ideal S1x128 .f32) (x7 : Vec Ideal S128x128 .f32) (x8 : Vec Ideal S1x128 .f32) (nl : Fin 8) (p : Fin 64) (ch : Fin 128),
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 (⟨nl.val * 64 + p.val, by omega⟩ : Fin 512) ch)
      = blockHeads x0 x1 x2 x3 x4 x5 x6 x7 x8 nl p ch

section Region0

variable (V : (c : Dev nD) → (b : Ref sig .tc) → Buf (Elt Ideal) ((c : Thread nD τ).loc b))

/-- The windows' block indices at point `t`: the input's and the result's move with the point along their first axis,
    every other window stays on its one block. -/
theorem idx0 : ∀ t : Fin cfg0.N, win0_0.index t (0 : Fin 4) = t.val
    ∧ win0_0.index t (1 : Fin 4) = 0
    ∧ win0_0.index t (2 : Fin 4) = 0
    ∧ win0_0.index t (3 : Fin 4) = 0
    ∧ win0_1.index t (0 : Fin 3) = 0
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 3) = 0
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 3) = 0
    ∧ win0_5.index t (1 : Fin 3) = 0
    ∧ win0_5.index t (2 : Fin 3) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

theorem lt96 (t : Fin cfg0.N) : t.val < 96 := lt_of_lt_of_eq t.isLt N_0

/-- Board `nl` of the input block at point `t` is board `8 t + nl` of the padded input. -/
theorem iblk0_0_apply (c : Dev nD) (t : Fin cfg0.N) (nl : Fin 8) (i j : Fin 10) (ch : Fin 128) :
    iblk0 V c 0 t (ix4 nl i j ch) = V c main_v1 (ix4 (⟨t.val * 8 + nl.val, by have := lt96 t; omega⟩ : Fin 768) i j ch) := by
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  show V c main_v1 (((cfg0.win 0).blk t).view.emb (ix4 nl i j ch)) = _
  refine congrArg (V c main_v1) (funext fun a => Fin.ext ?_)
  match a with
  | ⟨0, _⟩ => show win0_0.index t (0 : Fin 4) * 8 + 1 * nl.val = t.val * 8 + nl.val; omega
  | ⟨1, _⟩ => show win0_0.index t (1 : Fin 4) * 10 + 1 * i.val = i.val; omega
  | ⟨2, _⟩ => show win0_0.index t (2 : Fin 4) * 10 + 1 * j.val = j.val; omega
  | ⟨3, _⟩ => show win0_0.index t (3 : Fin 4) * 128 + 1 * ch.val = ch.val; omega

/-- Input window 1's block is its whole array at every point. -/
theorem iblk0_1_eq (c : Dev nD) (t : Fin cfg0.N) : iblk0 V c 1 t = V c main_arg1 := by
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  funext j
  show V c main_arg1 (((cfg0.win 1).blk t).view.emb j) = V c main_arg1 j
  refine congrArg (V c main_arg1) (funext fun a => Fin.ext ?_)
  match a with
  | ⟨0, _⟩ => show win0_1.index t (0 : Fin 3) * 9 + 1 * (j 0).val = (j 0).val; omega
  | ⟨1, _⟩ => show win0_1.index t (1 : Fin 3) * 128 + 1 * (j 1).val = (j 1).val; omega
  | ⟨2, _⟩ => show win0_1.index t (2 : Fin 3) * 32 + 1 * (j 2).val = (j 2).val; omega

/-- Input window 2's block is its whole array at every point. -/
theorem iblk0_2_eq (c : Dev nD) (t : Fin cfg0.N) : iblk0 V c 2 t = V c main_arg4 := by
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  funext j
  show V c main_arg4 (((cfg0.win 2).blk t).view.emb j) = V c main_arg4 j
  refine congrArg (V c main_arg4) (funext fun a => Fin.ext ?_)
  match a with
  | ⟨0, _⟩ => show win0_2.index t (0 : Fin 2) * 1 + 1 * (j 0).val = (j 0).val; omega
  | ⟨1, _⟩ => show win0_2.index t (1 : Fin 2) * 32 + 1 * (j 1).val = (j 1).val; omega

/-- Input window 3's block is its whole array at every point. -/
theorem iblk0_3_eq (c : Dev nD) (t : Fin cfg0.N) : iblk0 V c 3 t = V c main_arg2 := by
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  funext j
  show V c main_arg2 (((cfg0.win 3).blk t).view.emb j) = V c main_arg2 j
  refine congrArg (V c main_arg2) (funext fun a => Fin.ext ?_)
  match a with
  | ⟨0, _⟩ => show win0_3.index t (0 : Fin 3) * 9 + 1 * (j 0).val = (j 0).val; omega
  | ⟨1, _⟩ => show win0_3.index t (1 : Fin 3) * 32 + 1 * (j 1).val = (j 1).val; omega
  | ⟨2, _⟩ => show win0_3.index t (2 : Fin 3) * 64 + 1 * (j 2).val = (j 2).val; omega

/-- Input window 4's block is its whole array at every point. -/
theorem iblk0_4_eq (c : Dev nD) (t : Fin cfg0.N) : iblk0 V c 4 t = V c main_arg5 := by
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  funext j
  show V c main_arg5 (((cfg0.win 4).blk t).view.emb j) = V c main_arg5 j
  refine congrArg (V c main_arg5) (funext fun a => Fin.ext ?_)
  match a with
  | ⟨0, _⟩ => show win0_4.index t (0 : Fin 2) * 1 + 1 * (j 0).val = (j 0).val; omega
  | ⟨1, _⟩ => show win0_4.index t (1 : Fin 2) * 64 + 1 * (j 1).val = (j 1).val; omega

/-- Input window 5's block is its whole array at every point. -/
theorem iblk0_5_eq (c : Dev nD) (t : Fin cfg0.N) : iblk0 V c 5 t = V c main_arg3 := by
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  funext j
  show V c main_arg3 (((cfg0.win 5).blk t).view.emb j) = V c main_arg3 j
  refine congrArg (V c main_arg3) (funext fun a => Fin.ext ?_)
  match a with
  | ⟨0, _⟩ => show win0_5.index t (0 : Fin 3) * 9 + 1 * (j 0).val = (j 0).val; omega
  | ⟨1, _⟩ => show win0_5.index t (1 : Fin 3) * 64 + 1 * (j 1).val = (j 1).val; omega
  | ⟨2, _⟩ => show win0_5.index t (2 : Fin 3) * 128 + 1 * (j 2).val = (j 2).val; omega

/-- Input window 6's block is its whole array at every point. -/
theorem iblk0_6_eq (c : Dev nD) (t : Fin cfg0.N) : iblk0 V c 6 t = V c main_arg6 := by
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  funext j
  show V c main_arg6 (((cfg0.win 6).blk t).view.emb j) = V c main_arg6 j
  refine congrArg (V c main_arg6) (funext fun a => Fin.ext ?_)
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- Input window 7's block is its whole array at every point. -/
theorem iblk0_7_eq (c : Dev nD) (t : Fin cfg0.N) : iblk0 V c 7 t = V c main_arg7 := by
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  funext j
  show V c main_arg7 (((cfg0.win 7).blk t).view.emb j) = V c main_arg7 j
  refine congrArg (V c main_arg7) (funext fun a => Fin.ext ?_)
  match a with
  | ⟨0, _⟩ => show win0_7.index t (0 : Fin 2) * 128 + 1 * (j 0).val = (j 0).val; omega
  | ⟨1, _⟩ => show win0_7.index t (1 : Fin 2) * 128 + 1 * (j 1).val = (j 1).val; omega

/-- Input window 8's block is its whole array at every point. -/
theorem iblk0_8_eq (c : Dev nD) (t : Fin cfg0.N) : iblk0 V c 8 t = V c main_arg8 := by
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  funext j
  show V c main_arg8 (((cfg0.win 8).blk t).view.emb j) = V c main_arg8 j
  refine congrArg (V c main_arg8) (funext fun a => Fin.ext ?_)
  match a with
  | ⟨0, _⟩ => show win0_8.index t (0 : Fin 2) * 1 + 1 * (j 0).val = (j 0).val; omega
  | ⟨1, _⟩ => show win0_8.index t (1 : Fin 2) * 128 + 1 * (j 1).val = (j 1).val; omega

theorem layersHeads_congr {P P' : Cert.Spec.Padded 128} {x1 x1' : S9x128x32.Idx → EReal} {x2 x2' : S1x32.Idx → EReal}
    {x3 x3' : S9x32x64.Idx → EReal} {x4 x4' : S1x64.Idx → EReal} {x5 x5' : S9x64x128.Idx → EReal} {x6 x6' : S1x128.Idx → EReal}
    {x7 x7' : S128x128.Idx → EReal} {x8 x8' : S1x128.Idx → EReal} {p p' : Fin 64} {ch : Fin 128}
    (hP : P = P') (h1 : x1 = x1') (h2 : x2 = x2') (h3 : x3 = x3') (h4 : x4 = x4') (h5 : x5 = x5') (h6 : x6 = x6')
    (h7 : x7 = x7') (h8 : x8 = x8') (hp : p = p') :
    layersHeads P x1 x2 x3 x4 x5 x6 x7 x8 p ch = layersHeads P' x1' x2' x3' x4' x5' x6' x7' x8' p' ch := by
  subst hP h1 h2 h3 h4 h5 h6 h7 h8 hp; rfl

/-- What point `t` writes back is its block of the one array. -/
theorem flushed0_9_eq (hbody : BodyValue) (c : Dev nD) (t : Fin cfg0.N) :
    (dat0 V c).flushed 9 t = ((cfg0.win 9).blk t).view.read (Elt Ideal) (headsArr (V c main_v1) (V c main_arg1) (V c main_arg4) (V c main_arg2) (V c main_arg5) (V c main_arg3) (V c main_arg6) (V c main_arg7) (V c main_arg8)) := by
  show (cfg0.win 9).cut (grid0.coords t) ((dat0 V c).after 9 t) = _
  rw [after0_9]
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 t
  have ht := lt96 t
  funext y
  obtain ⟨r, ch, rfl⟩ : ∃ (r : Fin 512) (ch : Fin 128), y = ix2 r ch := ⟨y 0, y 1, eq_ix2 y⟩
  have hr := r.isLt
  have er : (ix2 r ch : S512x128.Idx) = ix2 (⟨(⟨r.val / 64, by omega⟩ : Fin 8).val * 64 + (⟨r.val % 64, by omega⟩ : Fin 64).val, by show r.val / 64 * 64 + r.val % 64 < 512; omega⟩ : Fin 512) ch :=
    congrArg (fun r' : Fin 512 => (ix2 r' ch : S512x128.Idx)) (Fin.ext (by show r.val = r.val / 64 * 64 + r.val % 64; omega))
  show outsAt0 V c t (ix2 r ch) = headsArr (V c main_v1) (V c main_arg1) (V c main_arg4) (V c main_arg2) (V c main_arg5) (V c main_arg3) (V c main_arg6) (V c main_arg7) (V c main_arg8) (((cfg0.win 9).blk t).view.emb (ix2 r ch))
  have hemb : ((cfg0.win 9).blk t).view.emb (ix2 r ch) = (ix2 (⟨t.val * 512 + r.val, by omega⟩ : Fin 49152) ch : S49152x128.Idx) := by
    funext a; apply Fin.ext
    match a with
    | ⟨0, _⟩ => show win0_9.index t (0 : Fin 2) * 512 + 1 * r.val = t.val * 512 + r.val; omega
    | ⟨1, _⟩ => show win0_9.index t (1 : Fin 2) * 128 + 1 * ch.val = ch.val; omega
  rw [hemb]
  refine (congrArg (outsAt0 V c t) er).trans ?_
  unfold outsAt0
  refine (hbody c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) ⟨r.val / 64, by omega⟩ ⟨r.val % 64, by omega⟩ ch).trans ?_
  unfold blockHeads headsArr
  refine layersHeads_congr (funext fun i => funext fun j => funext fun k => ?_) (iblk0_1_eq V c t) (iblk0_2_eq V c t) (iblk0_3_eq V c t) (iblk0_4_eq V c t) (iblk0_5_eq V c t) (iblk0_6_eq V c t) (iblk0_7_eq V c t) (iblk0_8_eq V c t) (Fin.ext ?_)
  · refine (iblk0_0_apply V c t ⟨r.val / 64, by omega⟩ i j k).trans (congrArg (V c main_v1) ?_)
    refine congrArg (fun n : Fin 768 => (ix4 n i j k : S768x10x10x128.Idx)) (Fin.ext ?_)
    show t.val * 8 + r.val / 64 = (t.val * 512 + r.val) / 64
    omega
  · show r.val % 64 = (t.val * 512 + r.val) % 64
    omega

/-- An index of the result array is in point `t`'s block iff each coordinate is in the block's range. -/
theorem mem_blk0_9 (t : Fin cfg0.N) (i : S49152x128.Idx) :
    i ∈ ((cfg0.win 9).blk t).view.set ↔ ∀ a : Fin 2, win0_9.index t a * S512x128.size a ≤ (i a).val ∧ (i a).val < win0_9.index t a * S512x128.size a + S512x128.size a := by
  show i ∈ ((View.whole main_v2).slice (win0_9.rect t)).set ↔ _
  rw [View.set_slice_whole, Rect.mem_set_unit]
  exact Iff.rfl

/-- The result array after the region: the blocks cover it, so it holds the one array. -/
theorem final0_9 (hbody : BodyValue) (c : Dev nD) :
    (dat0 V c).arrAt 9 cfg0.N = headsArr (V c main_v1) (V c main_arg1) (V c main_arg4) (V c main_arg2) (V c main_arg5) (V c main_arg3) (V c main_arg6) (V c main_arg7) (V c main_arg8) := by
  refine (dat0 V c).arrAt_eq_of_cover 9 _ (fun t _ => flushed0_9_eq V hbody c t) (fun i => ?_)
  have h0 : (i 0).val < 49152 := idx2_lt0 i
  have h1 : (i 1).val < 128 := idx2_lt1 i
  refine ⟨(⟨(i 0).val / 512, by rw [show cfg0.N = 96 from N_0]; omega⟩ : Fin cfg0.N), flush0_9 _, ?_⟩
  obtain ⟨f0_0, f0_1, f0_2, f0_3, f1_0, f1_1, f1_2, f2_0, f2_1, f3_0, f3_1, f3_2, f4_0, f4_1, f5_0, f5_1, f5_2, f6_0, f6_1, f7_0, f7_1, f8_0, f8_1, f9_0, f9_1⟩ := idx0 (⟨(i 0).val / 512, by rw [show cfg0.N = 96 from N_0]; omega⟩ : Fin cfg0.N)
  rw [mem_blk0_9]
  intro a
  match a with
  | ⟨0, _⟩ =>
    show win0_9.index _ (0 : Fin 2) * 512 ≤ (i 0).val ∧ (i 0).val < win0_9.index _ (0 : Fin 2) * 512 + 512
    rw [f9_0]; show (i 0).val / 512 * 512 ≤ (i 0).val ∧ (i 0).val < (i 0).val / 512 * 512 + 512; omega
  | ⟨1, _⟩ =>
    show win0_9.index _ (1 : Fin 2) * 128 ≤ (i 1).val ∧ (i 1).val < win0_9.index _ (1 : Fin 2) * 128 + 128
    rw [f9_1]; omega

end Region0

end Cert.ReferenceIdeal.RefValue

end
-- ==== Proof.RefConvRows.lean ====
/-
  One layer of the first region as the vector operations compute it, at a row: nine products of a window's rows with
  a slice of the weights added in order to a splat of zero, the bias row repeated along the rows, the whole kept at
  least a splat of zero.  When window `k`'s entries at a board's cell are the padded board's entries at the cell
  shifted by `(k / 3, k % 3)`, the value at the cell's row is the specification's layer of the padded board.  And the
  pointwise heads layer at a row.
-/
import proofs.«124053_g2000309348811089_pallasbulk_1112_2_alg».proof.Proof.Spec
import proofs.«124053_g2000309348811089_pallasbulk_1112_2_alg».proof.Proof.ConvStage
import proofs.«124053_g2000309348811089_pallasbulk_1112_2_alg».proof.Proof.LibMatmulRows
import Idealize.ShloMosaic.Lib.Pipeline.Value
import Idealize.ShloMosaic.Lib.ValueLayout

set_option maxRecDepth 16384

noncomputable section

namespace Cert.ReferenceIdeal.RefValue

open Idealize.ShloMosaic Idealize.ShloMosaic.ValueIdx

set_option maxHeartbeats 400000 in
/-- Nine positions added in order to zero, the bias, kept at least zero, at row `64 n + 8 i + j` and channel `o`. -/
theorem conv_rows {cin cout : ℕ} (d : DotDims ⟨2, ![512, cin]⟩ ⟨2, ![cin, cout]⟩ ⟨2, ![512, cout]⟩)
    (hlc : d.lhsContracting = [1]) (hrc : d.rhsContracting = [0]) (hln : d.lhsNonContracting = [0])
    (hrn : d.rhsNonContracting = [1]) (hlb : d.lhsBatch = []) (hrb : d.rhsBatch = [])
    (W : FVec Ideal ⟨3, ![9, cin, cout]⟩ .f32) (bias : FVec Ideal ⟨2, ![1, cout]⟩ .f32)
    (L0 L1 L2 L3 L4 L5 L6 L7 L8 : FVec Ideal ⟨4, ![8, 8, 8, cin]⟩ .f32)
    (h1 : (⟨4, ![8, 8, 8, cin]⟩ : Shape).ShapeCasts ⟨2, ![512, cin]⟩)
    (hs0 : (⟨3, ![9, cin, cout]⟩ : Shape).Slices ![0, 0, 0] ⟨3, ![1, cin, cout]⟩)
    (hs1 : (⟨3, ![9, cin, cout]⟩ : Shape).Slices ![1, 0, 0] ⟨3, ![1, cin, cout]⟩)
    (hs2 : (⟨3, ![9, cin, cout]⟩ : Shape).Slices ![2, 0, 0] ⟨3, ![1, cin, cout]⟩)
    (hs3 : (⟨3, ![9, cin, cout]⟩ : Shape).Slices ![3, 0, 0] ⟨3, ![1, cin, cout]⟩)
    (hs4 : (⟨3, ![9, cin, cout]⟩ : Shape).Slices ![4, 0, 0] ⟨3, ![1, cin, cout]⟩)
    (hs5 : (⟨3, ![9, cin, cout]⟩ : Shape).Slices ![5, 0, 0] ⟨3, ![1, cin, cout]⟩)
    (hs6 : (⟨3, ![9, cin, cout]⟩ : Shape).Slices ![6, 0, 0] ⟨3, ![1, cin, cout]⟩)
    (hs7 : (⟨3, ![9, cin, cout]⟩ : Shape).Slices ![7, 0, 0] ⟨3, ![1, cin, cout]⟩)
    (hs8 : (⟨3, ![9, cin, cout]⟩ : Shape).Slices ![8, 0, 0] ⟨3, ![1, cin, cout]⟩)
    (hc : (⟨3, ![1, cin, cout]⟩ : Shape).ShapeCasts ⟨2, ![cin, cout]⟩)
    (hb : (⟨2, ![1, cout]⟩ : Shape).Broadcasts ⟨2, ![512, cout]⟩)
    (P : Cert.Spec.Padded cin) (r : Fin 512) (n : Fin 8) (i j : Fin 8) (o : Fin cout)
    (hr : r.val = n.val * 64 + i.val * 8 + j.val)
    (hL0 : ∀ c, L0 (ix4 n i j c) = P ⟨i.val + 0, by omega⟩ ⟨j.val + 0, by omega⟩ c)
    (hL1 : ∀ c, L1 (ix4 n i j c) = P ⟨i.val + 0, by omega⟩ ⟨j.val + 1, by omega⟩ c)
    (hL2 : ∀ c, L2 (ix4 n i j c) = P ⟨i.val + 0, by omega⟩ ⟨j.val + 2, by omega⟩ c)
    (hL3 : ∀ c, L3 (ix4 n i j c) = P ⟨i.val + 1, by omega⟩ ⟨j.val + 0, by omega⟩ c)
    (hL4 : ∀ c, L4 (ix4 n i j c) = P ⟨i.val + 1, by omega⟩ ⟨j.val + 1, by omega⟩ c)
    (hL5 : ∀ c, L5 (ix4 n i j c) = P ⟨i.val + 1, by omega⟩ ⟨j.val + 2, by omega⟩ c)
    (hL6 : ∀ c, L6 (ix4 n i j c) = P ⟨i.val + 2, by omega⟩ ⟨j.val + 0, by omega⟩ c)
    (hL7 : ∀ c, L7 (ix4 n i j c) = P ⟨i.val + 2, by omega⟩ ⟨j.val + 1, by omega⟩ c)
    (hL8 : ∀ c, L8 (ix4 n i j c) = P ⟨i.val + 2, by omega⟩ ⟨j.val + 2, by omega⟩ c) :
    maximumf (addf (addf (addf (addf (addf (addf (addf (addf (addf (addf (broadcast ⟨2, ![512, cout]⟩ (Scalar.ofBits (F := Ideal) .f32 0x00000000#32)) (matmul d none (shapeCast ⟨2, ![512, cin]⟩ L0 h1) (shapeCast ⟨2, ![cin, cout]⟩ (extractStridedSlice ⟨3, ![1, cin, cout]⟩ ![0, 0, 0] W hs0) hc) (constant (F := Ideal) ⟨2, ![512, cout]⟩ .f32 0x00000000#32))) (matmul d none (shapeCast ⟨2, ![512, cin]⟩ L1 h1) (shapeCast ⟨2, ![cin, cout]⟩ (extractStridedSlice ⟨3, ![1, cin, cout]⟩ ![1, 0, 0] W hs1) hc) (constant (F := Ideal) ⟨2, ![512, cout]⟩ .f32 0x00000000#32))) (matmul d none (shapeCast ⟨2, ![512, cin]⟩ L2 h1) (shapeCast ⟨2, ![cin, cout]⟩ (extractStridedSlice ⟨3, ![1, cin, cout]⟩ ![2, 0, 0] W hs2) hc) (constant (F := Ideal) ⟨2, ![512, cout]⟩ .f32 0x00000000#32))) (matmul d none (shapeCast ⟨2, ![512, cin]⟩ L3 h1) (shapeCast ⟨2, ![cin, cout]⟩ (extractStridedSlice ⟨3, ![1, cin, cout]⟩ ![3, 0, 0] W hs3) hc) (constant (F := Ideal) ⟨2, ![512, cout]⟩ .f32 0x00000000#32))) (matmul d none (shapeCast ⟨2, ![512, cin]⟩ L4 h1) (shapeCast ⟨2, ![cin, cout]⟩ (extractStridedSlice ⟨3, ![1, cin, cout]⟩ ![4, 0, 0] W hs4) hc) (constant (F := Ideal) ⟨2, ![512, cout]⟩ .f32 0x00000000#32))) (matmul d none (shapeCast ⟨2, ![512, cin]⟩ L5 h1) (shapeCast ⟨2, ![cin, cout]⟩ (extractStridedSlice ⟨3, ![1, cin, cout]⟩ ![5, 0, 0] W hs5) hc) (constant (F := Ideal) ⟨2, ![512, cout]⟩ .f32 0x00000000#32))) (matmul d none (shapeCast ⟨2, ![512, cin]⟩ L6 h1) (shapeCast ⟨2, ![cin, cout]⟩ (extractStridedSlice ⟨3, ![1, cin, cout]⟩ ![6, 0, 0] W hs6) hc) (constant (F := Ideal) ⟨2, ![512, cout]⟩ .f32 0x00000000#32))) (matmul d none (shapeCast ⟨2, ![512, cin]⟩ L7 h1) (shapeCast ⟨2, ![cin, cout]⟩ (extractStridedSlice ⟨3, ![1, cin, cout]⟩ ![7, 0, 0] W hs7) hc) (constant (F := Ideal) ⟨2, ![512, cout]⟩ .f32 0x00000000#32))) (matmul d none (shapeCast ⟨2, ![512, cin]⟩ L8 h1) (shapeCast ⟨2, ![cin, cout]⟩ (extractStridedSlice ⟨3, ![1, cin, cout]⟩ ![8, 0, 0] W hs8) hc) (constant (F := Ideal) ⟨2, ![512, cout]⟩ .f32 0x00000000#32)))
        (broadcastTo ⟨2, ![512, cout]⟩ bias hb)) (broadcast ⟨2, ![512, cout]⟩ (Scalar.ofBits (F := Ideal) .f32 0x00000000#32)) (ix2 r o)
      = Cert.Spec.conv P (fun k c o => W (ix3 k c o)) (fun o => bias (ix2 (0 : Fin 1) o)) i j o := by
  simp only [maximumf_apply, addf_apply, broadcast_apply, matmul]
  rw [Cert.ConvStage.tap_apply d hlc hrc hln hrn hlb hrb L0 W h1 0 hs0 hc P (0 : Fin 9) rfl r n i j o hr hL0]
  rw [Cert.ConvStage.tap_apply d hlc hrc hln hrn hlb hrb L1 W h1 1 hs1 hc P (1 : Fin 9) rfl r n i j o hr hL1]
  rw [Cert.ConvStage.tap_apply d hlc hrc hln hrn hlb hrb L2 W h1 2 hs2 hc P (2 : Fin 9) rfl r n i j o hr hL2]
  rw [Cert.ConvStage.tap_apply d hlc hrc hln hrn hlb hrb L3 W h1 3 hs3 hc P (3 : Fin 9) rfl r n i j o hr hL3]
  rw [Cert.ConvStage.tap_apply d hlc hrc hln hrn hlb hrb L4 W h1 4 hs4 hc P (4 : Fin 9) rfl r n i j o hr hL4]
  rw [Cert.ConvStage.tap_apply d hlc hrc hln hrn hlb hrb L5 W h1 5 hs5 hc P (5 : Fin 9) rfl r n i j o hr hL5]
  rw [Cert.ConvStage.tap_apply d hlc hrc hln hrn hlb hrb L6 W h1 6 hs6 hc P (6 : Fin 9) rfl r n i j o hr hL6]
  rw [Cert.ConvStage.tap_apply d hlc hrc hln hrn hlb hrb L7 W h1 7 hs7 hc P (7 : Fin 9) rfl r n i j o hr hL7]
  rw [Cert.ConvStage.tap_apply d hlc hrc hln hrn hlb hrb L8 W h1 8 hs8 hc P (8 : Fin 9) rfl r n i j o hr hL8]
  rw [broadcastTo_1b_ab_apply bias hb r o]
  show max ((((((((((Ideal.ofBits .f32 0x00000000#32 + _) + _) + _) + _) + _) + _) + _) + _) + _) + _) (Ideal.ofBits .f32 0x00000000#32) = _
  rw [Ideal.ofBits_zero_f32]
  rfl

/-- A product with the head weights plus the head bias row, kept at least zero, at row `r` and head channel `ch`. -/
theorem heads_row {a b c : ℕ} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (Y : FVec Ideal ⟨2, ![a, b]⟩ .f32) (hw : FVec Ideal ⟨2, ![b, c]⟩ .f32) (hb : FVec Ideal ⟨2, ![1, c]⟩ .f32)
    (hbb : (⟨2, ![1, c]⟩ : Shape).Broadcasts ⟨2, ![a, c]⟩) (r : Fin a) (ch : Fin c) :
    maximumf (addf (matmul d none Y hw (constant (F := Ideal) ⟨2, ![a, c]⟩ .f32 0x00000000#32)) (broadcastTo ⟨2, ![a, c]⟩ hb hbb))
        (broadcast ⟨2, ![a, c]⟩ (Scalar.ofBits (F := Ideal) .f32 0x00000000#32)) (ix2 r ch)
      = max ((∑ k : Fin b, Y (ix2 r k) * hw (ix2 k ch)) + hb (ix2 (0 : Fin 1) ch)) 0 := by
  simp only [maximumf_apply, addf_apply, broadcast_apply, matmul]
  rw [Cert.LibMatmulRows.matmul_rows_apply d hlc hrc hln hrn hlb hrb Y hw r ch, broadcastTo_1b_ab_apply hb hbb r ch]
  show max _ (Ideal.ofBits .f32 0x00000000#32) = _
  rw [Ideal.ofBits_zero_f32]

end Cert.ReferenceIdeal.RefValue

end
-- ==== Proof.RefLayer1.lean ====
/-
  The first layer of the first region from the nine windows of the padded input it reads: when the windows' entries at
  a board's cell are the padded board's entries around that cell, the layer's boards are the specification's first layer
  of the padded board.  (The printed arithmetic cuts the sum of nine products into two named terms.)
-/
import proofs.«124053_g2000309348811089_pallasbulk_1112_2_alg».proof.Proof.Gen.ReferenceIdeal.Skeleton
import proofs.«124053_g2000309348811089_pallasbulk_1112_2_alg».proof.Proof.Spec
import proofs.«124053_g2000309348811089_pallasbulk_1112_2_alg».proof.Proof.ConvStage
import proofs.«124053_g2000309348811089_pallasbulk_1112_2_alg».proof.Proof.RefConvRows
import Idealize.ShloMosaic.Lib.Pipeline.Value
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.ValueIdx

set_option maxHeartbeats 400000 in
/-- The first layer's boards at `(n, i, j, o)`, from its nine windows of the padded input. -/
theorem layer1_boards (w : FVec Ideal S9x128x32 .f32) (b : FVec Ideal S1x32 .f32)
    (a0 a1 a2 a3 a4 a5 a6 a7 a8 : FVec Ideal S8x8x8x128 .f32)
    (P : Cert.Spec.Padded 128) (n : Fin 8) (i j : Fin 8) (o : Fin 32)
    (h0 : ∀ c, a0 (ix4 n i j c) = P ⟨i.val + 0, by omega⟩ ⟨j.val + 0, by omega⟩ c)
    (h1 : ∀ c, a1 (ix4 n i j c) = P ⟨i.val + 0, by omega⟩ ⟨j.val + 1, by omega⟩ c)
    (h2 : ∀ c, a2 (ix4 n i j c) = P ⟨i.val + 0, by omega⟩ ⟨j.val + 2, by omega⟩ c)
    (h3 : ∀ c, a3 (ix4 n i j c) = P ⟨i.val + 1, by omega⟩ ⟨j.val + 0, by omega⟩ c)
    (h4 : ∀ c, a4 (ix4 n i j c) = P ⟨i.val + 1, by omega⟩ ⟨j.val + 1, by omega⟩ c)
    (h5 : ∀ c, a5 (ix4 n i j c) = P ⟨i.val + 1, by omega⟩ ⟨j.val + 2, by omega⟩ c)
    (h6 : ∀ c, a6 (ix4 n i j c) = P ⟨i.val + 2, by omega⟩ ⟨j.val + 0, by omega⟩ c)
    (h7 : ∀ c, a7 (ix4 n i j c) = P ⟨i.val + 2, by omega⟩ ⟨j.val + 1, by omega⟩ c)
    (h8 : ∀ c, a8 (ix4 n i j c) = P ⟨i.val + 2, by omega⟩ ⟨j.val + 2, by omega⟩ c) :
    k0_pay5 (F := Ideal) (k0_pay3 w (k0_pay2 w a0 a1 a2 a3) a4 a5 a6 a7 a8 b) (ix4 n i j o)
      = Cert.Spec.conv P (fun k c o => w (ix3 k c o)) (fun o => b (ix2 (0 : Fin 1) o)) i j o := by
  unfold k0_pay5 k0_pay3 k0_pay2
  dsimp only
  refine (congrFun (shapeCast_self _ shapeCasts_S8x8x8x32_S8x8x8x32) (ix4 n i j o)).trans ?_
  refine (Cert.ConvStage.boards_of_rows _ shapeCasts_S512x32_S8x8x8x32 (⟨n.val * 64 + i.val * 8 + j.val, by omega⟩ : Fin 512) n i j o rfl).trans ?_
  exact conv_rows (cin := 128) (cout := 32) dot_S512x128_S128x32_S512x32_1_0_0_1_n_n rfl rfl rfl rfl rfl rfl w b
    (shapeCast S8x8x8x128 a0 shapeCasts_S8x8x8x128_S8x8x8x128) (shapeCast S8x8x8x128 a1 shapeCasts_S8x8x8x128_S8x8x8x128) (shapeCast S8x8x8x128 a2 shapeCasts_S8x8x8x128_S8x8x8x128) (shapeCast S8x8x8x128 a3 shapeCasts_S8x8x8x128_S8x8x8x128) (shapeCast S8x8x8x128 a4 shapeCasts_S8x8x8x128_S8x8x8x128) (shapeCast S8x8x8x128 a5 shapeCasts_S8x8x8x128_S8x8x8x128) (shapeCast S8x8x8x128 a6 shapeCasts_S8x8x8x128_S8x8x8x128) (shapeCast S8x8x8x128 a7 shapeCasts_S8x8x8x128_S8x8x8x128) (shapeCast S8x8x8x128 a8 shapeCasts_S8x8x8x128_S8x8x8x128)
    shapeCasts_S8x8x8x128_S512x128 slices_S9x128x32_o0_0_0_S1x128x32 slices_S9x128x32_o1_0_0_S1x128x32 slices_S9x128x32_o2_0_0_S1x128x32 slices_S9x128x32_o3_0_0_S1x128x32 slices_S9x128x32_o4_0_0_S1x128x32 slices_S9x128x32_o5_0_0_S1x128x32 slices_S9x128x32_o6_0_0_S1x128x32 slices_S9x128x32_o7_0_0_S1x128x32 slices_S9x128x32_o8_0_0_S1x128x32
    shapeCasts_S1x128x32_S128x32 broadcasts_S1x32_S512x32 P (⟨n.val * 64 + i.val * 8 + j.val, by omega⟩ : Fin 512) n i j o rfl
    (fun c => (congrFun (shapeCast_self a0 shapeCasts_S8x8x8x128_S8x8x8x128) (ix4 n i j c)).trans (h0 c))
    (fun c => (congrFun (shapeCast_self a1 shapeCasts_S8x8x8x128_S8x8x8x128) (ix4 n i j c)).trans (h1 c))
    (fun c => (congrFun (shapeCast_self a2 shapeCasts_S8x8x8x128_S8x8x8x128) (ix4 n i j c)).trans (h2 c))
    (fun c => (congrFun (shapeCast_self a3 shapeCasts_S8x8x8x128_S8x8x8x128) (ix4 n i j c)).trans (h3 c))
    (fun c => (congrFun (shapeCast_self a4 shapeCasts_S8x8x8x128_S8x8x8x128) (ix4 n i j c)).trans (h4 c))
    (fun c => (congrFun (shapeCast_self a5 shapeCasts_S8x8x8x128_S8x8x8x128) (ix4 n i j c)).trans (h5 c))
    (fun c => (congrFun (shapeCast_self a6 shapeCasts_S8x8x8x128_S8x8x8x128) (ix4 n i j c)).trans (h6 c))
    (fun c => (congrFun (shapeCast_self a7 shapeCasts_S8x8x8x128_S8x8x8x128) (ix4 n i j c)).trans (h7 c))
    (fun c => (congrFun (shapeCast_self a8 shapeCasts_S8x8x8x128_S8x8x8x128) (ix4 n i j c)).trans (h8 c))

end Cert.ReferenceIdeal.RefValue

end
-- ==== Proof.RefLayer2.lean ====
/-
  The second layer of the first region from the nine windows of the first padded copy it reads.  (The printed
  arithmetic cuts the sum of nine products into four named terms.)
-/
import proofs.«124053_g2000309348811089_pallasbulk_1112_2_alg».proof.Proof.Gen.ReferenceIdeal.Skeleton
import proofs.«124053_g2000309348811089_pallasbulk_1112_2_alg».proof.Proof.Spec
import proofs.«124053_g2000309348811089_pallasbulk_1112_2_alg».proof.Proof.ConvStage
import proofs.«124053_g2000309348811089_pallasbulk_1112_2_alg».proof.Proof.RefConvRows
import Idealize.ShloMosaic.Lib.Pipeline.Value
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.ValueIdx

set_option maxHeartbeats 400000 in
/-- The second layer's boards at `(n, i, j, o)`, from its nine windows of the first padded copy. -/
theorem layer2_boards (w : FVec Ideal S9x32x64 .f32) (b : FVec Ideal S1x64 .f32)
    (s0 s1 s2 s3 s4 s5 s6 s7 s8 : FVec Ideal S8x8x8x32 .f32)
    (P : Cert.Spec.Padded 32) (n : Fin 8) (i j : Fin 8) (o : Fin 64)
    (h0 : ∀ c, s0 (ix4 n i j c) = P ⟨i.val + 0, by omega⟩ ⟨j.val + 0, by omega⟩ c)
    (h1 : ∀ c, s1 (ix4 n i j c) = P ⟨i.val + 0, by omega⟩ ⟨j.val + 1, by omega⟩ c)
    (h2 : ∀ c, s2 (ix4 n i j c) = P ⟨i.val + 0, by omega⟩ ⟨j.val + 2, by omega⟩ c)
    (h3 : ∀ c, s3 (ix4 n i j c) = P ⟨i.val + 1, by omega⟩ ⟨j.val + 0, by omega⟩ c)
    (h4 : ∀ c, s4 (ix4 n i j c) = P ⟨i.val + 1, by omega⟩ ⟨j.val + 1, by omega⟩ c)
    (h5 : ∀ c, s5 (ix4 n i j c) = P ⟨i.val + 1, by omega⟩ ⟨j.val + 2, by omega⟩ c)
    (h6 : ∀ c, s6 (ix4 n i j c) = P ⟨i.val + 2, by omega⟩ ⟨j.val + 0, by omega⟩ c)
    (h7 : ∀ c, s7 (ix4 n i j c) = P ⟨i.val + 2, by omega⟩ ⟨j.val + 1, by omega⟩ c)
    (h8 : ∀ c, s8 (ix4 n i j c) = P ⟨i.val + 2, by omega⟩ ⟨j.val + 2, by omega⟩ c) :
    k0_pay10 (F := Ideal) w (k0_pay8 w (k0_pay6 w s0 s1) (k0_pay7 w s2) s3 s4 s5 s6 s7) s8 b (ix4 n i j o)
      = Cert.Spec.conv P (fun k c o => w (ix3 k c o)) (fun o => b (ix2 (0 : Fin 1) o)) i j o := by
  unfold k0_pay10 k0_pay8 k0_pay7 k0_pay6
  dsimp only
  refine (congrFun (shapeCast_self _ shapeCasts_S8x8x8x64_S8x8x8x64) (ix4 n i j o)).trans ?_
  refine (Cert.ConvStage.boards_of_rows _ shapeCasts_S512x64_S8x8x8x64 (⟨n.val * 64 + i.val * 8 + j.val, by omega⟩ : Fin 512) n i j o rfl).trans ?_
  exact conv_rows (cin := 32) (cout := 64) dot_S512x32_S32x64_S512x64_1_0_0_1_n_n rfl rfl rfl rfl rfl rfl w b
    s0 s1 s2 s3 s4 s5 s6 s7 s8
    shapeCasts_S8x8x8x32_S512x32 slices_S9x32x64_o0_0_0_S1x32x64 slices_S9x32x64_o1_0_0_S1x32x64 slices_S9x32x64_o2_0_0_S1x32x64 slices_S9x32x64_o3_0_0_S1x32x64 slices_S9x32x64_o4_0_0_S1x32x64 slices_S9x32x64_o5_0_0_S1x32x64 slices_S9x32x64_o6_0_0_S1x32x64 slices_S9x32x64_o7_0_0_S1x32x64 slices_S9x32x64_o8_0_0_S1x32x64
    shapeCasts_S1x32x64_S32x64 broadcasts_S1x64_S512x64 P (⟨n.val * 64 + i.val * 8 + j.val, by omega⟩ : Fin 512) n i j o rfl
    h0 h1 h2 h3 h4 h5 h6 h7 h8

end Cert.ReferenceIdeal.RefValue

end
-- ==== Proof.RefLayer3.lean ====
/-
  The third layer and the pointwise heads layer of the first region from the nine windows of the second padded copy:
  the head channels of a board's cell.  (The printed arithmetic cuts the sum of nine products into five named terms,
  the last of which also holds the bias, the clamp and the heads layer.)
-/
import proofs.«124053_g2000309348811089_pallasbulk_1112_2_alg».proof.Proof.Gen.ReferenceIdeal.Skeleton
import proofs.«124053_g2000309348811089_pallasbulk_1112_2_alg».proof.Proof.Spec
import proofs.«124053_g2000309348811089_pallasbulk_1112_2_alg».proof.Proof.ConvStage
import proofs.«124053_g2000309348811089_pallasbulk_1112_2_alg».proof.Proof.RefConvRows
import Idealize.ShloMosaic.Lib.Pipeline.Value
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.ValueIdx

/-- The third layer's rows, from the sum of its first seven products and its last two windows: the last two products,
    the bias, kept at least zero. -/
def relu3 (w : FVec Ideal S9x64x128 .f32) (acc : FVec Ideal S512x128 .f32) (u7 u8 : FVec Ideal S8x8x8x64 .f32)
    (b : FVec Ideal S1x128 .f32) : FVec Ideal S512x128 .f32 :=
  maximumf (addf (addf (addf acc (matmul dot_S512x64_S64x128_S512x128_1_0_0_1_n_n none (shapeCast S512x64 u7 shapeCasts_S8x8x8x64_S512x64) (shapeCast S64x128 (extractStridedSlice S1x64x128 ![7, 0, 0] w slices_S9x64x128_o7_0_0_S1x64x128) shapeCasts_S1x64x128_S64x128) (constant (F := Ideal) S512x128 .f32 0x00000000#32))) (matmul dot_S512x64_S64x128_S512x128_1_0_0_1_n_n none (shapeCast S512x64 u8 shapeCasts_S8x8x8x64_S512x64) (shapeCast S64x128 (extractStridedSlice S1x64x128 ![8, 0, 0] w slices_S9x64x128_o8_0_0_S1x64x128) shapeCasts_S1x64x128_S64x128) (constant (F := Ideal) S512x128 .f32 0x00000000#32))) (broadcastTo S512x128 b broadcasts_S1x128_S512x128))
    (broadcast S512x128 (Scalar.ofBits (F := Ideal) .f32 0x00000000#32))

/-- The sum of the third layer's first seven products. -/
def acc3 (w : FVec Ideal S9x64x128 .f32) (u0 u1 u2 u3 u4 u5 u6 : FVec Ideal S8x8x8x64 .f32) : FVec Ideal S512x128 .f32 :=
  k0_pay14 (F := Ideal) w (k0_pay11 (F := Ideal) w u0) (k0_pay12 (F := Ideal) u1) (k0_pay13 (F := Ideal) w) (constant (F := Ideal) S512x128 .f32 0x00000000#32) u2 u3 u4 u5 u6

set_option maxHeartbeats 200000 in
/-- The last named term at row `r` and head channel `ch`: the heads layer of the third layer's row. -/
theorem pay1_heads (w : FVec Ideal S9x64x128 .f32) (acc : FVec Ideal S512x128 .f32) (u7 u8 : FVec Ideal S8x8x8x64 .f32)
    (b : FVec Ideal S1x128 .f32) (hw : FVec Ideal S128x128 .f32) (hb : FVec Ideal S1x128 .f32) (r : Fin 512) (ch : Fin 128) :
    k0_pay1 (F := Ideal) w acc u7 u8 b hw hb (ix2 r ch)
      = max ((∑ k : Fin 128, relu3 w acc u7 u8 b (ix2 r k) * hw (ix2 k ch)) + hb (ix2 (0 : Fin 1) ch)) 0 := by
  unfold k0_pay1
  exact heads_row (a := 512) (b := 128) (c := 128) dot_S512x128_S128x128_S512x128_1_0_0_1_n_n rfl rfl rfl rfl rfl rfl
    (relu3 w acc u7 u8 b) hw hb broadcasts_S1x128_S512x128 r ch

set_option maxHeartbeats 200000 in
/-- The third layer's rows at row `64 n + 8 i + j`, from its nine windows of the second padded copy. -/
theorem relu3_conv (w : FVec Ideal S9x64x128 .f32) (b : FVec Ideal S1x128 .f32)
    (u0 u1 u2 u3 u4 u5 u6 u7 u8 : FVec Ideal S8x8x8x64 .f32)
    (P : Cert.Spec.Padded 64) (n : Fin 8) (i j : Fin 8) (o : Fin 128)
    (h0 : ∀ c, u0 (ix4 n i j c) = P ⟨i.val + 0, by omega⟩ ⟨j.val + 0, by omega⟩ c)
    (h1 : ∀ c, u1 (ix4 n i j c) = P ⟨i.val + 0, by omega⟩ ⟨j.val + 1, by omega⟩ c)
    (h2 : ∀ c, u2 (ix4 n i j c) = P ⟨i.val + 0, by omega⟩ ⟨j.val + 2, by omega⟩ c)
    (h3 : ∀ c, u3 (ix4 n i j c) = P ⟨i.val + 1, by omega⟩ ⟨j.val + 0, by omega⟩ c)
    (h4 : ∀ c, u4 (ix4 n i j c) = P ⟨i.val + 1, by omega⟩ ⟨j.val + 1, by omega⟩ c)
    (h5 : ∀ c, u5 (ix4 n i j c) = P ⟨i.val + 1, by omega⟩ ⟨j.val + 2, by omega⟩ c)
    (h6 : ∀ c, u6 (ix4 n i j c) = P ⟨i.val + 2, by omega⟩ ⟨j.val + 0, by omega⟩ c)
    (h7 : ∀ c, u7 (ix4 n i j c) = P ⟨i.val + 2, by omega⟩ ⟨j.val + 1, by omega⟩ c)
    (h8 : ∀ c, u8 (ix4 n i j c) = P ⟨i.val + 2, by omega⟩ ⟨j.val + 2, by omega⟩ c) :
    relu3 w (acc3 w u0 u1 u2 u3 u4 u5 u6) u7 u8 b (ix2 (⟨n.val * 64 + i.val * 8 + j.val, by omega⟩ : Fin 512) o)
      = Cert.Spec.conv P (fun k c o => w (ix3 k c o)) (fun o => b (ix2 (0 : Fin 1) o)) i j o := by
  unfold relu3 acc3 k0_pay14 k0_pay13 k0_pay12 k0_pay11
  exact conv_rows (cin := 64) (cout := 128) dot_S512x64_S64x128_S512x128_1_0_0_1_n_n rfl rfl rfl rfl rfl rfl w b
    u0 u1 u2 u3 u4 u5 u6 u7 u8
    shapeCasts_S8x8x8x64_S512x64 slices_S9x64x128_o0_0_0_S1x64x128 slices_S9x64x128_o1_0_0_S1x64x128 slices_S9x64x128_o2_0_0_S1x64x128 slices_S9x64x128_o3_0_0_S1x64x128 slices_S9x64x128_o4_0_0_S1x64x128 slices_S9x64x128_o5_0_0_S1x64x128 slices_S9x64x128_o6_0_0_S1x64x128 slices_S9x64x128_o7_0_0_S1x64x128 slices_S9x64x128_o8_0_0_S1x64x128
    shapeCasts_S1x64x128_S64x128 broadcasts_S1x128_S512x128 P (⟨n.val * 64 + i.val * 8 + j.val, by omega⟩ : Fin 512) n i j o rfl
    h0 h1 h2 h3 h4 h5 h6 h7 h8

set_option maxHeartbeats 200000 in
/-- The third layer and the heads at the row of cell `(i, j)` of board `n` and head channel `ch`, from the nine windows
    of the second padded copy. -/
theorem heads_cell (w : FVec Ideal S9x64x128 .f32) (b : FVec Ideal S1x128 .f32) (hw : FVec Ideal S128x128 .f32)
    (hb : FVec Ideal S1x128 .f32) (u0 u1 u2 u3 u4 u5 u6 u7 u8 : FVec Ideal S8x8x8x64 .f32)
    (P : Cert.Spec.Padded 64) (n : Fin 8) (i j : Fin 8) (ch : Fin 128)
    (h0 : ∀ c, u0 (ix4 n i j c) = P ⟨i.val + 0, by omega⟩ ⟨j.val + 0, by omega⟩ c)
    (h1 : ∀ c, u1 (ix4 n i j c) = P ⟨i.val + 0, by omega⟩ ⟨j.val + 1, by omega⟩ c)
    (h2 : ∀ c, u2 (ix4 n i j c) = P ⟨i.val + 0, by omega⟩ ⟨j.val + 2, by omega⟩ c)
    (h3 : ∀ c, u3 (ix4 n i j c) = P ⟨i.val + 1, by omega⟩ ⟨j.val + 0, by omega⟩ c)
    (h4 : ∀ c, u4 (ix4 n i j c) = P ⟨i.val + 1, by omega⟩ ⟨j.val + 1, by omega⟩ c)
    (h5 : ∀ c, u5 (ix4 n i j c) = P ⟨i.val + 1, by omega⟩ ⟨j.val + 2, by omega⟩ c)
    (h6 : ∀ c, u6 (ix4 n i j c) = P ⟨i.val + 2, by omega⟩ ⟨j.val + 0, by omega⟩ c)
    (h7 : ∀ c, u7 (ix4 n i j c) = P ⟨i.val + 2, by omega⟩ ⟨j.val + 1, by omega⟩ c)
    (h8 : ∀ c, u8 (ix4 n i j c) = P ⟨i.val + 2, by omega⟩ ⟨j.val + 2, by omega⟩ c) :
    k0_pay1 (F := Ideal) w (acc3 w u0 u1 u2 u3 u4 u5 u6) u7 u8 b hw hb (ix2 (⟨n.val * 64 + i.val * 8 + j.val, by omega⟩ : Fin 512) ch)
      = max ((∑ c : Fin 128, Cert.Spec.conv P (fun k c o => w (ix3 k c o)) (fun o => b (ix2 (0 : Fin 1) o)) i j c * hw (ix2 c ch))
          + hb (ix2 (0 : Fin 1) ch)) 0 := by
  refine (pay1_heads w (acc3 w u0 u1 u2 u3 u4 u5 u6) u7 u8 b hw hb (⟨n.val * 64 + i.val * 8 + j.val, by omega⟩ : Fin 512) ch).trans ?_
  refine congrArg (fun s : EReal => max (s + hb (ix2 (0 : Fin 1) ch)) 0) (Finset.sum_congr rfl fun c _ => ?_)
  exact congrArg (· * hw (ix2 c ch)) (relu3_conv w b u0 u1 u2 u3 u4 u5 u6 u7 u8 P n i j c h0 h1 h2 h3 h4 h5 h6 h7 h8)

end Cert.ReferenceIdeal.RefValue

end
-- ==== Proof.RefBody.lean ====
/-
  What the first region's body leaves in its result block.

  The run of the body found one store into the result block; its value is the heads layer of the third layer of nine
  windows of the second padded copy, which holds the second layer's boards inside a border of zeros, the second layer
  being computed from nine windows of the first padded copy, which holds the first layer's boards inside a border of
  zeros, the first layer from nine windows of the staged input block.  Each window's entry is the padded board's entry
  at the shifted cell, so layer by layer the value is the specification's: row `64 n + p` of the block holds the head
  channels of cell `p` of the block's board `n`.
-/
import proofs.«124053_g2000309348811089_pallasbulk_1112_2_alg».proof.Proof.Gen.ReferenceIdeal.Frame
import proofs.«124053_g2000309348811089_pallasbulk_1112_2_alg».proof.Proof.RefLayer1
import proofs.«124053_g2000309348811089_pallasbulk_1112_2_alg».proof.Proof.RefLayer2
import proofs.«124053_g2000309348811089_pallasbulk_1112_2_alg».proof.Proof.RefLayer3
import proofs.«124053_g2000309348811089_pallasbulk_1112_2_alg».proof.Proof.RefHead
import proofs.«124053_g2000309348811089_pallasbulk_1112_2_alg».proof.Proof.ConvStage
import Idealize.ShloMosaic.Lib.Pipeline.Value

set_option maxRecDepth 16384

noncomputable section

namespace Cert.ReferenceIdeal.RefValue

open Cert.ReferenceIdeal Cert.ReferenceIdeal.Gen
open Idealize.ShloMosaic Idealize.ShloMosaic.ValueIdx
open Idealize.ShloMosaic.TcCoe Idealize.ShloMosaic.Tactic

theorem hz2' : (![0, 0] : Fin 2 → Nat) = fun _ => 0 := funext fun a => by fin_cases a <;> rfl
theorem hz3' : (![0, 0, 0] : Fin 3 → Nat) = fun _ => 0 := funext fun a => by fin_cases a <;> rfl

section Terms

variable {F : FTy → Type} [FloatOps F]

/-- A whole staged array read back whole is its contents. -/
theorem readAt_whole {r : ℕ} {d : Fin r → ℕ} (arg : Memref sig .tc .vmem ⟨r, d⟩ .f32) (harg : arg.IsWhole)
    (x : Vec F ⟨r, d⟩ .f32) (off : Fin r → ℕ) (hz : off = fun _ => 0) (inb : ∀ a, off a + (⟨r, d⟩ : Shape).size a ≤ (⟨r, d⟩ : Shape).size a) :
    View.readAt (Elt F) arg.view (Rect.unit (s := ⟨r, d⟩) off (⟨r, d⟩ : Shape).size inb).toLoadRect (harg.unread x) = x := by
  rw [View.readAt_eq_ld, harg.read_unread, View.ld_unit_zero hz]

variable (arg1 : Memref sig .tc .vmem S8x10x10x128 .f32) (harg1 : arg1.IsWhole) (arg2 : Memref sig .tc .vmem S9x128x32 .f32) (harg2 : arg2.IsWhole) (arg3 : Memref sig .tc .vmem S1x32 .f32) (harg3 : arg3.IsWhole) (arg4 : Memref sig .tc .vmem S9x32x64 .f32) (harg4 : arg4.IsWhole) (arg5 : Memref sig .tc .vmem S1x64 .f32) (harg5 : arg5.IsWhole) (arg6 : Memref sig .tc .vmem S9x64x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole)
variable (x0 : Vec F S8x10x10x128 .f32) (x1 : Vec F S9x128x32 .f32) (x2 : Vec F S1x32 .f32) (x3 : Vec F S9x32x64 .f32) (x4 : Vec F S1x64 .f32) (x5 : Vec F S9x64x128 .f32) (x6 : Vec F S1x128 .f32) (x7 : Vec F S128x128 .f32) (x8 : Vec F S1x128 .f32)
variable (arg11 : Memref sig .tc .vmem S8x10x10x32 .f32) (arg12 : Memref sig .tc .vmem S8x10x10x64 .f32)

/-- The window of the staged input block at offset `(dh, dw)`. -/
def ra (dh dw : ℕ) (inb : ∀ a, (![0, dh, dw, 0] : Fin 4 → Nat) a + S8x8x8x128.size a ≤ S8x10x10x128.size a) : Vec F S8x8x8x128 .f32 :=
  View.readAt (Elt F) arg1.view (Rect.unit (s := S8x10x10x128) ![0, dh, dw, 0] S8x8x8x128.size inb).toLoadRect (harg1.unread x0)

def rw1 : Vec F S9x128x32 .f32 := View.readAt (Elt F) arg2.view (Rect.unit (s := S9x128x32) ![0, 0, 0] S9x128x32.size inb_S9x128x32_S9x128x32_0_0_0).toLoadRect (harg2.unread x1)
def rb1 : Vec F S1x32 .f32 := View.readAt (Elt F) arg3.view (Rect.unit (s := S1x32) ![0, 0] S1x32.size inb_S1x32_S1x32_0_0).toLoadRect (harg3.unread x2)
def rw2 : Vec F S9x32x64 .f32 := View.readAt (Elt F) arg4.view (Rect.unit (s := S9x32x64) ![0, 0, 0] S9x32x64.size inb_S9x32x64_S9x32x64_0_0_0).toLoadRect (harg4.unread x3)
def rb2 : Vec F S1x64 .f32 := View.readAt (Elt F) arg5.view (Rect.unit (s := S1x64) ![0, 0] S1x64.size inb_S1x64_S1x64_0_0).toLoadRect (harg5.unread x4)
def rw3 : Vec F S9x64x128 .f32 := View.readAt (Elt F) arg6.view (Rect.unit (s := S9x64x128) ![0, 0, 0] S9x64x128.size inb_S9x64x128_S9x64x128_0_0_0).toLoadRect (harg6.unread x5)
def rb3 : Vec F S1x128 .f32 := View.readAt (Elt F) arg7.view (Rect.unit (s := S1x128) ![0, 0] S1x128.size inb_S1x128_S1x128_0_0).toLoadRect (harg7.unread x6)
def rhw : Vec F S128x128 .f32 := View.readAt (Elt F) arg8.view (Rect.unit (s := S128x128) ![0, 0] S128x128.size inb_S128x128_S128x128_0_0).toLoadRect (harg8.unread x7)
def rhb : Vec F S1x128 .f32 := View.readAt (Elt F) arg9.view (Rect.unit (s := S1x128) ![0, 0] S1x128.size inb_S1x128_S1x128_0_0).toLoadRect (harg9.unread x8)

/-- The first layer's boards. -/
def y1 : FVec F S8x8x8x32 .f32 :=
  k0_pay5 (k0_pay3 (rw1 arg2 harg2 x1) (k0_pay2 (rw1 arg2 harg2 x1) (ra arg1 harg1 x0 0 0 inb_S8x10x10x128_S8x8x8x128_0_0_0_0) (ra arg1 harg1 x0 0 1 inb_S8x10x10x128_S8x8x8x128_0_0_1_0) (ra arg1 harg1 x0 0 2 inb_S8x10x10x128_S8x8x8x128_0_0_2_0) (ra arg1 harg1 x0 1 0 inb_S8x10x10x128_S8x8x8x128_0_1_0_0))
    (ra arg1 harg1 x0 1 1 inb_S8x10x10x128_S8x8x8x128_0_1_1_0) (ra arg1 harg1 x0 1 2 inb_S8x10x10x128_S8x8x8x128_0_1_2_0) (ra arg1 harg1 x0 2 0 inb_S8x10x10x128_S8x8x8x128_0_2_0_0) (ra arg1 harg1 x0 2 1 inb_S8x10x10x128_S8x8x8x128_0_2_1_0) (ra arg1 harg1 x0 2 2 inb_S8x10x10x128_S8x8x8x128_0_2_2_0) (rb1 arg3 harg3 x2))

/-- The stores into the first padded copy, latest first: the boards at offset `(1, 1)`, the clearing. -/
def L1 : List (View.Piece (Elt F) S8x10x10x32 .f32) :=
  [⟨Rect.unit (s := S8x10x10x32) ![0, 1, 1, 0] S8x8x8x32.size inb_S8x10x10x32_S8x8x8x32_0_1_1_0, y1 arg1 harg1 arg2 harg2 arg3 harg3 x0 x1 x2⟩,
   ⟨Rect.unit (s := S8x10x10x32) ![0, 0, 0, 0] S8x10x10x32.size inb_S8x10x10x32_S8x10x10x32_0_0_0_0, k0_pay4 (F := F)⟩]

/-- The window of the first padded copy at offset `(dh, dw)`. -/
def rs (dh dw : ℕ) (inb : ∀ a, (![0, dh, dw, 0] : Fin 4 → Nat) a + S8x8x8x32.size a ≤ S8x10x10x32.size a) : Vec F S8x8x8x32 .f32 :=
  arg11.view.readCov (L1 arg1 harg1 arg2 harg2 arg3 harg3 x0 x1 x2) (Rect.unit (s := S8x10x10x32) ![0, dh, dw, 0] S8x8x8x32.size inb).toLoadRect

/-- The second layer's boards. -/
def y2 : FVec F S8x8x8x64 .f32 :=
  k0_pay10 (rw2 arg4 harg4 x3) (k0_pay8 (rw2 arg4 harg4 x3)
      (k0_pay6 (rw2 arg4 harg4 x3) (rs arg1 harg1 arg2 harg2 arg3 harg3 x0 x1 x2 arg11 0 0 inb_S8x10x10x32_S8x8x8x32_0_0_0_0) (rs arg1 harg1 arg2 harg2 arg3 harg3 x0 x1 x2 arg11 0 1 inb_S8x10x10x32_S8x8x8x32_0_0_1_0))
      (k0_pay7 (rw2 arg4 harg4 x3) (rs arg1 harg1 arg2 harg2 arg3 harg3 x0 x1 x2 arg11 0 2 inb_S8x10x10x32_S8x8x8x32_0_0_2_0))
      (rs arg1 harg1 arg2 harg2 arg3 harg3 x0 x1 x2 arg11 1 0 inb_S8x10x10x32_S8x8x8x32_0_1_0_0) (rs arg1 harg1 arg2 harg2 arg3 harg3 x0 x1 x2 arg11 1 1 inb_S8x10x10x32_S8x8x8x32_0_1_1_0) (rs arg1 harg1 arg2 harg2 arg3 harg3 x0 x1 x2 arg11 1 2 inb_S8x10x10x32_S8x8x8x32_0_1_2_0) (rs arg1 harg1 arg2 harg2 arg3 harg3 x0 x1 x2 arg11 2 0 inb_S8x10x10x32_S8x8x8x32_0_2_0_0) (rs arg1 harg1 arg2 harg2 arg3 harg3 x0 x1 x2 arg11 2 1 inb_S8x10x10x32_S8x8x8x32_0_2_1_0))
    (rs arg1 harg1 arg2 harg2 arg3 harg3 x0 x1 x2 arg11 2 2 inb_S8x10x10x32_S8x8x8x32_0_2_2_0) (rb2 arg5 harg5 x4)

/-- The stores into the second padded copy, latest first. -/
def L2 : List (View.Piece (Elt F) S8x10x10x64 .f32) :=
  [⟨Rect.unit (s := S8x10x10x64) ![0, 1, 1, 0] S8x8x8x64.size inb_S8x10x10x64_S8x8x8x64_0_1_1_0, y2 arg1 harg1 arg2 harg2 arg3 harg3 arg4 harg4 arg5 harg5 x0 x1 x2 x3 x4 arg11⟩,
   ⟨Rect.unit (s := S8x10x10x64) ![0, 0, 0, 0] S8x10x10x64.size inb_S8x10x10x64_S8x10x10x64_0_0_0_0, k0_pay9 (F := F)⟩]

/-- The window of the second padded copy at offset `(dh, dw)`. -/
def ru (dh dw : ℕ) (inb : ∀ a, (![0, dh, dw, 0] : Fin 4 → Nat) a + S8x8x8x64.size a ≤ S8x10x10x64.size a) : Vec F S8x8x8x64 .f32 :=
  arg12.view.readCov (L2 arg1 harg1 arg2 harg2 arg3 harg3 arg4 harg4 arg5 harg5 x0 x1 x2 x3 x4 arg11) (Rect.unit (s := S8x10x10x64) ![0, dh, dw, 0] S8x8x8x64.size inb).toLoadRect

/-- The value stored into the result block. -/
def blk : FVec F S512x128 .f32 :=
  k0_pay1 (rw3 arg6 harg6 x5)
    (k0_pay14 (rw3 arg6 harg6 x5) (k0_pay11 (rw3 arg6 harg6 x5) (ru arg1 harg1 arg2 harg2 arg3 harg3 arg4 harg4 arg5 harg5 x0 x1 x2 x3 x4 arg11 arg12 0 0 inb_S8x10x10x64_S8x8x8x64_0_0_0_0)) (k0_pay12 (ru arg1 harg1 arg2 harg2 arg3 harg3 arg4 harg4 arg5 harg5 x0 x1 x2 x3 x4 arg11 arg12 0 1 inb_S8x10x10x64_S8x8x8x64_0_0_1_0))
      (k0_pay13 (rw3 arg6 harg6 x5)) (constant S512x128 .f32 0x00000000#32)
      (ru arg1 harg1 arg2 harg2 arg3 harg3 arg4 harg4 arg5 harg5 x0 x1 x2 x3 x4 arg11 arg12 0 2 inb_S8x10x10x64_S8x8x8x64_0_0_2_0) (ru arg1 harg1 arg2 harg2 arg3 harg3 arg4 harg4 arg5 harg5 x0 x1 x2 x3 x4 arg11 arg12 1 0 inb_S8x10x10x64_S8x8x8x64_0_1_0_0) (ru arg1 harg1 arg2 harg2 arg3 harg3 arg4 harg4 arg5 harg5 x0 x1 x2 x3 x4 arg11 arg12 1 1 inb_S8x10x10x64_S8x8x8x64_0_1_1_0) (ru arg1 harg1 arg2 harg2 arg3 harg3 arg4 harg4 arg5 harg5 x0 x1 x2 x3 x4 arg11 arg12 1 2 inb_S8x10x10x64_S8x8x8x64_0_1_2_0) (ru arg1 harg1 arg2 harg2 arg3 harg3 arg4 harg4 arg5 harg5 x0 x1 x2 x3 x4 arg11 arg12 2 0 inb_S8x10x10x64_S8x8x8x64_0_2_0_0))
    (ru arg1 harg1 arg2 harg2 arg3 harg3 arg4 harg4 arg5 harg5 x0 x1 x2 x3 x4 arg11 arg12 2 1 inb_S8x10x10x64_S8x8x8x64_0_2_1_0) (ru arg1 harg1 arg2 harg2 arg3 harg3 arg4 harg4 arg5 harg5 x0 x1 x2 x3 x4 arg11 arg12 2 2 inb_S8x10x10x64_S8x8x8x64_0_2_2_0) (rb3 arg7 harg7 x6) (rhw arg8 harg8 x7) (rhb arg9 harg9 x8)

end Terms

section Run

variable {F : FTy → Type} [FloatOps F]

set_option maxHeartbeats 1000000 in
/-- The body's run leaves the stored value in the result block. -/
theorem out0_A_9_eq (c : Dev nD) (i : grid0.Coords) (arg1 : Memref sig .tc .vmem S8x10x10x128 .f32) (harg1 : arg1.IsWhole) (arg2 : Memref sig .tc .vmem S9x128x32 .f32) (harg2 : arg2.IsWhole) (arg3 : Memref sig .tc .vmem S1x32 .f32) (harg3 : arg3.IsWhole) (arg4 : Memref sig .tc .vmem S9x32x64 .f32) (harg4 : arg4.IsWhole) (arg5 : Memref sig .tc .vmem S1x64 .f32) (harg5 : arg5.IsWhole) (arg6 : Memref sig .tc .vmem S9x64x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x128 .f32) (harg10 : arg10.IsWhole) (arg11 : Memref sig .tc .vmem S8x10x10x32 .f32) (harg11 : arg11.IsWhole) (arg12 : Memref sig .tc .vmem S8x10x10x64 .f32) (harg12 : arg12.IsWhole)
    (x0 : Vec F S8x10x10x128 .f32) (x1 : Vec F S9x128x32 .f32) (x2 : Vec F S1x32 .f32) (x3 : Vec F S9x32x64 .f32) (x4 : Vec F S1x64 .f32) (x5 : Vec F S9x64x128 .f32) (x6 : Vec F S1x128 .f32) (x7 : Vec F S128x128 .f32) (x8 : Vec F S1x128 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = blk arg1 harg1 arg2 harg2 arg3 harg3 arg4 harg4 arg5 harg5 arg6 harg6 arg7 harg7 arg8 harg8 arg9 harg9 x0 x1 x2 x3 x4 x5 x6 x7 x8 arg11 arg12 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  refine (View.canon_unit_zero (S := S512x128) hz2' inb_S512x128_S512x128_0_0 _).trans ?_
  rfl

end Run

section Values

variable (arg1 : Memref sig .tc .vmem S8x10x10x128 .f32) (harg1 : arg1.IsWhole) (arg2 : Memref sig .tc .vmem S9x128x32 .f32) (harg2 : arg2.IsWhole) (arg3 : Memref sig .tc .vmem S1x32 .f32) (harg3 : arg3.IsWhole) (arg4 : Memref sig .tc .vmem S9x32x64 .f32) (harg4 : arg4.IsWhole) (arg5 : Memref sig .tc .vmem S1x64 .f32) (harg5 : arg5.IsWhole) (arg6 : Memref sig .tc .vmem S9x64x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole)
variable (x0 : Vec Ideal S8x10x10x128 .f32) (x1 : Vec Ideal S9x128x32 .f32) (x2 : Vec Ideal S1x32 .f32) (x3 : Vec Ideal S9x32x64 .f32) (x4 : Vec Ideal S1x64 .f32) (x5 : Vec Ideal S9x64x128 .f32) (x6 : Vec Ideal S1x128 .f32) (x7 : Vec Ideal S128x128 .f32) (x8 : Vec Ideal S1x128 .f32)
variable (arg11 : Memref sig .tc .vmem S8x10x10x32 .f32) (arg12 : Memref sig .tc .vmem S8x10x10x64 .f32)

theorem rw1_eq : rw1 arg2 harg2 x1 = x1 := readAt_whole arg2 harg2 x1 _ hz3' _
theorem rb1_eq : rb1 arg3 harg3 x2 = x2 := readAt_whole arg3 harg3 x2 _ hz2' _
theorem rw2_eq : rw2 arg4 harg4 x3 = x3 := readAt_whole arg4 harg4 x3 _ hz3' _
theorem rb2_eq : rb2 arg5 harg5 x4 = x4 := readAt_whole arg5 harg5 x4 _ hz2' _
theorem rw3_eq : rw3 arg6 harg6 x5 = x5 := readAt_whole arg6 harg6 x5 _ hz3' _
theorem rb3_eq : rb3 arg7 harg7 x6 = x6 := readAt_whole arg7 harg7 x6 _ hz2' _
theorem rhw_eq : rhw arg8 harg8 x7 = x7 := readAt_whole arg8 harg8 x7 _ hz2' _
theorem rhb_eq : rhb arg9 harg9 x8 = x8 := readAt_whole arg9 harg9 x8 _ hz2' _

/-- An entry of a window of the staged input block is the block's entry at the shifted cell. -/
theorem ra_apply (dh dw : ℕ) (inb) (n : Fin 8) (i j : Fin 8) (c : Fin 128) (hdh : dh ≤ 2) (hdw : dw ≤ 2) :
    ra arg1 harg1 x0 dh dw inb (ix4 n i j c) = x0 (ix4 n (⟨i.val + dh, by omega⟩ : Fin 10) (⟨j.val + dw, by omega⟩ : Fin 10) c) := by
  unfold ra
  rw [View.readAt_eq_ld, harg1.read_unread]
  show x0 ((Rect.unit (s := S8x10x10x128) ![0, dh, dw, 0] S8x8x8x128.size inb).emb (ix4 n i j c : S8x8x8x128.Idx)) = _
  refine congrArg x0 (funext fun a => Fin.ext ?_)
  match a with
  | ⟨0, _⟩ => show 0 + 1 * n.val = n.val; omega
  | ⟨1, _⟩ => show dh + 1 * i.val = i.val + dh; omega
  | ⟨2, _⟩ => show dw + 1 * j.val = j.val + dw; omega
  | ⟨3, _⟩ => show 0 + 1 * c.val = c.val; omega

/-- The first layer's boards are the specification's first layer of the block's boards. -/
theorem y1_apply (n : Fin 8) (i j : Fin 8) (o : Fin 32) :
    y1 arg1 harg1 arg2 harg2 arg3 harg3 x0 x1 x2 (ix4 n i j o)
      = Cert.Spec.conv (fun i j c => x0 (ix4 n i j c)) (fun k c o => x1 (ix3 k c o)) (fun o => x2 (ix2 (0 : Fin 1) o)) i j o := by
  unfold y1
  refine (layer1_boards (rw1 arg2 harg2 x1) (rb1 arg3 harg3 x2) (ra arg1 harg1 x0 0 0 inb_S8x10x10x128_S8x8x8x128_0_0_0_0) (ra arg1 harg1 x0 0 1 inb_S8x10x10x128_S8x8x8x128_0_0_1_0) (ra arg1 harg1 x0 0 2 inb_S8x10x10x128_S8x8x8x128_0_0_2_0) (ra arg1 harg1 x0 1 0 inb_S8x10x10x128_S8x8x8x128_0_1_0_0) (ra arg1 harg1 x0 1 1 inb_S8x10x10x128_S8x8x8x128_0_1_1_0) (ra arg1 harg1 x0 1 2 inb_S8x10x10x128_S8x8x8x128_0_1_2_0) (ra arg1 harg1 x0 2 0 inb_S8x10x10x128_S8x8x8x128_0_2_0_0) (ra arg1 harg1 x0 2 1 inb_S8x10x10x128_S8x8x8x128_0_2_1_0) (ra arg1 harg1 x0 2 2 inb_S8x10x10x128_S8x8x8x128_0_2_2_0) (fun i j c => x0 (ix4 n i j c)) n i j o
    (fun c => ra_apply arg1 harg1 x0 0 0 inb_S8x10x10x128_S8x8x8x128_0_0_0_0 n i j c (by omega) (by omega))
    (fun c => ra_apply arg1 harg1 x0 0 1 inb_S8x10x10x128_S8x8x8x128_0_0_1_0 n i j c (by omega) (by omega))
    (fun c => ra_apply arg1 harg1 x0 0 2 inb_S8x10x10x128_S8x8x8x128_0_0_2_0 n i j c (by omega) (by omega))
    (fun c => ra_apply arg1 harg1 x0 1 0 inb_S8x10x10x128_S8x8x8x128_0_1_0_0 n i j c (by omega) (by omega))
    (fun c => ra_apply arg1 harg1 x0 1 1 inb_S8x10x10x128_S8x8x8x128_0_1_1_0 n i j c (by omega) (by omega))
    (fun c => ra_apply arg1 harg1 x0 1 2 inb_S8x10x10x128_S8x8x8x128_0_1_2_0 n i j c (by omega) (by omega))
    (fun c => ra_apply arg1 harg1 x0 2 0 inb_S8x10x10x128_S8x8x8x128_0_2_0_0 n i j c (by omega) (by omega))
    (fun c => ra_apply arg1 harg1 x0 2 1 inb_S8x10x10x128_S8x8x8x128_0_2_1_0 n i j c (by omega) (by omega))
    (fun c => ra_apply arg1 harg1 x0 2 2 inb_S8x10x10x128_S8x8x8x128_0_2_2_0 n i j c (by omega) (by omega))).trans ?_
  rw [rw1_eq, rb1_eq]

theorem pay4_zero (x : S8x10x10x32.Idx) : k0_pay4 (F := Ideal) x = 0 := by
  unfold k0_pay4
  rw [shapeCast_self]
  exact Ideal.ofBits_zero_f32

theorem pay9_zero (x : S8x10x10x64.Idx) : k0_pay9 (F := Ideal) x = 0 := by
  unfold k0_pay9
  rw [shapeCast_self]
  exact Ideal.ofBits_zero_f32

/-- An entry of a window of the first padded copy is the padded first-layer board's entry at the shifted cell. -/
theorem rs_apply (dh dw : ℕ) (inb) (n : Fin 8) (i j : Fin 8) (c : Fin 32) (hdh : dh ≤ 2) (hdw : dw ≤ 2) :
    rs arg1 harg1 arg2 harg2 arg3 harg3 x0 x1 x2 arg11 dh dw inb (ix4 n i j c)
      = Cert.Spec.pad (fun i j c => y1 arg1 harg1 arg2 harg2 arg3 harg3 x0 x1 x2 (ix4 n i j c)) (⟨i.val + dh, by omega⟩ : Fin 10) (⟨j.val + dw, by omega⟩ : Fin 10) c := by
  unfold rs
  refine (Cert.ConvStage.window_apply (Val := Elt Ideal) (nb := 8) (C := 32) (e := .f32) arg11.view (L1 arg1 harg1 arg2 harg2 arg3 harg3 x0 x1 x2) (Cert.ConvStage.copy_cover (Val := Elt Ideal) (nb := 8) (C := 32) (e := .f32) inb_S8x10x10x32_S8x10x10x32_0_0_0_0 _ _) dh dw inb n i j c
    (⟨i.val + dh, by omega⟩ : Fin 10) (⟨j.val + dw, by omega⟩ : Fin 10) rfl rfl).trans ?_
  unfold L1
  refine (Cert.ConvStage.interior_apply (Val := Elt Ideal) (nb := 8) (C := 32) (e := .f32) inb_S8x10x10x32_S8x8x8x32_0_1_1_0 inb_S8x10x10x32_S8x10x10x32_0_0_0_0 (y1 arg1 harg1 arg2 harg2 arg3 harg3 x0 x1 x2) (k0_pay4 (F := Ideal)) 0 pay4_zero n _ _ c).trans ?_
  rfl

/-- The second layer's boards are the specification's second layer of the padded first-layer boards. -/
theorem y2_apply (n : Fin 8) (i j : Fin 8) (o : Fin 64) :
    y2 arg1 harg1 arg2 harg2 arg3 harg3 arg4 harg4 arg5 harg5 x0 x1 x2 x3 x4 arg11 (ix4 n i j o)
      = Cert.Spec.conv (Cert.Spec.pad (fun i j c => y1 arg1 harg1 arg2 harg2 arg3 harg3 x0 x1 x2 (ix4 n i j c))) (fun k c o => x3 (ix3 k c o)) (fun o => x4 (ix2 (0 : Fin 1) o)) i j o := by
  unfold y2
  refine (layer2_boards (rw2 arg4 harg4 x3) (rb2 arg5 harg5 x4) (rs arg1 harg1 arg2 harg2 arg3 harg3 x0 x1 x2 arg11 0 0 inb_S8x10x10x32_S8x8x8x32_0_0_0_0) (rs arg1 harg1 arg2 harg2 arg3 harg3 x0 x1 x2 arg11 0 1 inb_S8x10x10x32_S8x8x8x32_0_0_1_0) (rs arg1 harg1 arg2 harg2 arg3 harg3 x0 x1 x2 arg11 0 2 inb_S8x10x10x32_S8x8x8x32_0_0_2_0) (rs arg1 harg1 arg2 harg2 arg3 harg3 x0 x1 x2 arg11 1 0 inb_S8x10x10x32_S8x8x8x32_0_1_0_0) (rs arg1 harg1 arg2 harg2 arg3 harg3 x0 x1 x2 arg11 1 1 inb_S8x10x10x32_S8x8x8x32_0_1_1_0) (rs arg1 harg1 arg2 harg2 arg3 harg3 x0 x1 x2 arg11 1 2 inb_S8x10x10x32_S8x8x8x32_0_1_2_0) (rs arg1 harg1 arg2 harg2 arg3 harg3 x0 x1 x2 arg11 2 0 inb_S8x10x10x32_S8x8x8x32_0_2_0_0) (rs arg1 harg1 arg2 harg2 arg3 harg3 x0 x1 x2 arg11 2 1 inb_S8x10x10x32_S8x8x8x32_0_2_1_0) (rs arg1 harg1 arg2 harg2 arg3 harg3 x0 x1 x2 arg11 2 2 inb_S8x10x10x32_S8x8x8x32_0_2_2_0) (Cert.Spec.pad (fun i j c => y1 arg1 harg1 arg2 harg2 arg3 harg3 x0 x1 x2 (ix4 n i j c))) n i j o
    (fun c => rs_apply arg1 harg1 arg2 harg2 arg3 harg3 x0 x1 x2 arg11 0 0 inb_S8x10x10x32_S8x8x8x32_0_0_0_0 n i j c (by omega) (by omega))
    (fun c => rs_apply arg1 harg1 arg2 harg2 arg3 harg3 x0 x1 x2 arg11 0 1 inb_S8x10x10x32_S8x8x8x32_0_0_1_0 n i j c (by omega) (by omega))
    (fun c => rs_apply arg1 harg1 arg2 harg2 arg3 harg3 x0 x1 x2 arg11 0 2 inb_S8x10x10x32_S8x8x8x32_0_0_2_0 n i j c (by omega) (by omega))
    (fun c => rs_apply arg1 harg1 arg2 harg2 arg3 harg3 x0 x1 x2 arg11 1 0 inb_S8x10x10x32_S8x8x8x32_0_1_0_0 n i j c (by omega) (by omega))
    (fun c => rs_apply arg1 harg1 arg2 harg2 arg3 harg3 x0 x1 x2 arg11 1 1 inb_S8x10x10x32_S8x8x8x32_0_1_1_0 n i j c (by omega) (by omega))
    (fun c => rs_apply arg1 harg1 arg2 harg2 arg3 harg3 x0 x1 x2 arg11 1 2 inb_S8x10x10x32_S8x8x8x32_0_1_2_0 n i j c (by omega) (by omega))
    (fun c => rs_apply arg1 harg1 arg2 harg2 arg3 harg3 x0 x1 x2 arg11 2 0 inb_S8x10x10x32_S8x8x8x32_0_2_0_0 n i j c (by omega) (by omega))
    (fun c => rs_apply arg1 harg1 arg2 harg2 arg3 harg3 x0 x1 x2 arg11 2 1 inb_S8x10x10x32_S8x8x8x32_0_2_1_0 n i j c (by omega) (by omega))
    (fun c => rs_apply arg1 harg1 arg2 harg2 arg3 harg3 x0 x1 x2 arg11 2 2 inb_S8x10x10x32_S8x8x8x32_0_2_2_0 n i j c (by omega) (by omega))).trans ?_
  rw [rw2_eq, rb2_eq]

/-- An entry of a window of the second padded copy is the padded second-layer board's entry at the shifted cell. -/
theorem ru_apply (dh dw : ℕ) (inb) (n : Fin 8) (i j : Fin 8) (c : Fin 64) (hdh : dh ≤ 2) (hdw : dw ≤ 2) :
    ru arg1 harg1 arg2 harg2 arg3 harg3 arg4 harg4 arg5 harg5 x0 x1 x2 x3 x4 arg11 arg12 dh dw inb (ix4 n i j c)
      = Cert.Spec.pad (fun i j c => y2 arg1 harg1 arg2 harg2 arg3 harg3 arg4 harg4 arg5 harg5 x0 x1 x2 x3 x4 arg11 (ix4 n i j c)) (⟨i.val + dh, by omega⟩ : Fin 10) (⟨j.val + dw, by omega⟩ : Fin 10) c := by
  unfold ru
  refine (Cert.ConvStage.window_apply (Val := Elt Ideal) (nb := 8) (C := 64) (e := .f32) arg12.view (L2 arg1 harg1 arg2 harg2 arg3 harg3 arg4 harg4 arg5 harg5 x0 x1 x2 x3 x4 arg11) (Cert.ConvStage.copy_cover (Val := Elt Ideal) (nb := 8) (C := 64) (e := .f32) inb_S8x10x10x64_S8x10x10x64_0_0_0_0 _ _) dh dw inb n i j c
    (⟨i.val + dh, by omega⟩ : Fin 10) (⟨j.val + dw, by omega⟩ : Fin 10) rfl rfl).trans ?_
  unfold L2
  refine (Cert.ConvStage.interior_apply (Val := Elt Ideal) (nb := 8) (C := 64) (e := .f32) inb_S8x10x10x64_S8x8x8x64_0_1_1_0 inb_S8x10x10x64_S8x10x10x64_0_0_0_0 (y2 arg1 harg1 arg2 harg2 arg3 harg3 arg4 harg4 arg5 harg5 x0 x1 x2 x3 x4 arg11) (k0_pay9 (F := Ideal)) 0 pay9_zero n _ _ c).trans ?_
  rfl

/-- The stored value at row `64 n + p`: the head channels of cell `p` of the block's board `n`. -/
theorem blk_apply (n : Fin 8) (p : Fin 64) (ch : Fin 128) :
    blk arg1 harg1 arg2 harg2 arg3 harg3 arg4 harg4 arg5 harg5 arg6 harg6 arg7 harg7 arg8 harg8 arg9 harg9 x0 x1 x2 x3 x4 x5 x6 x7 x8 arg11 arg12 (ix2 (⟨n.val * 64 + p.val, by omega⟩ : Fin 512) ch) = blockHeads x0 x1 x2 x3 x4 x5 x6 x7 x8 n p ch := by
  have er : (⟨n.val * 64 + p.val, by omega⟩ : Fin 512)
      = ⟨n.val * 64 + (⟨p.val / 8, by omega⟩ : Fin 8).val * 8 + (⟨p.val % 8, by omega⟩ : Fin 8).val, by show n.val * 64 + p.val / 8 * 8 + p.val % 8 < 512; omega⟩ :=
    Fin.ext (by show n.val * 64 + p.val = n.val * 64 + p.val / 8 * 8 + p.val % 8; omega)
  rw [er]
  unfold blk
  refine (heads_cell (rw3 arg6 harg6 x5) (rb3 arg7 harg7 x6) (rhw arg8 harg8 x7) (rhb arg9 harg9 x8) (ru arg1 harg1 arg2 harg2 arg3 harg3 arg4 harg4 arg5 harg5 x0 x1 x2 x3 x4 arg11 arg12 0 0 inb_S8x10x10x64_S8x8x8x64_0_0_0_0) (ru arg1 harg1 arg2 harg2 arg3 harg3 arg4 harg4 arg5 harg5 x0 x1 x2 x3 x4 arg11 arg12 0 1 inb_S8x10x10x64_S8x8x8x64_0_0_1_0) (ru arg1 harg1 arg2 harg2 arg3 harg3 arg4 harg4 arg5 harg5 x0 x1 x2 x3 x4 arg11 arg12 0 2 inb_S8x10x10x64_S8x8x8x64_0_0_2_0) (ru arg1 harg1 arg2 harg2 arg3 harg3 arg4 harg4 arg5 harg5 x0 x1 x2 x3 x4 arg11 arg12 1 0 inb_S8x10x10x64_S8x8x8x64_0_1_0_0) (ru arg1 harg1 arg2 harg2 arg3 harg3 arg4 harg4 arg5 harg5 x0 x1 x2 x3 x4 arg11 arg12 1 1 inb_S8x10x10x64_S8x8x8x64_0_1_1_0) (ru arg1 harg1 arg2 harg2 arg3 harg3 arg4 harg4 arg5 harg5 x0 x1 x2 x3 x4 arg11 arg12 1 2 inb_S8x10x10x64_S8x8x8x64_0_1_2_0) (ru arg1 harg1 arg2 harg2 arg3 harg3 arg4 harg4 arg5 harg5 x0 x1 x2 x3 x4 arg11 arg12 2 0 inb_S8x10x10x64_S8x8x8x64_0_2_0_0) (ru arg1 harg1 arg2 harg2 arg3 harg3 arg4 harg4 arg5 harg5 x0 x1 x2 x3 x4 arg11 arg12 2 1 inb_S8x10x10x64_S8x8x8x64_0_2_1_0) (ru arg1 harg1 arg2 harg2 arg3 harg3 arg4 harg4 arg5 harg5 x0 x1 x2 x3 x4 arg11 arg12 2 2 inb_S8x10x10x64_S8x8x8x64_0_2_2_0)
    (Cert.Spec.pad (fun i j c => y2 arg1 harg1 arg2 harg2 arg3 harg3 arg4 harg4 arg5 harg5 x0 x1 x2 x3 x4 arg11 (ix4 n i j c))) n ⟨p.val / 8, by omega⟩ ⟨p.val % 8, by omega⟩ ch
    (fun c => ru_apply arg1 harg1 arg2 harg2 arg3 harg3 arg4 harg4 arg5 harg5 x0 x1 x2 x3 x4 arg11 arg12 0 0 inb_S8x10x10x64_S8x8x8x64_0_0_0_0 n ⟨p.val / 8, by omega⟩ ⟨p.val % 8, by omega⟩ c (by omega) (by omega))
    (fun c => ru_apply arg1 harg1 arg2 harg2 arg3 harg3 arg4 harg4 arg5 harg5 x0 x1 x2 x3 x4 arg11 arg12 0 1 inb_S8x10x10x64_S8x8x8x64_0_0_1_0 n ⟨p.val / 8, by omega⟩ ⟨p.val % 8, by omega⟩ c (by omega) (by omega))
    (fun c => ru_apply arg1 harg1 arg2 harg2 arg3 harg3 arg4 harg4 arg5 harg5 x0 x1 x2 x3 x4 arg11 arg12 0 2 inb_S8x10x10x64_S8x8x8x64_0_0_2_0 n ⟨p.val / 8, by omega⟩ ⟨p.val % 8, by omega⟩ c (by omega) (by omega))
    (fun c => ru_apply arg1 harg1 arg2 harg2 arg3 harg3 arg4 harg4 arg5 harg5 x0 x1 x2 x3 x4 arg11 arg12 1 0 inb_S8x10x10x64_S8x8x8x64_0_1_0_0 n ⟨p.val / 8, by omega⟩ ⟨p.val % 8, by omega⟩ c (by omega) (by omega))
    (fun c => ru_apply arg1 harg1 arg2 harg2 arg3 harg3 arg4 harg4 arg5 harg5 x0 x1 x2 x3 x4 arg11 arg12 1 1 inb_S8x10x10x64_S8x8x8x64_0_1_1_0 n ⟨p.val / 8, by omega⟩ ⟨p.val % 8, by omega⟩ c (by omega) (by omega))
    (fun c => ru_apply arg1 harg1 arg2 harg2 arg3 harg3 arg4 harg4 arg5 harg5 x0 x1 x2 x3 x4 arg11 arg12 1 2 inb_S8x10x10x64_S8x8x8x64_0_1_2_0 n ⟨p.val / 8, by omega⟩ ⟨p.val % 8, by omega⟩ c (by omega) (by omega))
    (fun c => ru_apply arg1 harg1 arg2 harg2 arg3 harg3 arg4 harg4 arg5 harg5 x0 x1 x2 x3 x4 arg11 arg12 2 0 inb_S8x10x10x64_S8x8x8x64_0_2_0_0 n ⟨p.val / 8, by omega⟩ ⟨p.val % 8, by omega⟩ c (by omega) (by omega))
    (fun c => ru_apply arg1 harg1 arg2 harg2 arg3 harg3 arg4 harg4 arg5 harg5 x0 x1 x2 x3 x4 arg11 arg12 2 1 inb_S8x10x10x64_S8x8x8x64_0_2_1_0 n ⟨p.val / 8, by omega⟩ ⟨p.val % 8, by omega⟩ c (by omega) (by omega))
    (fun c => ru_apply arg1 harg1 arg2 harg2 arg3 harg3 arg4 harg4 arg5 harg5 x0 x1 x2 x3 x4 arg11 arg12 2 2 inb_S8x10x10x64_S8x8x8x64_0_2_2_0 n ⟨p.val / 8, by omega⟩ ⟨p.val % 8, by omega⟩ c (by omega) (by omega))).trans ?_
  rw [rw3_eq, rb3_eq, rhw_eq, rhb_eq]
  have e1 : (fun i j c => y1 arg1 harg1 arg2 harg2 arg3 harg3 x0 x1 x2 (ix4 n i j c))
      = Cert.Spec.conv (fun i j c => x0 (ix4 n i j c)) (fun k c o => x1 (ix3 k c o)) (fun o => x2 (ix2 (0 : Fin 1) o)) :=
    funext fun i => funext fun j => funext fun c => y1_apply arg1 harg1 arg2 harg2 arg3 harg3 x0 x1 x2 n i j c
  have e2 : (fun i j c => y2 arg1 harg1 arg2 harg2 arg3 harg3 arg4 harg4 arg5 harg5 x0 x1 x2 x3 x4 arg11 (ix4 n i j c))
      = Cert.Spec.conv (Cert.Spec.pad (Cert.Spec.conv (fun i j c => x0 (ix4 n i j c)) (fun k c o => x1 (ix3 k c o)) (fun o => x2 (ix2 (0 : Fin 1) o))))
          (fun k c o => x3 (ix3 k c o)) (fun o => x4 (ix2 (0 : Fin 1) o)) := by
    rw [← e1]
    exact funext fun i => funext fun j => funext fun c => y2_apply arg1 harg1 arg2 harg2 arg3 harg3 arg4 harg4 arg5 harg5 x0 x1 x2 x3 x4 arg11 n i j c
  rw [e2]
  rfl

end Values

/-- What the body leaves in its result block, row by row. -/
theorem bodyValue : BodyValue := by
  intro c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 nl p ch
  rw [out0_A_9_eq]
  exact blk_apply arg1 harg1 arg2 harg2 arg3 harg3 arg4 harg4 arg5 harg5 arg6 harg6 arg7 harg7 arg8 harg8 arg9 harg9 x0 x1 x2 x3 x4 x5 x6 x7 x8 arg11 arg12 nl p ch

end Cert.ReferenceIdeal.RefValue

end
-- ==== Proof.RefInput.lean ====
/-
  The first region's input, read at an index: the launched input moved to sample, row, column, channel order and given
  a border of zeros one cell wide is, board by board, the padded board of the specification.
-/
import Idealize.ShloMosaic.Lib.ValueIdx
import Idealize.ShloMosaic.Lib.Pipeline.Value
import Idealize.ShloMosaic.Lib.KernelVsHost
import Idealize.ShloMosaic.PureOps.Ideal
import proofs.«124053_g2000309348811089_pallasbulk_1112_2_alg».proof.Proof.Spec

set_option maxRecDepth 16384

noncomputable section

namespace Cert.ReferenceIdeal.RefValue

open Idealize.ShloMosaic Idealize.ShloMosaic.ValueIdx

/-- The padding value: the integer zero read as a float is zero. -/
theorem pad_value_zero (i : (⟨0, ![]⟩ : Shape).Idx) :
    sitofp (F := Ideal) .f32 (constantI ⟨0, ![]⟩ 32 0#32) i = 0 := by
  show (((0#32 : BitVec 32).toInt : ℝ) : EReal) = 0
  simp

/-- Board `N` of the transposed input with its border, at `(i, j, c)`: the padded board of the specification. -/
theorem xp_apply (X : (⟨4, ![768, 128, 8, 8]⟩ : Shape).Idx → EReal)
    (ht : (⟨4, ![768, 128, 8, 8]⟩ : Shape).Transposes [0, 2, 3, 1] ⟨4, ![768, 8, 8, 128]⟩)
    (hp : (⟨4, ![768, 8, 8, 128]⟩ : Shape).Pads ![0, 1, 1, 0] ![0, 1, 1, 0] ![0, 0, 0, 0] ⟨4, ![768, 10, 10, 128]⟩)
    (hu : 0 < (⟨0, ![]⟩ : Shape).numel) (N : Fin 768) (i j : Fin 10) (c : Fin 128) :
    pad ⟨4, ![768, 10, 10, 128]⟩ ![0, 1, 1, 0] ![0, 1, 1, 0] ![0, 0, 0, 0]
        (transpose ⟨4, ![768, 8, 8, 128]⟩ [0, 2, 3, 1] X ht) (sitofp (F := Ideal) .f32 (constantI ⟨0, ![]⟩ 32 0#32)) hp hu (ix4 N i j c)
      = Cert.Spec.pad (Cert.Spec.board X N) i j c := by
  unfold Cert.Spec.pad
  by_cases h : (1 ≤ i.val ∧ i.val ≤ 8) ∧ (1 ≤ j.val ∧ j.val ≤ 8)
  · rw [dif_pos h]
    refine (pad_apply_of_inside (s := ⟨4, ![768, 8, 8, 128]⟩) (t := ⟨4, ![768, 10, 10, 128]⟩) ![0, 1, 1, 0] ![0, 1, 1, 0] ![0, 0, 0, 0] (transpose ⟨4, ![768, 8, 8, 128]⟩ [0, 2, 3, 1] X ht) (sitofp (F := Ideal) .f32 (constantI ⟨0, ![]⟩ 32 0#32)) hp hu (ix4 N i j c)
      (ix4 N (⟨i.val - 1, by omega⟩ : Fin 8) (⟨j.val - 1, by omega⟩ : Fin 8) c : (⟨4, ![768, 8, 8, 128]⟩ : Shape).Idx) (fun a => by
        match a with
        | ⟨0, _⟩ => show N.val = 0 + N.val * (0 + 1); omega
        | ⟨1, _⟩ => show i.val = 1 + (i.val - 1) * (0 + 1); omega
        | ⟨2, _⟩ => show j.val = 1 + (j.val - 1) * (0 + 1); omega
        | ⟨3, _⟩ => show c.val = 0 + c.val * (0 + 1); omega)).trans ?_
    unfold Cert.Spec.board
    exact transpose_apply [0, 2, 3, 1] X ht _ (ix4 N c (⟨i.val - 1, by omega⟩ : Fin 8) (⟨j.val - 1, by omega⟩ : Fin 8)) (fun b => by
      match b with
      | ⟨0, _⟩ => rfl
      | ⟨1, _⟩ => rfl
      | ⟨2, _⟩ => rfl
      | ⟨3, _⟩ => rfl)
  · rw [dif_neg h]
    by_cases hi : 1 ≤ i.val ∧ i.val ≤ 8
    · refine (pad_apply_of_not_inside (s := ⟨4, ![768, 8, 8, 128]⟩) (t := ⟨4, ![768, 10, 10, 128]⟩) ![0, 1, 1, 0] ![0, 1, 1, 0] ![0, 0, 0, 0] (transpose ⟨4, ![768, 8, 8, 128]⟩ [0, 2, 3, 1] X ht) (sitofp (F := Ideal) .f32 (constantI ⟨0, ![]⟩ 32 0#32)) hp hu (ix4 N i j c) (⟨2, by decide⟩ : Fin 4) (by
        show ¬(1 ≤ j.val ∧ (j.val - 1) % (0 + 1) = 0 ∧ (j.val - 1) / (0 + 1) < 8)
        intro hc; exact h ⟨hi, by omega⟩)).trans (pad_value_zero _)
    · refine (pad_apply_of_not_inside (s := ⟨4, ![768, 8, 8, 128]⟩) (t := ⟨4, ![768, 10, 10, 128]⟩) ![0, 1, 1, 0] ![0, 1, 1, 0] ![0, 0, 0, 0] (transpose ⟨4, ![768, 8, 8, 128]⟩ [0, 2, 3, 1] X ht) (sitofp (F := Ideal) .f32 (constantI ⟨0, ![]⟩ 32 0#32)) hp hu (ix4 N i j c) (⟨1, by decide⟩ : Fin 4) (by
        show ¬(1 ≤ i.val ∧ (i.val - 1) % (0 + 1) = 0 ∧ (i.val - 1) / (0 + 1) < 8)
        intro hc; exact hi (by omega))).trans (pad_value_zero _)

end Cert.ReferenceIdeal.RefValue

end
-- ==== Proof.RefValue.lean ====
/-
  The reference program's two results as the specification's two arrays.

  The fold of buffer contents through the program is read backwards from the results: the second region's results
  are the log-softmax rows and the value head of its two inputs; those inputs are the first region's array cut to
  columns 0 … 3 and to columns 4, 5 and regrouped by rows of 64 cells; the first region's array holds, in row
  `64 N + p`, the head channels of cell `p` of board `N` of the padded input; and the padded input's board `N` is the
  specification's padded board.  With the run of the program this gives the run with both results named.
-/
import proofs.«124053_g2000309348811089_pallasbulk_1112_2_alg».proof.Proof.RefRun
import proofs.«124053_g2000309348811089_pallasbulk_1112_2_alg».proof.Proof.RefTail
import proofs.«124053_g2000309348811089_pallasbulk_1112_2_alg».proof.Proof.RefGlue
import proofs.«124053_g2000309348811089_pallasbulk_1112_2_alg».proof.Proof.RefHead
import proofs.«124053_g2000309348811089_pallasbulk_1112_2_alg».proof.Proof.RefBody
import proofs.«124053_g2000309348811089_pallasbulk_1112_2_alg».proof.Proof.RefInput

set_option maxRecDepth 16384

noncomputable section

namespace Cert.ReferenceIdeal.RefValue

open Cert.ReferenceIdeal Cert.ReferenceIdeal.Gen
open Idealize.ShloMosaic Idealize.ShloMosaic.ValueIdx
open Idealize.ShloMosaic.TcCoe

variable (m : (ℓ : Loc nD τ sig) → Buf (Elt Ideal) ℓ) (ρ : Dev nD → PrngReg)

/-- Row `64 N + p` of the first region's array after the region: the head channels of cell `p` of board `N`. -/
theorem heads_main_v2 (c : Dev nD) (N : Fin 768) (p : Fin 64) (ch : Fin 128) :
    W3 m ρ c (Proc.devRef .tc main_v2) (ix2 (⟨N.val * 64 + p.val, by omega⟩ : Fin 49152) ch)
      = Cert.Spec.headsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) N p ch := by
  refine (congrFun ((W3_arr m ρ c 9).trans (final0_9 (V2 m ρ) bodyValue c)) _).trans ?_
  show _ = layersHeads (Cert.Spec.pad (Cert.Spec.board (m ((c.tc : Thread nD τ).loc main_arg0)) N)) (m ((c.tc : Thread nD τ).loc main_arg1)) (m ((c.tc : Thread nD τ).loc main_arg4)) (m ((c.tc : Thread nD τ).loc main_arg2)) (m ((c.tc : Thread nD τ).loc main_arg5)) (m ((c.tc : Thread nD τ).loc main_arg3)) (m ((c.tc : Thread nD τ).loc main_arg6)) (m ((c.tc : Thread nD τ).loc main_arg7)) (m ((c.tc : Thread nD τ).loc main_arg8)) p ch
  unfold headsArr
  refine layersHeads_congr (funext fun i => funext fun j => funext fun k => ?_) (W2_main_arg1 m ρ c) (W2_main_arg4 m ρ c)
    (W2_main_arg2 m ρ c) (W2_main_arg5 m ρ c) (W2_main_arg3 m ρ c) (W2_main_arg6 m ρ c) (W2_main_arg7 m ρ c) (W2_main_arg8 m ρ c) (Fin.ext ?_)
  · refine (congrFun (W2_main_v1 m ρ c) _).trans ?_
    refine (xp_apply (m ((c.tc : Thread nD τ).loc main_arg0)) transposes_S768x128x8x8_S768x8x8x128_0_2_3_1 pads_S768x8x8x128_S768x10x10x128_000_110_110_000 h_S_ _ i j k).trans ?_
    refine congrArg (fun n : Fin 768 => Cert.Spec.pad (Cert.Spec.board (m ((c.tc : Thread nD τ).loc main_arg0)) n) i j k) (Fin.ext ?_)
    show (N.val * 64 + p.val) / 64 = N.val
    omega
  · show (N.val * 64 + p.val) % 64 = p.val
    omega

/-- The first result at the end of the program is the specification's first array. -/
theorem probs_main_v7_0 (c : Dev nD) :
    W5 m ρ c (Proc.devRef .tc main_v7_0) = Cert.Spec.probs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine ((W5_arr m ρ c 8).trans (final1_8 (V4 m ρ) c)).trans ?_
  funext idx
  obtain ⟨n, j, rfl⟩ : ∃ (n : Fin 768) (j : Fin 64), idx = ix2 n j := ⟨idx 0, idx 1, eq_ix2 idx⟩
  refine (pay1_apply _ _ _ n j).trans ?_
  unfold Cert.Spec.probs Cert.Spec.logits
  refine congrArg (fun l : Fin 64 → EReal => Cert.Spec.logSoftmax l j) (funext fun k => ?_)
  refine congrArg₂ (· + ·) (Finset.sum_congr rfl fun q _ => congrArg₂ (· * ·) ?_ ?_) ?_
  · refine (congrFun (W4_main_v4 m ρ c) _).trans ((pflat_apply _ _ _ n q).trans ?_)
    exact heads_main_v2 m ρ c n ⟨q.val / 4, by omega⟩ ⟨q.val % 4, by omega⟩
  · exact congrFun (W4_main_arg9 m ρ c) _
  · exact congrFun (W4_main_arg10 m ρ c) _

/-- The second result at the end of the program is the specification's second array. -/
theorem values_main_v7_1 (c : Dev nD) :
    W5 m ρ c (Proc.devRef .tc main_v7_1) = Cert.Spec.values (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14)) := by
  refine ((W5_arr m ρ c 9).trans (final1_9 (V4 m ρ) c)).trans ?_
  funext idx
  obtain ⟨n, u, rfl⟩ : ∃ (n : Fin 768) (u : Fin 1), idx = ix2 n u := ⟨idx 0, idx 1, eq_ix2 idx⟩
  obtain rfl : u = 0 := Subsingleton.elim _ _
  refine (pay2_apply _ _ _ _ _ n).trans ?_
  unfold Cert.Spec.values Cert.Spec.hidden
  refine congr (congr (congrArg Cert.Spec.value (funext fun j => ?_)) (funext fun j => ?_)) ?_
  · refine congrArg (fun s : EReal => max s 0) (congrArg₂ (· + ·) (Finset.sum_congr rfl fun q _ => congrArg₂ (· * ·) ?_ ?_) ?_)
    · refine (congrFun (W4_main_v6 m ρ c) _).trans ((vflat_apply _ _ _ n q).trans ?_)
      exact heads_main_v2 m ρ c n ⟨q.val / 2, by omega⟩ ⟨4 + q.val % 2, by omega⟩
    · exact congrFun (W4_main_arg11 m ρ c) _
    · exact congrFun (W4_main_arg12 m ρ c) _
  · exact congrFun (W4_main_arg13 m ρ c) _
  · exact congrFun (W4_main_arg14 m ρ c) _

/-- THE RUN: from any memory with zero counters every weakly fair execution of the reference program terminates
    without fault, and every final state has the two results at the specification's two arrays of the launched
    arguments, the arguments as launched. -/
theorem run : θ_run (defs (F := Ideal)) (onTc (τ := τ) (main (F := Ideal))) ⟨m, fun _ => 0, ρ⟩ (fun r => ∀ c : Dev nD,
      r.2.mem ((c.tc : Thread nD τ).loc main_v7_0) = Cert.Spec.probs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v7_1) = Cert.Spec.values (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (probs_main_v7_0 m ρ c), (h c).2.1.trans (values_main_v7_1 m ρ c), (h c).2.2⟩)
    (run_W5 m ρ)

end Cert.ReferenceIdeal.RefValue

end
-- ==== Proof.lean ====
/-
  The certificate of a fused policy/value network kernel against its two-kernel reference, over the extended reals.

  Both programs take 768 boards (8 x 8 cells, 128 channels, stored channel-major) through three 3 x 3 layers with a
  zero border (128 -> 32 -> 64 -> 128 channels; each: nine window sums added in order to zero, a bias, a clamp at zero),
  a pointwise layer to 128 head channels, and two heads: the log-softmax of 64 logits (a 256 x 64 product of the first
  four head channels of the 64 cells, plus a bias) and the hyperbolic tangent of a 64 -> 1 product of a clamped 128 x 64
  product of head channels 4 and 5.  `Proof/Spec.lean` states this once.

  The kernel handles 32 boards per grid point, pads in three scratch copies, keeps its intermediate boards in 16-bit
  floats (a change of format is the identity on the extended reals), and computes both second-stage products as ONE
  product of all 8192 head channels of a board with an 8192 x 128 matrix that its host code builds by writing the two
  matrices into a zero array.  The reference pads the input on the host, handles 8 boards per point in a first kernel,
  slices the head channels on the host and computes the two heads in a second kernel.

  * frames: the kernel's body is run once on symbolic memrefs (`Proof/BodyBits.lean`, `Proof/BodyIdeal.lean`) and
    launched by the library's pipeline theorem (`Proof/FrameBits.lean`, `Proof/FrameIdeal.lean`); the reference's frame is
    the generated one.
  * the kernel's results: the stores the run found are terms over the input blocks (`KTerm`, `KEq`), read entry by
    entry as the specification on each board (`ConvStage`, `KPad`, `KLayer1-3`, `RowTail`, `KTail`, `KValue`); the host code's
    arrays are read in `KHost`; the blocks cover the arrays and the 8192-term sums regroup into the specification's
    256- and 128-term sums because a product with zero is zero (`Algebra`, `KFinal`).
  * the reference's results: `Proof/Ref*.lean`, ending in `RefValue.run`.
  * both runs end at the specification's two arrays of the same arguments: `algebraic`.  No finiteness of the inputs is
    used: only regrouping of sums and `x * 0 = 0`.
-/
import proofs.«124053_g2000309348811089_pallasbulk_1112_2_alg».proof.Defs
import proofs.«124053_g2000309348811089_pallasbulk_1112_2_alg».proof.Proof.Gen.Kernel
import proofs.«124053_g2000309348811089_pallasbulk_1112_2_alg».proof.Proof.Gen.KernelIdeal
import proofs.«124053_g2000309348811089_pallasbulk_1112_2_alg».proof.Proof.Gen.ReferenceIdeal
import proofs.«124053_g2000309348811089_pallasbulk_1112_2_alg».proof.Proof.Gen.ReferenceIdeal.Frame
import proofs.«124053_g2000309348811089_pallasbulk_1112_2_alg».proof.Proof.Gen.Pre_finite_inputs
import proofs.«124053_g2000309348811089_pallasbulk_1112_2_alg».proof.Proof.FrameBits
import proofs.«124053_g2000309348811089_pallasbulk_1112_2_alg».proof.Proof.KFinal
import proofs.«124053_g2000309348811089_pallasbulk_1112_2_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame_of m ρ (Cert.Kernel.Body.dats m) (Cert.Kernel.Body.A_eq m) (Cert.Kernel.Body.run_main (F := Bits) m ρ)

theorem frame_ki : Cert.frame_KernelIdeal (hKernelIdeal := Cert.KernelIdeal.Gen.facts) (hPre_finite_inputs := Cert.Pre_finite_inputs.Gen.facts) :=
  fun m ρ _ => Cert.KernelIdeal.Gen.frame_of m ρ (Cert.KernelIdeal.Body.dats m) (Cert.KernelIdeal.Body.A_eq m) (Cert.KernelIdeal.Body.run_main (F := Ideal) m ρ)

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both programs, from memories agreeing on the arguments, end with the specification's two arrays of those
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KFinal.GP m c, fun c => Cert.KernelIdeal.KFinal.GV m c, Cert.KernelIdeal.KFinal.run m ρ, ?_⟩
  refine (θ_run Cert.ReferenceIdeal.defs _ _).mono (fun r h c => ?_) (Cert.ReferenceIdeal.RefValue.run m' ρ')
  obtain ⟨h0, h1, hrest⟩ := h c
  refine ⟨h0.trans ?_, h1.trans ?_, hrest⟩
  · unfold Cert.KernelIdeal.KFinal.GP
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
  · unfold Cert.KernelIdeal.KFinal.GV
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
